-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v105)) (v1 : (c : Dev Cert.KernelIdeal.nD) → Buf (Elt Ideal) ((c.tc : Thread Cert.KernelIdeal.nD Cert.KernelIdeal.τ).loc Cert.KernelIdeal.main_v107)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v105) = v0 c
          ∧ r.2.mem ((c.tc : Thread Cert.KernelIdeal.nD Cert.KernelIdeal.τ).loc Cert.KernelIdeal.main_v107) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v285) = v0 c
          ∧ r.2.mem ((c.tc : Thread Cert.ReferenceIdeal.nD Cert.ReferenceIdeal.τ).loc Cert.ReferenceIdeal.main_v287) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S4x2x64x64 : Shape := ⟨4, ![4, 2, 64, 64]⟩
abbrev S4x1x64x64 : Shape := ⟨4, ![4, 1, 64, 64]⟩
abbrev S4x3x64x64 : Shape := ⟨4, ![4, 3, 64, 64]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S4x2x64x64 : S_.BroadcastsInDim S4x2x64x64 (![] : Fin 0 → Fin S4x2x64x64.rank)
  reducesTo_S4x2x64x64_S_d0_1_2_3 : S4x2x64x64.ReducesTo [0, 1, 2, 3] S_
  bcast_S_S4x1x64x64 : S_.BroadcastsInDim S4x1x64x64 (![] : Fin 0 → Fin S4x1x64x64.rank)
  reducesTo_S4x1x64x64_S_d0_1_2_3 : S4x1x64x64.ReducesTo [0, 1, 2, 3] S_
  bcast_S_S4x3x64x64 : S_.BroadcastsInDim S4x3x64x64 (![] : Fin 0 → Fin S4x3x64x64.rank)
  reducesTo_S4x3x64x64_S_d0_1_2_3 : S4x3x64x64.ReducesTo [0, 1, 2, 3] S_

variable [Facts]

def fn_part1 {F : FTy → Type} [FloatOps F] (main_v13 : IVec S_ 1) (main_v16 : IVec S4x3x64x64 1) : IVec S_ 1 :=
  let main_c_5 : IVec S_ 1 := constantI S_ 1 1#1
  let main_v17 : IVec S_ 1 := (fun x v => Host.reduce IntOp.andi x v reducesTo_S4x3x64x64_S_d0_1_2_3 h_S_) main_v16 main_c_5
  let main_v18 : IVec S_ 1 := andi main_v13 main_v17
  main_v18

def fn {F : FTy → Type} [FloatOps F] (main_arg0 : FVec F S4x4096x4096 .f32) (main_arg1 : FVec F S4x2x64x64 .f32) (main_arg2 : FVec F S4x1x64x64 .f32) (main_arg3 : FVec F S4x3x64x64 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S4x2x64x64 .f32 := Host.absf main_arg1
  let main_cst_0 : FVec F S_ .f32 := constant S_ .f32 0x7F800000#32
  let main_v5 : FVec F S4x2x64x64 .f32 := broadcastInDim S4x2x64x64 ![] bcast_S_S4x2x64x64 main_cst_0
  let main_v6 : IVec S4x2x64x64 1 := cmpf .olt main_v4 main_v5
  let main_c_1 : IVec S_ 1 := constantI S_ 1 1#1
  let main_v7 : IVec S_ 1 := (fun x v => Host.reduce IntOp.andi x v reducesTo_S4x2x64x64_S_d0_1_2_3 h_S_) main_v6 main_c_1
  let main_v8 : IVec S_ 1 := andi main_v3 main_v7
  let main_v9 : FVec F S4x1x64x64 .f32 := Host.absf main_arg2
  let main_cst_2 : FVec F S_ .f32 := constant S_ .f32 0x7F800000#32
  let main_v10 : FVec F S4x1x64x64 .f32 := broadcastInDim S4x1x64x64 ![] bcast_S_S4x1x64x64 main_cst_2
  let main_v11 : IVec S4x1x64x64 1 := cmpf .olt main_v9 main_v10
  let main_c_3 : IVec S_ 1 := constantI S_ 1 1#1
  let main_v12 : IVec S_ 1 := (fun x v => Host.reduce IntOp.andi x v reducesTo_S4x1x64x64_S_d0_1_2_3 h_S_) main_v11 main_c_3
  let main_v13 : IVec S_ 1 := andi main_v8 main_v12
  let main_v14 : FVec F S4x3x64x64 .f32 := Host.absf main_arg3
  let main_cst_4 : FVec F S_ .f32 := constant S_ .f32 0x7F800000#32
  let main_v15 : FVec F S4x3x64x64 .f32 := broadcastInDim S4x3x64x64 ![] bcast_S_S4x3x64x64 main_cst_4
  let main_v16 : IVec S4x3x64x64 1 := cmpf .olt main_v14 main_v15
  fn_part1 (F := F) main_v13 main_v16
-- ==== Kernel.lean ====
abbrev S4x4096x4096 : Shape := ⟨3, ![4, 4096, 4096]⟩
abbrev S4x2x64x64 : Shape := ⟨4, ![4, 2, 64, 64]⟩
abbrev S4x1x64x64 : Shape := ⟨4, ![4, 1, 64, 64]⟩
abbrev S4x3x64x64 : Shape := ⟨4, ![4, 3, 64, 64]⟩
abbrev S4x64x64 : Shape := ⟨3, ![4, 64, 64]⟩
abbrev S_ : Shape := ⟨0, ![]⟩
abbrev S4x4096 : Shape := ⟨2, ![4, 4096]⟩
abbrev S4x4096x1 : Shape := ⟨3, ![4, 4096, 1]⟩
abbrev S4x4096x4 : Shape := ⟨3, ![4, 4096, 4]⟩
abbrev S4x3x4096 : Shape := ⟨3, ![4, 3, 4096]⟩
abbrev S4x4096x3 : Shape := ⟨3, ![4, 4096, 3]⟩
abbrev S4x4096x4x1 : Shape := ⟨4, ![4, 4096, 4, 1]⟩
abbrev S4x4096x4x3 : Shape := ⟨4, ![4, 4096, 4, 3]⟩
abbrev S4x16384x3 : Shape := ⟨3, ![4, 16384, 3]⟩
abbrev S4x16384x3x1 : Shape := ⟨4, ![4, 16384, 3, 1]⟩
abbrev S1 : Shape := ⟨1, ![1]⟩
abbrev S1x1x1x1 : Shape := ⟨4, ![1, 1, 1, 1]⟩
abbrev S1x256x4096 : Shape := ⟨3, ![1, 256, 4096]⟩
abbrev S1x256x4 : Shape := ⟨3, ![1, 256, 4]⟩
abbrev S1x256x4x3 : Shape := ⟨4, ![1, 256, 4, 3]⟩
abbrev S1x256x3 : Shape := ⟨3, ![1, 256, 3]⟩
abbrev S256x4096 : Shape := ⟨2, ![256, 4096]⟩
abbrev S256x4 : Shape := ⟨2, ![256, 4]⟩
abbrev S256x4x3 : Shape := ⟨3, ![256, 4, 3]⟩
abbrev S256x3 : Shape := ⟨2, ![256, 3]⟩
abbrev S256x1 : Shape := ⟨2, ![256, 1]⟩
abbrev S256 : Shape := ⟨1, ![256]⟩
abbrev S256x1x3 : Shape := ⟨3, ![256, 1, 3]⟩

abbrev nBuf : Space → Nat
  | .hbm => 212
  | .vmem => 12
  | .smem => 0
  | _ => 0

abbrev hbmTy0_0 (i : Nat) : BufTy := match i % 128 with
  | 0 => ⟨S4x4096x4096, .f32⟩
  | 1 => ⟨S4x2x64x64, .f32⟩
  | 2 => ⟨S4x1x64x64, .f32⟩
  | 3 => ⟨S4x3x64x64, .f32⟩
  | 4 => ⟨S4x1x64x64, .f32⟩
  | 5 => ⟨S4x64x64, .f32⟩
  | 6 => ⟨S_, .f32⟩
  | 7 => ⟨S4x64x64, .f32⟩
  | 8 => ⟨S4x64x64, .f32⟩
  | 9 => ⟨S_, .f32⟩
  | 10 => ⟨S4x64x64, .f32⟩
  | 11 => ⟨S4x64x64, .f32⟩
  | 12 => ⟨S_, .f32⟩
  | 13 => ⟨S4x64x64, .f32⟩
  | 14 => ⟨S4x64x64, .f32⟩
  | 15 => ⟨S4x1x64x64, .f32⟩
  | 16 => ⟨S4x64x64, .f32⟩
  | 17 => ⟨S_, .f32⟩
  | 18 => ⟨S4x64x64, .f32⟩
  | 19 => ⟨S4x64x64, .f32⟩
  | 20 => ⟨S_, .f32⟩
  | 21 => ⟨S4x64x64, .f32⟩
  | 22 => ⟨S4x64x64, .f32⟩
  | 23 => ⟨S_, .f32⟩
  | 24 => ⟨S4x64x64, .f32⟩
  | 25 => ⟨S4x64x64, .f32⟩
  | 26 => ⟨S4x64x64, .f32⟩
  | 27 => ⟨S4x64x64, .f32⟩
  | 28 => ⟨S_, .f32⟩
  | 29 => ⟨S4x64x64, .f32⟩
  | 30 => ⟨S4x64x64, .f32⟩
  | 31 => ⟨S_, .i32⟩
  | 32 => ⟨S_, .i32⟩
  | 33 => ⟨S_, .f32⟩
  | 34 => ⟨S4x64x64, .f32⟩
  | 35 => ⟨S4x64x64, .f32⟩
  | 36 => ⟨S_, .f32⟩
  | 37 => ⟨S4x64x64, .f32⟩
  | 38 => ⟨S4x64x64, .f32⟩
  | 39 => ⟨S_, .f32⟩
  | 40 => ⟨S4x64x64, .f32⟩
  | 41 => ⟨S4x64x64, .f32⟩
  | 42 => ⟨S_, .i32⟩
  | 43 => ⟨S_, .i32⟩
  | 44 => ⟨S_, .f32⟩
  | 45 => ⟨S4x64x64, .f32⟩
  | 46 => ⟨S4x64x64, .f32⟩
  | 47 => ⟨S_, .f32⟩
  | 48 => ⟨S4x64x64, .f32⟩
  | 49 => ⟨S4x64x64, .f32⟩
  | 50 => ⟨S_, .f32⟩
  | 51 => ⟨S4x64x64, .f32⟩
  | 52 => ⟨S4x64x64, .f32⟩
  | 53 => ⟨S4x64x64, .f32⟩
  | 54 => ⟨S4x64x64, .i32⟩
  | 55 => ⟨S4x4096, .i32⟩
  | 56 => ⟨S_, .f32⟩
  | 57 => ⟨S4x64x64, .f32⟩
  | 58 => ⟨S4x64x64, .f32⟩
  | 59 => ⟨S_, .i32⟩
  | 60 => ⟨S_, .i32⟩
  | 61 => ⟨S_, .f32⟩
  | 62 => ⟨S4x64x64, .f32⟩
  | 63 => ⟨S4x64x64, .f32⟩
  | 64 => ⟨S_, .f32⟩
  | 65 => ⟨S4x64x64, .f32⟩
  | 66 => ⟨S4x64x64, .f32⟩
  | 67 => ⟨S_, .f32⟩
  | 68 => ⟨S4x64x64, .f32⟩
  | 69 => ⟨S4x64x64, .f32⟩
  | 70 => ⟨S_, .i32⟩
  | 71 => ⟨S_, .i32⟩
  | 72 => ⟨S_, .f32⟩
  | 73 => ⟨S4x64x64, .f32⟩
  | 74 => ⟨S4x64x64, .f32⟩
  | 75 => ⟨S_, .f32⟩
  | 76 => ⟨S4x64x64, .f32⟩
  | 77 => ⟨S4x64x64, .f32⟩
  | 78 => ⟨S_, .f32⟩
  | 79 => ⟨S4x64x64, .f32⟩
  | 80 => ⟨S4x64x64, .f32⟩
  | 81 => ⟨S4x64x64, .f32⟩
  | 82 => ⟨S4x64x64, .i32⟩
  | 83 => ⟨S4x4096, .i32⟩
  | 84 => ⟨S_, .f32⟩
  | 85 => ⟨S4x64x64, .f32⟩
  | 86 => ⟨S4x64x64, .f32⟩
  | 87 => ⟨S_, .i32⟩
  | 88 => ⟨S_, .i32⟩
  | 89 => ⟨S_, .f32⟩
  | 90 => ⟨S4x64x64, .f32⟩
  | 91 => ⟨S4x64x64, .f32⟩
  | 92 => ⟨S_, .f32⟩
  | 93 => ⟨S4x64x64, .f32⟩
  | 94 => ⟨S4x64x64, .f32⟩
  | 95 => ⟨S_, .f32⟩
  | 96 => ⟨S4x64x64, .f32⟩
  | 97 => ⟨S4x64x64, .f32⟩
  | 98 => ⟨S_, .i32⟩
  | 99 => ⟨S_, .i32⟩
  | 100 => ⟨S_, .f32⟩
  | 101 => ⟨S4x64x64, .f32⟩
  | 102 => ⟨S4x64x64, .f32⟩
  | 103 => ⟨S_, .f32⟩
  | 104 => ⟨S4x64x64, .f32⟩
  | 105 => ⟨S4x64x64, .f32⟩
  | 106 => ⟨S_, .f32⟩
  | 107 => ⟨S4x64x64, .f32⟩
  | 108 => ⟨S4x64x64, .f32⟩
  | 109 => ⟨S4x64x64, .f32⟩
  | 110 => ⟨S4x64x64, .i32⟩
  | 111 => ⟨S4x4096, .i32⟩
  | 112 => ⟨S_, .f32⟩
  | 113 => ⟨S4x64x64, .f32⟩
  | 114 => ⟨S4x64x64, .f32⟩
  | 115 => ⟨S_, .i32⟩
  | 116 => ⟨S_, .i32⟩
  | 117 => ⟨S_, .f32⟩
  | 118 => ⟨S4x64x64, .f32⟩
  | 119 => ⟨S4x64x64, .f32⟩
  | 120 => ⟨S_, .f32⟩
  | 121 => ⟨S4x64x64, .f32⟩
  | 122 => ⟨S4x64x64, .f32⟩
  | 123 => ⟨S_, .f32⟩
  | 124 => ⟨S4x64x64, .f32⟩
  | 125 => ⟨S4x64x64, .f32⟩
  | 126 => ⟨S_, .i32⟩
  | 127 => ⟨S_, .i32⟩
  | _ => ⟨S4x4096x4096, .f32⟩

abbrev hbmTy0_1 (i : Nat) : BufTy := match i % 128 with
  | 0 => ⟨S_, .f32⟩
  | 1 => ⟨S4x64x64, .f32⟩
  | 2 => ⟨S4x64x64, .f32⟩
  | 3 => ⟨S_, .f32⟩
  | 4 => ⟨S4x64x64, .f32⟩
  | 5 => ⟨S4x64x64, .f32⟩
  | 6 => ⟨S_, .f32⟩
  | 7 => ⟨S4x64x64, .f32⟩
  | 8 => ⟨S4x64x64, .f32⟩
  | 9 => ⟨S4x64x64, .f32⟩
  | 10 => ⟨S4x64x64, .i32⟩
  | 11 => ⟨S4x4096, .i32⟩
  | 12 => ⟨S_, .f32⟩
  | 13 => ⟨S4x64x64, .f32⟩
  | 14 => ⟨S4x64x64, .f32⟩
  | 15 => ⟨S4x64x64, .f32⟩
  | 16 => ⟨S_, .f32⟩
  | 17 => ⟨S4x64x64, .f32⟩
  | 18 => ⟨S4x64x64, .f32⟩
  | 19 => ⟨S4x64x64, .f32⟩
  | 20 => ⟨S4x64x64, .f32⟩
  | 21 => ⟨S4x4096, .f32⟩
  | 22 => ⟨S_, .f32⟩
  | 23 => ⟨S4x64x64, .f32⟩
  | 24 => ⟨S4x64x64, .f32⟩
  | 25 => ⟨S4x64x64, .f32⟩
  | 26 => ⟨S4x64x64, .f32⟩
  | 27 => ⟨S4x64x64, .f32⟩
  | 28 => ⟨S4x4096, .f32⟩
  | 29 => ⟨S4x64x64, .f32⟩
  | 30 => ⟨S_, .f32⟩
  | 31 => ⟨S4x64x64, .f32⟩
  | 32 => ⟨S4x64x64, .f32⟩
  | 33 => ⟨S4x64x64, .f32⟩
  | 34 => ⟨S4x64x64, .f32⟩
  | 35 => ⟨S4x4096, .f32⟩
  | 36 => ⟨S4x64x64, .f32⟩
  | 37 => ⟨S4x64x64, .f32⟩
  | 38 => ⟨S4x64x64, .f32⟩
  | 39 => ⟨S4x4096, .f32⟩
  | 40 => ⟨S4x4096x1, .i32⟩
  | 41 => ⟨S4x4096x1, .i32⟩
  | 42 => ⟨S4x4096x1, .i32⟩
  | 43 => ⟨S4x4096x1, .i32⟩
  | 44 => ⟨S4x4096x4, .i32⟩
  | 45 => ⟨S4x4096x1, .f32⟩
  | 46 => ⟨S4x4096x1, .f32⟩
  | 47 => ⟨S4x4096x1, .f32⟩
  | 48 => ⟨S4x4096x1, .f32⟩
  | 49 => ⟨S4x4096x4, .f32⟩
  | 50 => ⟨S4x3x4096, .f32⟩
  | 51 => ⟨S4x4096x3, .f32⟩
  | 52 => ⟨S4x4096x4x1, .i32⟩
  | 53 => ⟨S4x4096x4x3, .i32⟩
  | 54 => ⟨S4x16384x3, .i32⟩
  | 55 => ⟨S_, .i32⟩
  | 56 => ⟨S4x16384x3, .i32⟩
  | 57 => ⟨S4x16384x3, .i1⟩
  | 58 => ⟨S_, .i32⟩
  | 59 => ⟨S4x16384x3, .i32⟩
  | 60 => ⟨S4x16384x3, .i32⟩
  | 61 => ⟨S4x16384x3, .i32⟩
  | 62 => ⟨S4x16384x3x1, .i32⟩
  | 63 => ⟨S1, .i32⟩
  | 64 => ⟨S_, .i32⟩
  | 65 => ⟨S4x16384x3x1, .i32⟩
  | 66 => ⟨S4x16384x3x1, .i1⟩
  | 67 => ⟨S1x1x1x1, .i32⟩
  | 68 => ⟨S4x16384x3x1, .i32⟩
  | 69 => ⟨S4x16384x3x1, .i1⟩
  | 70 => ⟨S4x16384x3x1, .i1⟩
  | 71 => ⟨S_, .i1⟩
  | 72 => ⟨S4x16384x3, .i1⟩
  | 73 => ⟨S4x16384x3, .f32⟩
  | 74 => ⟨S_, .f32⟩
  | 75 => ⟨S4x16384x3, .f32⟩
  | 76 => ⟨S4x16384x3, .f32⟩
  | 77 => ⟨S4x4096x4x3, .f32⟩
  | 78 => ⟨S4x4096x3, .f32⟩
  | 79 => ⟨S4x4096x3, .f32⟩
  | 80 => ⟨S4x3x4096, .f32⟩
  | 81 => ⟨S4x3x64x64, .f32⟩
  | 82 => ⟨S4x3x4096, .f32⟩
  | 83 => ⟨S4x3x64x64, .f32⟩
  | _ => ⟨S4x4096x4096, .f32⟩

abbrev hbmTy (i : Nat) : BufTy := match i / 128 with
  | 0 => hbmTy0_0 i
  | 1 => hbmTy0_1 i
  | _ => ⟨S4x4096x4096, .f32⟩

abbrev bufTy : (tb : Table) → Fin (tcTables nBuf tb) → BufTy
  | .hbm, ⟨i, _⟩ => hbmTy i
  | .local _ .vmem, ⟨0, _⟩ => ⟨S1x256x4096, .f32⟩
  | .local _ .vmem, ⟨1, _⟩ => ⟨S1x256x4096, .f32⟩
  | .local _ .vmem, ⟨2, _⟩ => ⟨S1x256x4, .i32⟩
  | .local _ .vmem, ⟨3, _⟩ => ⟨S1x256x4, .i32⟩
  | .local _ .vmem, ⟨4, _⟩ => ⟨S1x256x4x3, .f32⟩
  | .local _ .vmem, ⟨5, _⟩ => ⟨S1x256x4x3, .f32⟩
  | .local _ .vmem, ⟨6, _⟩ => ⟨S1x256x4, .f32⟩
  | .local _ .vmem, ⟨7, _⟩ => ⟨S1x256x4, .f32⟩
  | .local _ .vmem, ⟨8, _⟩ => ⟨S1x256x3, .f32⟩
  | .local _ .vmem, ⟨9, _⟩ => ⟨S1x256x3, .f32⟩
  | .local _ .vmem, ⟨10, _⟩ => ⟨S1x256x3, .f32⟩
  | .local _ .vmem, ⟨11, _⟩ => ⟨S1x256x3, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_c : Ref sig .tc := ⟨.hbm, 31, rfl⟩
abbrev main_c_6 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_v20 : Ref sig .tc := ⟨.hbm, 38, rfl⟩
abbrev main_cst_7 : Ref sig .tc := ⟨.hbm, 39, rfl⟩
abbrev main_v21 : Ref sig .tc := ⟨.hbm, 40, rfl⟩
abbrev main_v22 : Ref sig .tc := ⟨.hbm, 41, rfl⟩
abbrev main_c_8 : Ref sig .tc := ⟨.hbm, 42, rfl⟩
abbrev main_c_9 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_v23 : Ref sig .tc := ⟨.hbm, 49, rfl⟩
abbrev main_cst_10 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_11 : Ref sig .tc := ⟨.hbm, 56, rfl⟩
abbrev main_v29 : Ref sig .tc := ⟨.hbm, 57, rfl⟩
abbrev main_v30 : Ref sig .tc := ⟨.hbm, 58, rfl⟩
abbrev main_c_12 : Ref sig .tc := ⟨.hbm, 59, rfl⟩
abbrev main_c_13 : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_v31 : Ref sig .tc := ⟨.hbm, 66, rfl⟩
abbrev main_cst_14 : Ref sig .tc := ⟨.hbm, 67, rfl⟩
abbrev main_v32 : Ref sig .tc := ⟨.hbm, 68, rfl⟩
abbrev main_v33 : Ref sig .tc := ⟨.hbm, 69, rfl⟩
abbrev main_c_15 : Ref sig .tc := ⟨.hbm, 70, rfl⟩
abbrev main_c_16 : Ref sig .tc := ⟨.hbm, 71, rfl⟩
abbrev main_call3_v0 : Ref sig .tc := ⟨.hbm, 72, rfl⟩
abbrev main_call3_v1 : Ref sig .tc := ⟨.hbm, 73, rfl⟩
abbrev main_call3_v2 : Ref sig .tc := ⟨.hbm, 74, rfl⟩
abbrev main_call3_v3 : Ref sig .tc := ⟨.hbm, 75, rfl⟩
abbrev main_call3_v4 : Ref sig .tc := ⟨.hbm, 76, rfl⟩
abbrev main_v34 : Ref sig .tc := ⟨.hbm, 77, rfl⟩
abbrev main_cst_17 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_cst_18 : Ref sig .tc := ⟨.hbm, 84, rfl⟩
abbrev main_v40 : Ref sig .tc := ⟨.hbm, 85, rfl⟩
abbrev main_v41 : Ref sig .tc := ⟨.hbm, 86, rfl⟩
abbrev main_c_19 : Ref sig .tc := ⟨.hbm, 87, rfl⟩
abbrev main_c_20 : Ref sig .tc := ⟨.hbm, 88, rfl⟩
abbrev main_call4_v0 : Ref sig .tc := ⟨.hbm, 89, rfl⟩
abbrev main_call4_v1 : Ref sig .tc := ⟨.hbm, 90, rfl⟩
abbrev main_call4_v2 : Ref sig .tc := ⟨.hbm, 91, rfl⟩
abbrev main_call4_v3 : Ref sig .tc := ⟨.hbm, 92, rfl⟩
abbrev main_call4_v4 : Ref sig .tc := ⟨.hbm, 93, rfl⟩
abbrev main_v42 : Ref sig .tc := ⟨.hbm, 94, rfl⟩
abbrev main_cst_21 : Ref sig .tc := ⟨.hbm, 95, rfl⟩
abbrev main_v43 : Ref sig .tc := ⟨.hbm, 96, rfl⟩
abbrev main_v44 : Ref sig .tc := ⟨.hbm, 97, rfl⟩
abbrev main_c_22 : Ref sig .tc := ⟨.hbm, 98, rfl⟩
abbrev main_c_23 : Ref sig .tc := ⟨.hbm, 99, rfl⟩
abbrev main_call5_v0 : Ref sig .tc := ⟨.hbm, 100, rfl⟩
abbrev main_call5_v1 : Ref sig .tc := ⟨.hbm, 101, rfl⟩
abbrev main_call5_v2 : Ref sig .tc := ⟨.hbm, 102, rfl⟩
abbrev main_call5_v3 : Ref sig .tc := ⟨.hbm, 103, rfl⟩
abbrev main_call5_v4 : Ref sig .tc := ⟨.hbm, 104, rfl⟩
abbrev main_v45 : Ref sig .tc := ⟨.hbm, 105, rfl⟩
abbrev main_cst_24 : Ref sig .tc := ⟨.hbm, 106, rfl⟩
abbrev main_v46 : Ref sig .tc := ⟨.hbm, 107, rfl⟩
abbrev main_v47 : Ref sig .tc := ⟨.hbm, 108, rfl⟩
abbrev main_v48 : Ref sig .tc := ⟨.hbm, 109, rfl⟩
abbrev main_v49 : Ref sig .tc := ⟨.hbm, 110, rfl⟩
abbrev main_v50 : Ref sig .tc := ⟨.hbm, 111, rfl⟩
abbrev main_cst_25 : Ref sig .tc := ⟨.hbm, 112, rfl⟩
abbrev main_v51 : Ref sig .tc := ⟨.hbm, 113, rfl⟩
abbrev main_v52 : Ref sig .tc := ⟨.hbm, 114, rfl⟩
abbrev main_c_26 : Ref sig .tc := ⟨.hbm, 115, rfl⟩
abbrev main_c_27 : Ref sig .tc := ⟨.hbm, 116, rfl⟩
abbrev main_call6_v0 : Ref sig .tc := ⟨.hbm, 117, rfl⟩
abbrev main_call6_v1 : Ref sig .tc := ⟨.hbm, 118, rfl⟩
abbrev main_call6_v2 : Ref sig .tc := ⟨.hbm, 119, rfl⟩
abbrev main_call6_v3 : Ref sig .tc := ⟨.hbm, 120, rfl⟩
abbrev main_call6_v4 : Ref sig .tc := ⟨.hbm, 121, rfl⟩
abbrev main_v53 : Ref sig .tc := ⟨.hbm, 122, rfl⟩
abbrev main_cst_28 : Ref sig .tc := ⟨.hbm, 123, rfl⟩
abbrev main_v54 : Ref sig .tc := ⟨.hbm, 124, rfl⟩
abbrev main_v55 : Ref sig .tc := ⟨.hbm, 125, rfl⟩
abbrev main_c_29 : Ref sig .tc := ⟨.hbm, 126, rfl⟩
abbrev main_c_30 : Ref sig .tc := ⟨.hbm, 127, rfl⟩
abbrev main_call7_v0 : Ref sig .tc := ⟨.hbm, 128, rfl⟩
abbrev main_call7_v1 : Ref sig .tc := ⟨.hbm, 129, rfl⟩
abbrev main_call7_v2 : Ref sig .tc := ⟨.hbm, 130, rfl⟩
abbrev main_call7_v3 : Ref sig .tc := ⟨.hbm, 131, rfl⟩
abbrev main_call7_v4 : Ref sig .tc := ⟨.hbm, 132, rfl⟩
abbrev main_v56 : Ref sig .tc := ⟨.hbm, 133, rfl⟩
abbrev main_cst_31 : Ref sig .tc := ⟨.hbm, 134, rfl⟩
abbrev main_v57 : Ref sig .tc := ⟨.hbm, 135, rfl⟩
abbrev main_v58 : Ref sig .tc := ⟨.hbm, 136, rfl⟩
abbrev main_v59 : Ref sig .tc := ⟨.hbm, 137, rfl⟩
abbrev main_v60 : Ref sig .tc := ⟨.hbm, 138, rfl⟩
abbrev main_v61 : Ref sig .tc := ⟨.hbm, 139, rfl⟩
abbrev main_cst_32 : Ref sig .tc := ⟨.hbm, 140, rfl⟩
abbrev main_v62 : Ref sig .tc := ⟨.hbm, 141, rfl⟩
abbrev main_v63 : Ref sig .tc := ⟨.hbm, 142, rfl⟩
abbrev main_v64 : Ref sig .tc := ⟨.hbm, 143, rfl⟩
abbrev main_cst_33 : Ref sig .tc := ⟨.hbm, 144, rfl⟩
abbrev main_v65 : Ref sig .tc := ⟨.hbm, 145, rfl⟩
abbrev main_v66 : Ref sig .tc := ⟨.hbm, 146, rfl⟩
abbrev main_v67 : Ref sig .tc := ⟨.hbm, 147, rfl⟩
abbrev main_v68 : Ref sig .tc := ⟨.hbm, 148, rfl⟩
abbrev main_v69 : Ref sig .tc := ⟨.hbm, 149, rfl⟩
abbrev main_cst_34 : Ref sig .tc := ⟨.hbm, 150, rfl⟩
abbrev main_v70 : Ref sig .tc := ⟨.hbm, 151, rfl⟩
abbrev main_v71 : Ref sig .tc := ⟨.hbm, 152, rfl⟩
abbrev main_v72 : Ref sig .tc := ⟨.hbm, 153, rfl⟩
abbrev main_v73 : Ref sig .tc := ⟨.hbm, 154, rfl⟩
abbrev main_v74 : Ref sig .tc := ⟨.hbm, 155, rfl⟩
abbrev main_v75 : Ref sig .tc := ⟨.hbm, 156, rfl⟩
abbrev main_v76 : Ref sig .tc := ⟨.hbm, 157, rfl⟩
abbrev main_cst_35 : Ref sig .tc := ⟨.hbm, 158, rfl⟩
abbrev main_v77 : Ref sig .tc := ⟨.hbm, 159, rfl⟩
abbrev main_v78 : Ref sig .tc := ⟨.hbm, 160, rfl⟩
abbrev main_v79 : Ref sig .tc := ⟨.hbm, 161, rfl⟩
abbrev main_v80 : Ref sig .tc := ⟨.hbm, 162, rfl⟩
abbrev main_v81 : Ref sig .tc := ⟨.hbm, 163, rfl⟩
abbrev main_v82 : Ref sig .tc := ⟨.hbm, 164, rfl⟩
abbrev main_v83 : Ref sig .tc := ⟨.hbm, 165, rfl⟩
abbrev main_v84 : Ref sig .tc := ⟨.hbm, 166, rfl⟩
abbrev main_v85 : Ref sig .tc := ⟨.hbm, 167, rfl⟩
abbrev main_v86 : Ref sig .tc := ⟨.hbm, 168, rfl⟩
abbrev main_v87 : Ref sig .tc := ⟨.hbm, 169, rfl⟩
abbrev main_v88 : Ref sig .tc := ⟨.hbm, 170, rfl⟩
abbrev main_v89 : Ref sig .tc := ⟨.hbm, 171, rfl⟩
abbrev main_v90 : Ref sig .tc := ⟨.hbm, 172, rfl⟩
abbrev main_v91 : Ref sig .tc := ⟨.hbm, 173, rfl⟩
abbrev main_v92 : Ref sig .tc := ⟨.hbm, 174, rfl⟩
abbrev main_v93 : Ref sig .tc := ⟨.hbm, 175, rfl⟩
abbrev main_v94 : Ref sig .tc := ⟨.hbm, 176, rfl⟩
abbrev main_v95 : Ref sig .tc := ⟨.hbm, 177, rfl⟩
abbrev main_v96 : Ref sig .tc := ⟨.hbm, 178, rfl⟩
abbrev main_v97 : Ref sig .tc := ⟨.hbm, 179, rfl⟩
abbrev main_v98 : Ref sig .tc := ⟨.hbm, 180, rfl⟩
abbrev main_v99 : Ref sig .tc := ⟨.hbm, 181, rfl⟩
abbrev main_v100 : Ref sig .tc := ⟨.hbm, 182, rfl⟩
abbrev main_call8_c : Ref sig .tc := ⟨.hbm, 183, rfl⟩
abbrev main_call8_v0 : Ref sig .tc := ⟨.hbm, 184, rfl⟩
abbrev main_call8_v1 : Ref sig .tc := ⟨.hbm, 185, rfl⟩
abbrev main_call8_c_0 : Ref sig .tc := ⟨.hbm, 186, rfl⟩
abbrev main_call8_v2 : Ref sig .tc := ⟨.hbm, 187, rfl⟩
abbrev main_call8_v3 : Ref sig .tc := ⟨.hbm, 188, rfl⟩
abbrev main_call8_v4 : Ref sig .tc := ⟨.hbm, 189, rfl⟩
abbrev main_call8_v5 : Ref sig .tc := ⟨.hbm, 190, rfl⟩
abbrev main_call8_c_1 : Ref sig .tc := ⟨.hbm, 191, rfl⟩
abbrev main_call8_c_2 : Ref sig .tc := ⟨.hbm, 192, rfl⟩
abbrev main_call8_v6 : Ref sig .tc := ⟨.hbm, 193, rfl⟩
abbrev main_call8_v7 : Ref sig .tc := ⟨.hbm, 194, rfl⟩
abbrev main_call8_v8 : Ref sig .tc := ⟨.hbm, 195, rfl⟩
abbrev main_call8_v9 : Ref sig .tc := ⟨.hbm, 196, rfl⟩
abbrev main_call8_v10 : Ref sig .tc := ⟨.hbm, 197, rfl⟩
abbrev main_call8_v11 : Ref sig .tc := ⟨.hbm, 198, rfl⟩
abbrev main_call8_c_3 : Ref sig .tc := ⟨.hbm, 199, rfl⟩
abbrev main_call8_v12 : Ref sig .tc := ⟨.hbm, 200, rfl⟩
abbrev main_call8_v13 : Ref sig .tc := ⟨.hbm, 201, rfl⟩
abbrev main_call8_cst : Ref sig .tc := ⟨.hbm, 202, rfl⟩
abbrev main_call8_v14 : Ref sig .tc := ⟨.hbm, 203, rfl⟩
abbrev main_v101 : Ref sig .tc := ⟨.hbm, 204, rfl⟩
abbrev main_v102 : Ref sig .tc := ⟨.hbm, 205, rfl⟩
abbrev main_v103_0 : Ref sig .tc := ⟨.hbm, 206, rfl⟩
abbrev main_v103_1 : Ref sig .tc := ⟨.hbm, 207, rfl⟩
abbrev main_v104 : Ref sig .tc := ⟨.hbm, 208, rfl⟩
abbrev main_v105 : Ref sig .tc := ⟨.hbm, 209, rfl⟩
abbrev main_v106 : Ref sig .tc := ⟨.hbm, 210, rfl⟩
abbrev main_v107 : Ref sig .tc := ⟨.hbm, 211, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x4 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x4x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x3 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x3 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  slices_S4x2x64x64_S4x1x64x64_0_0_0_0 : S4x2x64x64.Slices ![0, 0, 0, 0] S4x1x64x64
  shapeCasts_S4x1x64x64_S4x64x64 : S4x1x64x64.ShapeCasts S4x64x64
  bcast_S_S4x64x64 : S_.BroadcastsInDim S4x64x64 (![] : Fin 0 → Fin S4x64x64.rank)
  slices_S4x2x64x64_S4x1x64x64_0_1_0_0 : S4x2x64x64.Slices ![0, 1, 0, 0] S4x1x64x64
  shapeCasts_S4x64x64_S4x4096 : S4x64x64.ShapeCasts S4x4096
  bcast_S4x4096_S4x4096x1_0_1 : S4x4096.BroadcastsInDim S4x4096x1 (![0, 1] : Fin 2 → Fin S4x4096x1.rank)
  concatenates_S4x4096x1_S4x4096x1_S4x4096x1_S4x4096x1_S4x4096x4_d2 : Shape.Concatenates [S4x4096x1, S4x4096x1, S4x4096x1, S4x4096x1] S4x4096x4 2
  shapeCasts_S4x3x64x64_S4x3x4096 : S4x3x64x64.ShapeCasts S4x3x4096
  transposes_S4x3x4096_S4x4096x3_0_2_1 : S4x3x4096.Transposes [0, 2, 1] S4x4096x3
  bcast_S4x4096x4_S4x4096x4x1_0_1_2 : S4x4096x4.BroadcastsInDim S4x4096x4x1 (![0, 1, 2] : Fin 3 → Fin S4x4096x4x1.rank)
  bcast_S4x4096x4x1_S4x4096x4x3_0_1_2_3 : S4x4096x4x1.BroadcastsInDim S4x4096x4x3 (![0, 1, 2, 3] : Fin 4 → Fin S4x4096x4x3.rank)
  shapeCasts_S4x4096x4x3_S4x16384x3 : S4x4096x4x3.ShapeCasts S4x16384x3
  bcast_S_S4x16384x3 : S_.BroadcastsInDim S4x16384x3 (![] : Fin 0 → Fin S4x16384x3.rank)
  shapeCasts_S4x16384x3_S4x16384x3x1 : S4x16384x3.ShapeCasts S4x16384x3x1
  bcast_S_S4x16384x3x1 : S_.BroadcastsInDim S4x16384x3x1 (![] : Fin 0 → Fin S4x16384x3x1.rank)
  bcast_S1_S1x1x1x1_3 : S1.BroadcastsInDim S1x1x1x1 (![3] : Fin 1 → Fin S1x1x1x1.rank)
  bcast_S1x1x1x1_S4x16384x3x1_0_1_2_3 : S1x1x1x1.BroadcastsInDim S4x16384x3x1 (![0, 1, 2, 3] : Fin 4 → Fin S4x16384x3x1.rank)
  reducesTo_S4x16384x3x1_S4x16384x3_d3 : S4x16384x3x1.ReducesTo [3] S4x16384x3
  h_S_ : 0 < S_.numel
  shapeCasts_S4x16384x3_S4x4096x4x3 : S4x16384x3.ShapeCasts S4x4096x4x3
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  inb_S1x256x4_S1x256x4_0_0_0 : ∀ a, (![0, 0, 0] : Fin 3 → Nat) a + S1x256x4.size a ≤ S1x256x4.size a
  h_S1x256x4 : 0 < S1x256x4.numel
  shapeCasts_S1x256x4_S256x4 : S1x256x4.ShapeCasts S256x4
  inb_S1x256x4x3_S1x256x4x3_0_0_0_0 : ∀ a, (![0, 0, 0, 0] : Fin 4 → Nat) a + S1x256x4x3.size a ≤ S1x256x4x3.size a
  h_S1x256x4x3 : 0 < S1x256x4x3.numel
  shapeCasts_S1x256x4x3_S256x4x3 : S1x256x4x3.ShapeCasts S256x4x3
  iota_S256x4096_d1_w32 : S256x4096.Iotas .tc 32 [1]
  slices_S256x4_o0_0_S256x1 : S256x4.Slices ![0, 0] S256x1
  slices_S256x4_o0_1_S256x1 : S256x4.Slices ![0, 1] S256x1
  slices_S256x4_o0_2_S256x1 : S256x4.Slices ![0, 2] S256x1
  slices_S256x4_o0_3_S256x1 : S256x4.Slices ![0, 3] S256x1
  natLt_1_32 : 1 < 32
  broadcasts_S256x1_S256x4096 : S256x1.Broadcasts S256x4096
  reduces_S256x4096_S256 : S256x4096.Reduces [1] S256
  shapeCasts_S256_S256x1 : S256.ShapeCasts S256x1
  slices_S256x4x3_o0_0_0_S256x1x3 : S256x4x3.Slices ![0, 0, 0] S256x1x3
  shapeCasts_S256x1x3_S256x3 : S256x1x3.ShapeCasts S256x3
  broadcasts_S256x1_S256x3 : S256x1.Broadcasts S256x3
  slices_S256x4x3_o0_1_0_S256x1x3 : S256x4x3.Slices ![0, 1, 0] S256x1x3
  slices_S256x4x3_o0_2_0_S256x1x3 : S256x4x3.Slices ![0, 2, 0] S256x1x3
  slices_S256x4x3_o0_3_0_S256x1x3 : S256x4x3.Slices ![0, 3, 0] S256x1x3
  inb_S1x256x3_S1x256x3_0_0_0 : ∀ a, (![0, 0, 0] : Fin 3 → Nat) a + S1x256x3.size a ≤ S1x256x3.size a
  h_S1x256x3 : 0 < S1x256x3.numel
  shapeCasts_S1x256x3_S256x3 : S1x256x3.ShapeCasts S256x3
  shapeCasts_S256x3_S1x256x3 : S256x3.ShapeCasts S1x256x3
  transposes_S4x4096x3_S4x3x4096_0_2_1 : S4x4096x3.Transposes [0, 2, 1] S4x3x4096
  shapeCasts_S4x3x4096_S4x3x64x64 : S4x3x4096.ShapeCasts S4x3x64x64
  gather_S4x4096x3_S4x16384x3x1_S4x16384x3_n_1_02_02_1_3_111_wf : GatherDims.WF S4x4096x3 S4x16384x3x1 S4x16384x3 [] [1] [0, 2] [1] [0, 2] 3 ![1, 1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x4096.size a ≤ S4x4096x4096.size a
  hwx0_0 : ∀ i : grid0.Coords, EltTy.bits .f32 = 32 ∨ (Rect.block (s := S4x4096x4096) S1x256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x4.size a ≤ S4x4096x4.size a
  hwx0_1 : ∀ i : grid0.Coords, EltTy.bits .i32 = 32 ∨ (Rect.block (s := S4x4096x4) S1x256x4.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x4x3.size a ≤ S4x4096x4x3.size a
  hwx0_2 : ∀ i : grid0.Coords, EltTy.bits .f32 = 32 ∨ (Rect.block (s := S4x4096x4x3) S1x256x4x3.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x4.size a ≤ S4x4096x4.size a
  hwx0_3 : ∀ i : grid0.Coords, EltTy.bits .f32 = 32 ∨ (Rect.block (s := S4x4096x4) S1x256x4.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x3.size a ≤ S4x4096x3.size a
  hwx0_4 : ∀ i : grid0.Coords, EltTy.bits .f32 = 32 ∨ (Rect.block (s := S4x4096x3) S1x256x3.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x3.size a ≤ S4x4096x3.size a
  hwx0_5 : ∀ i : grid0.Coords, EltTy.bits .f32 = 32 ∨ (Rect.block (s := S4x4096x3) S1x256x3.size (cc0_transform_5 i) (hinb0_5 i)).WholeWords (EltTy.packing .f32)

variable [Facts₀]

def gather_S4x4096x3_S4x16384x3x1_S4x16384x3_n_1_02_02_1_3_111 : GatherDims S4x4096x3 S4x16384x3x1 S4x16384x3 where
  offsetDims := []
  collapsedSliceDims := [1]
  operandBatchingDims := [0, 2]
  startIndicesBatchingDims := [0, 2]
  startIndexMap := [1]
  indexVectorDim := 3
  sliceSizes := ![1, 1, 1]
  wf := gather_S4x4096x3_S4x16384x3x1_S4x16384x3_n_1_02_02_1_3_111_wf

abbrev win0_0 : Pipeline.Window sig grid0 :=
  Pipeline.Window.ofSpec (Memref.whole main_arg0) S1x256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v90) S1x256x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v102) S1x256x4x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v95) S1x256x4.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v103_0) S1x256x3.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v103_1) S1x256x3.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x4096x4096 : Shape := ⟨3, ![4, 4096, 4096]⟩
abbrev S4x2x64x64 : Shape := ⟨4, ![4, 2, 64, 64]⟩
abbrev S4x1x64x64 : Shape := ⟨4, ![4, 1, 64, 64]⟩
abbrev S4x3x64x64 : Shape := ⟨4, ![4, 3, 64, 64]⟩
abbrev S4x64x64 : Shape := ⟨3, ![4, 64, 64]⟩
abbrev S_ : Shape := ⟨0, ![]⟩
abbrev S4x4096 : Shape := ⟨2, ![4, 4096]⟩
abbrev S4 : Shape := ⟨1, ![4]⟩
abbrev S4x1 : Shape := ⟨2, ![4, 1]⟩
abbrev S4096 : Shape := ⟨1, ![4096]⟩
abbrev S1x4096 : Shape := ⟨2, ![1, 4096]⟩
abbrev S4x1x4096 : Shape := ⟨3, ![4, 1, 4096]⟩
abbrev S4x1x4096x1 : Shape := ⟨4, ![4, 1, 4096, 1]⟩
abbrev S1 : Shape := ⟨1, ![1]⟩
abbrev S1x1x1x1 : Shape := ⟨4, ![1, 1, 1, 1]⟩
abbrev S4x4096x1 : Shape := ⟨3, ![4, 4096, 1]⟩
abbrev S4x4096x3 : Shape := ⟨3, ![4, 4096, 3]⟩
abbrev S4x3x4096 : Shape := ⟨3, ![4, 3, 4096]⟩

abbrev nBuf : Space → Nat
  | .hbm => 504
  | .vmem => 0
  | .smem => 0
  | _ => 0

abbrev hbmTy0_0 (i : Nat) : BufTy := match i % 128 with
  | 0 => ⟨S4x4096x4096, .f32⟩
  | 1 => ⟨S4x2x64x64, .f32⟩
  | 2 => ⟨S4x1x64x64, .f32⟩
  | 3 => ⟨S4x3x64x64, .f32⟩
  | 4 => ⟨S4x1x64x64, .f32⟩
  | 5 => ⟨S4x64x64, .f32⟩
  | 6 => ⟨S_, .f32⟩
  | 7 => ⟨S4x64x64, .f32⟩
  | 8 => ⟨S4x64x64, .f32⟩
  | 9 => ⟨S_, .f32⟩
  | 10 => ⟨S4x64x64, .f32⟩
  | 11 => ⟨S4x64x64, .f32⟩
  | 12 => ⟨S_, .f32⟩
  | 13 => ⟨S4x64x64, .f32⟩
  | 14 => ⟨S4x64x64, .f32⟩
  | 15 => ⟨S4x1x64x64, .f32⟩
  | 16 => ⟨S4x64x64, .f32⟩
  | 17 => ⟨S_, .f32⟩
  | 18 => ⟨S4x64x64, .f32⟩
  | 19 => ⟨S4x64x64, .f32⟩
  | 20 => ⟨S_, .f32⟩
  | 21 => ⟨S4x64x64, .f32⟩
  | 22 => ⟨S4x64x64, .f32⟩
  | 23 => ⟨S_, .f32⟩
  | 24 => ⟨S4x64x64, .f32⟩
  | 25 => ⟨S4x64x64, .f32⟩
  | 26 => ⟨S4x64x64, .f32⟩
  | 27 => ⟨S4x64x64, .f32⟩
  | 28 => ⟨S_, .f32⟩
  | 29 => ⟨S4x64x64, .f32⟩
  | 30 => ⟨S4x64x64, .f32⟩
  | 31 => ⟨S_, .i32⟩
  | 32 => ⟨S_, .i32⟩
  | 33 => ⟨S_, .f32⟩
  | 34 => ⟨S4x64x64, .f32⟩
  | 35 => ⟨S4x64x64, .f32⟩
  | 36 => ⟨S_, .f32⟩
  | 37 => ⟨S4x64x64, .f32⟩
  | 38 => ⟨S4x64x64, .f32⟩
  | 39 => ⟨S_, .f32⟩
  | 40 => ⟨S4x64x64, .f32⟩
  | 41 => ⟨S4x64x64, .f32⟩
  | 42 => ⟨S_, .i32⟩
  | 43 => ⟨S_, .i32⟩
  | 44 => ⟨S_, .f32⟩
  | 45 => ⟨S4x64x64, .f32⟩
  | 46 => ⟨S4x64x64, .f32⟩
  | 47 => ⟨S_, .f32⟩
  | 48 => ⟨S4x64x64, .f32⟩
  | 49 => ⟨S4x64x64, .f32⟩
  | 50 => ⟨S_, .f32⟩
  | 51 => ⟨S4x64x64, .f32⟩
  | 52 => ⟨S4x64x64, .f32⟩
  | 53 => ⟨S4x64x64, .f32⟩
  | 54 => ⟨S4x64x64, .i32⟩
  | 55 => ⟨S4x4096, .i32⟩
  | 56 => ⟨S_, .f32⟩
  | 57 => ⟨S4x64x64, .f32⟩
  | 58 => ⟨S4x64x64, .f32⟩
  | 59 => ⟨S_, .i32⟩
  | 60 => ⟨S_, .i32⟩
  | 61 => ⟨S_, .f32⟩
  | 62 => ⟨S4x64x64, .f32⟩
  | 63 => ⟨S4x64x64, .f32⟩
  | 64 => ⟨S_, .f32⟩
  | 65 => ⟨S4x64x64, .f32⟩
  | 66 => ⟨S4x64x64, .f32⟩
  | 67 => ⟨S_, .f32⟩
  | 68 => ⟨S4x64x64, .f32⟩
  | 69 => ⟨S4x64x64, .f32⟩
  | 70 => ⟨S_, .i32⟩
  | 71 => ⟨S_, .i32⟩
  | 72 => ⟨S_, .f32⟩
  | 73 => ⟨S4x64x64, .f32⟩
  | 74 => ⟨S4x64x64, .f32⟩
  | 75 => ⟨S_, .f32⟩
  | 76 => ⟨S4x64x64, .f32⟩
  | 77 => ⟨S4x64x64, .f32⟩
  | 78 => ⟨S_, .f32⟩
  | 79 => ⟨S4x64x64, .f32⟩
  | 80 => ⟨S4x64x64, .f32⟩
  | 81 => ⟨S4x64x64, .f32⟩
  | 82 => ⟨S4x64x64, .i32⟩
  | 83 => ⟨S4x4096, .i32⟩
  | 84 => ⟨S_, .f32⟩
  | 85 => ⟨S4x64x64, .f32⟩
  | 86 => ⟨S4x64x64, .f32⟩
  | 87 => ⟨S_, .i32⟩
  | 88 => ⟨S_, .i32⟩
  | 89 => ⟨S_, .f32⟩
  | 90 => ⟨S4x64x64, .f32⟩
  | 91 => ⟨S4x64x64, .f32⟩
  | 92 => ⟨S_, .f32⟩
  | 93 => ⟨S4x64x64, .f32⟩
  | 94 => ⟨S4x64x64, .f32⟩
  | 95 => ⟨S_, .f32⟩
  | 96 => ⟨S4x64x64, .f32⟩
  | 97 => ⟨S4x64x64, .f32⟩
  | 98 => ⟨S_, .i32⟩
  | 99 => ⟨S_, .i32⟩
  | 100 => ⟨S_, .f32⟩
  | 101 => ⟨S4x64x64, .f32⟩
  | 102 => ⟨S4x64x64, .f32⟩
  | 103 => ⟨S_, .f32⟩
  | 104 => ⟨S4x64x64, .f32⟩
  | 105 => ⟨S4x64x64, .f32⟩
  | 106 => ⟨S_, .f32⟩
  | 107 => ⟨S4x64x64, .f32⟩
  | 108 => ⟨S4x64x64, .f32⟩
  | 109 => ⟨S4x64x64, .f32⟩
  | 110 => ⟨S4x64x64, .i32⟩
  | 111 => ⟨S4x4096, .i32⟩
  | 112 => ⟨S_, .f32⟩
  | 113 => ⟨S4x64x64, .f32⟩
  | 114 => ⟨S4x64x64, .f32⟩
  | 115 => ⟨S_, .i32⟩
  | 116 => ⟨S_, .i32⟩
  | 117 => ⟨S_, .f32⟩
  | 118 => ⟨S4x64x64, .f32⟩
  | 119 => ⟨S4x64x64, .f32⟩
  | 120 => ⟨S_, .f32⟩
  | 121 => ⟨S4x64x64, .f32⟩
  | 122 => ⟨S4x64x64, .f32⟩
  | 123 => ⟨S_, .f32⟩
  | 124 => ⟨S4x64x64, .f32⟩
  | 125 => ⟨S4x64x64, .f32⟩
  | 126 => ⟨S_, .i32⟩
  | 127 => ⟨S_, .i32⟩
  | _ => ⟨S4x4096x4096, .f32⟩

abbrev hbmTy0_1 (i : Nat) : BufTy := match i % 128 with
  | 0 => ⟨S_, .f32⟩
  | 1 => ⟨S4x64x64, .f32⟩
  | 2 => ⟨S4x64x64, .f32⟩
  | 3 => ⟨S_, .f32⟩
  | 4 => ⟨S4x64x64, .f32⟩
  | 5 => ⟨S4x64x64, .f32⟩
  | 6 => ⟨S_, .f32⟩
  | 7 => ⟨S4x64x64, .f32⟩
  | 8 => ⟨S4x64x64, .f32⟩
  | 9 => ⟨S4x64x64, .f32⟩
  | 10 => ⟨S4x64x64, .i32⟩
  | 11 => ⟨S4x4096, .i32⟩
  | 12 => ⟨S_, .f32⟩
  | 13 => ⟨S4x64x64, .f32⟩
  | 14 => ⟨S4x64x64, .f32⟩
  | 15 => ⟨S4x64x64, .f32⟩
  | 16 => ⟨S_, .f32⟩
  | 17 => ⟨S4x64x64, .f32⟩
  | 18 => ⟨S4x64x64, .f32⟩
  | 19 => ⟨S4x64x64, .f32⟩
  | 20 => ⟨S4x64x64, .f32⟩
  | 21 => ⟨S4x4096, .f32⟩
  | 22 => ⟨S_, .f32⟩
  | 23 => ⟨S4x64x64, .f32⟩
  | 24 => ⟨S4x64x64, .f32⟩
  | 25 => ⟨S4x64x64, .f32⟩
  | 26 => ⟨S4x64x64, .f32⟩
  | 27 => ⟨S4x64x64, .f32⟩
  | 28 => ⟨S4x4096, .f32⟩
  | 29 => ⟨S4x64x64, .f32⟩
  | 30 => ⟨S_, .f32⟩
  | 31 => ⟨S4x64x64, .f32⟩
  | 32 => ⟨S4x64x64, .f32⟩
  | 33 => ⟨S4x64x64, .f32⟩
  | 34 => ⟨S4x64x64, .f32⟩
  | 35 => ⟨S4x4096, .f32⟩
  | 36 => ⟨S4x64x64, .f32⟩
  | 37 => ⟨S4x64x64, .f32⟩
  | 38 => ⟨S4x64x64, .f32⟩
  | 39 => ⟨S4x4096, .f32⟩
  | 40 => ⟨S4x4096x4096, .f32⟩
  | 41 => ⟨S4, .i32⟩
  | 42 => ⟨S4x1, .i32⟩
  | 43 => ⟨S4096, .i32⟩
  | 44 => ⟨S1x4096, .i32⟩
  | 45 => ⟨S_, .f32⟩
  | 46 => ⟨S4x4096x4096, .f32⟩
  | 47 => ⟨S_, .f32⟩
  | 48 => ⟨S4x4096x4096, .f32⟩
  | 49 => ⟨S4x1x4096, .i32⟩
  | 50 => ⟨S_, .i32⟩
  | 51 => ⟨S4x1x4096, .i32⟩
  | 52 => ⟨S4x1x4096, .i1⟩
  | 53 => ⟨S_, .i32⟩
  | 54 => ⟨S4x1x4096, .i32⟩
  | 55 => ⟨S4x1x4096, .i32⟩
  | 56 => ⟨S4x1x4096, .i32⟩
  | 57 => ⟨S4x1x4096x1, .i32⟩
  | 58 => ⟨S1, .i32⟩
  | 59 => ⟨S_, .i32⟩
  | 60 => ⟨S4x1x4096x1, .i32⟩
  | 61 => ⟨S4x1x4096x1, .i1⟩
  | 62 => ⟨S1x1x1x1, .i32⟩
  | 63 => ⟨S4x1x4096x1, .i32⟩
  | 64 => ⟨S4x1x4096x1, .i1⟩
  | 65 => ⟨S4x1x4096x1, .i1⟩
  | 66 => ⟨S_, .i1⟩
  | 67 => ⟨S4x1x4096, .i1⟩
  | 68 => ⟨S4x1x4096, .f32⟩
  | 69 => ⟨S_, .f32⟩
  | 70 => ⟨S4x1x4096, .f32⟩
  | 71 => ⟨S4x1x4096, .f32⟩
  | 72 => ⟨S4x4096, .f32⟩
  | 73 => ⟨S_, .i32⟩
  | 74 => ⟨S4x1, .i32⟩
  | 75 => ⟨S4x1, .i1⟩
  | 76 => ⟨S_, .i32⟩
  | 77 => ⟨S4x1, .i32⟩
  | 78 => ⟨S4x1, .i32⟩
  | 79 => ⟨S4x1, .i32⟩
  | 80 => ⟨S_, .i32⟩
  | 81 => ⟨S4x4096, .i32⟩
  | 82 => ⟨S4x4096, .i1⟩
  | 83 => ⟨S_, .i32⟩
  | 84 => ⟨S4x4096, .i32⟩
  | 85 => ⟨S4x4096, .i32⟩
  | 86 => ⟨S4x4096, .i32⟩
  | 87 => ⟨S_, .i32⟩
  | 88 => ⟨S1x4096, .i32⟩
  | 89 => ⟨S1x4096, .i1⟩
  | 90 => ⟨S_, .i32⟩
  | 91 => ⟨S1x4096, .i32⟩
  | 92 => ⟨S1x4096, .i32⟩
  | 93 => ⟨S1x4096, .i32⟩
  | 94 => ⟨S4x4096, .i32⟩
  | 95 => ⟨S4x4096, .i32⟩
  | 96 => ⟨S4x4096x1, .i32⟩
  | 97 => ⟨S4x4096x1, .i32⟩
  | 98 => ⟨S4x4096x1, .i32⟩
  | 99 => ⟨S4x4096x3, .i32⟩
  | 100 => ⟨S4x4096x4096, .f32⟩
  | 101 => ⟨S_, .i32⟩
  | 102 => ⟨S4x1, .i32⟩
  | 103 => ⟨S4x1, .i1⟩
  | 104 => ⟨S_, .i32⟩
  | 105 => ⟨S4x1, .i32⟩
  | 106 => ⟨S4x1, .i32⟩
  | 107 => ⟨S4x1, .i32⟩
  | 108 => ⟨S_, .i32⟩
  | 109 => ⟨S4x4096, .i32⟩
  | 110 => ⟨S4x4096, .i1⟩
  | 111 => ⟨S_, .i32⟩
  | 112 => ⟨S4x4096, .i32⟩
  | 113 => ⟨S4x4096, .i32⟩
  | 114 => ⟨S4x4096, .i32⟩
  | 115 => ⟨S_, .i32⟩
  | 116 => ⟨S1x4096, .i32⟩
  | 117 => ⟨S1x4096, .i1⟩
  | 118 => ⟨S_, .i32⟩
  | 119 => ⟨S1x4096, .i32⟩
  | 120 => ⟨S1x4096, .i32⟩
  | 121 => ⟨S1x4096, .i32⟩
  | 122 => ⟨S4x4096, .i32⟩
  | 123 => ⟨S4x4096, .i32⟩
  | 124 => ⟨S4x4096x1, .i32⟩
  | 125 => ⟨S4x4096x1, .i32⟩
  | 126 => ⟨S4x4096x1, .i32⟩
  | 127 => ⟨S4x4096x3, .i32⟩
  | _ => ⟨S4x4096x4096, .f32⟩

abbrev hbmTy0_2 (i : Nat) : BufTy := match i % 128 with
  | 0 => ⟨S4x4096x4096, .f32⟩
  | 1 => ⟨S4x1x4096, .i32⟩
  | 2 => ⟨S_, .i32⟩
  | 3 => ⟨S4x1x4096, .i32⟩
  | 4 => ⟨S4x1x4096, .i1⟩
  | 5 => ⟨S_, .i32⟩
  | 6 => ⟨S4x1x4096, .i32⟩
  | 7 => ⟨S4x1x4096, .i32⟩
  | 8 => ⟨S4x1x4096, .i32⟩
  | 9 => ⟨S4x1x4096x1, .i32⟩
  | 10 => ⟨S1, .i32⟩
  | 11 => ⟨S_, .i32⟩
  | 12 => ⟨S4x1x4096x1, .i32⟩
  | 13 => ⟨S4x1x4096x1, .i1⟩
  | 14 => ⟨S1x1x1x1, .i32⟩
  | 15 => ⟨S4x1x4096x1, .i32⟩
  | 16 => ⟨S4x1x4096x1, .i1⟩
  | 17 => ⟨S4x1x4096x1, .i1⟩
  | 18 => ⟨S_, .i1⟩
  | 19 => ⟨S4x1x4096, .i1⟩
  | 20 => ⟨S4x1x4096, .f32⟩
  | 21 => ⟨S_, .f32⟩
  | 22 => ⟨S4x1x4096, .f32⟩
  | 23 => ⟨S4x1x4096, .f32⟩
  | 24 => ⟨S4x4096, .f32⟩
  | 25 => ⟨S_, .i32⟩
  | 26 => ⟨S4x1, .i32⟩
  | 27 => ⟨S4x1, .i1⟩
  | 28 => ⟨S_, .i32⟩
  | 29 => ⟨S4x1, .i32⟩
  | 30 => ⟨S4x1, .i32⟩
  | 31 => ⟨S4x1, .i32⟩
  | 32 => ⟨S_, .i32⟩
  | 33 => ⟨S4x4096, .i32⟩
  | 34 => ⟨S4x4096, .i1⟩
  | 35 => ⟨S_, .i32⟩
  | 36 => ⟨S4x4096, .i32⟩
  | 37 => ⟨S4x4096, .i32⟩
  | 38 => ⟨S4x4096, .i32⟩
  | 39 => ⟨S_, .i32⟩
  | 40 => ⟨S1x4096, .i32⟩
  | 41 => ⟨S1x4096, .i1⟩
  | 42 => ⟨S_, .i32⟩
  | 43 => ⟨S1x4096, .i32⟩
  | 44 => ⟨S1x4096, .i32⟩
  | 45 => ⟨S1x4096, .i32⟩
  | 46 => ⟨S4x4096, .i32⟩
  | 47 => ⟨S4x4096, .i32⟩
  | 48 => ⟨S4x4096x1, .i32⟩
  | 49 => ⟨S4x4096x1, .i32⟩
  | 50 => ⟨S4x4096x1, .i32⟩
  | 51 => ⟨S4x4096x3, .i32⟩
  | 52 => ⟨S4x4096x4096, .f32⟩
  | 53 => ⟨S_, .i32⟩
  | 54 => ⟨S4x1, .i32⟩
  | 55 => ⟨S4x1, .i1⟩
  | 56 => ⟨S_, .i32⟩
  | 57 => ⟨S4x1, .i32⟩
  | 58 => ⟨S4x1, .i32⟩
  | 59 => ⟨S4x1, .i32⟩
  | 60 => ⟨S_, .i32⟩
  | 61 => ⟨S4x4096, .i32⟩
  | 62 => ⟨S4x4096, .i1⟩
  | 63 => ⟨S_, .i32⟩
  | 64 => ⟨S4x4096, .i32⟩
  | 65 => ⟨S4x4096, .i32⟩
  | 66 => ⟨S4x4096, .i32⟩
  | 67 => ⟨S_, .i32⟩
  | 68 => ⟨S1x4096, .i32⟩
  | 69 => ⟨S1x4096, .i1⟩
  | 70 => ⟨S_, .i32⟩
  | 71 => ⟨S1x4096, .i32⟩
  | 72 => ⟨S1x4096, .i32⟩
  | 73 => ⟨S1x4096, .i32⟩
  | 74 => ⟨S4x4096, .i32⟩
  | 75 => ⟨S4x4096, .i32⟩
  | 76 => ⟨S4x4096x1, .i32⟩
  | 77 => ⟨S4x4096x1, .i32⟩
  | 78 => ⟨S4x4096x1, .i32⟩
  | 79 => ⟨S4x4096x3, .i32⟩
  | 80 => ⟨S4x4096x4096, .f32⟩
  | 81 => ⟨S4x1x4096, .i32⟩
  | 82 => ⟨S_, .i32⟩
  | 83 => ⟨S4x1x4096, .i32⟩
  | 84 => ⟨S4x1x4096, .i1⟩
  | 85 => ⟨S_, .i32⟩
  | 86 => ⟨S4x1x4096, .i32⟩
  | 87 => ⟨S4x1x4096, .i32⟩
  | 88 => ⟨S4x1x4096, .i32⟩
  | 89 => ⟨S4x1x4096x1, .i32⟩
  | 90 => ⟨S1, .i32⟩
  | 91 => ⟨S_, .i32⟩
  | 92 => ⟨S4x1x4096x1, .i32⟩
  | 93 => ⟨S4x1x4096x1, .i1⟩
  | 94 => ⟨S1x1x1x1, .i32⟩
  | 95 => ⟨S4x1x4096x1, .i32⟩
  | 96 => ⟨S4x1x4096x1, .i1⟩
  | 97 => ⟨S4x1x4096x1, .i1⟩
  | 98 => ⟨S_, .i1⟩
  | 99 => ⟨S4x1x4096, .i1⟩
  | 100 => ⟨S4x1x4096, .f32⟩
  | 101 => ⟨S_, .f32⟩
  | 102 => ⟨S4x1x4096, .f32⟩
  | 103 => ⟨S4x1x4096, .f32⟩
  | 104 => ⟨S4x4096, .f32⟩
  | 105 => ⟨S_, .i32⟩
  | 106 => ⟨S4x1, .i32⟩
  | 107 => ⟨S4x1, .i1⟩
  | 108 => ⟨S_, .i32⟩
  | 109 => ⟨S4x1, .i32⟩
  | 110 => ⟨S4x1, .i32⟩
  | 111 => ⟨S4x1, .i32⟩
  | 112 => ⟨S_, .i32⟩
  | 113 => ⟨S4x4096, .i32⟩
  | 114 => ⟨S4x4096, .i1⟩
  | 115 => ⟨S_, .i32⟩
  | 116 => ⟨S4x4096, .i32⟩
  | 117 => ⟨S4x4096, .i32⟩
  | 118 => ⟨S4x4096, .i32⟩
  | 119 => ⟨S_, .i32⟩
  | 120 => ⟨S1x4096, .i32⟩
  | 121 => ⟨S1x4096, .i1⟩
  | 122 => ⟨S_, .i32⟩
  | 123 => ⟨S1x4096, .i32⟩
  | 124 => ⟨S1x4096, .i32⟩
  | 125 => ⟨S1x4096, .i32⟩
  | 126 => ⟨S4x4096, .i32⟩
  | 127 => ⟨S4x4096, .i32⟩
  | _ => ⟨S4x4096x4096, .f32⟩

abbrev hbmTy0_3 (i : Nat) : BufTy := match i % 128 with
  | 0 => ⟨S4x4096x1, .i32⟩
  | 1 => ⟨S4x4096x1, .i32⟩
  | 2 => ⟨S4x4096x1, .i32⟩
  | 3 => ⟨S4x4096x3, .i32⟩
  | 4 => ⟨S4x4096x4096, .f32⟩
  | 5 => ⟨S_, .i32⟩
  | 6 => ⟨S4x1, .i32⟩
  | 7 => ⟨S4x1, .i1⟩
  | 8 => ⟨S_, .i32⟩
  | 9 => ⟨S4x1, .i32⟩
  | 10 => ⟨S4x1, .i32⟩
  | 11 => ⟨S4x1, .i32⟩
  | 12 => ⟨S_, .i32⟩
  | 13 => ⟨S4x4096, .i32⟩
  | 14 => ⟨S4x4096, .i1⟩
  | 15 => ⟨S_, .i32⟩
  | 16 => ⟨S4x4096, .i32⟩
  | 17 => ⟨S4x4096, .i32⟩
  | 18 => ⟨S4x4096, .i32⟩
  | 19 => ⟨S_, .i32⟩
  | 20 => ⟨S1x4096, .i32⟩
  | 21 => ⟨S1x4096, .i1⟩
  | 22 => ⟨S_, .i32⟩
  | 23 => ⟨S1x4096, .i32⟩
  | 24 => ⟨S1x4096, .i32⟩
  | 25 => ⟨S1x4096, .i32⟩
  | 26 => ⟨S4x4096, .i32⟩
  | 27 => ⟨S4x4096, .i32⟩
  | 28 => ⟨S4x4096x1, .i32⟩
  | 29 => ⟨S4x4096x1, .i32⟩
  | 30 => ⟨S4x4096x1, .i32⟩
  | 31 => ⟨S4x4096x3, .i32⟩
  | 32 => ⟨S4x4096x4096, .f32⟩
  | 33 => ⟨S4x1x4096, .i32⟩
  | 34 => ⟨S_, .i32⟩
  | 35 => ⟨S4x1x4096, .i32⟩
  | 36 => ⟨S4x1x4096, .i1⟩
  | 37 => ⟨S_, .i32⟩
  | 38 => ⟨S4x1x4096, .i32⟩
  | 39 => ⟨S4x1x4096, .i32⟩
  | 40 => ⟨S4x1x4096, .i32⟩
  | 41 => ⟨S4x1x4096x1, .i32⟩
  | 42 => ⟨S1, .i32⟩
  | 43 => ⟨S_, .i32⟩
  | 44 => ⟨S4x1x4096x1, .i32⟩
  | 45 => ⟨S4x1x4096x1, .i1⟩
  | 46 => ⟨S1x1x1x1, .i32⟩
  | 47 => ⟨S4x1x4096x1, .i32⟩
  | 48 => ⟨S4x1x4096x1, .i1⟩
  | 49 => ⟨S4x1x4096x1, .i1⟩
  | 50 => ⟨S_, .i1⟩
  | 51 => ⟨S4x1x4096, .i1⟩
  | 52 => ⟨S4x1x4096, .f32⟩
  | 53 => ⟨S_, .f32⟩
  | 54 => ⟨S4x1x4096, .f32⟩
  | 55 => ⟨S4x1x4096, .f32⟩
  | 56 => ⟨S4x4096, .f32⟩
  | 57 => ⟨S_, .i32⟩
  | 58 => ⟨S4x1, .i32⟩
  | 59 => ⟨S4x1, .i1⟩
  | 60 => ⟨S_, .i32⟩
  | 61 => ⟨S4x1, .i32⟩
  | 62 => ⟨S4x1, .i32⟩
  | 63 => ⟨S4x1, .i32⟩
  | 64 => ⟨S_, .i32⟩
  | 65 => ⟨S4x4096, .i32⟩
  | 66 => ⟨S4x4096, .i1⟩
  | 67 => ⟨S_, .i32⟩
  | 68 => ⟨S4x4096, .i32⟩
  | 69 => ⟨S4x4096, .i32⟩
  | 70 => ⟨S4x4096, .i32⟩
  | 71 => ⟨S_, .i32⟩
  | 72 => ⟨S1x4096, .i32⟩
  | 73 => ⟨S1x4096, .i1⟩
  | 74 => ⟨S_, .i32⟩
  | 75 => ⟨S1x4096, .i32⟩
  | 76 => ⟨S1x4096, .i32⟩
  | 77 => ⟨S1x4096, .i32⟩
  | 78 => ⟨S4x4096, .i32⟩
  | 79 => ⟨S4x4096, .i32⟩
  | 80 => ⟨S4x4096x1, .i32⟩
  | 81 => ⟨S4x4096x1, .i32⟩
  | 82 => ⟨S4x4096x1, .i32⟩
  | 83 => ⟨S4x4096x3, .i32⟩
  | 84 => ⟨S4x4096x4096, .f32⟩
  | 85 => ⟨S_, .i32⟩
  | 86 => ⟨S4x1, .i32⟩
  | 87 => ⟨S4x1, .i1⟩
  | 88 => ⟨S_, .i32⟩
  | 89 => ⟨S4x1, .i32⟩
  | 90 => ⟨S4x1, .i32⟩
  | 91 => ⟨S4x1, .i32⟩
  | 92 => ⟨S_, .i32⟩
  | 93 => ⟨S4x4096, .i32⟩
  | 94 => ⟨S4x4096, .i1⟩
  | 95 => ⟨S_, .i32⟩
  | 96 => ⟨S4x4096, .i32⟩
  | 97 => ⟨S4x4096, .i32⟩
  | 98 => ⟨S4x4096, .i32⟩
  | 99 => ⟨S_, .i32⟩
  | 100 => ⟨S1x4096, .i32⟩
  | 101 => ⟨S1x4096, .i1⟩
  | 102 => ⟨S_, .i32⟩
  | 103 => ⟨S1x4096, .i32⟩
  | 104 => ⟨S1x4096, .i32⟩
  | 105 => ⟨S1x4096, .i32⟩
  | 106 => ⟨S4x4096, .i32⟩
  | 107 => ⟨S4x4096, .i32⟩
  | 108 => ⟨S4x4096x1, .i32⟩
  | 109 => ⟨S4x4096x1, .i32⟩
  | 110 => ⟨S4x4096x1, .i32⟩
  | 111 => ⟨S4x4096x3, .i32⟩
  | 112 => ⟨S4x4096x4096, .f32⟩
  | 113 => ⟨S4x4096x4096, .f32⟩
  | 114 => ⟨S4x4096x4096, .f32⟩
  | 115 => ⟨S4x3x4096, .f32⟩
  | 116 => ⟨S4x3x4096, .f32⟩
  | 117 => ⟨S4x3x64x64, .f32⟩
  | 118 => ⟨S4x3x4096, .f32⟩
  | 119 => ⟨S4x3x64x64, .f32⟩
  | _ => ⟨S4x4096x4096, .f32⟩

abbrev hbmTy (i : Nat) : BufTy := match i / 128 with
  | 0 => hbmTy0_0 i
  | 1 => hbmTy0_1 i
  | 2 => hbmTy0_2 i
  | 3 => hbmTy0_3 i
  | _ => ⟨S4x4096x4096, .f32⟩

abbrev bufTy : (tb : Table) → Fin (tcTables nBuf tb) → BufTy
  | .hbm, ⟨i, _⟩ => hbmTy i
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_c : Ref sig .tc := ⟨.hbm, 31, rfl⟩
abbrev main_c_6 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_v20 : Ref sig .tc := ⟨.hbm, 38, rfl⟩
abbrev main_cst_7 : Ref sig .tc := ⟨.hbm, 39, rfl⟩
abbrev main_v21 : Ref sig .tc := ⟨.hbm, 40, rfl⟩
abbrev main_v22 : Ref sig .tc := ⟨.hbm, 41, rfl⟩
abbrev main_c_8 : Ref sig .tc := ⟨.hbm, 42, rfl⟩
abbrev main_c_9 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_v23 : Ref sig .tc := ⟨.hbm, 49, rfl⟩
abbrev main_cst_10 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_11 : Ref sig .tc := ⟨.hbm, 56, rfl⟩
abbrev main_v29 : Ref sig .tc := ⟨.hbm, 57, rfl⟩
abbrev main_v30 : Ref sig .tc := ⟨.hbm, 58, rfl⟩
abbrev main_c_12 : Ref sig .tc := ⟨.hbm, 59, rfl⟩
abbrev main_c_13 : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_v31 : Ref sig .tc := ⟨.hbm, 66, rfl⟩
abbrev main_cst_14 : Ref sig .tc := ⟨.hbm, 67, rfl⟩
abbrev main_v32 : Ref sig .tc := ⟨.hbm, 68, rfl⟩
abbrev main_v33 : Ref sig .tc := ⟨.hbm, 69, rfl⟩
abbrev main_c_15 : Ref sig .tc := ⟨.hbm, 70, rfl⟩
abbrev main_c_16 : Ref sig .tc := ⟨.hbm, 71, rfl⟩
abbrev main_call3_v0 : Ref sig .tc := ⟨.hbm, 72, rfl⟩
abbrev main_call3_v1 : Ref sig .tc := ⟨.hbm, 73, rfl⟩
abbrev main_call3_v2 : Ref sig .tc := ⟨.hbm, 74, rfl⟩
abbrev main_call3_v3 : Ref sig .tc := ⟨.hbm, 75, rfl⟩
abbrev main_call3_v4 : Ref sig .tc := ⟨.hbm, 76, rfl⟩
abbrev main_v34 : Ref sig .tc := ⟨.hbm, 77, rfl⟩
abbrev main_cst_17 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_cst_18 : Ref sig .tc := ⟨.hbm, 84, rfl⟩
abbrev main_v40 : Ref sig .tc := ⟨.hbm, 85, rfl⟩
abbrev main_v41 : Ref sig .tc := ⟨.hbm, 86, rfl⟩
abbrev main_c_19 : Ref sig .tc := ⟨.hbm, 87, rfl⟩
abbrev main_c_20 : Ref sig .tc := ⟨.hbm, 88, rfl⟩
abbrev main_call4_v0 : Ref sig .tc := ⟨.hbm, 89, rfl⟩
abbrev main_call4_v1 : Ref sig .tc := ⟨.hbm, 90, rfl⟩
abbrev main_call4_v2 : Ref sig .tc := ⟨.hbm, 91, rfl⟩
abbrev main_call4_v3 : Ref sig .tc := ⟨.hbm, 92, rfl⟩
abbrev main_call4_v4 : Ref sig .tc := ⟨.hbm, 93, rfl⟩
abbrev main_v42 : Ref sig .tc := ⟨.hbm, 94, rfl⟩
abbrev main_cst_21 : Ref sig .tc := ⟨.hbm, 95, rfl⟩
abbrev main_v43 : Ref sig .tc := ⟨.hbm, 96, rfl⟩
abbrev main_v44 : Ref sig .tc := ⟨.hbm, 97, rfl⟩
abbrev main_c_22 : Ref sig .tc := ⟨.hbm, 98, rfl⟩
abbrev main_c_23 : Ref sig .tc := ⟨.hbm, 99, rfl⟩
abbrev main_call5_v0 : Ref sig .tc := ⟨.hbm, 100, rfl⟩
abbrev main_call5_v1 : Ref sig .tc := ⟨.hbm, 101, rfl⟩
abbrev main_call5_v2 : Ref sig .tc := ⟨.hbm, 102, rfl⟩
abbrev main_call5_v3 : Ref sig .tc := ⟨.hbm, 103, rfl⟩
abbrev main_call5_v4 : Ref sig .tc := ⟨.hbm, 104, rfl⟩
abbrev main_v45 : Ref sig .tc := ⟨.hbm, 105, rfl⟩
abbrev main_cst_24 : Ref sig .tc := ⟨.hbm, 106, rfl⟩
abbrev main_v46 : Ref sig .tc := ⟨.hbm, 107, rfl⟩
abbrev main_v47 : Ref sig .tc := ⟨.hbm, 108, rfl⟩
abbrev main_v48 : Ref sig .tc := ⟨.hbm, 109, rfl⟩
abbrev main_v49 : Ref sig .tc := ⟨.hbm, 110, rfl⟩
abbrev main_v50 : Ref sig .tc := ⟨.hbm, 111, rfl⟩
abbrev main_cst_25 : Ref sig .tc := ⟨.hbm, 112, rfl⟩
abbrev main_v51 : Ref sig .tc := ⟨.hbm, 113, rfl⟩
abbrev main_v52 : Ref sig .tc := ⟨.hbm, 114, rfl⟩
abbrev main_c_26 : Ref sig .tc := ⟨.hbm, 115, rfl⟩
abbrev main_c_27 : Ref sig .tc := ⟨.hbm, 116, rfl⟩
abbrev main_call6_v0 : Ref sig .tc := ⟨.hbm, 117, rfl⟩
abbrev main_call6_v1 : Ref sig .tc := ⟨.hbm, 118, rfl⟩
abbrev main_call6_v2 : Ref sig .tc := ⟨.hbm, 119, rfl⟩
abbrev main_call6_v3 : Ref sig .tc := ⟨.hbm, 120, rfl⟩
abbrev main_call6_v4 : Ref sig .tc := ⟨.hbm, 121, rfl⟩
abbrev main_v53 : Ref sig .tc := ⟨.hbm, 122, rfl⟩
abbrev main_cst_28 : Ref sig .tc := ⟨.hbm, 123, rfl⟩
abbrev main_v54 : Ref sig .tc := ⟨.hbm, 124, rfl⟩
abbrev main_v55 : Ref sig .tc := ⟨.hbm, 125, rfl⟩
abbrev main_c_29 : Ref sig .tc := ⟨.hbm, 126, rfl⟩
abbrev main_c_30 : Ref sig .tc := ⟨.hbm, 127, rfl⟩
abbrev main_call7_v0 : Ref sig .tc := ⟨.hbm, 128, rfl⟩
abbrev main_call7_v1 : Ref sig .tc := ⟨.hbm, 129, rfl⟩
abbrev main_call7_v2 : Ref sig .tc := ⟨.hbm, 130, rfl⟩
abbrev main_call7_v3 : Ref sig .tc := ⟨.hbm, 131, rfl⟩
abbrev main_call7_v4 : Ref sig .tc := ⟨.hbm, 132, rfl⟩
abbrev main_v56 : Ref sig .tc := ⟨.hbm, 133, rfl⟩
abbrev main_cst_31 : Ref sig .tc := ⟨.hbm, 134, rfl⟩
abbrev main_v57 : Ref sig .tc := ⟨.hbm, 135, rfl⟩
abbrev main_v58 : Ref sig .tc := ⟨.hbm, 136, rfl⟩
abbrev main_v59 : Ref sig .tc := ⟨.hbm, 137, rfl⟩
abbrev main_v60 : Ref sig .tc := ⟨.hbm, 138, rfl⟩
abbrev main_v61 : Ref sig .tc := ⟨.hbm, 139, rfl⟩
abbrev main_cst_32 : Ref sig .tc := ⟨.hbm, 140, rfl⟩
abbrev main_v62 : Ref sig .tc := ⟨.hbm, 141, rfl⟩
abbrev main_v63 : Ref sig .tc := ⟨.hbm, 142, rfl⟩
abbrev main_v64 : Ref sig .tc := ⟨.hbm, 143, rfl⟩
abbrev main_cst_33 : Ref sig .tc := ⟨.hbm, 144, rfl⟩
abbrev main_v65 : Ref sig .tc := ⟨.hbm, 145, rfl⟩
abbrev main_v66 : Ref sig .tc := ⟨.hbm, 146, rfl⟩
abbrev main_v67 : Ref sig .tc := ⟨.hbm, 147, rfl⟩
abbrev main_v68 : Ref sig .tc := ⟨.hbm, 148, rfl⟩
abbrev main_v69 : Ref sig .tc := ⟨.hbm, 149, rfl⟩
abbrev main_cst_34 : Ref sig .tc := ⟨.hbm, 150, rfl⟩
abbrev main_v70 : Ref sig .tc := ⟨.hbm, 151, rfl⟩
abbrev main_v71 : Ref sig .tc := ⟨.hbm, 152, rfl⟩
abbrev main_v72 : Ref sig .tc := ⟨.hbm, 153, rfl⟩
abbrev main_v73 : Ref sig .tc := ⟨.hbm, 154, rfl⟩
abbrev main_v74 : Ref sig .tc := ⟨.hbm, 155, rfl⟩
abbrev main_v75 : Ref sig .tc := ⟨.hbm, 156, rfl⟩
abbrev main_v76 : Ref sig .tc := ⟨.hbm, 157, rfl⟩
abbrev main_cst_35 : Ref sig .tc := ⟨.hbm, 158, rfl⟩
abbrev main_v77 : Ref sig .tc := ⟨.hbm, 159, rfl⟩
abbrev main_v78 : Ref sig .tc := ⟨.hbm, 160, rfl⟩
abbrev main_v79 : Ref sig .tc := ⟨.hbm, 161, rfl⟩
abbrev main_v80 : Ref sig .tc := ⟨.hbm, 162, rfl⟩
abbrev main_v81 : Ref sig .tc := ⟨.hbm, 163, rfl⟩
abbrev main_v82 : Ref sig .tc := ⟨.hbm, 164, rfl⟩
abbrev main_v83 : Ref sig .tc := ⟨.hbm, 165, rfl⟩
abbrev main_v84 : Ref sig .tc := ⟨.hbm, 166, rfl⟩
abbrev main_v85 : Ref sig .tc := ⟨.hbm, 167, rfl⟩
abbrev main_v86 : Ref sig .tc := ⟨.hbm, 168, rfl⟩
abbrev main_v87 : Ref sig .tc := ⟨.hbm, 169, rfl⟩
abbrev main_v88 : Ref sig .tc := ⟨.hbm, 170, rfl⟩
abbrev main_v89 : Ref sig .tc := ⟨.hbm, 171, rfl⟩
abbrev main_v90 : Ref sig .tc := ⟨.hbm, 172, rfl⟩
abbrev main_cst_36 : Ref sig .tc := ⟨.hbm, 173, rfl⟩
abbrev main_v91 : Ref sig .tc := ⟨.hbm, 174, rfl⟩
abbrev main_cst_37 : Ref sig .tc := ⟨.hbm, 175, rfl⟩
abbrev main_v92 : Ref sig .tc := ⟨.hbm, 176, rfl⟩
abbrev main_v93 : Ref sig .tc := ⟨.hbm, 177, rfl⟩
abbrev main_call8_c : Ref sig .tc := ⟨.hbm, 178, rfl⟩
abbrev main_call8_v0 : Ref sig .tc := ⟨.hbm, 179, rfl⟩
abbrev main_call8_v1 : Ref sig .tc := ⟨.hbm, 180, rfl⟩
abbrev main_call8_c_0 : Ref sig .tc := ⟨.hbm, 181, rfl⟩
abbrev main_call8_v2 : Ref sig .tc := ⟨.hbm, 182, rfl⟩
abbrev main_call8_v3 : Ref sig .tc := ⟨.hbm, 183, rfl⟩
abbrev main_call8_v4 : Ref sig .tc := ⟨.hbm, 184, rfl⟩
abbrev main_call8_v5 : Ref sig .tc := ⟨.hbm, 185, rfl⟩
abbrev main_call8_c_1 : Ref sig .tc := ⟨.hbm, 186, rfl⟩
abbrev main_call8_c_2 : Ref sig .tc := ⟨.hbm, 187, rfl⟩
abbrev main_call8_v6 : Ref sig .tc := ⟨.hbm, 188, rfl⟩
abbrev main_call8_v7 : Ref sig .tc := ⟨.hbm, 189, rfl⟩
abbrev main_call8_v8 : Ref sig .tc := ⟨.hbm, 190, rfl⟩
abbrev main_call8_v9 : Ref sig .tc := ⟨.hbm, 191, rfl⟩
abbrev main_call8_v10 : Ref sig .tc := ⟨.hbm, 192, rfl⟩
abbrev main_call8_v11 : Ref sig .tc := ⟨.hbm, 193, rfl⟩
abbrev main_call8_c_3 : Ref sig .tc := ⟨.hbm, 194, rfl⟩
abbrev main_call8_v12 : Ref sig .tc := ⟨.hbm, 195, rfl⟩
abbrev main_call8_v13 : Ref sig .tc := ⟨.hbm, 196, rfl⟩
abbrev main_call8_cst : Ref sig .tc := ⟨.hbm, 197, rfl⟩
abbrev main_call8_v14 : Ref sig .tc := ⟨.hbm, 198, rfl⟩
abbrev main_v94 : Ref sig .tc := ⟨.hbm, 199, rfl⟩
abbrev main_v95 : Ref sig .tc := ⟨.hbm, 200, rfl⟩
abbrev main_c_38 : Ref sig .tc := ⟨.hbm, 201, rfl⟩
abbrev main_v96 : Ref sig .tc := ⟨.hbm, 202, rfl⟩
abbrev main_v97 : Ref sig .tc := ⟨.hbm, 203, rfl⟩
abbrev main_c_39 : Ref sig .tc := ⟨.hbm, 204, rfl⟩
abbrev main_v98 : Ref sig .tc := ⟨.hbm, 205, rfl⟩
abbrev main_v99 : Ref sig .tc := ⟨.hbm, 206, rfl⟩
abbrev main_v100 : Ref sig .tc := ⟨.hbm, 207, rfl⟩
abbrev main_c_40 : Ref sig .tc := ⟨.hbm, 208, rfl⟩
abbrev main_v101 : Ref sig .tc := ⟨.hbm, 209, rfl⟩
abbrev main_v102 : Ref sig .tc := ⟨.hbm, 210, rfl⟩
abbrev main_c_41 : Ref sig .tc := ⟨.hbm, 211, rfl⟩
abbrev main_v103 : Ref sig .tc := ⟨.hbm, 212, rfl⟩
abbrev main_v104 : Ref sig .tc := ⟨.hbm, 213, rfl⟩
abbrev main_v105 : Ref sig .tc := ⟨.hbm, 214, rfl⟩
abbrev main_c_42 : Ref sig .tc := ⟨.hbm, 215, rfl⟩
abbrev main_v106 : Ref sig .tc := ⟨.hbm, 216, rfl⟩
abbrev main_v107 : Ref sig .tc := ⟨.hbm, 217, rfl⟩
abbrev main_c_43 : Ref sig .tc := ⟨.hbm, 218, rfl⟩
abbrev main_v108 : Ref sig .tc := ⟨.hbm, 219, rfl⟩
abbrev main_v109 : Ref sig .tc := ⟨.hbm, 220, rfl⟩
abbrev main_v110 : Ref sig .tc := ⟨.hbm, 221, rfl⟩
abbrev main_v111 : Ref sig .tc := ⟨.hbm, 222, rfl⟩
abbrev main_v112 : Ref sig .tc := ⟨.hbm, 223, rfl⟩
abbrev main_v113 : Ref sig .tc := ⟨.hbm, 224, rfl⟩
abbrev main_v114 : Ref sig .tc := ⟨.hbm, 225, rfl⟩
abbrev main_v115 : Ref sig .tc := ⟨.hbm, 226, rfl⟩
abbrev main_v116 : Ref sig .tc := ⟨.hbm, 227, rfl⟩
abbrev main_v117 : Ref sig .tc := ⟨.hbm, 228, rfl⟩
abbrev main_c_44 : Ref sig .tc := ⟨.hbm, 229, rfl⟩
abbrev main_v118 : Ref sig .tc := ⟨.hbm, 230, rfl⟩
abbrev main_v119 : Ref sig .tc := ⟨.hbm, 231, rfl⟩
abbrev main_c_45 : Ref sig .tc := ⟨.hbm, 232, rfl⟩
abbrev main_v120 : Ref sig .tc := ⟨.hbm, 233, rfl⟩
abbrev main_v121 : Ref sig .tc := ⟨.hbm, 234, rfl⟩
abbrev main_v122 : Ref sig .tc := ⟨.hbm, 235, rfl⟩
abbrev main_c_46 : Ref sig .tc := ⟨.hbm, 236, rfl⟩
abbrev main_v123 : Ref sig .tc := ⟨.hbm, 237, rfl⟩
abbrev main_v124 : Ref sig .tc := ⟨.hbm, 238, rfl⟩
abbrev main_c_47 : Ref sig .tc := ⟨.hbm, 239, rfl⟩
abbrev main_v125 : Ref sig .tc := ⟨.hbm, 240, rfl⟩
abbrev main_v126 : Ref sig .tc := ⟨.hbm, 241, rfl⟩
abbrev main_v127 : Ref sig .tc := ⟨.hbm, 242, rfl⟩
abbrev main_c_48 : Ref sig .tc := ⟨.hbm, 243, rfl⟩
abbrev main_v128 : Ref sig .tc := ⟨.hbm, 244, rfl⟩
abbrev main_v129 : Ref sig .tc := ⟨.hbm, 245, rfl⟩
abbrev main_c_49 : Ref sig .tc := ⟨.hbm, 246, rfl⟩
abbrev main_v130 : Ref sig .tc := ⟨.hbm, 247, rfl⟩
abbrev main_v131 : Ref sig .tc := ⟨.hbm, 248, rfl⟩
abbrev main_v132 : Ref sig .tc := ⟨.hbm, 249, rfl⟩
abbrev main_v133 : Ref sig .tc := ⟨.hbm, 250, rfl⟩
abbrev main_v134 : Ref sig .tc := ⟨.hbm, 251, rfl⟩
abbrev main_v135 : Ref sig .tc := ⟨.hbm, 252, rfl⟩
abbrev main_v136 : Ref sig .tc := ⟨.hbm, 253, rfl⟩
abbrev main_v137 : Ref sig .tc := ⟨.hbm, 254, rfl⟩
abbrev main_v138 : Ref sig .tc := ⟨.hbm, 255, rfl⟩
abbrev main_v139 : Ref sig .tc := ⟨.hbm, 256, rfl⟩
abbrev main_v140 : Ref sig .tc := ⟨.hbm, 257, rfl⟩
abbrev main_call9_c : Ref sig .tc := ⟨.hbm, 258, rfl⟩
abbrev main_call9_v0 : Ref sig .tc := ⟨.hbm, 259, rfl⟩
abbrev main_call9_v1 : Ref sig .tc := ⟨.hbm, 260, rfl⟩
abbrev main_call9_c_0 : Ref sig .tc := ⟨.hbm, 261, rfl⟩
abbrev main_call9_v2 : Ref sig .tc := ⟨.hbm, 262, rfl⟩
abbrev main_call9_v3 : Ref sig .tc := ⟨.hbm, 263, rfl⟩
abbrev main_call9_v4 : Ref sig .tc := ⟨.hbm, 264, rfl⟩
abbrev main_call9_v5 : Ref sig .tc := ⟨.hbm, 265, rfl⟩
abbrev main_call9_c_1 : Ref sig .tc := ⟨.hbm, 266, rfl⟩
abbrev main_call9_c_2 : Ref sig .tc := ⟨.hbm, 267, rfl⟩
abbrev main_call9_v6 : Ref sig .tc := ⟨.hbm, 268, rfl⟩
abbrev main_call9_v7 : Ref sig .tc := ⟨.hbm, 269, rfl⟩
abbrev main_call9_v8 : Ref sig .tc := ⟨.hbm, 270, rfl⟩
abbrev main_call9_v9 : Ref sig .tc := ⟨.hbm, 271, rfl⟩
abbrev main_call9_v10 : Ref sig .tc := ⟨.hbm, 272, rfl⟩
abbrev main_call9_v11 : Ref sig .tc := ⟨.hbm, 273, rfl⟩
abbrev main_call9_c_3 : Ref sig .tc := ⟨.hbm, 274, rfl⟩
abbrev main_call9_v12 : Ref sig .tc := ⟨.hbm, 275, rfl⟩
abbrev main_call9_v13 : Ref sig .tc := ⟨.hbm, 276, rfl⟩
abbrev main_call9_cst : Ref sig .tc := ⟨.hbm, 277, rfl⟩
abbrev main_call9_v14 : Ref sig .tc := ⟨.hbm, 278, rfl⟩
abbrev main_v141 : Ref sig .tc := ⟨.hbm, 279, rfl⟩
abbrev main_v142 : Ref sig .tc := ⟨.hbm, 280, rfl⟩
abbrev main_c_50 : Ref sig .tc := ⟨.hbm, 281, rfl⟩
abbrev main_v143 : Ref sig .tc := ⟨.hbm, 282, rfl⟩
abbrev main_v144 : Ref sig .tc := ⟨.hbm, 283, rfl⟩
abbrev main_c_51 : Ref sig .tc := ⟨.hbm, 284, rfl⟩
abbrev main_v145 : Ref sig .tc := ⟨.hbm, 285, rfl⟩
abbrev main_v146 : Ref sig .tc := ⟨.hbm, 286, rfl⟩
abbrev main_v147 : Ref sig .tc := ⟨.hbm, 287, rfl⟩
abbrev main_c_52 : Ref sig .tc := ⟨.hbm, 288, rfl⟩
abbrev main_v148 : Ref sig .tc := ⟨.hbm, 289, rfl⟩
abbrev main_v149 : Ref sig .tc := ⟨.hbm, 290, rfl⟩
abbrev main_c_53 : Ref sig .tc := ⟨.hbm, 291, rfl⟩
abbrev main_v150 : Ref sig .tc := ⟨.hbm, 292, rfl⟩
abbrev main_v151 : Ref sig .tc := ⟨.hbm, 293, rfl⟩
abbrev main_v152 : Ref sig .tc := ⟨.hbm, 294, rfl⟩
abbrev main_c_54 : Ref sig .tc := ⟨.hbm, 295, rfl⟩
abbrev main_v153 : Ref sig .tc := ⟨.hbm, 296, rfl⟩
abbrev main_v154 : Ref sig .tc := ⟨.hbm, 297, rfl⟩
abbrev main_c_55 : Ref sig .tc := ⟨.hbm, 298, rfl⟩
abbrev main_v155 : Ref sig .tc := ⟨.hbm, 299, rfl⟩
abbrev main_v156 : Ref sig .tc := ⟨.hbm, 300, rfl⟩
abbrev main_v157 : Ref sig .tc := ⟨.hbm, 301, rfl⟩
abbrev main_v158 : Ref sig .tc := ⟨.hbm, 302, rfl⟩
abbrev main_v159 : Ref sig .tc := ⟨.hbm, 303, rfl⟩
abbrev main_v160 : Ref sig .tc := ⟨.hbm, 304, rfl⟩
abbrev main_v161 : Ref sig .tc := ⟨.hbm, 305, rfl⟩
abbrev main_v162 : Ref sig .tc := ⟨.hbm, 306, rfl⟩
abbrev main_v163 : Ref sig .tc := ⟨.hbm, 307, rfl⟩
abbrev main_v164 : Ref sig .tc := ⟨.hbm, 308, rfl⟩
abbrev main_c_56 : Ref sig .tc := ⟨.hbm, 309, rfl⟩
abbrev main_v165 : Ref sig .tc := ⟨.hbm, 310, rfl⟩
abbrev main_v166 : Ref sig .tc := ⟨.hbm, 311, rfl⟩
abbrev main_c_57 : Ref sig .tc := ⟨.hbm, 312, rfl⟩
abbrev main_v167 : Ref sig .tc := ⟨.hbm, 313, rfl⟩
abbrev main_v168 : Ref sig .tc := ⟨.hbm, 314, rfl⟩
abbrev main_v169 : Ref sig .tc := ⟨.hbm, 315, rfl⟩
abbrev main_c_58 : Ref sig .tc := ⟨.hbm, 316, rfl⟩
abbrev main_v170 : Ref sig .tc := ⟨.hbm, 317, rfl⟩
abbrev main_v171 : Ref sig .tc := ⟨.hbm, 318, rfl⟩
abbrev main_c_59 : Ref sig .tc := ⟨.hbm, 319, rfl⟩
abbrev main_v172 : Ref sig .tc := ⟨.hbm, 320, rfl⟩
abbrev main_v173 : Ref sig .tc := ⟨.hbm, 321, rfl⟩
abbrev main_v174 : Ref sig .tc := ⟨.hbm, 322, rfl⟩
abbrev main_c_60 : Ref sig .tc := ⟨.hbm, 323, rfl⟩
abbrev main_v175 : Ref sig .tc := ⟨.hbm, 324, rfl⟩
abbrev main_v176 : Ref sig .tc := ⟨.hbm, 325, rfl⟩
abbrev main_c_61 : Ref sig .tc := ⟨.hbm, 326, rfl⟩
abbrev main_v177 : Ref sig .tc := ⟨.hbm, 327, rfl⟩
abbrev main_v178 : Ref sig .tc := ⟨.hbm, 328, rfl⟩
abbrev main_v179 : Ref sig .tc := ⟨.hbm, 329, rfl⟩
abbrev main_v180 : Ref sig .tc := ⟨.hbm, 330, rfl⟩
abbrev main_v181 : Ref sig .tc := ⟨.hbm, 331, rfl⟩
abbrev main_v182 : Ref sig .tc := ⟨.hbm, 332, rfl⟩
abbrev main_v183 : Ref sig .tc := ⟨.hbm, 333, rfl⟩
abbrev main_v184 : Ref sig .tc := ⟨.hbm, 334, rfl⟩
abbrev main_v185 : Ref sig .tc := ⟨.hbm, 335, rfl⟩
abbrev main_v186 : Ref sig .tc := ⟨.hbm, 336, rfl⟩
abbrev main_v187 : Ref sig .tc := ⟨.hbm, 337, rfl⟩
abbrev main_call10_c : Ref sig .tc := ⟨.hbm, 338, rfl⟩
abbrev main_call10_v0 : Ref sig .tc := ⟨.hbm, 339, rfl⟩
abbrev main_call10_v1 : Ref sig .tc := ⟨.hbm, 340, rfl⟩
abbrev main_call10_c_0 : Ref sig .tc := ⟨.hbm, 341, rfl⟩
abbrev main_call10_v2 : Ref sig .tc := ⟨.hbm, 342, rfl⟩
abbrev main_call10_v3 : Ref sig .tc := ⟨.hbm, 343, rfl⟩
abbrev main_call10_v4 : Ref sig .tc := ⟨.hbm, 344, rfl⟩
abbrev main_call10_v5 : Ref sig .tc := ⟨.hbm, 345, rfl⟩
abbrev main_call10_c_1 : Ref sig .tc := ⟨.hbm, 346, rfl⟩
abbrev main_call10_c_2 : Ref sig .tc := ⟨.hbm, 347, rfl⟩
abbrev main_call10_v6 : Ref sig .tc := ⟨.hbm, 348, rfl⟩
abbrev main_call10_v7 : Ref sig .tc := ⟨.hbm, 349, rfl⟩
abbrev main_call10_v8 : Ref sig .tc := ⟨.hbm, 350, rfl⟩
abbrev main_call10_v9 : Ref sig .tc := ⟨.hbm, 351, rfl⟩
abbrev main_call10_v10 : Ref sig .tc := ⟨.hbm, 352, rfl⟩
abbrev main_call10_v11 : Ref sig .tc := ⟨.hbm, 353, rfl⟩
abbrev main_call10_c_3 : Ref sig .tc := ⟨.hbm, 354, rfl⟩
abbrev main_call10_v12 : Ref sig .tc := ⟨.hbm, 355, rfl⟩
abbrev main_call10_v13 : Ref sig .tc := ⟨.hbm, 356, rfl⟩
abbrev main_call10_cst : Ref sig .tc := ⟨.hbm, 357, rfl⟩
abbrev main_call10_v14 : Ref sig .tc := ⟨.hbm, 358, rfl⟩
abbrev main_v188 : Ref sig .tc := ⟨.hbm, 359, rfl⟩
abbrev main_v189 : Ref sig .tc := ⟨.hbm, 360, rfl⟩
abbrev main_c_62 : Ref sig .tc := ⟨.hbm, 361, rfl⟩
abbrev main_v190 : Ref sig .tc := ⟨.hbm, 362, rfl⟩
abbrev main_v191 : Ref sig .tc := ⟨.hbm, 363, rfl⟩
abbrev main_c_63 : Ref sig .tc := ⟨.hbm, 364, rfl⟩
abbrev main_v192 : Ref sig .tc := ⟨.hbm, 365, rfl⟩
abbrev main_v193 : Ref sig .tc := ⟨.hbm, 366, rfl⟩
abbrev main_v194 : Ref sig .tc := ⟨.hbm, 367, rfl⟩
abbrev main_c_64 : Ref sig .tc := ⟨.hbm, 368, rfl⟩
abbrev main_v195 : Ref sig .tc := ⟨.hbm, 369, rfl⟩
abbrev main_v196 : Ref sig .tc := ⟨.hbm, 370, rfl⟩
abbrev main_c_65 : Ref sig .tc := ⟨.hbm, 371, rfl⟩
abbrev main_v197 : Ref sig .tc := ⟨.hbm, 372, rfl⟩
abbrev main_v198 : Ref sig .tc := ⟨.hbm, 373, rfl⟩
abbrev main_v199 : Ref sig .tc := ⟨.hbm, 374, rfl⟩
abbrev main_c_66 : Ref sig .tc := ⟨.hbm, 375, rfl⟩
abbrev main_v200 : Ref sig .tc := ⟨.hbm, 376, rfl⟩
abbrev main_v201 : Ref sig .tc := ⟨.hbm, 377, rfl⟩
abbrev main_c_67 : Ref sig .tc := ⟨.hbm, 378, rfl⟩
abbrev main_v202 : Ref sig .tc := ⟨.hbm, 379, rfl⟩
abbrev main_v203 : Ref sig .tc := ⟨.hbm, 380, rfl⟩
abbrev main_v204 : Ref sig .tc := ⟨.hbm, 381, rfl⟩
abbrev main_v205 : Ref sig .tc := ⟨.hbm, 382, rfl⟩
abbrev main_v206 : Ref sig .tc := ⟨.hbm, 383, rfl⟩
abbrev main_v207 : Ref sig .tc := ⟨.hbm, 384, rfl⟩
abbrev main_v208 : Ref sig .tc := ⟨.hbm, 385, rfl⟩
abbrev main_v209 : Ref sig .tc := ⟨.hbm, 386, rfl⟩
abbrev main_v210 : Ref sig .tc := ⟨.hbm, 387, rfl⟩
abbrev main_v211 : Ref sig .tc := ⟨.hbm, 388, rfl⟩
abbrev main_c_68 : Ref sig .tc := ⟨.hbm, 389, rfl⟩
abbrev main_v212 : Ref sig .tc := ⟨.hbm, 390, rfl⟩
abbrev main_v213 : Ref sig .tc := ⟨.hbm, 391, rfl⟩
abbrev main_c_69 : Ref sig .tc := ⟨.hbm, 392, rfl⟩
abbrev main_v214 : Ref sig .tc := ⟨.hbm, 393, rfl⟩
abbrev main_v215 : Ref sig .tc := ⟨.hbm, 394, rfl⟩
abbrev main_v216 : Ref sig .tc := ⟨.hbm, 395, rfl⟩
abbrev main_c_70 : Ref sig .tc := ⟨.hbm, 396, rfl⟩
abbrev main_v217 : Ref sig .tc := ⟨.hbm, 397, rfl⟩
abbrev main_v218 : Ref sig .tc := ⟨.hbm, 398, rfl⟩
abbrev main_c_71 : Ref sig .tc := ⟨.hbm, 399, rfl⟩
abbrev main_v219 : Ref sig .tc := ⟨.hbm, 400, rfl⟩
abbrev main_v220 : Ref sig .tc := ⟨.hbm, 401, rfl⟩
abbrev main_v221 : Ref sig .tc := ⟨.hbm, 402, rfl⟩
abbrev main_c_72 : Ref sig .tc := ⟨.hbm, 403, rfl⟩
abbrev main_v222 : Ref sig .tc := ⟨.hbm, 404, rfl⟩
abbrev main_v223 : Ref sig .tc := ⟨.hbm, 405, rfl⟩
abbrev main_c_73 : Ref sig .tc := ⟨.hbm, 406, rfl⟩
abbrev main_v224 : Ref sig .tc := ⟨.hbm, 407, rfl⟩
abbrev main_v225 : Ref sig .tc := ⟨.hbm, 408, rfl⟩
abbrev main_v226 : Ref sig .tc := ⟨.hbm, 409, rfl⟩
abbrev main_v227 : Ref sig .tc := ⟨.hbm, 410, rfl⟩
abbrev main_v228 : Ref sig .tc := ⟨.hbm, 411, rfl⟩
abbrev main_v229 : Ref sig .tc := ⟨.hbm, 412, rfl⟩
abbrev main_v230 : Ref sig .tc := ⟨.hbm, 413, rfl⟩
abbrev main_v231 : Ref sig .tc := ⟨.hbm, 414, rfl⟩
abbrev main_v232 : Ref sig .tc := ⟨.hbm, 415, rfl⟩
abbrev main_v233 : Ref sig .tc := ⟨.hbm, 416, rfl⟩
abbrev main_v234 : Ref sig .tc := ⟨.hbm, 417, rfl⟩
abbrev main_call11_c : Ref sig .tc := ⟨.hbm, 418, rfl⟩
abbrev main_call11_v0 : Ref sig .tc := ⟨.hbm, 419, rfl⟩
abbrev main_call11_v1 : Ref sig .tc := ⟨.hbm, 420, rfl⟩
abbrev main_call11_c_0 : Ref sig .tc := ⟨.hbm, 421, rfl⟩
abbrev main_call11_v2 : Ref sig .tc := ⟨.hbm, 422, rfl⟩
abbrev main_call11_v3 : Ref sig .tc := ⟨.hbm, 423, rfl⟩
abbrev main_call11_v4 : Ref sig .tc := ⟨.hbm, 424, rfl⟩
abbrev main_call11_v5 : Ref sig .tc := ⟨.hbm, 425, rfl⟩
abbrev main_call11_c_1 : Ref sig .tc := ⟨.hbm, 426, rfl⟩
abbrev main_call11_c_2 : Ref sig .tc := ⟨.hbm, 427, rfl⟩
abbrev main_call11_v6 : Ref sig .tc := ⟨.hbm, 428, rfl⟩
abbrev main_call11_v7 : Ref sig .tc := ⟨.hbm, 429, rfl⟩
abbrev main_call11_v8 : Ref sig .tc := ⟨.hbm, 430, rfl⟩
abbrev main_call11_v9 : Ref sig .tc := ⟨.hbm, 431, rfl⟩
abbrev main_call11_v10 : Ref sig .tc := ⟨.hbm, 432, rfl⟩
abbrev main_call11_v11 : Ref sig .tc := ⟨.hbm, 433, rfl⟩
abbrev main_call11_c_3 : Ref sig .tc := ⟨.hbm, 434, rfl⟩
abbrev main_call11_v12 : Ref sig .tc := ⟨.hbm, 435, rfl⟩
abbrev main_call11_v13 : Ref sig .tc := ⟨.hbm, 436, rfl⟩
abbrev main_call11_cst : Ref sig .tc := ⟨.hbm, 437, rfl⟩
abbrev main_call11_v14 : Ref sig .tc := ⟨.hbm, 438, rfl⟩
abbrev main_v235 : Ref sig .tc := ⟨.hbm, 439, rfl⟩
abbrev main_v236 : Ref sig .tc := ⟨.hbm, 440, rfl⟩
abbrev main_c_74 : Ref sig .tc := ⟨.hbm, 441, rfl⟩
abbrev main_v237 : Ref sig .tc := ⟨.hbm, 442, rfl⟩
abbrev main_v238 : Ref sig .tc := ⟨.hbm, 443, rfl⟩
abbrev main_c_75 : Ref sig .tc := ⟨.hbm, 444, rfl⟩
abbrev main_v239 : Ref sig .tc := ⟨.hbm, 445, rfl⟩
abbrev main_v240 : Ref sig .tc := ⟨.hbm, 446, rfl⟩
abbrev main_v241 : Ref sig .tc := ⟨.hbm, 447, rfl⟩
abbrev main_c_76 : Ref sig .tc := ⟨.hbm, 448, rfl⟩
abbrev main_v242 : Ref sig .tc := ⟨.hbm, 449, rfl⟩
abbrev main_v243 : Ref sig .tc := ⟨.hbm, 450, rfl⟩
abbrev main_c_77 : Ref sig .tc := ⟨.hbm, 451, rfl⟩
abbrev main_v244 : Ref sig .tc := ⟨.hbm, 452, rfl⟩
abbrev main_v245 : Ref sig .tc := ⟨.hbm, 453, rfl⟩
abbrev main_v246 : Ref sig .tc := ⟨.hbm, 454, rfl⟩
abbrev main_c_78 : Ref sig .tc := ⟨.hbm, 455, rfl⟩
abbrev main_v247 : Ref sig .tc := ⟨.hbm, 456, rfl⟩
abbrev main_v248 : Ref sig .tc := ⟨.hbm, 457, rfl⟩
abbrev main_c_79 : Ref sig .tc := ⟨.hbm, 458, rfl⟩
abbrev main_v249 : Ref sig .tc := ⟨.hbm, 459, rfl⟩
abbrev main_v250 : Ref sig .tc := ⟨.hbm, 460, rfl⟩
abbrev main_v251 : Ref sig .tc := ⟨.hbm, 461, rfl⟩
abbrev main_v252 : Ref sig .tc := ⟨.hbm, 462, rfl⟩
abbrev main_v253 : Ref sig .tc := ⟨.hbm, 463, rfl⟩
abbrev main_v254 : Ref sig .tc := ⟨.hbm, 464, rfl⟩
abbrev main_v255 : Ref sig .tc := ⟨.hbm, 465, rfl⟩
abbrev main_v256 : Ref sig .tc := ⟨.hbm, 466, rfl⟩
abbrev main_v257 : Ref sig .tc := ⟨.hbm, 467, rfl⟩
abbrev main_v258 : Ref sig .tc := ⟨.hbm, 468, rfl⟩
abbrev main_c_80 : Ref sig .tc := ⟨.hbm, 469, rfl⟩
abbrev main_v259 : Ref sig .tc := ⟨.hbm, 470, rfl⟩
abbrev main_v260 : Ref sig .tc := ⟨.hbm, 471, rfl⟩
abbrev main_c_81 : Ref sig .tc := ⟨.hbm, 472, rfl⟩
abbrev main_v261 : Ref sig .tc := ⟨.hbm, 473, rfl⟩
abbrev main_v262 : Ref sig .tc := ⟨.hbm, 474, rfl⟩
abbrev main_v263 : Ref sig .tc := ⟨.hbm, 475, rfl⟩
abbrev main_c_82 : Ref sig .tc := ⟨.hbm, 476, rfl⟩
abbrev main_v264 : Ref sig .tc := ⟨.hbm, 477, rfl⟩
abbrev main_v265 : Ref sig .tc := ⟨.hbm, 478, rfl⟩
abbrev main_c_83 : Ref sig .tc := ⟨.hbm, 479, rfl⟩
abbrev main_v266 : Ref sig .tc := ⟨.hbm, 480, rfl⟩
abbrev main_v267 : Ref sig .tc := ⟨.hbm, 481, rfl⟩
abbrev main_v268 : Ref sig .tc := ⟨.hbm, 482, rfl⟩
abbrev main_c_84 : Ref sig .tc := ⟨.hbm, 483, rfl⟩
abbrev main_v269 : Ref sig .tc := ⟨.hbm, 484, rfl⟩
abbrev main_v270 : Ref sig .tc := ⟨.hbm, 485, rfl⟩
abbrev main_c_85 : Ref sig .tc := ⟨.hbm, 486, rfl⟩
abbrev main_v271 : Ref sig .tc := ⟨.hbm, 487, rfl⟩
abbrev main_v272 : Ref sig .tc := ⟨.hbm, 488, rfl⟩
abbrev main_v273 : Ref sig .tc := ⟨.hbm, 489, rfl⟩
abbrev main_v274 : Ref sig .tc := ⟨.hbm, 490, rfl⟩
abbrev main_v275 : Ref sig .tc := ⟨.hbm, 491, rfl⟩
abbrev main_v276 : Ref sig .tc := ⟨.hbm, 492, rfl⟩
abbrev main_v277 : Ref sig .tc := ⟨.hbm, 493, rfl⟩
abbrev main_v278 : Ref sig .tc := ⟨.hbm, 494, rfl⟩
abbrev main_v279 : Ref sig .tc := ⟨.hbm, 495, rfl⟩
abbrev main_v280 : Ref sig .tc := ⟨.hbm, 496, rfl⟩
abbrev main_v281 : Ref sig .tc := ⟨.hbm, 497, rfl⟩
abbrev main_v282 : Ref sig .tc := ⟨.hbm, 498, rfl⟩
abbrev main_v283 : Ref sig .tc := ⟨.hbm, 499, rfl⟩
abbrev main_v284 : Ref sig .tc := ⟨.hbm, 500, rfl⟩
abbrev main_v285 : Ref sig .tc := ⟨.hbm, 501, rfl⟩
abbrev main_v286 : Ref sig .tc := ⟨.hbm, 502, rfl⟩
abbrev main_v287 : Ref sig .tc := ⟨.hbm, 503, rfl⟩

abbrev nD : Nat := 1
abbrev τ : Topo := Topo.v7x

variable {F : FTy → Type} [FloatOps F]

class Facts₀ : Prop where
  slices_S4x2x64x64_S4x1x64x64_0_0_0_0 : S4x2x64x64.Slices ![0, 0, 0, 0] S4x1x64x64
  shapeCasts_S4x1x64x64_S4x64x64 : S4x1x64x64.ShapeCasts S4x64x64
  bcast_S_S4x64x64 : S_.BroadcastsInDim S4x64x64 (![] : Fin 0 → Fin S4x64x64.rank)
  slices_S4x2x64x64_S4x1x64x64_0_1_0_0 : S4x2x64x64.Slices ![0, 1, 0, 0] S4x1x64x64
  shapeCasts_S4x64x64_S4x4096 : S4x64x64.ShapeCasts S4x4096
  transposes_S4x4096x4096_S4x4096x4096_0_2_1 : S4x4096x4096.Transposes [0, 2, 1] S4x4096x4096
  bcast_S4_S4x1_0 : S4.BroadcastsInDim S4x1 (![0] : Fin 1 → Fin S4x1.rank)
  bcast_S4096_S1x4096_1 : S4096.BroadcastsInDim S1x4096 (![1] : Fin 1 → Fin S1x4096.rank)
  bcast_S_S4x4096x4096 : S_.BroadcastsInDim S4x4096x4096 (![] : Fin 0 → Fin S4x4096x4096.rank)
  bcast_S4x4096_S4x1x4096_0_2 : S4x4096.BroadcastsInDim S4x1x4096 (![0, 2] : Fin 2 → Fin S4x1x4096.rank)
  bcast_S_S4x1x4096 : S_.BroadcastsInDim S4x1x4096 (![] : Fin 0 → Fin S4x1x4096.rank)
  shapeCasts_S4x1x4096_S4x1x4096x1 : S4x1x4096.ShapeCasts S4x1x4096x1
  bcast_S_S4x1x4096x1 : S_.BroadcastsInDim S4x1x4096x1 (![] : Fin 0 → Fin S4x1x4096x1.rank)
  bcast_S1_S1x1x1x1_3 : S1.BroadcastsInDim S1x1x1x1 (![3] : Fin 1 → Fin S1x1x1x1.rank)
  bcast_S1x1x1x1_S4x1x4096x1_0_1_2_3 : S1x1x1x1.BroadcastsInDim S4x1x4096x1 (![0, 1, 2, 3] : Fin 4 → Fin S4x1x4096x1.rank)
  reducesTo_S4x1x4096x1_S4x1x4096_d3 : S4x1x4096x1.ReducesTo [3] S4x1x4096
  h_S_ : 0 < S_.numel
  shapeCasts_S4x1x4096_S4x4096 : S4x1x4096.ShapeCasts S4x4096
  bcast_S_S4x1 : S_.BroadcastsInDim S4x1 (![] : Fin 0 → Fin S4x1.rank)
  bcast_S_S4x4096 : S_.BroadcastsInDim S4x4096 (![] : Fin 0 → Fin S4x4096.rank)
  bcast_S_S1x4096 : S_.BroadcastsInDim S1x4096 (![] : Fin 0 → Fin S1x4096.rank)
  bcast_S4x1_S4x4096_0_1 : S4x1.BroadcastsInDim S4x4096 (![0, 1] : Fin 2 → Fin S4x4096.rank)
  bcast_S1x4096_S4x4096_0_1 : S1x4096.BroadcastsInDim S4x4096 (![0, 1] : Fin 2 → Fin S4x4096.rank)
  bcast_S4x4096_S4x4096x1_0_1 : S4x4096.BroadcastsInDim S4x4096x1 (![0, 1] : Fin 2 → Fin S4x4096x1.rank)
  concatenates_S4x4096x1_S4x4096x1_S4x4096x1_S4x4096x3_d2 : Shape.Concatenates [S4x4096x1, S4x4096x1, S4x4096x1] S4x4096x3 2
  shapeCasts_S4x3x64x64_S4x3x4096 : S4x3x64x64.ShapeCasts S4x3x4096
  shapeCasts_S4x3x4096_S4x3x64x64 : S4x3x4096.ShapeCasts S4x3x64x64
  gather_S4x4096x4096_S4x1x4096x1_S4x1x4096_n_1_02_02_1_3_111_wf : GatherDims.WF S4x4096x4096 S4x1x4096x1 S4x1x4096 [] [1] [0, 2] [1] [0, 2] 3 ![1, 1, 1]
  scatter_S4x4096x4096_S4x4096x3_S4x4096_n_012_012_2_wf : ScatterDims.WF S4x4096x4096 S4x4096x3 S4x4096 [] [0, 1, 2] [0, 1, 2] 2
  dot_S4x3x4096_S4x4096x4096_S4x3x4096_2_2_1_1_0_0_wf : DotDims.WF S4x3x4096 S4x4096x4096 S4x3x4096 [2] [2] [1] [1] [0] [0]

variable [Facts₀]

def gather_S4x4096x4096_S4x1x4096x1_S4x1x4096_n_1_02_02_1_3_111 : GatherDims S4x4096x4096 S4x1x4096x1 S4x1x4096 where
  offsetDims := []
  collapsedSliceDims := [1]
  operandBatchingDims := [0, 2]
  startIndicesBatchingDims := [0, 2]
  startIndexMap := [1]
  indexVectorDim := 3
  sliceSizes := ![1, 1, 1]
  wf := gather_S4x4096x4096_S4x1x4096x1_S4x1x4096_n_1_02_02_1_3_111_wf
def scatter_S4x4096x4096_S4x4096x3_S4x4096_n_012_012_2 : ScatterDims S4x4096x4096 S4x4096x3 S4x4096 where
  updateWindowDims := []
  insertedWindowDims := [0, 1, 2]
  scatterDimsToOperandDims := [0, 1, 2]
  indexVectorDim := 2
  wf := scatter_S4x4096x4096_S4x4096x3_S4x4096_n_012_012_2_wf
def dot_S4x3x4096_S4x4096x4096_S4x3x4096_2_2_1_1_0_0 : DotDims S4x3x4096 S4x4096x4096 S4x3x4096 where
  lhsContracting := [2]
  rhsContracting := [2]
  lhsNonContracting := [1]
  rhsNonContracting := [1]
  lhsBatch := [0]
  rhsBatch := [0]
  wf := dot_S4x3x4096_S4x4096x4096_S4x3x4096_2_2_1_1_0_0_wf

class Facts : Prop extends Facts₀ where

variable [Facts]
-- ==== Proof.FrameB.lean ====
/- The frame of `Kernel`: @main around its one region (nineteen stretches of host operations, the region,
   one closing stretch), the arrays as the region finds them, each window's block at a grid point, what the body
   leaves in the two output windows (the canon of its one covering store into each), the body's triple, the proof
   data, the run and the frame claim at any `F`. -/
import proofs.«164663_j64072322121837_2_alg».proof.Proof.Gen.Kernel.Launch
import proofs.«164663_j64072322121837_2_alg».proof.Proof.Gen.Kernel.Skeleton
import proofs.«164663_j64072322121837_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s buffer contents when the region is entered: after the nineteen stretches of host operations that
    precede it, in order, from the launch contents. -/
abbrev V0 (c : Dev nD) : Valuation τ sig (Elt F) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18]) (fun b => m (c, b))
/-- The same read at a TensorCore reference. -/
abbrev V (c : Dev nD) (b : Ref sig .tc) : Buf (Elt F) ((c : Thread nD τ).loc b) := V0 m c (Proc.devRef .tc b)

/-! No host operation allocates, and none writes an argument array: each writes its one result buffer, a
    reference other than the four arguments. Stated stretch by stretch, so that no single simplification
    enumerates all of @main. -/

theorem hostOps0_fresh : (hostOps0 : List (HloOp τ sig (Elt F))).Forall fun op => op.fresh = ∅ := by
  simp only [List.Forall]; repeat' constructor
theorem hostOps0_args : ∀ op ∈ (hostOps0 : List (HloOp τ sig (Elt F))),
    Proc.devRef .tc main_arg0 ∉ op.writes ∧ Proc.devRef .tc main_arg1 ∉ op.writes
      ∧ Proc.devRef .tc main_arg2 ∉ op.writes ∧ Proc.devRef .tc main_arg3 ∉ op.writes :=
  List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_1_fresh : (hostOps0_1 : List (HloOp τ sig (Elt F))).Forall fun op => op.fresh = ∅ := by
  simp only [List.Forall]; repeat' constructor
theorem hostOps0_1_args : ∀ op ∈ (hostOps0_1 : List (HloOp τ sig (Elt F))),
    Proc.devRef .tc main_arg0 ∉ op.writes ∧ Proc.devRef .tc main_arg1 ∉ op.writes
      ∧ Proc.devRef .tc main_arg2 ∉ op.writes ∧ Proc.devRef .tc main_arg3 ∉ op.writes :=
  List.forall_iff_forall_mem.mp (by
    simp only [hostOps0_1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_2_fresh : (hostOps0_2 : List (HloOp τ sig (Elt F))).Forall fun op => op.fresh = ∅ := by
  simp only [List.Forall]; repeat' constructor
theorem hostOps0_2_args : ∀ op ∈ (hostOps0_2 : List (HloOp τ sig (Elt F))),
    Proc.devRef .tc main_arg0 ∉ op.writes ∧ Proc.devRef .tc main_arg1 ∉ op.writes
      ∧ Proc.devRef .tc main_arg2 ∉ op.writes ∧ Proc.devRef .tc main_arg3 ∉ op.writes :=
  List.forall_iff_forall_mem.mp (by
    simp only [hostOps0_2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_3_fresh : (hostOps0_3 : List (HloOp τ sig (Elt F))).Forall fun op => op.fresh = ∅ := by
  simp only [List.Forall]; repeat' constructor
theorem hostOps0_3_args : ∀ op ∈ (hostOps0_3 : List (HloOp τ sig (Elt F))),
    Proc.devRef .tc main_arg0 ∉ op.writes ∧ Proc.devRef .tc main_arg1 ∉ op.writes
      ∧ Proc.devRef .tc main_arg2 ∉ op.writes ∧ Proc.devRef .tc main_arg3 ∉ op.writes :=
  List.forall_iff_forall_mem.mp (by
    simp only [hostOps0_3, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_4_fresh : (hostOps0_4 : List (HloOp τ sig (Elt F))).Forall fun op => op.fresh = ∅ := by
  simp only [List.Forall]; repeat' constructor
theorem hostOps0_4_args : ∀ op ∈ (hostOps0_4 : List (HloOp τ sig (Elt F))),
    Proc.devRef .tc main_arg0 ∉ op.writes ∧ Proc.devRef .tc main_arg1 ∉ op.writes
      ∧ Proc.devRef .tc main_arg2 ∉ op.writes ∧ Proc.devRef .tc main_arg3 ∉ op.writes :=
  List.forall_iff_forall_mem.mp (by
    simp only [hostOps0_4, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_5_fresh : (hostOps0_5 : List (HloOp τ sig (Elt F))).Forall fun op => op.fresh = ∅ := by
  simp only [List.Forall]; repeat' constructor
theorem hostOps0_5_args : ∀ op ∈ (hostOps0_5 : List (HloOp τ sig (Elt F))),
    Proc.devRef .tc main_arg0 ∉ op.writes ∧ Proc.devRef .tc main_arg1 ∉ op.writes
      ∧ Proc.devRef .tc main_arg2 ∉ op.writes ∧ Proc.devRef .tc main_arg3 ∉ op.writes :=
  List.forall_iff_forall_mem.mp (by
    simp only [hostOps0_5, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_6_fresh : (hostOps0_6 : List (HloOp τ sig (Elt F))).Forall fun op => op.fresh = ∅ := by
  simp only [List.Forall]; repeat' constructor
theorem hostOps0_6_args : ∀ op ∈ (hostOps0_6 : List (HloOp τ sig (Elt F))),
    Proc.devRef .tc main_arg0 ∉ op.writes ∧ Proc.devRef .tc main_arg1 ∉ op.writes
      ∧ Proc.devRef .tc main_arg2 ∉ op.writes ∧ Proc.devRef .tc main_arg3 ∉ op.writes :=
  List.forall_iff_forall_mem.mp (by
    simp only [hostOps0_6, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_7_fresh : (hostOps0_7 : List (HloOp τ sig (Elt F))).Forall fun op => op.fresh = ∅ := by
  simp only [List.Forall]; repeat' constructor
theorem hostOps0_7_args : ∀ op ∈ (hostOps0_7 : List (HloOp τ sig (Elt F))),
    Proc.devRef .tc main_arg0 ∉ op.writes ∧ Proc.devRef .tc main_arg1 ∉ op.writes
      ∧ Proc.devRef .tc main_arg2 ∉ op.writes ∧ Proc.devRef .tc main_arg3 ∉ op.writes :=
  List.forall_iff_forall_mem.mp (by
    simp only [hostOps0_7, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_8_fresh : (hostOps0_8 : List (HloOp τ sig (Elt F))).Forall fun op => op.fresh = ∅ := by
  simp only [List.Forall]; repeat' constructor
theorem hostOps0_8_args : ∀ op ∈ (hostOps0_8 : List (HloOp τ sig (Elt F))),
    Proc.devRef .tc main_arg0 ∉ op.writes ∧ Proc.devRef .tc main_arg1 ∉ op.writes
      ∧ Proc.devRef .tc main_arg2 ∉ op.writes ∧ Proc.devRef .tc main_arg3 ∉ op.writes :=
  List.forall_iff_forall_mem.mp (by
    simp only [hostOps0_8, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_9_fresh : (hostOps0_9 : List (HloOp τ sig (Elt F))).Forall fun op => op.fresh = ∅ := by
  simp only [List.Forall]; repeat' constructor
theorem hostOps0_9_args : ∀ op ∈ (hostOps0_9 : List (HloOp τ sig (Elt F))),
    Proc.devRef .tc main_arg0 ∉ op.writes ∧ Proc.devRef .tc main_arg1 ∉ op.writes
      ∧ Proc.devRef .tc main_arg2 ∉ op.writes ∧ Proc.devRef .tc main_arg3 ∉ op.writes :=
  List.forall_iff_forall_mem.mp (by
    simp only [hostOps0_9, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_10_fresh : (hostOps0_10 : List (HloOp τ sig (Elt F))).Forall fun op => op.fresh = ∅ := by
  simp only [List.Forall]; repeat' constructor
theorem hostOps0_10_args : ∀ op ∈ (hostOps0_10 : List (HloOp τ sig (Elt F))),
    Proc.devRef .tc main_arg0 ∉ op.writes ∧ Proc.devRef .tc main_arg1 ∉ op.writes
      ∧ Proc.devRef .tc main_arg2 ∉ op.writes ∧ Proc.devRef .tc main_arg3 ∉ op.writes :=
  List.forall_iff_forall_mem.mp (by
    simp only [hostOps0_10, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_11_fresh : (hostOps0_11 : List (HloOp τ sig (Elt F))).Forall fun op => op.fresh = ∅ := by
  simp only [List.Forall]; repeat' constructor
theorem hostOps0_11_args : ∀ op ∈ (hostOps0_11 : List (HloOp τ sig (Elt F))),
    Proc.devRef .tc main_arg0 ∉ op.writes ∧ Proc.devRef .tc main_arg1 ∉ op.writes
      ∧ Proc.devRef .tc main_arg2 ∉ op.writes ∧ Proc.devRef .tc main_arg3 ∉ op.writes :=
  List.forall_iff_forall_mem.mp (by
    simp only [hostOps0_11, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_12_fresh : (hostOps0_12 : List (HloOp τ sig (Elt F))).Forall fun op => op.fresh = ∅ := by
  simp only [List.Forall]; repeat' constructor
theorem hostOps0_12_args : ∀ op ∈ (hostOps0_12 : List (HloOp τ sig (Elt F))),
    Proc.devRef .tc main_arg0 ∉ op.writes ∧ Proc.devRef .tc main_arg1 ∉ op.writes
      ∧ Proc.devRef .tc main_arg2 ∉ op.writes ∧ Proc.devRef .tc main_arg3 ∉ op.writes :=
  List.forall_iff_forall_mem.mp (by
    simp only [hostOps0_12, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_13_fresh : (hostOps0_13 : List (HloOp τ sig (Elt F))).Forall fun op => op.fresh = ∅ := by
  simp only [List.Forall]; repeat' constructor
theorem hostOps0_13_args : ∀ op ∈ (hostOps0_13 : List (HloOp τ sig (Elt F))),
    Proc.devRef .tc main_arg0 ∉ op.writes ∧ Proc.devRef .tc main_arg1 ∉ op.writes
      ∧ Proc.devRef .tc main_arg2 ∉ op.writes ∧ Proc.devRef .tc main_arg3 ∉ op.writes :=
  List.forall_iff_forall_mem.mp (by
    simp only [hostOps0_13, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_14_fresh : (hostOps0_14 : List (HloOp τ sig (Elt F))).Forall fun op => op.fresh = ∅ := by
  simp only [List.Forall]; repeat' constructor
theorem hostOps0_14_args : ∀ op ∈ (hostOps0_14 : List (HloOp τ sig (Elt F))),
    Proc.devRef .tc main_arg0 ∉ op.writes ∧ Proc.devRef .tc main_arg1 ∉ op.writes
      ∧ Proc.devRef .tc main_arg2 ∉ op.writes ∧ Proc.devRef .tc main_arg3 ∉ op.writes :=
  List.forall_iff_forall_mem.mp (by
    simp only [hostOps0_14, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_15_fresh : (hostOps0_15 : List (HloOp τ sig (Elt F))).Forall fun op => op.fresh = ∅ := by
  simp only [List.Forall]; repeat' constructor
theorem hostOps0_15_args : ∀ op ∈ (hostOps0_15 : List (HloOp τ sig (Elt F))),
    Proc.devRef .tc main_arg0 ∉ op.writes ∧ Proc.devRef .tc main_arg1 ∉ op.writes
      ∧ Proc.devRef .tc main_arg2 ∉ op.writes ∧ Proc.devRef .tc main_arg3 ∉ op.writes :=
  List.forall_iff_forall_mem.mp (by
    simp only [hostOps0_15, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_16_fresh : (hostOps0_16 : List (HloOp τ sig (Elt F))).Forall fun op => op.fresh = ∅ := by
  simp only [List.Forall]; repeat' constructor
theorem hostOps0_16_args : ∀ op ∈ (hostOps0_16 : List (HloOp τ sig (Elt F))),
    Proc.devRef .tc main_arg0 ∉ op.writes ∧ Proc.devRef .tc main_arg1 ∉ op.writes
      ∧ Proc.devRef .tc main_arg2 ∉ op.writes ∧ Proc.devRef .tc main_arg3 ∉ op.writes :=
  List.forall_iff_forall_mem.mp (by
    simp only [hostOps0_16, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_17_fresh : (hostOps0_17 : List (HloOp τ sig (Elt F))).Forall fun op => op.fresh = ∅ := by
  simp only [List.Forall]; repeat' constructor
theorem hostOps0_17_args : ∀ op ∈ (hostOps0_17 : List (HloOp τ sig (Elt F))),
    Proc.devRef .tc main_arg0 ∉ op.writes ∧ Proc.devRef .tc main_arg1 ∉ op.writes
      ∧ Proc.devRef .tc main_arg2 ∉ op.writes ∧ Proc.devRef .tc main_arg3 ∉ op.writes :=
  List.forall_iff_forall_mem.mp (by
    simp only [hostOps0_17, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_18_fresh : (hostOps0_18 : List (HloOp τ sig (Elt F))).Forall fun op => op.fresh = ∅ := by
  simp only [List.Forall]; repeat' constructor
theorem hostOps0_18_args : ∀ op ∈ (hostOps0_18 : List (HloOp τ sig (Elt F))),
    Proc.devRef .tc main_arg0 ∉ op.writes ∧ Proc.devRef .tc main_arg1 ∉ op.writes
      ∧ Proc.devRef .tc main_arg2 ∉ op.writes ∧ Proc.devRef .tc main_arg3 ∉ op.writes :=
  List.forall_iff_forall_mem.mp (by
    simp only [hostOps0_18, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps1_fresh : (hostOps1 : List (HloOp τ sig (Elt F))).Forall fun op => op.fresh = ∅ := by
  simp only [List.Forall]; repeat' constructor
theorem hostOps1_args : ∀ op ∈ (hostOps1 : List (HloOp τ sig (Elt F))),
    Proc.devRef .tc main_arg0 ∉ op.writes ∧ Proc.devRef .tc main_arg1 ∉ op.writes
      ∧ Proc.devRef .tc main_arg2 ∉ op.writes ∧ Proc.devRef .tc main_arg3 ∉ op.writes :=
  List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))

/-- Every operation before the region leaves the four argument arrays alone. -/
theorem pre_args : ∀ op ∈ List.flatten [(hostOps0 : List (HloOp τ sig (Elt F))), (hostOps0_1 : List (HloOp τ sig (Elt F))), (hostOps0_2 : List (HloOp τ sig (Elt F))), (hostOps0_3 : List (HloOp τ sig (Elt F))), (hostOps0_4 : List (HloOp τ sig (Elt F))), (hostOps0_5 : List (HloOp τ sig (Elt F))), (hostOps0_6 : List (HloOp τ sig (Elt F))), (hostOps0_7 : List (HloOp τ sig (Elt F))), (hostOps0_8 : List (HloOp τ sig (Elt F))), (hostOps0_9 : List (HloOp τ sig (Elt F))), (hostOps0_10 : List (HloOp τ sig (Elt F))), (hostOps0_11 : List (HloOp τ sig (Elt F))), (hostOps0_12 : List (HloOp τ sig (Elt F))), (hostOps0_13 : List (HloOp τ sig (Elt F))), (hostOps0_14 : List (HloOp τ sig (Elt F))), (hostOps0_15 : List (HloOp τ sig (Elt F))), (hostOps0_16 : List (HloOp τ sig (Elt F))), (hostOps0_17 : List (HloOp τ sig (Elt F))), (hostOps0_18 : List (HloOp τ sig (Elt F)))],
    Proc.devRef .tc main_arg0 ∉ op.writes ∧ Proc.devRef .tc main_arg1 ∉ op.writes
      ∧ Proc.devRef .tc main_arg2 ∉ op.writes ∧ Proc.devRef .tc main_arg3 ∉ op.writes := by
  intro op hop
  obtain ⟨ops, hops, hop⟩ := List.mem_flatten.mp hop
  simp only [List.mem_cons, List.mem_nil_iff, or_false] at hops
  rcases hops with rfl | rfl | rfl | rfl | rfl | rfl | rfl | rfl | rfl | rfl | rfl | rfl | rfl | rfl | rfl | rfl | rfl | rfl | rfl
  · exact hostOps0_args op hop
  · exact hostOps0_1_args op hop
  · exact hostOps0_2_args op hop
  · exact hostOps0_3_args op hop
  · exact hostOps0_4_args op hop
  · exact hostOps0_5_args op hop
  · exact hostOps0_6_args op hop
  · exact hostOps0_7_args op hop
  · exact hostOps0_8_args op hop
  · exact hostOps0_9_args op hop
  · exact hostOps0_10_args op hop
  · exact hostOps0_11_args op hop
  · exact hostOps0_12_args op hop
  · exact hostOps0_13_args op hop
  · exact hostOps0_14_args op hop
  · exact hostOps0_15_args op hop
  · exact hostOps0_16_args op hop
  · exact hostOps0_17_args op hop
  · exact hostOps0_18_args op hop

/-- @main around the region: the stretches before it, the region, the closing stretch
    (`Pipeline.hmain_around`, off `main_chain`): it reduces to the region continued by the closing stretch. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18] [hostOps1]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh⟩) main_chain

/-! ## The closing stretch -/

/-- The closing stretch touches unscoped TensorCore references only: with nothing prefetched these are the
    pipeline's arrays and the buffers that bypass the region. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- And it writes no array of the pipeline: each of its four operations writes its own result buffer. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide)

/-! ## The argument arrays, at the region's entry and at the end -/

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ fun op hop => (pre_args op hop).1

/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ fun op hop => (pre_args op hop).2.1

/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ fun op hop => (pre_args op hop).2.2.1

/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ fun op hop => (pre_args op hop).2.2.2

/-- `main_arg1` is no array of the pipeline and the closing stretch does not write it: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (fun op hop => by
      rw [List.flatten_cons, List.flatten_nil, List.append_nil] at hop
      exact (hostOps1_args op hop).2.1),
    Pipeline.withArrays_of_ne _ c (V0 m c) _ main_arg1 (by exact (by decide : ∀ w, Pipeline.arrRef spec0 w ≠ main_arg1))]
  exact V_main_arg1 m c

/-- `main_arg2` is no array of the pipeline and the closing stretch does not write it: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (fun op hop => by
      rw [List.flatten_cons, List.flatten_nil, List.append_nil] at hop
      exact (hostOps1_args op hop).2.2.1),
    Pipeline.withArrays_of_ne _ c (V0 m c) _ main_arg2 (by exact (by decide : ∀ w, Pipeline.arrRef spec0 w ≠ main_arg2))]
  exact V_main_arg2 m c

/-- `main_arg3` is no array of the pipeline and the closing stretch does not write it: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (fun op hop => by
      rw [List.flatten_cons, List.flatten_nil, List.append_nil] at hop
      exact (hostOps1_args op hop).2.2.2),
    Pipeline.withArrays_of_ne _ c (V0 m c) _ main_arg3 (by exact (by decide : ∀ w, Pipeline.arrRef spec0 w ≠ main_arg3))]
  exact V_main_arg3 m c

/-- `main_arg0` is window 0's array, an input: the region leaves it as it found it, and the closing stretch
    does not write it. -/
theorem W_main_arg0 (dats : (p : Fin _) → (c : Dev nD) → Dat τ (Elt F) Unit ℕ (UR sig nD τ) ℕ (cfgs p) c)
    (hA : ∀ c, (dats 0 c).A 0 = V m c (Pipeline.arrRef spec0 0)) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (fun op hop => by
      rw [List.flatten_cons, List.flatten_nil, List.append_nil] at hop
      exact (hostOps1_args op hop).1)]
  exact (Pipeline.withArrays_arr (cfgs 0).spec launch0.win.arr_inj c (V0 m c) _ 0).trans
    (((dats 0 c).arrAt_in 0 rfl _).trans ((hA c).trans (V_main_arg0 m c)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, for any proof data whose array is
    `V`'s (`hA`) and whose body leaves the block in place (`hafter`): the window is uncut, never idle, and
    fetched at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, for any proof data whose array is
    `V`'s (`hA`) and whose body leaves the block in place (`hafter`): the window is uncut, never idle, and
    fetched at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, for any proof data whose array is
    `V`'s (`hA`) and whose body leaves the block in place (`hafter`): the window is uncut, never idle, and
    fetched at every point. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, for any proof data whose array is
    `V`'s (`hA`) and whose body leaves the block in place (`hafter`): the window is uncut, never idle, and
    fetched at every point. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame from a frame run: for any proof data whose arrays are the region-entry contents (`hA`), a run to
    `FramePost` read at the argument arrays — `main_arg0`, window 0's input array, by `Dat.arrAt_in`; the other
    three, which no window stages, by the post's second clause and `W_main_argK` — is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c)⟩) h

/-! ## The body's accesses -/

/-- The whole of each buffer shape the body touches, as a rectangle. -/
abbrev r0_0 : Rect S1x256x4096 := Rect.unit (s := S1x256x4096) ![0, 0, 0] S1x256x4096.size inb_S1x256x4096_S1x256x4096_0_0_0
abbrev r0_1 : Rect S1x256x4 := Rect.unit (s := S1x256x4) ![0, 0, 0] S1x256x4.size inb_S1x256x4_S1x256x4_0_0_0
abbrev r0_2 : Rect S1x256x4x3 := Rect.unit (s := S1x256x4x3) ![0, 0, 0, 0] S1x256x4x3.size inb_S1x256x4x3_S1x256x4x3_0_0_0_0
abbrev r0_3 : Rect S1x256x3 := Rect.unit (s := S1x256x3) ![0, 0, 0] S1x256x3.size inb_S1x256x3_S1x256x3_0_0_0

/-! ## What the body leaves in each output window's buffer -/

/-- Window 4's staging buffer after the body, from the input windows' blocks: its one whole-buffer store as a
    piece (`View.canon`), the payload the skeleton's — the four-term weighted sum of the gathered rows of window 2's
    block, the weights products of window 1's distinctness indicators and window 3's block. -/
def out0_4 (x0 : Vec F S1x256x4096 .f32) (x1 : Vec F S1x256x4 .i32) (x2 : Vec F S1x256x4x3 .f32) (x3 : Vec F S1x256x4 .f32) : Vec F S1x256x3 .f32 :=
  View.canon [⟨r0_3, k0_pay3 (k0_pay7 (View.ld x2 r0_2)) (k0_pay8 (View.ld x3 r0_1))
    (k0_pay21 (k0_pay6 (View.ld x1 r0_1)) (k0_pay7 (View.ld x2 r0_2)) (k0_pay8 (View.ld x3 r0_1)) (k0_pay13 (View.ld x1 r0_1) (View.ld x2 r0_2) (View.ld x3 r0_1))) 1#1⟩]

/-- Window 5's staging buffer after the body: its one whole-buffer store as a piece — the same sum with the weights
    taken from window 0's block at the columns window 1's block names. -/
def out0_5 (x0 : Vec F S1x256x4096 .f32) (x1 : Vec F S1x256x4 .i32) (x2 : Vec F S1x256x4x3 .f32) (x3 : Vec F S1x256x4 .f32) : Vec F S1x256x3 .f32 :=
  View.canon [⟨r0_3, k0_pay4 (k0_pay5 (View.ld x0 r0_0)) (k0_pay7 (View.ld x2 r0_2)) (iota .tc S256x4096 32 [1] iota_S256x4096_d1_w32)
    (k0_pay22 (k0_pay5 (View.ld x0 r0_0)) (k0_pay6 (View.ld x1 r0_1)) (k0_pay7 (View.ld x2 r0_2)) (iota .tc S256x4096 32 [1] iota_S256x4096_d1_w32) (k0_pay9 (F := F)) (k0_pay14 (View.ld x0 r0_0) (View.ld x1 r0_1) (View.ld x2 r0_2)))
    (k0_pay23 (k0_pay6 (View.ld x1 r0_1))) 1#1⟩]

/-- One store over the whole buffer covers it. -/
theorem cover0_3 (p0 : Vec F S1x256x3 .f32) (y : S1x256x3.Idx) :
    ∃ pc ∈ ([⟨r0_3, p0⟩] : List (View.Piece (Elt F) S1x256x3 .f32)), y ∈ pc.1.set :=
  View.cover_of_tiled [⟨r0_3, p0⟩] S1x256x3.size (by rfl) y

/-! ## The body's triple -/

set_option maxHeartbeats 4000000 in
/-- The kernel body on whole staging memrefs, the inputs' at read contents `xW` and the outputs' at anything, runs
    to the continuation holding the inputs' as they were and each output's at `out0_W` of the inputs': the body
    loads the four inputs whole, loads each output whole (a value it does not use) and then stores over the whole
    of it once. -/
theorem sound_kernel (c : Dev nD) (E : Set ℕ) (i : grid0.Coords) (arg2 : Memref sig .tc .vmem S1x256x4096 .f32) (harg2 : arg2.IsWhole) (arg3 : Memref sig .tc .vmem S1x256x4 .i32) (harg3 : arg3.IsWhole) (arg4 : Memref sig .tc .vmem S1x256x4x3 .f32) (harg4 : arg4.IsWhole) (arg5 : Memref sig .tc .vmem S1x256x4 .f32) (harg5 : arg5.IsWhole) (arg6 : Memref sig .tc .vmem S1x256x3 .f32) (harg6 : arg6.IsWhole) (arg7 : Memref sig .tc .vmem S1x256x3 .f32) (harg7 : arg7.IsWhole)
    (x0 : Vec F S1x256x4096 .f32) (x1 : Vec F S1x256x4 .i32) (x2 : Vec F S1x256x4x3 .f32) (x3 : Vec F S1x256x4 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (out0_4 x0 x1 x2 x3) ∗ owns (c : Thread nD τ) arg7 fullShare (out0_5 x0 x1 x2 x3)) -∗ K ⟨⟩))
      ⊢ wp frame (wpE (defs₀ (F := F)) Variants.none c none) E (cc0__corr_gather_kernel i arg2 harg2 arg3 harg3 arg4 harg4 arg5 harg5 arg6 harg6 arg7 harg7) K := by
  simp only [cc0__corr_gather_kernel_eq_skeleton]; unfold cc0__corr_gather_kernel_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    try dsimp only
    exact View.read_writes_eq_canon _ _ _ (cover0_3 _)
  iexists _; isplitr
  swap; · iexact H5
  ipureintro
  try dsimp only
  exact View.read_writes_eq_canon _ _ _ (cover0_3 _)

/-! ## The pipeline's proof data -/

/-- The proof data of the one pipeline on core `c`: the arrays as the region finds them (`V`); after the body at
    point `t` each input's buffer at its block and each output's at `out0_W` of the four input blocks; the
    invariant the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t) (iblk m c 3 t)
    | ⟨5, _⟩ => out0_5 (iblk m c 0 t) (iblk m c 1 t) (iblk m c 2 t) (iblk m c 3 t)
  Φ _ := Pipeline.ΦA spec0 c
  q _ := fullShare
  owed _ := 0

/-- The proof data's arrays are the region-entry contents: the definition projected, `V` never unfolded. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = out0_4 (iblk m c 0 t) (iblk m c 1 t) (iblk m c 2 t) (iblk m c 3 t) := by dsimp only [dats]
theorem after0_5 (c : Dev nD) (t : Fin cfg0.N) :
    (dats m 0 c).after 5 t = out0_5 (iblk m c 0 t) (iblk m c 1 t) (iblk m c 2 t) (iblk m c 3 t) := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t`, the windows one by one: the outputs' buffers at whatever they held. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' memrefs hold their blocks (`before0_W`), so `sound_kernel` applies; the
    invariant and the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of @main
    on the TensorCores terminates, and every final state has every array of the pipeline at what the proof data
    compute and every other unscoped buffer as the closing stretch leaves it (`FramePost`). -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- info: 'Cert.Kernel.Hand.run_main' depends on axioms: [propext, Classical.choice, Quot.sound] -/
#guard_msgs in #print axioms run_main

/-- The frame: the program runs and its four argument arrays end as launched, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Hand

end
-- ==== Proof.FrameI.lean ====
/- The frame of `KernelIdeal`: @main around its one region (nineteen stretches of host operations, the region,
   one closing stretch), the arrays as the region finds them, each window's block at a grid point, what the body
   leaves in the two output windows (the canon of its one covering store into each), the body's triple, the proof
   data, the run and the frame claim at any `F`. -/
import proofs.«164663_j64072322121837_2_alg».proof.Proof.Gen.KernelIdeal.Launch
import proofs.«164663_j64072322121837_2_alg».proof.Proof.Gen.KernelIdeal.Skeleton
import proofs.«164663_j64072322121837_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s buffer contents when the region is entered: after the nineteen stretches of host operations that
    precede it, in order, from the launch contents. -/
abbrev V0 (c : Dev nD) : Valuation τ sig (Elt F) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18]) (fun b => m (c, b))
/-- The same read at a TensorCore reference. -/
abbrev V (c : Dev nD) (b : Ref sig .tc) : Buf (Elt F) ((c : Thread nD τ).loc b) := V0 m c (Proc.devRef .tc b)

/-! No host operation allocates, and none writes an argument array: each writes its one result buffer, a
    reference other than the four arguments. Stated stretch by stretch, so that no single simplification
    enumerates all of @main. -/

theorem hostOps0_fresh : (hostOps0 : List (HloOp τ sig (Elt F))).Forall fun op => op.fresh = ∅ := by
  simp only [List.Forall]; repeat' constructor
theorem hostOps0_args : ∀ op ∈ (hostOps0 : List (HloOp τ sig (Elt F))),
    Proc.devRef .tc main_arg0 ∉ op.writes ∧ Proc.devRef .tc main_arg1 ∉ op.writes
      ∧ Proc.devRef .tc main_arg2 ∉ op.writes ∧ Proc.devRef .tc main_arg3 ∉ op.writes :=
  List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_1_fresh : (hostOps0_1 : List (HloOp τ sig (Elt F))).Forall fun op => op.fresh = ∅ := by
  simp only [List.Forall]; repeat' constructor
theorem hostOps0_1_args : ∀ op ∈ (hostOps0_1 : List (HloOp τ sig (Elt F))),
    Proc.devRef .tc main_arg0 ∉ op.writes ∧ Proc.devRef .tc main_arg1 ∉ op.writes
      ∧ Proc.devRef .tc main_arg2 ∉ op.writes ∧ Proc.devRef .tc main_arg3 ∉ op.writes :=
  List.forall_iff_forall_mem.mp (by
    simp only [hostOps0_1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_2_fresh : (hostOps0_2 : List (HloOp τ sig (Elt F))).Forall fun op => op.fresh = ∅ := by
  simp only [List.Forall]; repeat' constructor
theorem hostOps0_2_args : ∀ op ∈ (hostOps0_2 : List (HloOp τ sig (Elt F))),
    Proc.devRef .tc main_arg0 ∉ op.writes ∧ Proc.devRef .tc main_arg1 ∉ op.writes
      ∧ Proc.devRef .tc main_arg2 ∉ op.writes ∧ Proc.devRef .tc main_arg3 ∉ op.writes :=
  List.forall_iff_forall_mem.mp (by
    simp only [hostOps0_2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_3_fresh : (hostOps0_3 : List (HloOp τ sig (Elt F))).Forall fun op => op.fresh = ∅ := by
  simp only [List.Forall]; repeat' constructor
theorem hostOps0_3_args : ∀ op ∈ (hostOps0_3 : List (HloOp τ sig (Elt F))),
    Proc.devRef .tc main_arg0 ∉ op.writes ∧ Proc.devRef .tc main_arg1 ∉ op.writes
      ∧ Proc.devRef .tc main_arg2 ∉ op.writes ∧ Proc.devRef .tc main_arg3 ∉ op.writes :=
  List.forall_iff_forall_mem.mp (by
    simp only [hostOps0_3, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_4_fresh : (hostOps0_4 : List (HloOp τ sig (Elt F))).Forall fun op => op.fresh = ∅ := by
  simp only [List.Forall]; repeat' constructor
theorem hostOps0_4_args : ∀ op ∈ (hostOps0_4 : List (HloOp τ sig (Elt F))),
    Proc.devRef .tc main_arg0 ∉ op.writes ∧ Proc.devRef .tc main_arg1 ∉ op.writes
      ∧ Proc.devRef .tc main_arg2 ∉ op.writes ∧ Proc.devRef .tc main_arg3 ∉ op.writes :=
  List.forall_iff_forall_mem.mp (by
    simp only [hostOps0_4, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_5_fresh : (hostOps0_5 : List (HloOp τ sig (Elt F))).Forall fun op => op.fresh = ∅ := by
  simp only [List.Forall]; repeat' constructor
theorem hostOps0_5_args : ∀ op ∈ (hostOps0_5 : List (HloOp τ sig (Elt F))),
    Proc.devRef .tc main_arg0 ∉ op.writes ∧ Proc.devRef .tc main_arg1 ∉ op.writes
      ∧ Proc.devRef .tc main_arg2 ∉ op.writes ∧ Proc.devRef .tc main_arg3 ∉ op.writes :=
  List.forall_iff_forall_mem.mp (by
    simp only [hostOps0_5, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_6_fresh : (hostOps0_6 : List (HloOp τ sig (Elt F))).Forall fun op => op.fresh = ∅ := by
  simp only [List.Forall]; repeat' constructor
theorem hostOps0_6_args : ∀ op ∈ (hostOps0_6 : List (HloOp τ sig (Elt F))),
    Proc.devRef .tc main_arg0 ∉ op.writes ∧ Proc.devRef .tc main_arg1 ∉ op.writes
      ∧ Proc.devRef .tc main_arg2 ∉ op.writes ∧ Proc.devRef .tc main_arg3 ∉ op.writes :=
  List.forall_iff_forall_mem.mp (by
    simp only [hostOps0_6, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_7_fresh : (hostOps0_7 : List (HloOp τ sig (Elt F))).Forall fun op => op.fresh = ∅ := by
  simp only [List.Forall]; repeat' constructor
theorem hostOps0_7_args : ∀ op ∈ (hostOps0_7 : List (HloOp τ sig (Elt F))),
    Proc.devRef .tc main_arg0 ∉ op.writes ∧ Proc.devRef .tc main_arg1 ∉ op.writes
      ∧ Proc.devRef .tc main_arg2 ∉ op.writes ∧ Proc.devRef .tc main_arg3 ∉ op.writes :=
  List.forall_iff_forall_mem.mp (by
    simp only [hostOps0_7, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_8_fresh : (hostOps0_8 : List (HloOp τ sig (Elt F))).Forall fun op => op.fresh = ∅ := by
  simp only [List.Forall]; repeat' constructor
theorem hostOps0_8_args : ∀ op ∈ (hostOps0_8 : List (HloOp τ sig (Elt F))),
    Proc.devRef .tc main_arg0 ∉ op.writes ∧ Proc.devRef .tc main_arg1 ∉ op.writes
      ∧ Proc.devRef .tc main_arg2 ∉ op.writes ∧ Proc.devRef .tc main_arg3 ∉ op.writes :=
  List.forall_iff_forall_mem.mp (by
    simp only [hostOps0_8, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_9_fresh : (hostOps0_9 : List (HloOp τ sig (Elt F))).Forall fun op => op.fresh = ∅ := by
  simp only [List.Forall]; repeat' constructor
theorem hostOps0_9_args : ∀ op ∈ (hostOps0_9 : List (HloOp τ sig (Elt F))),
    Proc.devRef .tc main_arg0 ∉ op.writes ∧ Proc.devRef .tc main_arg1 ∉ op.writes
      ∧ Proc.devRef .tc main_arg2 ∉ op.writes ∧ Proc.devRef .tc main_arg3 ∉ op.writes :=
  List.forall_iff_forall_mem.mp (by
    simp only [hostOps0_9, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_10_fresh : (hostOps0_10 : List (HloOp τ sig (Elt F))).Forall fun op => op.fresh = ∅ := by
  simp only [List.Forall]; repeat' constructor
theorem hostOps0_10_args : ∀ op ∈ (hostOps0_10 : List (HloOp τ sig (Elt F))),
    Proc.devRef .tc main_arg0 ∉ op.writes ∧ Proc.devRef .tc main_arg1 ∉ op.writes
      ∧ Proc.devRef .tc main_arg2 ∉ op.writes ∧ Proc.devRef .tc main_arg3 ∉ op.writes :=
  List.forall_iff_forall_mem.mp (by
    simp only [hostOps0_10, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_11_fresh : (hostOps0_11 : List (HloOp τ sig (Elt F))).Forall fun op => op.fresh = ∅ := by
  simp only [List.Forall]; repeat' constructor
theorem hostOps0_11_args : ∀ op ∈ (hostOps0_11 : List (HloOp τ sig (Elt F))),
    Proc.devRef .tc main_arg0 ∉ op.writes ∧ Proc.devRef .tc main_arg1 ∉ op.writes
      ∧ Proc.devRef .tc main_arg2 ∉ op.writes ∧ Proc.devRef .tc main_arg3 ∉ op.writes :=
  List.forall_iff_forall_mem.mp (by
    simp only [hostOps0_11, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_12_fresh : (hostOps0_12 : List (HloOp τ sig (Elt F))).Forall fun op => op.fresh = ∅ := by
  simp only [List.Forall]; repeat' constructor
theorem hostOps0_12_args : ∀ op ∈ (hostOps0_12 : List (HloOp τ sig (Elt F))),
    Proc.devRef .tc main_arg0 ∉ op.writes ∧ Proc.devRef .tc main_arg1 ∉ op.writes
      ∧ Proc.devRef .tc main_arg2 ∉ op.writes ∧ Proc.devRef .tc main_arg3 ∉ op.writes :=
  List.forall_iff_forall_mem.mp (by
    simp only [hostOps0_12, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_13_fresh : (hostOps0_13 : List (HloOp τ sig (Elt F))).Forall fun op => op.fresh = ∅ := by
  simp only [List.Forall]; repeat' constructor
theorem hostOps0_13_args : ∀ op ∈ (hostOps0_13 : List (HloOp τ sig (Elt F))),
    Proc.devRef .tc main_arg0 ∉ op.writes ∧ Proc.devRef .tc main_arg1 ∉ op.writes
      ∧ Proc.devRef .tc main_arg2 ∉ op.writes ∧ Proc.devRef .tc main_arg3 ∉ op.writes :=
  List.forall_iff_forall_mem.mp (by
    simp only [hostOps0_13, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_14_fresh : (hostOps0_14 : List (HloOp τ sig (Elt F))).Forall fun op => op.fresh = ∅ := by
  simp only [List.Forall]; repeat' constructor
theorem hostOps0_14_args : ∀ op ∈ (hostOps0_14 : List (HloOp τ sig (Elt F))),
    Proc.devRef .tc main_arg0 ∉ op.writes ∧ Proc.devRef .tc main_arg1 ∉ op.writes
      ∧ Proc.devRef .tc main_arg2 ∉ op.writes ∧ Proc.devRef .tc main_arg3 ∉ op.writes :=
  List.forall_iff_forall_mem.mp (by
    simp only [hostOps0_14, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_15_fresh : (hostOps0_15 : List (HloOp τ sig (Elt F))).Forall fun op => op.fresh = ∅ := by
  simp only [List.Forall]; repeat' constructor
theorem hostOps0_15_args : ∀ op ∈ (hostOps0_15 : List (HloOp τ sig (Elt F))),
    Proc.devRef .tc main_arg0 ∉ op.writes ∧ Proc.devRef .tc main_arg1 ∉ op.writes
      ∧ Proc.devRef .tc main_arg2 ∉ op.writes ∧ Proc.devRef .tc main_arg3 ∉ op.writes :=
  List.forall_iff_forall_mem.mp (by
    simp only [hostOps0_15, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_16_fresh : (hostOps0_16 : List (HloOp τ sig (Elt F))).Forall fun op => op.fresh = ∅ := by
  simp only [List.Forall]; repeat' constructor
theorem hostOps0_16_args : ∀ op ∈ (hostOps0_16 : List (HloOp τ sig (Elt F))),
    Proc.devRef .tc main_arg0 ∉ op.writes ∧ Proc.devRef .tc main_arg1 ∉ op.writes
      ∧ Proc.devRef .tc main_arg2 ∉ op.writes ∧ Proc.devRef .tc main_arg3 ∉ op.writes :=
  List.forall_iff_forall_mem.mp (by
    simp only [hostOps0_16, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_17_fresh : (hostOps0_17 : List (HloOp τ sig (Elt F))).Forall fun op => op.fresh = ∅ := by
  simp only [List.Forall]; repeat' constructor
theorem hostOps0_17_args : ∀ op ∈ (hostOps0_17 : List (HloOp τ sig (Elt F))),
    Proc.devRef .tc main_arg0 ∉ op.writes ∧ Proc.devRef .tc main_arg1 ∉ op.writes
      ∧ Proc.devRef .tc main_arg2 ∉ op.writes ∧ Proc.devRef .tc main_arg3 ∉ op.writes :=
  List.forall_iff_forall_mem.mp (by
    simp only [hostOps0_17, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps0_18_fresh : (hostOps0_18 : List (HloOp τ sig (Elt F))).Forall fun op => op.fresh = ∅ := by
  simp only [List.Forall]; repeat' constructor
theorem hostOps0_18_args : ∀ op ∈ (hostOps0_18 : List (HloOp τ sig (Elt F))),
    Proc.devRef .tc main_arg0 ∉ op.writes ∧ Proc.devRef .tc main_arg1 ∉ op.writes
      ∧ Proc.devRef .tc main_arg2 ∉ op.writes ∧ Proc.devRef .tc main_arg3 ∉ op.writes :=
  List.forall_iff_forall_mem.mp (by
    simp only [hostOps0_18, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem hostOps1_fresh : (hostOps1 : List (HloOp τ sig (Elt F))).Forall fun op => op.fresh = ∅ := by
  simp only [List.Forall]; repeat' constructor
theorem hostOps1_args : ∀ op ∈ (hostOps1 : List (HloOp τ sig (Elt F))),
    Proc.devRef .tc main_arg0 ∉ op.writes ∧ Proc.devRef .tc main_arg1 ∉ op.writes
      ∧ Proc.devRef .tc main_arg2 ∉ op.writes ∧ Proc.devRef .tc main_arg3 ∉ op.writes :=
  List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))

/-- Every operation before the region leaves the four argument arrays alone. -/
theorem pre_args : ∀ op ∈ List.flatten [(hostOps0 : List (HloOp τ sig (Elt F))), (hostOps0_1 : List (HloOp τ sig (Elt F))), (hostOps0_2 : List (HloOp τ sig (Elt F))), (hostOps0_3 : List (HloOp τ sig (Elt F))), (hostOps0_4 : List (HloOp τ sig (Elt F))), (hostOps0_5 : List (HloOp τ sig (Elt F))), (hostOps0_6 : List (HloOp τ sig (Elt F))), (hostOps0_7 : List (HloOp τ sig (Elt F))), (hostOps0_8 : List (HloOp τ sig (Elt F))), (hostOps0_9 : List (HloOp τ sig (Elt F))), (hostOps0_10 : List (HloOp τ sig (Elt F))), (hostOps0_11 : List (HloOp τ sig (Elt F))), (hostOps0_12 : List (HloOp τ sig (Elt F))), (hostOps0_13 : List (HloOp τ sig (Elt F))), (hostOps0_14 : List (HloOp τ sig (Elt F))), (hostOps0_15 : List (HloOp τ sig (Elt F))), (hostOps0_16 : List (HloOp τ sig (Elt F))), (hostOps0_17 : List (HloOp τ sig (Elt F))), (hostOps0_18 : List (HloOp τ sig (Elt F)))],
    Proc.devRef .tc main_arg0 ∉ op.writes ∧ Proc.devRef .tc main_arg1 ∉ op.writes
      ∧ Proc.devRef .tc main_arg2 ∉ op.writes ∧ Proc.devRef .tc main_arg3 ∉ op.writes := by
  intro op hop
  obtain ⟨ops, hops, hop⟩ := List.mem_flatten.mp hop
  simp only [List.mem_cons, List.mem_nil_iff, or_false] at hops
  rcases hops with rfl | rfl | rfl | rfl | rfl | rfl | rfl | rfl | rfl | rfl | rfl | rfl | rfl | rfl | rfl | rfl | rfl | rfl | rfl
  · exact hostOps0_args op hop
  · exact hostOps0_1_args op hop
  · exact hostOps0_2_args op hop
  · exact hostOps0_3_args op hop
  · exact hostOps0_4_args op hop
  · exact hostOps0_5_args op hop
  · exact hostOps0_6_args op hop
  · exact hostOps0_7_args op hop
  · exact hostOps0_8_args op hop
  · exact hostOps0_9_args op hop
  · exact hostOps0_10_args op hop
  · exact hostOps0_11_args op hop
  · exact hostOps0_12_args op hop
  · exact hostOps0_13_args op hop
  · exact hostOps0_14_args op hop
  · exact hostOps0_15_args op hop
  · exact hostOps0_16_args op hop
  · exact hostOps0_17_args op hop
  · exact hostOps0_18_args op hop

/-- @main around the region: the stretches before it, the region, the closing stretch
    (`Pipeline.hmain_around`, off `main_chain`): it reduces to the region continued by the closing stretch. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18] [hostOps1]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh⟩) main_chain

/-! ## The closing stretch -/

/-- The closing stretch touches unscoped TensorCore references only: with nothing prefetched these are the
    pipeline's arrays and the buffers that bypass the region. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- And it writes no array of the pipeline: each of its four operations writes its own result buffer. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide)

/-! ## The argument arrays, at the region's entry and at the end -/

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ fun op hop => (pre_args op hop).1

/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ fun op hop => (pre_args op hop).2.1

/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ fun op hop => (pre_args op hop).2.2.1

/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ fun op hop => (pre_args op hop).2.2.2

/-- `main_arg1` is no array of the pipeline and the closing stretch does not write it: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (fun op hop => by
      rw [List.flatten_cons, List.flatten_nil, List.append_nil] at hop
      exact (hostOps1_args op hop).2.1),
    Pipeline.withArrays_of_ne _ c (V0 m c) _ main_arg1 (by exact (by decide : ∀ w, Pipeline.arrRef spec0 w ≠ main_arg1))]
  exact V_main_arg1 m c

/-- `main_arg2` is no array of the pipeline and the closing stretch does not write it: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (fun op hop => by
      rw [List.flatten_cons, List.flatten_nil, List.append_nil] at hop
      exact (hostOps1_args op hop).2.2.1),
    Pipeline.withArrays_of_ne _ c (V0 m c) _ main_arg2 (by exact (by decide : ∀ w, Pipeline.arrRef spec0 w ≠ main_arg2))]
  exact V_main_arg2 m c

/-- `main_arg3` is no array of the pipeline and the closing stretch does not write it: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (fun op hop => by
      rw [List.flatten_cons, List.flatten_nil, List.append_nil] at hop
      exact (hostOps1_args op hop).2.2.2),
    Pipeline.withArrays_of_ne _ c (V0 m c) _ main_arg3 (by exact (by decide : ∀ w, Pipeline.arrRef spec0 w ≠ main_arg3))]
  exact V_main_arg3 m c

/-- `main_arg0` is window 0's array, an input: the region leaves it as it found it, and the closing stretch
    does not write it. -/
theorem W_main_arg0 (dats : (p : Fin _) → (c : Dev nD) → Dat τ (Elt F) Unit ℕ (UR sig nD τ) ℕ (cfgs p) c)
    (hA : ∀ c, (dats 0 c).A 0 = V m c (Pipeline.arrRef spec0 0)) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (fun op hop => by
      rw [List.flatten_cons, List.flatten_nil, List.append_nil] at hop
      exact (hostOps1_args op hop).1)]
  exact (Pipeline.withArrays_arr (cfgs 0).spec launch0.win.arr_inj c (V0 m c) _ 0).trans
    (((dats 0 c).arrAt_in 0 rfl _).trans ((hA c).trans (V_main_arg0 m c)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, for any proof data whose array is
    `V`'s (`hA`) and whose body leaves the block in place (`hafter`): the window is uncut, never idle, and
    fetched at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, for any proof data whose array is
    `V`'s (`hA`) and whose body leaves the block in place (`hafter`): the window is uncut, never idle, and
    fetched at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, for any proof data whose array is
    `V`'s (`hA`) and whose body leaves the block in place (`hafter`): the window is uncut, never idle, and
    fetched at every point. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, for any proof data whose array is
    `V`'s (`hA`) and whose body leaves the block in place (`hafter`): the window is uncut, never idle, and
    fetched at every point. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame from a frame run: for any proof data whose arrays are the region-entry contents (`hA`), a run to
    `FramePost` read at the argument arrays — `main_arg0`, window 0's input array, by `Dat.arrAt_in`; the other
    three, which no window stages, by the post's second clause and `W_main_argK` — is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c)⟩) h

/-! ## The body's accesses -/

/-- The whole of each buffer shape the body touches, as a rectangle. -/
abbrev r0_0 : Rect S1x256x4096 := Rect.unit (s := S1x256x4096) ![0, 0, 0] S1x256x4096.size inb_S1x256x4096_S1x256x4096_0_0_0
abbrev r0_1 : Rect S1x256x4 := Rect.unit (s := S1x256x4) ![0, 0, 0] S1x256x4.size inb_S1x256x4_S1x256x4_0_0_0
abbrev r0_2 : Rect S1x256x4x3 := Rect.unit (s := S1x256x4x3) ![0, 0, 0, 0] S1x256x4x3.size inb_S1x256x4x3_S1x256x4x3_0_0_0_0
abbrev r0_3 : Rect S1x256x3 := Rect.unit (s := S1x256x3) ![0, 0, 0] S1x256x3.size inb_S1x256x3_S1x256x3_0_0_0

/-! ## What the body leaves in each output window's buffer -/

/-- Window 4's staging buffer after the body, from the input windows' blocks: its one whole-buffer store as a
    piece (`View.canon`), the payload the skeleton's — the four-term weighted sum of the gathered rows of window 2's
    block, the weights products of window 1's distinctness indicators and window 3's block. -/
def out0_4 (x0 : Vec F S1x256x4096 .f32) (x1 : Vec F S1x256x4 .i32) (x2 : Vec F S1x256x4x3 .f32) (x3 : Vec F S1x256x4 .f32) : Vec F S1x256x3 .f32 :=
  View.canon [⟨r0_3, k0_pay3 (k0_pay7 (View.ld x2 r0_2)) (k0_pay8 (View.ld x3 r0_1))
    (k0_pay21 (k0_pay6 (View.ld x1 r0_1)) (k0_pay7 (View.ld x2 r0_2)) (k0_pay8 (View.ld x3 r0_1)) (k0_pay13 (View.ld x1 r0_1) (View.ld x2 r0_2) (View.ld x3 r0_1))) 1#1⟩]

/-- Window 5's staging buffer after the body: its one whole-buffer store as a piece — the same sum with the weights
    taken from window 0's block at the columns window 1's block names. -/
def out0_5 (x0 : Vec F S1x256x4096 .f32) (x1 : Vec F S1x256x4 .i32) (x2 : Vec F S1x256x4x3 .f32) (x3 : Vec F S1x256x4 .f32) : Vec F S1x256x3 .f32 :=
  View.canon [⟨r0_3, k0_pay4 (k0_pay5 (View.ld x0 r0_0)) (k0_pay7 (View.ld x2 r0_2)) (iota .tc S256x4096 32 [1] iota_S256x4096_d1_w32)
    (k0_pay22 (k0_pay5 (View.ld x0 r0_0)) (k0_pay6 (View.ld x1 r0_1)) (k0_pay7 (View.ld x2 r0_2)) (iota .tc S256x4096 32 [1] iota_S256x4096_d1_w32) (k0_pay9 (F := F)) (k0_pay14 (View.ld x0 r0_0) (View.ld x1 r0_1) (View.ld x2 r0_2)))
    (k0_pay23 (k0_pay6 (View.ld x1 r0_1))) 1#1⟩]

/-- One store over the whole buffer covers it. -/
theorem cover0_3 (p0 : Vec F S1x256x3 .f32) (y : S1x256x3.Idx) :
    ∃ pc ∈ ([⟨r0_3, p0⟩] : List (View.Piece (Elt F) S1x256x3 .f32)), y ∈ pc.1.set :=
  View.cover_of_tiled [⟨r0_3, p0⟩] S1x256x3.size (by rfl) y

/-! ## The body's triple -/

set_option maxHeartbeats 4000000 in
/-- The kernel body on whole staging memrefs, the inputs' at read contents `xW` and the outputs' at anything, runs
    to the continuation holding the inputs' as they were and each output's at `out0_W` of the inputs': the body
    loads the four inputs whole, loads each output whole (a value it does not use) and then stores over the whole
    of it once. -/
theorem sound_kernel (c : Dev nD) (E : Set ℕ) (i : grid0.Coords) (arg2 : Memref sig .tc .vmem S1x256x4096 .f32) (harg2 : arg2.IsWhole) (arg3 : Memref sig .tc .vmem S1x256x4 .i32) (harg3 : arg3.IsWhole) (arg4 : Memref sig .tc .vmem S1x256x4x3 .f32) (harg4 : arg4.IsWhole) (arg5 : Memref sig .tc .vmem S1x256x4 .f32) (harg5 : arg5.IsWhole) (arg6 : Memref sig .tc .vmem S1x256x3 .f32) (harg6 : arg6.IsWhole) (arg7 : Memref sig .tc .vmem S1x256x3 .f32) (harg7 : arg7.IsWhole)
    (x0 : Vec F S1x256x4096 .f32) (x1 : Vec F S1x256x4 .i32) (x2 : Vec F S1x256x4x3 .f32) (x3 : Vec F S1x256x4 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (out0_4 x0 x1 x2 x3) ∗ owns (c : Thread nD τ) arg7 fullShare (out0_5 x0 x1 x2 x3)) -∗ K ⟨⟩))
      ⊢ wp frame (wpE (defs₀ (F := F)) Variants.none c none) E (cc0__corr_gather_kernel i arg2 harg2 arg3 harg3 arg4 harg4 arg5 harg5 arg6 harg6 arg7 harg7) K := by
  simp only [cc0__corr_gather_kernel_eq_skeleton]; unfold cc0__corr_gather_kernel_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    try dsimp only
    exact View.read_writes_eq_canon _ _ _ (cover0_3 _)
  iexists _; isplitr
  swap; · iexact H5
  ipureintro
  try dsimp only
  exact View.read_writes_eq_canon _ _ _ (cover0_3 _)

/-! ## The pipeline's proof data -/

/-- The proof data of the one pipeline on core `c`: the arrays as the region finds them (`V`); after the body at
    point `t` each input's buffer at its block and each output's at `out0_W` of the four input blocks; the
    invariant the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t) (iblk m c 3 t)
    | ⟨5, _⟩ => out0_5 (iblk m c 0 t) (iblk m c 1 t) (iblk m c 2 t) (iblk m c 3 t)
  Φ _ := Pipeline.ΦA spec0 c
  q _ := fullShare
  owed _ := 0

/-- The proof data's arrays are the region-entry contents: the definition projected, `V` never unfolded. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = out0_4 (iblk m c 0 t) (iblk m c 1 t) (iblk m c 2 t) (iblk m c 3 t) := by dsimp only [dats]
theorem after0_5 (c : Dev nD) (t : Fin cfg0.N) :
    (dats m 0 c).after 5 t = out0_5 (iblk m c 0 t) (iblk m c 1 t) (iblk m c 2 t) (iblk m c 3 t) := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t`, the windows one by one: the outputs' buffers at whatever they held. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' memrefs hold their blocks (`before0_W`), so `sound_kernel` applies; the
    invariant and the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of @main
    on the TensorCores terminates, and every final state has every array of the pipeline at what the proof data
    compute and every other unscoped buffer as the closing stretch leaves it (`FramePost`). -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- info: 'Cert.KernelIdeal.Hand.run_main' depends on axioms: [propext, Classical.choice, Quot.sound] -/
#guard_msgs in #print axioms run_main

/-- The frame: the program runs and its four argument arrays end as launched, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Hand

end
-- ==== Proof.KLayout.lean ====
/-
  The layout operations of the kernel body, read at coordinates.

  A block of the pipeline is a [1, 256, …] array; the body views it as [256, …] (a shape cast that drops the unit
  axis), cuts column `k` out of a [256, 4] table as a [256, 1] column, cuts row `k` out of a [256, 4, 3] table as a
  [256, 3] matrix, spreads a [256, 1] column along the lanes, sums a [256, 4096] matrix along its lanes into a
  [256, 1] column, and views a [256, 3] result as a [1, 256, 3] block again. Each of these, read at an entry, is the
  operand at the evident entry.
-/
import proofs.«164663_j64072322121837_2_alg».proof.Proof.Gen.KernelIdeal
import Idealize.ShloMosaic.Lib.ValueIdx
import Idealize.ShloMosaic.Lib.Pipeline.Value
import Idealize.ShloMosaic.PureOps.Ideal.Laws

noncomputable section

namespace Cert.KernelIdeal.KLayout

open Idealize.ShloMosaic Idealize.ShloMosaic.ValueIdx Cert.KernelIdeal Cert.KernelIdeal.Gen

variable {α : Type}

/-- A [1, 256, 4096] block viewed as a [256, 4096] matrix: entry (p, s) is the block's (0, p, s). -/
theorem drop_4096 (v : S1x256x4096.Idx → α) (p : Fin 256) (s : Fin 4096) :
    shapeCast S256x4096 v shapeCasts_S1x256x4096_S256x4096 (ix2 p s) = v (ix3 (0 : Fin 1) p s) :=
  shapeCast_apply v _ _ _ (by rw [Shape.rowMajor_val_three, Shape.rowMajor_val_two]; show (0 * 256 + p.val) * 4096 + s.val = p.val * 4096 + s.val; omega)

/-- A [1, 256, 4] block viewed as a [256, 4] table: entry (p, k) is the block's (0, p, k). -/
theorem drop_4 (v : S1x256x4.Idx → α) (p : Fin 256) (k : Fin 4) :
    shapeCast S256x4 v shapeCasts_S1x256x4_S256x4 (ix2 p k) = v (ix3 (0 : Fin 1) p k) :=
  shapeCast_apply v _ _ _ (by rw [Shape.rowMajor_val_three, Shape.rowMajor_val_two]; show (0 * 256 + p.val) * 4 + k.val = p.val * 4 + k.val; omega)

/-- A [1, 256, 4, 3] block viewed as a [256, 4, 3] table: entry (p, k, c) is the block's (0, p, k, c). -/
theorem drop_4x3 (v : S1x256x4x3.Idx → α) (p : Fin 256) (k : Fin 4) (c : Fin 3) :
    shapeCast S256x4x3 v shapeCasts_S1x256x4x3_S256x4x3 (ix3 p k c) = v (ix4 (0 : Fin 1) p k c) :=
  shapeCast_apply v _ _ _ (by rw [Shape.rowMajor_val_four, Shape.rowMajor_val_three]; show ((0 * 256 + p.val) * 4 + k.val) * 3 + c.val = (p.val * 4 + k.val) * 3 + c.val; omega)

/-- A [256, 3] matrix viewed as a [1, 256, 3] block: entry (0, p, c) is the matrix's (p, c). -/
theorem add_3 (v : S256x3.Idx → α) (p : Fin 256) (c : Fin 3) :
    shapeCast S1x256x3 v shapeCasts_S256x3_S1x256x3 (ix3 (0 : Fin 1) p c) = v (ix2 p c) :=
  shapeCast_apply v _ _ _ (by rw [Shape.rowMajor_val_three, Shape.rowMajor_val_two]; show p.val * 3 + c.val = (0 * 256 + p.val) * 3 + c.val; omega)

/-- Column 0 … 3 of a [256, 4] table, as a [256, 1] column, read at row p. -/
theorem col0 (v : S256x4.Idx → α) (p : Fin 256) :
    extractStridedSlice S256x1 ![0, 0] v slices_S256x4_o0_0_S256x1 (ix2 p (0 : Fin 1)) = v (ix2 p (0 : Fin 4)) :=
  extractStridedSlice_apply _ v _ _ _ (fun a => by fin_cases a <;> first | rfl | exact (Nat.zero_add _).symm)
theorem col1 (v : S256x4.Idx → α) (p : Fin 256) :
    extractStridedSlice S256x1 ![0, 1] v slices_S256x4_o0_1_S256x1 (ix2 p (0 : Fin 1)) = v (ix2 p (1 : Fin 4)) :=
  extractStridedSlice_apply _ v _ _ _ (fun a => by fin_cases a <;> first | rfl | exact (Nat.zero_add _).symm)
theorem col2 (v : S256x4.Idx → α) (p : Fin 256) :
    extractStridedSlice S256x1 ![0, 2] v slices_S256x4_o0_2_S256x1 (ix2 p (0 : Fin 1)) = v (ix2 p (2 : Fin 4)) :=
  extractStridedSlice_apply _ v _ _ _ (fun a => by fin_cases a <;> first | rfl | exact (Nat.zero_add _).symm)
theorem col3 (v : S256x4.Idx → α) (p : Fin 256) :
    extractStridedSlice S256x1 ![0, 3] v slices_S256x4_o0_3_S256x1 (ix2 p (0 : Fin 1)) = v (ix2 p (3 : Fin 4)) :=
  extractStridedSlice_apply _ v _ _ _ (fun a => by fin_cases a <;> first | rfl | exact (Nat.zero_add _).symm)

/-- Row k of a [256, 4, 3] table, as a [256, 3] matrix, read at (p, c). -/
theorem row0 (v : S256x4x3.Idx → α) (p : Fin 256) (c : Fin 3) :
    shapeCast S256x3 (extractStridedSlice S256x1x3 ![0, 0, 0] v slices_S256x4x3_o0_0_0_S256x1x3) shapeCasts_S256x1x3_S256x3 (ix2 p c)
      = v (ix3 p (0 : Fin 4) c) :=
  (shapeCast_apply _ _ _ (ix3 p (0 : Fin 1) c) (by rw [Shape.rowMajor_val_three, Shape.rowMajor_val_two]; show (p.val * 1 + 0) * 3 + c.val = p.val * 3 + c.val; omega)).trans
    (extractStridedSlice_apply _ v _ _ _ (fun a => by fin_cases a <;> first | rfl | exact (Nat.zero_add _).symm))
theorem row1 (v : S256x4x3.Idx → α) (p : Fin 256) (c : Fin 3) :
    shapeCast S256x3 (extractStridedSlice S256x1x3 ![0, 1, 0] v slices_S256x4x3_o0_1_0_S256x1x3) shapeCasts_S256x1x3_S256x3 (ix2 p c)
      = v (ix3 p (1 : Fin 4) c) :=
  (shapeCast_apply _ _ _ (ix3 p (0 : Fin 1) c) (by rw [Shape.rowMajor_val_three, Shape.rowMajor_val_two]; show (p.val * 1 + 0) * 3 + c.val = p.val * 3 + c.val; omega)).trans
    (extractStridedSlice_apply _ v _ _ _ (fun a => by fin_cases a <;> first | rfl | exact (Nat.zero_add _).symm))
theorem row2 (v : S256x4x3.Idx → α) (p : Fin 256) (c : Fin 3) :
    shapeCast S256x3 (extractStridedSlice S256x1x3 ![0, 2, 0] v slices_S256x4x3_o0_2_0_S256x1x3) shapeCasts_S256x1x3_S256x3 (ix2 p c)
      = v (ix3 p (2 : Fin 4) c) :=
  (shapeCast_apply _ _ _ (ix3 p (0 : Fin 1) c) (by rw [Shape.rowMajor_val_three, Shape.rowMajor_val_two]; show (p.val * 1 + 0) * 3 + c.val = p.val * 3 + c.val; omega)).trans
    (extractStridedSlice_apply _ v _ _ _ (fun a => by fin_cases a <;> first | rfl | exact (Nat.zero_add _).symm))
theorem row3 (v : S256x4x3.Idx → α) (p : Fin 256) (c : Fin 3) :
    shapeCast S256x3 (extractStridedSlice S256x1x3 ![0, 3, 0] v slices_S256x4x3_o0_3_0_S256x1x3) shapeCasts_S256x1x3_S256x3 (ix2 p c)
      = v (ix3 p (3 : Fin 4) c) :=
  (shapeCast_apply _ _ _ (ix3 p (0 : Fin 1) c) (by rw [Shape.rowMajor_val_three, Shape.rowMajor_val_two]; show (p.val * 1 + 0) * 3 + c.val = p.val * 3 + c.val; omega)).trans
    (extractStridedSlice_apply _ v _ _ _ (fun a => by fin_cases a <;> first | rfl | exact (Nat.zero_add _).symm))

/-- A [256, 1] column spread to [256, 3]: entry (p, c) is the column's entry p. -/
theorem spread_3 (v : S256x1.Idx → α) (p : Fin 256) (c : Fin 3) :
    broadcastTo S256x3 v broadcasts_S256x1_S256x3 (ix2 p c) = v (ix2 p (0 : Fin 1)) :=
  broadcastTo_apply v _ _ _ (fun a => by fin_cases a <;> first | rfl | exact (Nat.zero_add _).symm)

/-- A [256, 1] column spread to [256, 4096]: entry (p, s) is the column's entry p. -/
theorem spread_4096 (v : S256x1.Idx → α) (p : Fin 256) (s : Fin 4096) :
    broadcastTo S256x4096 v broadcasts_S256x1_S256x4096 (ix2 p s) = v (ix2 p (0 : Fin 1)) :=
  broadcastTo_apply v _ _ _ (fun a => by fin_cases a <;> first | rfl | exact (Nat.zero_add _).symm)

/-- The lane index of a [256, 4096] tile: entry (p, s) is the word of s. -/
theorem lane_iota (p : Fin 256) (s : Fin 4096) :
    iota .tc S256x4096 32 [1] iota_S256x4096_d1_w32 (ix2 p s) = BitVec.ofNat 32 s.val :=
  iota_single_apply _ _ _ _ _ _

/-- The lane sum of a [256, 4096] matrix over the extended reals, kept as a [256, 1] column: entry p is the sum of row p. -/
theorem lane_sum (v : FVec Ideal S256x4096 .f32) (hφ : FKind.Formats .f32)
    (hacc : (0x00000000#32 : BitVec 32) = FKind.neutral .add .f32 hφ) (p : Fin 256) :
    shapeCast S256x1 (multiReduction .add [1] S256 v 0x00000000#32 reduces_S256x4096_S256 hφ hacc)
        shapeCasts_S256_S256x1 (ix2 p (0 : Fin 1)) = ∑ s : Fin 4096, v (ix2 p s) := by
  refine (shapeCast_apply _ _ _ (ix1 p) (by rw [Shape.rowMajor_val_two, Shape.rowMajor_val_one]; show p.val = p.val * 1 + 0; omega)).trans ?_
  refine (Ideal.multiReduction_add_single v 0x00000000#32 reduces_S256x4096_S256 hφ hacc (ix1 p)).trans ?_
  refine Finset.sum_congr rfl fun s _ => congrArg v ?_
  funext a; fin_cases a <;> rfl

end Cert.KernelIdeal.KLayout

end
-- ==== Proof.KPay.lean ====
/-
  The kernel body's arithmetic at one entry, over the extended reals.

  For a row p of the tile and a channel c the body forms, for each of the four neighbours k, an indicator
  "no later neighbour has the same index word" (1 or 0), a weight — the bilinear weight for the first result, the
  correlation entry picked out of row p by comparing every lane index with the neighbour's index word and summing for
  the second — and the reference value r_k, and accumulates (indicator · weight) · r_k from zero, k = 0, 1, 2, 3.
-/
import proofs.«164663_j64072322121837_2_alg».proof.Proof.KLayout
import proofs.«164663_j64072322121837_2_alg».proof.Proof.Gen.KernelIdeal.Skeleton

noncomputable section

namespace Cert.KernelIdeal.KPay

open Idealize.ShloMosaic Idealize.ShloMosaic.ValueIdx Cert.KernelIdeal Cert.KernelIdeal.Gen Cert.KernelIdeal.KLayout

/-! ## Words -/

/-- A one-bit word widened to 32 bits and read as a signed number, over the extended reals, is 1 or 0. -/
theorem bit_to_real (b : BitVec 1) :
    (FloatOps.sitofp (F := Ideal) .f32 (b.setWidth 32) : EReal) = if b = 1#1 then 1 else 0 := by
  rcases BitVec.eq_zero_or_eq_one b with h | h <;> subst h
  · show (((BitVec.setWidth 32 (0#1)).toInt : ℝ) : EReal) = _
    rw [if_neg (by decide)]; norm_num
  · show (((BitVec.setWidth 32 (1#1)).toInt : ℝ) : EReal) = _
    rw [if_pos rfl]; norm_num

/-- "Not equal" of two words is the bit 1 exactly when they differ. -/
theorem ne_bit (a b : BitVec 32) : IntOp.cmpi .ne a b = 1#1 ↔ a ≠ b := by
  unfold IntOp.cmpi
  by_cases h : a = b
  · subst h; simp
  · have hb : (a != b) = true := bne_iff_ne.mpr h
    show BitVec.ofBool (a != b) = 1#1 ↔ _
    rw [hb]; exact ⟨fun _ => h, fun _ => rfl⟩

/-- "Equal" of two words is the bit 1 exactly when they agree. -/
theorem eq_bit (a b : BitVec 32) : IntOp.cmpi .eq a b = 1#1 ↔ a = b := by
  unfold IntOp.cmpi
  by_cases h : a = b
  · subst h; simp
  · have hb : (a == b) = false := beq_eq_false_iff_ne.mpr h
    show BitVec.ofBool (a == b) = 1#1 ↔ _
    rw [hb]; exact ⟨fun h' => absurd h' (by decide), fun h' => absurd h' h⟩

/-- The conjunction of two bits is 1 exactly when both are. -/
theorem and_bit (x y : BitVec 1) : IntOp.andi x y = 1#1 ↔ x = 1#1 ∧ y = 1#1 := by
  unfold IntOp.andi
  rcases BitVec.eq_zero_or_eq_one x with h | h <;> rcases BitVec.eq_zero_or_eq_one y with h' | h' <;> subst h <;> subst h' <;> decide

/-! ## Pointwise word operations at an entry (by definition) -/

theorem andi_at {s : Shape} {w : Nat} (x y : IVec s w) (i : s.Idx) : andi x y i = IntOp.andi (x i) (y i) := rfl
theorem cmpi_at {s : Shape} {w : Nat} (q : CmpIPredicate) (x y : IVec s w) (i : s.Idx) : cmpi q x y i = IntOp.cmpi q (x i) (y i) := rfl

/-! ## The accumulation the body performs -/

/-- The indicator of neighbour k among four index words: 1 when no LATER neighbour carries the same word, else 0
    (the last neighbour is always kept). -/
def ind (w : Fin 4 → BitVec 32) : Fin 4 → EReal
  | 0 => if w 0 ≠ w 1 ∧ w 0 ≠ w 2 ∧ w 0 ≠ w 3 then 1 else 0
  | 1 => if w 1 ≠ w 2 ∧ w 1 ≠ w 3 then 1 else 0
  | 2 => if w 2 ≠ w 3 then 1 else 0
  | 3 => 1

/-- The body's accumulation over the four neighbours, from zero, in the order it is performed:
    (indicator · weight) · reference value. -/
def acc4 (w : Fin 4 → BitVec 32) (u r : Fin 4 → EReal) : EReal :=
  (((0 + (ind w 0 * u 0) * r 0) + (ind w 1 * u 1) * r 1) + (ind w 2 * u 2) * r 2) + (ind w 3 * u 3) * r 3

/-- The entry of a row of 4096 lanes picked out by an index word: every lane index is compared with the word, the
    row is kept where they agree and zeroed elsewhere, and the lanes are summed. -/
def pick (x : Fin 4096 → EReal) (w : BitVec 32) : EReal := ∑ s : Fin 4096, if BitVec.ofNat 32 s.val = w then x s else 0

/-! ## The four indicators -/

/-- Neighbour 0 is kept at row p exactly when its index word differs from the three later ones. -/
theorem ind0 (x1 : Vec Ideal S1x256x4 .i32) (p : Fin 256) :
    k0_pay11 (F := Ideal) x1 (ix2 p (0 : Fin 1)) = ind (fun k => x1 (ix3 (0 : Fin 1) p k)) 0 := by
  simp only [k0_pay11, k0_pay10, k0_pay6, sitofp_apply, extui_apply, andi_at, cmpi_at, broadcast_apply, col0, col1, col2, col3, drop_4,
    bit_to_real, and_bit, ne_bit, true_and, and_assoc, ind]

/-- Neighbour 1 is kept exactly when its word differs from those of neighbours 2 and 3. -/
theorem ind1 (v3 : IVec S256x4 32) (p : Fin 256) :
    k0_pay16 (F := Ideal) v3 (ix2 p (0 : Fin 1)) = ind (fun k => v3 (ix2 p k)) 1 := by
  simp only [k0_pay16, k0_pay15, sitofp_apply, extui_apply, andi_at, cmpi_at, broadcast_apply, col1, col2, col3,
    bit_to_real, and_bit, ne_bit, true_and, and_assoc, ind]

/-- Neighbour 2 is kept exactly when its word differs from neighbour 3's. -/
theorem ind2 (v3 : IVec S256x4 32) (p : Fin 256) :
    k0_pay19 (F := Ideal) v3 (ix2 p (0 : Fin 1)) = ind (fun k => v3 (ix2 p k)) 2 := by
  simp only [k0_pay19, k0_pay18, sitofp_apply, extui_apply, andi_at, cmpi_at, broadcast_apply, col2, col3,
    bit_to_real, and_bit, ne_bit, true_and, and_assoc, ind]

/-- Neighbour 3 is always kept. -/
theorem ind3 (p : Fin 256) : k0_pay1 (F := Ideal) 1#1 (ix2 p (0 : Fin 1)) = 1 := by
  simp only [k0_pay1, sitofp_apply, extui_apply, broadcast_apply, bit_to_real, if_true]

/-! ## The lane pick -/

/-- Comparing the lane index with a column of words, keeping the matrix where they agree, and summing the lanes
    picks, in row p, the entry the word names. -/
theorem pick_col (v1 : FVec Ideal S256x4096 .f32) (col : IVec S256x1 32) (hφ : FKind.Formats .f32)
    (hacc : (0x00000000#32 : BitVec 32) = FKind.neutral .add .f32 hφ) (p : Fin 256) :
    shapeCast S256x1 (multiReduction .add [1] S256
        (select (cmpi .eq (iota .tc S256x4096 32 [1] iota_S256x4096_d1_w32) (broadcastTo S256x4096 col broadcasts_S256x1_S256x4096))
          v1 (broadcast S256x4096 (Scalar.ofBits .f32 0x00000000#32)))
        0x00000000#32 reduces_S256x4096_S256 hφ hacc) shapeCasts_S256_S256x1 (ix2 p (0 : Fin 1))
      = pick (fun s => v1 (ix2 p s)) (col (ix2 p (0 : Fin 1))) := by
  rw [lane_sum]
  unfold pick
  refine Finset.sum_congr rfl fun s _ => ?_
  simp only [select_apply, cmpi_at, spread_4096, broadcast_apply, Scalar.select]
  by_cases h : BitVec.ofNat 32 s.val = col (ix2 p (0 : Fin 1))
  · have hb : IntOp.cmpi .eq (iota .tc S256x4096 32 [1] iota_S256x4096_d1_w32 (ix2 p s)) (col (ix2 p (0 : Fin 1))) = 1#1 := by
      rw [lane_iota]; exact (eq_bit _ _).mpr h
    exact (if_pos hb).trans (if_pos h).symm
  · have hb : ¬ IntOp.cmpi .eq (iota .tc S256x4096 32 [1] iota_S256x4096_d1_w32 (ix2 p s)) (col (ix2 p (0 : Fin 1))) = 1#1 := by
      rw [lane_iota]; exact fun h' => h ((eq_bit _ _).mp h')
    exact ((if_neg hb).trans Ideal.ofBits_zero_f32).trans (if_neg h).symm

/-! ## The two results' blocks at an entry -/

/-- Row k of the reference table, the blocks viewed without their unit axis. -/
theorem ref0 (x2 : Vec Ideal S1x256x4x3 .f32) (p : Fin 256) (c : Fin 3) : k0_pay12 x2 (ix2 p c) = x2 (ix4 (0 : Fin 1) p (0 : Fin 4) c) := by
  simp only [k0_pay12, k0_pay7, row0, drop_4x3]
theorem ref1 (v5 : FVec Ideal S256x4x3 .f32) (p : Fin 256) (c : Fin 3) : k0_pay17 v5 (ix2 p c) = v5 (ix3 p (1 : Fin 4) c) := by
  simp only [k0_pay17, row1]
theorem ref2 (v5 : FVec Ideal S256x4x3 .f32) (p : Fin 256) (c : Fin 3) : k0_pay20 v5 (ix2 p c) = v5 (ix3 p (2 : Fin 4) c) := by
  simp only [k0_pay20, row2]
theorem ref3 (v5 : FVec Ideal S256x4x3 .f32) (p : Fin 256) (c : Fin 3) : k0_pay2 v5 (ix2 p c) = v5 (ix3 p (3 : Fin 4) c) := by
  simp only [k0_pay2, row3]

/-- The first result's block at (0, p, c): the accumulation with the bilinear weights. -/
theorem smpl_block (x1 : Vec Ideal S1x256x4 .i32) (x2 : Vec Ideal S1x256x4x3 .f32) (x3 : Vec Ideal S1x256x4 .f32) (p : Fin 256) (c : Fin 3) :
    k0_pay3 (k0_pay7 x2) (k0_pay8 x3) (k0_pay21 (k0_pay6 x1) (k0_pay7 x2) (k0_pay8 x3) (k0_pay13 x1 x2 x3)) 1#1 (ix3 (0 : Fin 1) p c)
      = acc4 (fun k => x1 (ix3 (0 : Fin 1) p k)) (fun k => x3 (ix3 (0 : Fin 1) p k)) (fun k => x2 (ix4 (0 : Fin 1) p k c)) := by
  unfold acc4
  simp only [k0_pay3, k0_pay21, k0_pay13, add_3, mulf_apply, addf_apply, spread_3, col0, col1, col2, col3, ind0, ind1, ind2, ind3,
    ref0, ref1, ref2, ref3, k0_pay6, k0_pay7, k0_pay8, drop_4, drop_4x3, broadcast_apply]
  rw [Ideal.ofBits_def, Ideal.ofBits_zero_f32]
  rfl

/-- The second result's block at (0, p, c): the accumulation with the correlation entries the index words pick. -/
theorem corr_block (x0 : Vec Ideal S1x256x4096 .f32) (x1 : Vec Ideal S1x256x4 .i32) (x2 : Vec Ideal S1x256x4x3 .f32) (p : Fin 256) (c : Fin 3) :
    k0_pay4 (k0_pay5 x0) (k0_pay7 x2) (iota .tc S256x4096 32 [1] iota_S256x4096_d1_w32)
        (k0_pay22 (k0_pay5 x0) (k0_pay6 x1) (k0_pay7 x2) (iota .tc S256x4096 32 [1] iota_S256x4096_d1_w32) (k0_pay9 (F := Ideal)) (k0_pay14 x0 x1 x2))
        (k0_pay23 (k0_pay6 x1)) 1#1 (ix3 (0 : Fin 1) p c)
      = acc4 (fun k => x1 (ix3 (0 : Fin 1) p k)) (fun k => pick (fun s => x0 (ix3 (0 : Fin 1) p s)) (x1 (ix3 (0 : Fin 1) p k)))
          (fun k => x2 (ix4 (0 : Fin 1) p k c)) := by
  unfold acc4
  simp only [k0_pay4, k0_pay22, k0_pay14, k0_pay9, k0_pay23, k0_pay15, k0_pay18, k0_pay10, add_3, mulf_apply, addf_apply, spread_3,
    col0, col1, col2, col3, ind0, ind1, ind2, ind3, ref0, ref1, ref2, ref3, k0_pay5, k0_pay6, k0_pay7, k0_pay8, drop_4, drop_4x3, drop_4096, broadcast_apply]
  -- the lane sums' side conditions are carried as closed proofs of `0 = 0`: matching them needs the neutral element unfolded
  erw [pick_col, pick_col, pick_col, pick_col]
  simp only [col0, col1, col2, col3, drop_4, drop_4096]
  rw [Ideal.ofBits_def, Ideal.ofBits_zero_f32]
  rfl

end Cert.KernelIdeal.KPay

end
-- ==== Proof.KValue.lean ====
/- The kernel's value over the extended reals: each of the two result arrays of the region, after the run, as one
   function of the arrays the region finds, entry by entry; and the two results of @main as the closing stretch's
   transpose and reshape of those. -/
import proofs.«164663_j64072322121837_2_alg».proof.Proof.FrameI
import proofs.«164663_j64072322121837_2_alg».proof.Proof.KPay
import Idealize.ShloMosaic.Lib.ValueIdx
import Idealize.ShloMosaic.Lib.Pipeline.Value

set_option maxRecDepth 16384

noncomputable section

namespace Cert.KernelIdeal.KValue

open Cert.KernelIdeal Cert.KernelIdeal.Gen Idealize.ShloMosaic Idealize.ShloMosaic.TcCoe Idealize.ShloMosaic.ValueIdx Idealize.SL.Sem
open Idealize.ShloMosaic.Pipeline (Dat)
open scoped BigOperators

variable (m : (ℓ : Loc nD τ sig) → Buf (Elt Ideal) ℓ) (ρ : Dev nD → PrngReg)

/-! ## The two result arrays as functions of the arrays the region finds -/

/-- The first result at (b, p, c): the four-neighbour accumulation with the words of `A1`'s row (b, p), the weights
    of `A3`'s row (b, p) and the reference values of `A2` at (b, p, ·, c). -/
def G4 (A1 : IVec S4x4096x4 32) (A2 : FVec Ideal S4x4096x4x3 .f32) (A3 : FVec Ideal S4x4096x4 .f32) : FVec Ideal S4x4096x3 .f32 :=
  fun j => KPay.acc4 (fun k => A1 (ix3 (j 0) (j 1) k)) (fun k => A3 (ix3 (j 0) (j 1) k)) (fun k => A2 (ix4 (j 0) (j 1) k (j 2)))

/-- The second result at (b, p, c): the same accumulation, each weight the entry of `A0`'s row (b, p) that the
    neighbour's word picks. -/
def G5 (A0 : FVec Ideal S4x4096x4096 .f32) (A1 : IVec S4x4096x4 32) (A2 : FVec Ideal S4x4096x4x3 .f32) : FVec Ideal S4x4096x3 .f32 :=
  fun j => KPay.acc4 (fun k => A1 (ix3 (j 0) (j 1) k))
    (fun k => KPay.pick (fun s => A0 (ix3 (j 0) (j 1) s)) (A1 (ix3 (j 0) (j 1) k))) (fun k => A2 (ix4 (j 0) (j 1) k (j 2)))

theorem G4_apply (A1 : IVec S4x4096x4 32) (A2 : FVec Ideal S4x4096x4x3 .f32) (A3 : FVec Ideal S4x4096x4 .f32) (b : Fin 4) (p : Fin 4096) (c : Fin 3) :
    G4 A1 A2 A3 (ix3 b p c) = KPay.acc4 (fun k => A1 (ix3 b p k)) (fun k => A3 (ix3 b p k)) (fun k => A2 (ix4 b p k c)) := rfl

theorem G5_apply (A0 : FVec Ideal S4x4096x4096 .f32) (A1 : IVec S4x4096x4 32) (A2 : FVec Ideal S4x4096x4x3 .f32) (b : Fin 4) (p : Fin 4096) (c : Fin 3) :
    G5 A0 A1 A2 (ix3 b p c) = KPay.acc4 (fun k => A1 (ix3 b p k))
      (fun k => KPay.pick (fun s => A0 (ix3 b p s)) (A1 (ix3 b p k))) (fun k => A2 (ix4 b p k c)) := rfl

/-! ## The grid: which rows each point's blocks are -/

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The printed index maps, decided over the grid: at point `t` every window's block index is (t / 16, t % 16, 0(, 0)). -/
theorem idx_facts : ∀ t : Fin cfg0.N,
    (win0_0.index t (0 : Fin 3) = t.val / 16 ∧ win0_0.index t (1 : Fin 3) = t.val % 16 ∧ win0_0.index t (2 : Fin 3) = 0)
    ∧ (win0_1.index t (0 : Fin 3) = t.val / 16 ∧ win0_1.index t (1 : Fin 3) = t.val % 16 ∧ win0_1.index t (2 : Fin 3) = 0)
    ∧ (win0_2.index t (0 : Fin 4) = t.val / 16 ∧ win0_2.index t (1 : Fin 4) = t.val % 16 ∧ win0_2.index t (2 : Fin 4) = 0 ∧ win0_2.index t (3 : Fin 4) = 0)
    ∧ (win0_3.index t (0 : Fin 3) = t.val / 16 ∧ win0_3.index t (1 : Fin 3) = t.val % 16 ∧ win0_3.index t (2 : Fin 3) = 0)
    ∧ (win0_4.index t (0 : Fin 3) = t.val / 16 ∧ win0_4.index t (1 : Fin 3) = t.val % 16 ∧ win0_4.index t (2 : Fin 3) = 0)
    ∧ (win0_5.index t (0 : Fin 3) = t.val / 16 ∧ win0_5.index t (1 : Fin 3) = t.val % 16 ∧ win0_5.index t (2 : Fin 3) = 0) :=
  (by decide +kernel : ∀ t : Fin grid0.N, _)

theorem t_lt (t : Fin cfg0.N) : t.val < 64 := by
  have h := t.isLt; have hN : cfg0.N = 64 := N_0; omega

/-- The batch of point `t`. -/
def batchOf (t : Fin cfg0.N) : Fin 4 := ⟨t.val / 16, by have := t_lt t; omega⟩
/-- Row `p` of point `t`'s tile, as a row of the whole array. -/
def rowOf (t : Fin cfg0.N) (p : Fin 256) : Fin 4096 := ⟨t.val % 16 * 256 + p.val, by have := p.isLt; omega⟩

/-! ## Each input block as rows of its array -/

theorem iblk1_apply (c : Dev nD) (t : Fin cfg0.N) (p : Fin 256) (k : Fin 4) :
    (Hand.iblk m c 1 t : Vec Ideal S1x256x4 .i32) (ix3 (0 : Fin 1) p k)
      = (Hand.V m c main_v90 : IVec S4x4096x4 32) (ix3 (batchOf t) (rowOf t p) k) := by
  obtain ⟨-, ⟨e0, e1, e2⟩, -⟩ := idx_facts t
  unfold Hand.iblk
  rw [View.read_apply]
  show Hand.V m c main_v90 _ = Hand.V m c main_v90 _
  refine congrArg (Hand.V m c main_v90) (funext fun a => Fin.ext ?_)
  match a with
  | ⟨0, _⟩ => show win0_1.index t (0 : Fin 3) * 1 + 1 * (0 : Fin 1).val = t.val / 16; rw [e0]; simp
  | ⟨1, _⟩ => show win0_1.index t (1 : Fin 3) * 256 + 1 * p.val = t.val % 16 * 256 + p.val; rw [e1]; omega
  | ⟨2, _⟩ => show win0_1.index t (2 : Fin 3) * 4 + 1 * k.val = k.val; rw [e2]; omega

theorem iblk0_apply (c : Dev nD) (t : Fin cfg0.N) (p : Fin 256) (s : Fin 4096) :
    (Hand.iblk m c 0 t : Vec Ideal S1x256x4096 .f32) (ix3 (0 : Fin 1) p s)
      = (Hand.V m c main_arg0 : FVec Ideal S4x4096x4096 .f32) (ix3 (batchOf t) (rowOf t p) s) := by
  obtain ⟨⟨e0, e1, e2⟩, -⟩ := idx_facts t
  unfold Hand.iblk
  rw [View.read_apply]
  show Hand.V m c main_arg0 _ = Hand.V m c main_arg0 _
  refine congrArg (Hand.V m c main_arg0) (funext fun a => Fin.ext ?_)
  match a with
  | ⟨0, _⟩ => show win0_0.index t (0 : Fin 3) * 1 + 1 * (0 : Fin 1).val = t.val / 16; rw [e0]; simp
  | ⟨1, _⟩ => show win0_0.index t (1 : Fin 3) * 256 + 1 * p.val = t.val % 16 * 256 + p.val; rw [e1]; omega
  | ⟨2, _⟩ => show win0_0.index t (2 : Fin 3) * 4096 + 1 * s.val = s.val; rw [e2]; omega

theorem iblk2_apply (c : Dev nD) (t : Fin cfg0.N) (p : Fin 256) (k : Fin 4) (cc : Fin 3) :
    (Hand.iblk m c 2 t : Vec Ideal S1x256x4x3 .f32) (ix4 (0 : Fin 1) p k cc)
      = (Hand.V m c main_v102 : FVec Ideal S4x4096x4x3 .f32) (ix4 (batchOf t) (rowOf t p) k cc) := by
  obtain ⟨-, -, ⟨e0, e1, e2, e3⟩, -⟩ := idx_facts t
  unfold Hand.iblk
  rw [View.read_apply]
  show Hand.V m c main_v102 _ = Hand.V m c main_v102 _
  refine congrArg (Hand.V m c main_v102) (funext fun a => Fin.ext ?_)
  match a with
  | ⟨0, _⟩ => show win0_2.index t (0 : Fin 4) * 1 + 1 * (0 : Fin 1).val = t.val / 16; rw [e0]; simp
  | ⟨1, _⟩ => show win0_2.index t (1 : Fin 4) * 256 + 1 * p.val = t.val % 16 * 256 + p.val; rw [e1]; omega
  | ⟨2, _⟩ => show win0_2.index t (2 : Fin 4) * 4 + 1 * k.val = k.val; rw [e2]; omega
  | ⟨3, _⟩ => show win0_2.index t (3 : Fin 4) * 3 + 1 * cc.val = cc.val; rw [e3]; omega

theorem iblk3_apply (c : Dev nD) (t : Fin cfg0.N) (p : Fin 256) (k : Fin 4) :
    (Hand.iblk m c 3 t : Vec Ideal S1x256x4 .f32) (ix3 (0 : Fin 1) p k)
      = (Hand.V m c main_v95 : FVec Ideal S4x4096x4 .f32) (ix3 (batchOf t) (rowOf t p) k) := by
  obtain ⟨-, -, -, ⟨e0, e1, e2⟩, -⟩ := idx_facts t
  unfold Hand.iblk
  rw [View.read_apply]
  show Hand.V m c main_v95 _ = Hand.V m c main_v95 _
  refine congrArg (Hand.V m c main_v95) (funext fun a => Fin.ext ?_)
  match a with
  | ⟨0, _⟩ => show win0_3.index t (0 : Fin 3) * 1 + 1 * (0 : Fin 1).val = t.val / 16; rw [e0]; simp
  | ⟨1, _⟩ => show win0_3.index t (1 : Fin 3) * 256 + 1 * p.val = t.val % 16 * 256 + p.val; rw [e1]; omega
  | ⟨2, _⟩ => show win0_3.index t (2 : Fin 3) * 4 + 1 * k.val = k.val; rw [e2]; omega

/-! ## What a point writes back is its block of the whole-array function -/

/-- Two functions on a tile agree when they agree at every (0, p, c). -/
theorem tile_ext {α : Type} (f g : S1x256x3.Idx → α)
    (h : ∀ (p : Fin 256) (cc : Fin 3), f (ix3 (0 : Fin 1) p cc) = g (ix3 (0 : Fin 1) p cc)) : f = g := by
  funext j
  have h0 : (j 0).val = 0 := by have h1 : (j 0).val < 1 := (j 0).isLt; omega
  have e : j = ix3 (0 : Fin 1) (j 1 : Fin 256) (j 2 : Fin 3) := by
    funext a
    match a with
    | ⟨0, _⟩ => exact Fin.ext h0
    | ⟨1, _⟩ => rfl
    | ⟨2, _⟩ => rfl
  rw [e]; exact h _ _

theorem acc4_congr {w w' : Fin 4 → BitVec 32} {u u' r r' : Fin 4 → EReal} (hw : ∀ k, w k = w' k) (hu : ∀ k, u k = u' k)
    (hr : ∀ k, r k = r' k) : KPay.acc4 w u r = KPay.acc4 w' u' r' := by
  obtain rfl : w = w' := funext hw
  obtain rfl : u = u' := funext hu
  obtain rfl : r = r' := funext hr
  rfl

/-- Entry (0, p, c) of point `t`'s output tile sits at (batch, row, c) of the array. -/
theorem emb4 (t : Fin cfg0.N) (p : Fin 256) (cc : Fin 3) :
    ((cfg0.win 4).blk t).view.emb (ix3 (0 : Fin 1) p cc) = ix3 (batchOf t) (rowOf t p) cc := by
  obtain ⟨-, -, -, -, ⟨e0, e1, e2⟩, -⟩ := idx_facts t
  refine funext fun a => Fin.ext ?_
  match a with
  | ⟨0, _⟩ => show win0_4.index t (0 : Fin 3) * 1 + 1 * (0 : Fin 1).val = t.val / 16; rw [e0]; simp
  | ⟨1, _⟩ => show win0_4.index t (1 : Fin 3) * 256 + 1 * p.val = t.val % 16 * 256 + p.val; rw [e1]; omega
  | ⟨2, _⟩ => show win0_4.index t (2 : Fin 3) * 3 + 1 * cc.val = cc.val; rw [e2]; omega

theorem emb5 (t : Fin cfg0.N) (p : Fin 256) (cc : Fin 3) :
    ((cfg0.win 5).blk t).view.emb (ix3 (0 : Fin 1) p cc) = ix3 (batchOf t) (rowOf t p) cc := by
  obtain ⟨-, -, -, -, -, ⟨e0, e1, e2⟩⟩ := idx_facts t
  refine funext fun a => Fin.ext ?_
  match a with
  | ⟨0, _⟩ => show win0_5.index t (0 : Fin 3) * 1 + 1 * (0 : Fin 1).val = t.val / 16; rw [e0]; simp
  | ⟨1, _⟩ => show win0_5.index t (1 : Fin 3) * 256 + 1 * p.val = t.val % 16 * 256 + p.val; rw [e1]; omega
  | ⟨2, _⟩ => show win0_5.index t (2 : Fin 3) * 3 + 1 * cc.val = cc.val; rw [e2]; omega

/-- What point `t` writes back to the first result's array is block `t` of `G4` of the arrays the region finds. -/
theorem flushed4_eq (c : Dev nD) (t : Fin cfg0.N) :
    (Hand.dats m 0 c).flushed 4 t
      = ((cfg0.win 4).blk t).view.read (Elt Ideal) (G4 (Hand.V m c main_v90) (Hand.V m c main_v102) (Hand.V m c main_v95)) := by
  show (cfg0.win 4).cut (grid0.coords t) ((Hand.dats m 0 c).after 4 t) = _
  rw [Hand.after0_4]
  unfold Hand.out0_4
  rw [View.canon_unit_zero hz3]
  simp only [View.ld_unit_zero (S := S1x256x4) hz3, View.ld_unit_zero (S := S1x256x4x3) hz4]
  refine tile_ext _ _ fun p cc => ?_
  refine (KPay.smpl_block (Hand.iblk m c 1 t) (Hand.iblk m c 2 t) (Hand.iblk m c 3 t) p cc).trans ?_
  rw [View.read_apply]
  show _ = G4 (Hand.V m c main_v90) (Hand.V m c main_v102) (Hand.V m c main_v95) (((cfg0.win 4).blk t).view.emb (ix3 (0 : Fin 1) p cc))
  rw [emb4 t p cc, G4_apply]
  exact acc4_congr (fun k => iblk1_apply m c t p k) (fun k => iblk3_apply m c t p k) (fun k => iblk2_apply m c t p k cc)

/-- What point `t` writes back to the second result's array is block `t` of `G5` of the arrays the region finds. -/
theorem flushed5_eq (c : Dev nD) (t : Fin cfg0.N) :
    (Hand.dats m 0 c).flushed 5 t
      = ((cfg0.win 5).blk t).view.read (Elt Ideal) (G5 (Hand.V m c main_arg0) (Hand.V m c main_v90) (Hand.V m c main_v102)) := by
  show (cfg0.win 5).cut (grid0.coords t) ((Hand.dats m 0 c).after 5 t) = _
  rw [Hand.after0_5]
  unfold Hand.out0_5
  rw [View.canon_unit_zero hz3]
  simp only [View.ld_unit_zero (S := S1x256x4096) hz3, View.ld_unit_zero (S := S1x256x4) hz3, View.ld_unit_zero (S := S1x256x4x3) hz4]
  refine tile_ext _ _ fun p cc => ?_
  refine (KPay.corr_block (Hand.iblk m c 0 t) (Hand.iblk m c 1 t) (Hand.iblk m c 2 t) p cc).trans ?_
  rw [View.read_apply]
  show _ = G5 (Hand.V m c main_arg0) (Hand.V m c main_v90) (Hand.V m c main_v102) (((cfg0.win 5).blk t).view.emb (ix3 (0 : Fin 1) p cc))
  rw [emb5 t p cc, G5_apply]
  refine acc4_congr (fun k => iblk1_apply m c t p k) (fun k => ?_) (fun k => iblk2_apply m c t p k cc)
  rw [iblk1_apply m c t p k]
  exact congrArg (fun x => KPay.pick x _) (funext fun s => iblk0_apply m c t p s)

/-! ## The blocks cover the arrays -/

/-- An index of the first result's array is in point `t`'s block iff each coordinate is in the block's range. -/
theorem mem_blk4 (t : Fin cfg0.N) (i : S4x4096x3.Idx) :
    i ∈ ((cfg0.win 4).blk t).view.set ↔ ∀ a : Fin 3, win0_4.index t a * S1x256x3.size a ≤ (i a).val ∧ (i a).val < win0_4.index t a * S1x256x3.size a + S1x256x3.size a := by
  show i ∈ ((View.whole main_v103_0).slice (win0_4.rect t)).set ↔ _
  rw [View.set_slice_whole, Rect.mem_set_unit]
  exact Iff.rfl

theorem mem_blk5 (t : Fin cfg0.N) (i : S4x4096x3.Idx) :
    i ∈ ((cfg0.win 5).blk t).view.set ↔ ∀ a : Fin 3, win0_5.index t a * S1x256x3.size a ≤ (i a).val ∧ (i a).val < win0_5.index t a * S1x256x3.size a + S1x256x3.size a := by
  show i ∈ ((View.whole main_v103_1).slice (win0_5.rect t)).set ↔ _
  rw [View.set_slice_whole, Rect.mem_set_unit]
  exact Iff.rfl

/-- The point whose tile holds row `r` of batch `b`: b · 16 + r / 256. -/
def pointOf (b : Fin 4) (r : Fin 4096) : Fin cfg0.N :=
  ⟨b.val * 16 + r.val / 256, by have hN : cfg0.N = 64 := N_0; have := b.isLt; have := r.isLt; omega⟩

theorem cover4 (i : S4x4096x3.Idx) : ∃ t : Fin cfg0.N, (cfg0.win 4).flush t = true ∧ i ∈ ((cfg0.win 4).blk t).view.set := by
  have h0 : (i 0).val < 4 := (i 0).isLt
  have h1 : (i 1).val < 4096 := (i 1).isLt
  have h2 : (i 2).val < 3 := (i 2).isLt
  refine ⟨pointOf ⟨(i 0).val, h0⟩ ⟨(i 1).val, h1⟩, flush0_4 _, ?_⟩
  rw [mem_blk4]
  obtain ⟨-, -, -, -, ⟨e0, e1, e2⟩, -⟩ := idx_facts (pointOf ⟨(i 0).val, h0⟩ ⟨(i 1).val, h1⟩)
  have hv : (pointOf ⟨(i 0).val, h0⟩ ⟨(i 1).val, h1⟩).val = (i 0).val * 16 + (i 1).val / 256 := rfl
  intro a
  match a with
  | ⟨0, _⟩ => show win0_4.index _ (0 : Fin 3) * 1 ≤ (i 0).val ∧ (i 0).val < win0_4.index _ (0 : Fin 3) * 1 + 1; rw [e0, hv]; omega
  | ⟨1, _⟩ => show win0_4.index _ (1 : Fin 3) * 256 ≤ (i 1).val ∧ (i 1).val < win0_4.index _ (1 : Fin 3) * 256 + 256; rw [e1, hv]; omega
  | ⟨2, _⟩ => show win0_4.index _ (2 : Fin 3) * 3 ≤ (i 2).val ∧ (i 2).val < win0_4.index _ (2 : Fin 3) * 3 + 3; rw [e2]; omega

theorem cover5 (i : S4x4096x3.Idx) : ∃ t : Fin cfg0.N, (cfg0.win 5).flush t = true ∧ i ∈ ((cfg0.win 5).blk t).view.set := by
  have h0 : (i 0).val < 4 := (i 0).isLt
  have h1 : (i 1).val < 4096 := (i 1).isLt
  have h2 : (i 2).val < 3 := (i 2).isLt
  refine ⟨pointOf ⟨(i 0).val, h0⟩ ⟨(i 1).val, h1⟩, flush0_5 _, ?_⟩
  rw [mem_blk5]
  obtain ⟨-, -, -, -, -, ⟨e0, e1, e2⟩⟩ := idx_facts (pointOf ⟨(i 0).val, h0⟩ ⟨(i 1).val, h1⟩)
  have hv : (pointOf ⟨(i 0).val, h0⟩ ⟨(i 1).val, h1⟩).val = (i 0).val * 16 + (i 1).val / 256 := rfl
  intro a
  match a with
  | ⟨0, _⟩ => show win0_5.index _ (0 : Fin 3) * 1 ≤ (i 0).val ∧ (i 0).val < win0_5.index _ (0 : Fin 3) * 1 + 1; rw [e0, hv]; omega
  | ⟨1, _⟩ => show win0_5.index _ (1 : Fin 3) * 256 ≤ (i 1).val ∧ (i 1).val < win0_5.index _ (1 : Fin 3) * 256 + 256; rw [e1, hv]; omega
  | ⟨2, _⟩ => show win0_5.index _ (2 : Fin 3) * 3 ≤ (i 2).val ∧ (i 2).val < win0_5.index _ (2 : Fin 3) * 3 + 3; rw [e2]; omega

/-! ## The result arrays after the run -/

/-- The first result's array ends holding `G4` of the arrays the region finds. -/
theorem final4 (c : Dev nD) : (Hand.dats m 0 c).arrAt 4 cfg0.N
    = G4 (Hand.V m c main_v90) (Hand.V m c main_v102) (Hand.V m c main_v95) :=
  (Hand.dats m 0 c).arrAt_eq_of_cover 4 (G4 (Hand.V m c main_v90) (Hand.V m c main_v102) (Hand.V m c main_v95))
    (fun t _ => flushed4_eq m c t) cover4

/-- The second result's array ends holding `G5` of the arrays the region finds. -/
theorem final5 (c : Dev nD) : (Hand.dats m 0 c).arrAt 5 cfg0.N
    = G5 (Hand.V m c main_arg0) (Hand.V m c main_v90) (Hand.V m c main_v102) :=
  (Hand.dats m 0 c).arrAt_eq_of_cover 5 (G5 (Hand.V m c main_arg0) (Hand.V m c main_v90) (Hand.V m c main_v102))
    (fun t _ => flushed5_eq m c t) cover5

/-! ## The closing stretch: a transpose and a reshape of each result array -/

/-- The closing stretch's two operations on a result array: the last two axes exchanged, then the 4096 rows read as
    a 64 × 64 grid. -/
def tailT (X : FVec Ideal S4x4096x3 .f32) : FVec Ideal S4x3x64x64 .f32 :=
  shapeCast S4x3x64x64 (transpose S4x3x4096 [0, 2, 1] X transposes_S4x4096x3_S4x3x4096_0_2_1) shapeCasts_S4x3x4096_S4x3x64x64

/-- Entry (b, c, h, w) of it is entry (b, 64 h + w, c) of the array. -/
theorem tailT_apply (X : FVec Ideal S4x4096x3 .f32) (b : Fin 4) (c : Fin 3) (h w : Fin 64) :
    tailT X (ix4 b c h w) = X (ix3 b ⟨h.val * 64 + w.val, by have := h.isLt; have := w.isLt; omega⟩ c) := by
  unfold tailT
  generalize hy : transpose S4x3x4096 [0, 2, 1] X transposes_S4x4096x3_S4x3x4096_0_2_1 = y
  refine (shapeCast_apply y shapeCasts_S4x3x4096_S4x3x64x64 (ix4 b c h w)
    (ix3 b c (⟨h.val * 64 + w.val, by have := h.isLt; have := w.isLt; omega⟩ : Fin 4096)) ?_).trans ?_
  · rewrite [Shape.rowMajor_val_three, Shape.rowMajor_val_four]
    show (b.val * 3 + c.val) * 4096 + (h.val * 64 + w.val) = ((b.val * 3 + c.val) * 64 + h.val) * 64 + w.val
    omega
  · subst hy
    exact transpose_apply [0, 2, 1] X transposes_S4x4096x3_S4x3x4096_0_2_1
      (ix3 b c (⟨h.val * 64 + w.val, by have := h.isLt; have := w.isLt; omega⟩ : Fin 4096))
      (ix3 b (⟨h.val * 64 + w.val, by have := h.isLt; have := w.isLt; omega⟩ : Fin 4096) c) (fun b' => match b' with
        | ⟨0, _⟩ => rfl
        | ⟨1, _⟩ => rfl
        | ⟨2, _⟩ => rfl)

/-- The first result of @main after the closing stretch. -/
theorem tail_v105 (c : Dev nD) :
    Pipeline.afterTail₀ cfgs (Hand.dats m) 0 (Hand.V0 m) [hostOps1] c main_v105
      = tailT (G4 (Hand.V m c main_v90) (Hand.V m c main_v102) (Hand.V m c main_v95)) := by
  have hW : Pipeline.withArrays (cfgs 0).spec c (Hand.V0 m c) (fun w => (Hand.dats m 0 c).arrAt w (cfgs 0).N) (Proc.devRef .tc main_v103_0)
      = G4 (Hand.V m c main_v90) (Hand.V m c main_v102) (Hand.V m c main_v95) :=
    (Pipeline.withArrays_arr spec0 launch0.win.arr_inj c _ _ 4).trans (final4 m c)
  unfold Pipeline.afterTail₀
  show StableHlo.after hostOps1 _ (Proc.devRef .tc main_v105) = _
  after_results
  exact congrArg tailT hW

/-- The second result of @main after the closing stretch. -/
theorem tail_v107 (c : Dev nD) :
    Pipeline.afterTail₀ cfgs (Hand.dats m) 0 (Hand.V0 m) [hostOps1] c main_v107
      = tailT (G5 (Hand.V m c main_arg0) (Hand.V m c main_v90) (Hand.V m c main_v102)) := by
  have hW : Pipeline.withArrays (cfgs 0).spec c (Hand.V0 m c) (fun w => (Hand.dats m 0 c).arrAt w (cfgs 0).N) (Proc.devRef .tc main_v103_1)
      = G5 (Hand.V m c main_arg0) (Hand.V m c main_v90) (Hand.V m c main_v102) :=
    (Pipeline.withArrays_arr spec0 launch0.win.arr_inj c _ _ 5).trans (final5 m c)
  unfold Pipeline.afterTail₀
  show StableHlo.after hostOps1 _ (Proc.devRef .tc main_v107) = _
  after_results
  exact congrArg tailT hW

/-! ## The run, read -/

/-- The run re-posted: each result of @main at the closing stretch's image of its whole-array function of the arrays
    the region finds, the four argument arrays unchanged. -/
theorem run : θ_run defs (onTc (τ := τ) (main (F := Ideal))) ⟨m, fun _ => 0, ρ⟩ (fun r => ∀ c : Dev nD,
      r.2.mem ((c.tc : Thread nD τ).loc main_v105) = tailT (G4 (Hand.V m c main_v90) (Hand.V m c main_v102) (Hand.V m c main_v95))
      ∧ r.2.mem ((c.tc : Thread nD τ).loc main_v107) = tailT (G5 (Hand.V m c main_arg0) (Hand.V m c main_v90) (Hand.V m c main_v102))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v105 (Pipeline.mem_restRefs_of main_v105 (by decide) (by decide))).trans (tail_v105 m c),
      ((h c).2 main_v107 (Pipeline.mem_restRefs_of main_v107 (by decide) (by decide))).trans (tail_v107 m c),
      ((h c).1 0).trans ((((Hand.dats m 0 c).arrAt_in 0 rfl _).trans ((Hand.A_eq m c 0).trans (Hand.V_main_arg0 m c)))),
      ((h c).2 main_arg1 (Pipeline.mem_restRefs_of main_arg1 (by decide) (by decide))).trans (Hand.W_main_arg1 m (Hand.dats m) c),
      ((h c).2 main_arg2 (Pipeline.mem_restRefs_of main_arg2 (by decide) (by decide))).trans (Hand.W_main_arg2 m (Hand.dats m) c),
      ((h c).2 main_arg3 (Pipeline.mem_restRefs_of main_arg3 (by decide) (by decide))).trans (Hand.W_main_arg3 m (Hand.dats m) c)⟩)
    (Hand.run_main m ρ)

/-- info: 'Cert.KernelIdeal.KValue.run' depends on axioms: [propext, Classical.choice, Quot.sound] -/
#guard_msgs in #print axioms run

end Cert.KernelIdeal.KValue

end
-- ==== Proof.LibIdxRange.lean ====
import Idealize.ShloMosaic.PureOps.Ideal

/-!
# A clamped row/column pair converts to an in-range index word

A pair of coordinates is clamped to `[0, 63]` each (`min 63 (max 0 ·)`), combined as
`row * 64 + col`, and converted to a signed 32-bit word by the round-toward-zero, saturating
conversion `Ideal.fptosi 32`.  Whatever the two coordinates were (an infinity included), the
word read as an integer lies in `[0, 4096)`:

* `clamp_mem`: the clamp lands in `[0, 63]`;
* `row_col_mem`: for `a, b ∈ [0, 63]`, `a * 64 + b ∈ [0, 4095]`;
* `toInt_fptosi_of_mem`: on `[0, 4095]` the conversion does not saturate and stays in `[0, 4095]`
  (`toInt_fptosi_coe`: it is the floor);
* `idx_word_range`: the three together.

Then the constants these expressions are spelled with (`64.0` as its binary32 pattern, `63` and
`0` as 32-bit words read as reals), and what an in-range word does in signed comparisons: it is
not negative, so a "wrap a negative index" select returns it unchanged, and its bounds tests hold.
-/

noncomputable section

namespace IdxRange

open Idealize.ShloMosaic

/-! ### The conversion on `[0, 4095]` -/

/-- A small non-negative integer survives the trip through a 32-bit word. -/
theorem toInt_ofInt_of_mem (k : ℤ) (h0 : 0 ≤ k) (h1 : k < 4096) : (BitVec.ofInt 32 k).toInt = k := by
  rw [BitVec.toInt_ofInt, Int.bmod_def]
  have e : (((2 : ℕ) ^ 32 : ℕ) : ℤ) = 4294967296 := by norm_num
  rw [e]
  have hk : k % 4294967296 = k := Int.emod_eq_of_lt h0 (by omega)
  rw [hk]
  split_ifs with h
  · rfl
  · omega

/-- The 32-bit saturation bounds do nothing to an integer of `[0, 4095]`. -/
theorem clampInt_of_mem (k : ℤ) (h0 : 0 ≤ k) (h1 : k ≤ 4095) :
    max (-((2 ^ (32 - 1) : ℕ) : ℤ)) (min (((2 ^ (32 - 1) : ℕ) : ℤ) - 1) k) = k := by
  have e : ((2 ^ (32 - 1) : ℕ) : ℤ) = 2147483648 := by norm_num
  rw [e, min_eq_right (by omega), max_eq_right (by omega)]

/-- On a real of `[0, 4095]` the conversion is the floor. -/
theorem toInt_fptosi_coe (r : ℝ) (h0 : 0 ≤ r) (h1 : r ≤ 4095) :
    (Ideal.fptosi 32 (r : EReal)).toInt = ⌊r⌋ := by
  have hf0 : 0 ≤ ⌊r⌋ := Int.floor_nonneg.mpr h0
  have hf1 : ⌊r⌋ ≤ 4095 := by
    have : ((⌊r⌋ : ℤ) : ℝ) ≤ 4095 := (Int.floor_le r).trans h1
    exact_mod_cast this
  rw [Ideal.fptosi, Ideal.toIntClamped_coe, if_pos h0, clampInt_of_mem _ hf0 hf1,
    toInt_ofInt_of_mem _ hf0 (by omega)]

/-- An extended real between `0` and a real is a real. -/
theorem exists_coe_of_mem (x : EReal) (c : ℝ) (h0 : 0 ≤ x) (h1 : x ≤ (c : EReal)) :
    ∃ r : ℝ, x = (r : EReal) ∧ 0 ≤ r ∧ r ≤ c := by
  induction x using EReal.rec with
  | bot => exact absurd h0 (not_le.mpr EReal.bot_lt_zero)
  | top => exact absurd h1 (not_le.mpr (EReal.coe_lt_top c))
  | coe r => exact ⟨r, rfl, EReal.coe_nonneg.mp h0, EReal.coe_le_coe_iff.mp h1⟩

/-- The conversion of an extended real of `[0, 4095]` stays in `[0, 4095]`. -/
theorem toInt_fptosi_of_mem (x : EReal) (h0 : 0 ≤ x) (h1 : x ≤ ((4095 : ℝ) : EReal)) :
    0 ≤ (Ideal.fptosi 32 x).toInt ∧ (Ideal.fptosi 32 x).toInt ≤ 4095 := by
  obtain ⟨r, rfl, hr0, hr1⟩ := exists_coe_of_mem x 4095 h0 h1
  rw [toInt_fptosi_coe r hr0 hr1]
  refine ⟨Int.floor_nonneg.mpr hr0, ?_⟩
  have : ((⌊r⌋ : ℤ) : ℝ) ≤ 4095 := (Int.floor_le r).trans hr1
  exact_mod_cast this

/-! ### The clamp and the row/column combination -/

/-- The clamp to `[0, 63]` lands in `[0, 63]`, whatever it is given. -/
theorem clamp_mem (y : EReal) :
    0 ≤ min ((63 : ℝ) : EReal) (max ((0 : ℝ) : EReal) y) ∧
      min ((63 : ℝ) : EReal) (max ((0 : ℝ) : EReal) y) ≤ ((63 : ℝ) : EReal) := by
  refine ⟨le_min ?_ ?_, min_le_left _ _⟩
  · exact EReal.coe_nonneg.mpr (by norm_num)
  · rw [EReal.coe_zero]; exact le_max_left _ _

/-- A row and a column of `[0, 63]` combine to an index of `[0, 4095]`. -/
theorem row_col_mem (a b : EReal) (ha : 0 ≤ a ∧ a ≤ ((63 : ℝ) : EReal))
    (hb : 0 ≤ b ∧ b ≤ ((63 : ℝ) : EReal)) :
    0 ≤ a * ((64 : ℝ) : EReal) + b ∧ a * ((64 : ℝ) : EReal) + b ≤ ((4095 : ℝ) : EReal) := by
  obtain ⟨ra, rfl, ha0, ha1⟩ := exists_coe_of_mem a 63 ha.1 ha.2
  obtain ⟨rb, rfl, hb0, hb1⟩ := exists_coe_of_mem b 63 hb.1 hb.2
  rw [← EReal.coe_mul, ← EReal.coe_add]
  constructor
  · exact EReal.coe_nonneg.mpr (by nlinarith)
  · exact EReal.coe_le_coe_iff.mpr (by nlinarith)

/-- **The index word is in range.**  Clamp two coordinates to `[0, 63]`, combine them as
`row * 64 + col`, convert: the word, read as an integer, lies in `[0, 4096)`. -/
theorem idx_word_range (y z : EReal) :
    0 ≤ (Ideal.fptosi 32 (min ((63 : ℝ) : EReal) (max ((0 : ℝ) : EReal) y) * ((64 : ℝ) : EReal) +
        min ((63 : ℝ) : EReal) (max ((0 : ℝ) : EReal) z))).toInt ∧
      (Ideal.fptosi 32 (min ((63 : ℝ) : EReal) (max ((0 : ℝ) : EReal) y) * ((64 : ℝ) : EReal) +
        min ((63 : ℝ) : EReal) (max ((0 : ℝ) : EReal) z))).toInt < 4096 := by
  have h := row_col_mem _ _ (clamp_mem y) (clamp_mem z)
  have h' := toInt_fptosi_of_mem _ h.1 h.2
  exact ⟨h'.1, by omega⟩

/-! ### The constants as they are spelled -/

/-- The binary32 pattern of `64.0` denotes the real `64`. -/
theorem ofBits_64 : Ideal.ofBits .f32 0x42800000#32 = ((64 : ℝ) : EReal) := by
  simp [Ideal.ofBits, Ideal.ieee, -EReal.coe_mul]; norm_num

/-- The binary32 pattern of `+0.0` denotes `0`. -/
theorem ofBits_zero : Ideal.ofBits .f32 0x00000000#32 = 0 := by
  simp [Ideal.ofBits, Ideal.ieee]

/-- The word `63`, read as a signed integer and then as a real. -/
theorem toInt_63_coe : ((BitVec.toInt (63#32) : ℝ) : EReal) = ((63 : ℝ) : EReal) := by
  have e : BitVec.toInt (63#32) = 63 := by decide
  rw [e]; norm_num

/-- The word `0`, read as a signed integer and then as a real. -/
theorem toInt_0_coe : ((BitVec.toInt (0#32) : ℝ) : EReal) = 0 := by
  have e : BitVec.toInt (0#32) = 0 := by decide
  rw [e]; norm_num

/-- The same, keeping the real `0` visible (the form `clamp_mem` is stated with). -/
theorem toInt_0_coe' : ((BitVec.toInt (0#32) : ℝ) : EReal) = ((0 : ℝ) : EReal) := by
  rw [toInt_0_coe, EReal.coe_zero]

/-- `idx_word_range` with every constant as it is spelled: `63` and `0` as words read as reals, `64.0`
as its binary32 pattern. -/
theorem idx_word_range_spelled (y z : EReal) :
    0 ≤ (Ideal.fptosi 32
        (min ((BitVec.toInt (63#32) : ℝ) : EReal) (max ((BitVec.toInt (0#32) : ℝ) : EReal) y) *
            Ideal.ofBits .f32 0x42800000#32 +
          min ((BitVec.toInt (63#32) : ℝ) : EReal) (max ((BitVec.toInt (0#32) : ℝ) : EReal) z))).toInt ∧
      (Ideal.fptosi 32
        (min ((BitVec.toInt (63#32) : ℝ) : EReal) (max ((BitVec.toInt (0#32) : ℝ) : EReal) y) *
            Ideal.ofBits .f32 0x42800000#32 +
          min ((BitVec.toInt (63#32) : ℝ) : EReal) (max ((BitVec.toInt (0#32) : ℝ) : EReal) z))).toInt
        < 4096 := by
  rw [toInt_63_coe, toInt_0_coe', ofBits_64]
  exact idx_word_range y z

/-! ### What an in-range word does -/

/-- A word whose signed reading is non-negative reads the same unsigned. -/
theorem toNat_cast_eq_toInt (v : BitVec 32) (h0 : 0 ≤ v.toInt) : (v.toNat : ℤ) = v.toInt := by
  have hlt := v.isLt
  rw [BitVec.toInt_eq_toNat_cond] at h0 ⊢
  split_ifs at h0 ⊢ with h
  · rfl
  · omega

theorem toNat_eq_toInt_toNat (v : BitVec 32) (h0 : 0 ≤ v.toInt) : v.toNat = v.toInt.toNat := by
  have := toNat_cast_eq_toInt v h0
  omega

theorem toNat_lt_of_toInt_lt (v : BitVec 32) (h0 : 0 ≤ v.toInt) (h1 : v.toInt < 4096) :
    v.toNat < 4096 := by
  have := toNat_cast_eq_toInt v h0
  omega

/-- The index word of `idx_word_range`, read unsigned, is below `4096`. -/
theorem idx_word_toNat_lt (y z : EReal) :
    (Ideal.fptosi 32 (min ((63 : ℝ) : EReal) (max ((0 : ℝ) : EReal) y) * ((64 : ℝ) : EReal) +
        min ((63 : ℝ) : EReal) (max ((0 : ℝ) : EReal) z))).toNat < 4096 :=
  toNat_lt_of_toInt_lt _ (idx_word_range y z).1 (idx_word_range y z).2

/-- A non-negative word is not below zero in the signed order. -/
theorem slt_zero_eq_false (v : BitVec 32) (h0 : 0 ≤ v.toInt) : BitVec.slt v 0#32 = false := by
  simp only [BitVec.slt, BitVec.toInt_zero, decide_eq_false_iff_not, not_lt]
  exact h0

theorem zero_sle (v : BitVec 32) (h0 : 0 ≤ v.toInt) : BitVec.sle 0#32 v = true := by
  simp only [BitVec.sle, BitVec.toInt_zero, decide_eq_true_eq]
  exact h0

theorem sle_4095 (v : BitVec 32) (h1 : v.toInt < 4096) : BitVec.sle v 4095#32 = true := by
  have e : BitVec.toInt (4095#32) = 4095 := by decide
  simp only [BitVec.sle, e, decide_eq_true_eq]
  omega

/-- The "is the index negative" test of a non-negative word fails … -/
theorem cmpi_slt_zero (v : BitVec 32) (h0 : 0 ≤ v.toInt) : IntOp.cmpi .slt v 0#32 = 0#1 := by
  simp only [IntOp.cmpi, slt_zero_eq_false v h0]; rfl

/-- … so the select that would add `4096` to a negative index returns the word itself. -/
theorem select_wrap_eq (v : BitVec 32) (h0 : 0 ≤ v.toInt) :
    Scalar.select (IntOp.cmpi .slt v 0#32) (v + 4096#32) v = v := by
  rw [cmpi_slt_zero v h0]; rfl

/-- The lower bounds test of a non-negative word holds. -/
theorem cmpi_sge_zero (v : BitVec 32) (h0 : 0 ≤ v.toInt) : IntOp.cmpi .sge v 0#32 = 1#1 := by
  simp only [IntOp.cmpi, zero_sle v h0]; rfl

/-- The upper bounds test of a word below `4096` holds. -/
theorem cmpi_sle_4095 (v : BitVec 32) (h1 : v.toInt < 4096) : IntOp.cmpi .sle v 4095#32 = 1#1 := by
  simp only [IntOp.cmpi, sle_4095 v h1]; rfl

end IdxRange

end
-- ==== Proof.LibGatherBatch.lean ====
import Idealize.ShloMosaic.Lib.ValueIdx

/-!
# A batched one-axis gather read at an index

`stablehlo.gather` of an operand `[B, N, C]` at start indices `[B, M, C, 1]` with result `[B, M, C]`,
the first and last axes batching on both sides, the middle operand axis collapsed and named by the
start index map, every slice size one: what `take_along_axis` along the middle axis lowers to.
Result element `(b, m, c)` is the operand at `(b, i, c)` where `i` is the start index
`idx[b, m, c, 0]` read as a signed integer and clamped into `[0, N − 1]`.
-/

noncomputable section

namespace GatherBatch

open Idealize.ShloMosaic Idealize.ShloMosaic.ValueIdx

/-- Those dimension numbers; their conditions `wf` are decided on a program's literal shapes. -/
abbrev dims (B N C M : Nat)
    (wf : GatherDims.WF ⟨3, ![B, N, C]⟩ ⟨4, ![B, M, C, 1]⟩ ⟨3, ![B, M, C]⟩ [] [1] [0, 2] [1] [0, 2] 3 ![1, 1, 1]) :
    GatherDims ⟨3, ![B, N, C]⟩ ⟨4, ![B, M, C, 1]⟩ ⟨3, ![B, M, C]⟩ where
  offsetDims := []
  collapsedSliceDims := [1]
  operandBatchingDims := [0, 2]
  startIndicesBatchingDims := [0, 2]
  startIndexMap := [1]
  indexVectorDim := 3
  sliceSizes := ![1, 1, 1]
  wf := wf

variable {α : Type}

/-- THE GATHER READ AT `(b, m, c)`: the operand at `(b, i, c)`, `i` the start index `idx[b, m, c, 0]` read
    signed and clamped into `[0, N − 1]`. -/
theorem gather_apply {B N C M w : Nat} (hN : 0 < N)
    (wf : GatherDims.WF ⟨3, ![B, N, C]⟩ ⟨4, ![B, M, C, 1]⟩ ⟨3, ![B, M, C]⟩ [] [1] [0, 2] [1] [0, 2] 3 ![1, 1, 1])
    (x : (⟨3, ![B, N, C]⟩ : Shape).Idx → α) (idx : IVec ⟨4, ![B, M, C, 1]⟩ w) (b : Fin B) (m : Fin M) (c : Fin C) :
    Host.gather (dims B N C M wf) x idx (ix3 b m c)
      = x (ix3 b ⟨min (idx (ix4 b m c (0 : Fin 1))).toInt.toNat (N - 1), by omega⟩ c) := by
  unfold Host.gather
  congr 1
  funext a
  refine Fin.ext ?_
  show (dims B N C M wf).start (ix3 b m c) idx a + (dims B N C M wf).batchCoord (ix3 b m c) a
    + (dims B N C M wf).offCoord (ix3 b m c) a = _
  match a with
  | ⟨0, _⟩ =>
    show (dims B N C M wf).start (ix3 b m c) idx (0 : Fin 3) + (dims B N C M wf).batchCoord (ix3 b m c) (0 : Fin 3)
      + (dims B N C M wf).offCoord (ix3 b m c) (0 : Fin 3) = b.val
    have hb : (0 : Fin 3) ∈ (dims B N C M wf).operandBatchingDims := by simp
    rw [GatherDims.start_batching _ _ _ _ hb,
      GatherDims.offCoord_eq_zero _ _ _ (fun h => ((GatherDims.mem_sKept _ _).mp h).2 hb)]
    unfold GatherDims.batchCoord
    rw [dif_pos hb, Nat.zero_add, Nat.add_zero]
    rfl
  | ⟨1, _⟩ =>
    show (dims B N C M wf).start (ix3 b m c) idx (1 : Fin 3) + (dims B N C M wf).batchCoord (ix3 b m c) (1 : Fin 3)
      + (dims B N C M wf).offCoord (ix3 b m c) (1 : Fin 3) = min (idx (ix4 b m c (0 : Fin 1))).toInt.toNat (N - 1)
    have hnb : (1 : Fin 3) ∉ (dims B N C M wf).operandBatchingDims := by simp
    have hc : (1 : Fin 3) ∈ (dims B N C M wf).collapsedSliceDims := by simp
    rw [GatherDims.batchCoord_eq_zero _ _ _ hnb,
      GatherDims.offCoord_eq_zero _ _ _ (fun h => ((GatherDims.mem_sKept _ _).mp h).1 hc)]
    simp only [Nat.add_zero]
    unfold GatherDims.start
    rw [dif_pos (show (1 : Fin 3) ∈ (dims B N C M wf).startIndexMap from List.mem_singleton.mpr rfl)]
    have hsi : (dims B N C M wf).siIdx (ix3 b m c) ⟨List.idxOf (1 : Fin 3) (dims B N C M wf).startIndexMap,
        List.idxOf_lt_length_iff.2 (List.mem_singleton.mpr rfl)⟩ = ix4 b m c (0 : Fin 1) := by
      funext e; refine Fin.ext ?_
      match e with
      | ⟨0, _⟩ => rfl
      | ⟨1, _⟩ => rfl
      | ⟨2, _⟩ => rfl
      | ⟨3, _⟩ => rfl
    rw [hsi]
    rfl
  | ⟨2, _⟩ =>
    show (dims B N C M wf).start (ix3 b m c) idx (2 : Fin 3) + (dims B N C M wf).batchCoord (ix3 b m c) (2 : Fin 3)
      + (dims B N C M wf).offCoord (ix3 b m c) (2 : Fin 3) = c.val
    have hb : (2 : Fin 3) ∈ (dims B N C M wf).operandBatchingDims := by simp
    rw [GatherDims.start_batching _ _ _ _ hb,
      GatherDims.offCoord_eq_zero _ _ _ (fun h => ((GatherDims.mem_sKept _ _).mp h).2 hb)]
    unfold GatherDims.batchCoord
    rw [dif_pos hb, Nat.zero_add, Nat.add_zero]
    rfl

end GatherBatch

end
-- ==== Proof.KTables.lean ====
import proofs.«164663_j64072322121837_2_alg».proof.Proof.Gen.KernelIdeal
import Idealize.ShloMosaic.Lib.ValueIdx
import Idealize.ShloMosaic.Lib.Pipeline.Value
import Idealize.ShloMosaic.Lib.ValueLayout
import Idealize.ShloMosaic.Lib.ReduceAll
import Idealize.ShloMosaic.PureOps.Ideal.Laws
import proofs.«164663_j64072322121837_2_alg».proof.Proof.LibIdxRange
import proofs.«164663_j64072322121837_2_alg».proof.Proof.LibGatherBatch

/-!
# The three tables the host side builds, read at an entry

Before the grid runs, the host side lays out three tables indexed by batch `b`, pixel `p` and
neighbour `k`:

* `idxTable`: the four neighbour index arrays `[4, 4096]` stacked along a new last axis, `[4, 4096, 4]`;
* `wtTable`: the four weight arrays stacked the same way;
* `refTable`: the image `[4, 3, 64, 64]` gathered at the neighbour indices, `[4, 4096, 4, 3]`: entry
  `(b, p, k, c)` is channel `c` of the image of batch `b` at the pixel whose flat index is the index
  word `T[b, p, k]`.

Each is defined by the chain of layout operations that builds it, and read at an entry.  The gather
inside `refTable` is guarded: a negative index would be wrapped by `4096`, an index outside
`[0, 4095]` would read a fill value.  For index words in `[0, 4096)` neither happens
(`takeAlong_apply`).
-/

noncomputable section

namespace Cert.KernelIdeal.KTables

open Idealize.ShloMosaic Idealize.ShloMosaic.ValueIdx Cert.KernelIdeal Cert.KernelIdeal.Gen

variable {F : FTy → Type} [FloatOps F]

/-! ## Four `[4, 4096]` arrays stacked along a new last axis -/

/-- The four arrays, each given a unit last axis: the pieces of the stack. -/
abbrev pieces {α : Type} (x0 x1 x2 x3 : S4x4096.Idx → α) : List ((s : Shape) × (s.Idx → α)) :=
  [⟨S4x4096x1, broadcastInDim S4x4096x1 ![0, 1] bcast_S4x4096_S4x4096x1_0_1 x0⟩,
    ⟨S4x4096x1, broadcastInDim S4x4096x1 ![0, 1] bcast_S4x4096_S4x4096x1_0_1 x1⟩,
    ⟨S4x4096x1, broadcastInDim S4x4096x1 ![0, 1] bcast_S4x4096_S4x4096x1_0_1 x2⟩,
    ⟨S4x4096x1, broadcastInDim S4x4096x1 ![0, 1] bcast_S4x4096_S4x4096x1_0_1 x3⟩]

/-- The stack read at `(b, p, k)` is array `k` at `(b, p)`. -/
theorem cat4_apply {α : Type} (x0 x1 x2 x3 : S4x4096.Idx → α) (b : Fin 4) (p : Fin 4096) (k : Fin 4) :
    concatenate S4x4096x4 2
        [⟨S4x4096x1, broadcastInDim S4x4096x1 ![0, 1] bcast_S4x4096_S4x4096x1_0_1 x0⟩,
          ⟨S4x4096x1, broadcastInDim S4x4096x1 ![0, 1] bcast_S4x4096_S4x4096x1_0_1 x1⟩,
          ⟨S4x4096x1, broadcastInDim S4x4096x1 ![0, 1] bcast_S4x4096_S4x4096x1_0_1 x2⟩,
          ⟨S4x4096x1, broadcastInDim S4x4096x1 ![0, 1] bcast_S4x4096_S4x4096x1_0_1 x3⟩]
        concatenates_S4x4096x1_S4x4096x1_S4x4096x1_S4x4096x1_S4x4096x4_d2 (ix3 b p k)
      = (![x0, x1, x2, x3] k) (ix2 b p) := by
  have hbc : ∀ x : S4x4096.Idx → α,
      broadcastInDim S4x4096x1 ![0, 1] bcast_S4x4096_S4x4096x1_0_1 x (ix3 b p (0 : Fin 1)) = x (ix2 b p) := fun x =>
    broadcastInDim_apply _ _ x _ (ix2 b p) fun e => match e with | ⟨0, _⟩ => rfl | ⟨1, _⟩ => rfl
  have hi : ∀ (k : Fin 4) (e : Fin S4x4096x1.rank) , e.cast (rfl : S4x4096x1.rank = S4x4096x4.rank) ≠ (2 : Fin 3) →
      ((ix3 b p (0 : Fin 1) : S4x4096x1.Idx) e).val = ((ix3 b p k : S4x4096x4.Idx) (e.cast rfl)).val := fun k e he =>
    match e, he with
    | ⟨0, _⟩, _ => rfl
    | ⟨1, _⟩, _ => rfl
    | ⟨2, _⟩, he => absurd rfl he
  match k with
  | ⟨0, _⟩ =>
    exact (concatenate_apply_piece (t := S4x4096x4) (2 : Fin 3) (pieces x0 x1 x2 x3)
      concatenates_S4x4096x1_S4x4096x1_S4x4096x1_S4x4096x1_S4x4096x4_d2 (ix3 b p (0 : Fin 4))
      0 (by show (0 : ℕ) < 4; omega) S4x4096x1 _ rfl rfl 0 rfl (ix3 b p (0 : Fin 1)) (hi _) rfl).trans (hbc x0)
  | ⟨1, _⟩ =>
    exact (concatenate_apply_piece (t := S4x4096x4) (2 : Fin 3) (pieces x0 x1 x2 x3)
      concatenates_S4x4096x1_S4x4096x1_S4x4096x1_S4x4096x1_S4x4096x4_d2 (ix3 b p (1 : Fin 4))
      1 (by show (1 : ℕ) < 4; omega) S4x4096x1 _ rfl rfl 1 rfl (ix3 b p (0 : Fin 1)) (hi _) rfl).trans (hbc x1)
  | ⟨2, _⟩ =>
    exact (concatenate_apply_piece (t := S4x4096x4) (2 : Fin 3) (pieces x0 x1 x2 x3)
      concatenates_S4x4096x1_S4x4096x1_S4x4096x1_S4x4096x1_S4x4096x4_d2 (ix3 b p (2 : Fin 4))
      2 (by show (2 : ℕ) < 4; omega) S4x4096x1 _ rfl rfl 2 rfl (ix3 b p (0 : Fin 1)) (hi _) rfl).trans (hbc x2)
  | ⟨3, _⟩ =>
    exact (concatenate_apply_piece (t := S4x4096x4) (2 : Fin 3) (pieces x0 x1 x2 x3)
      concatenates_S4x4096x1_S4x4096x1_S4x4096x1_S4x4096x1_S4x4096x4_d2 (ix3 b p (3 : Fin 4))
      3 (by show (3 : ℕ) < 4; omega) S4x4096x1 _ rfl rfl 3 rfl (ix3 b p (0 : Fin 1)) (hi _) rfl).trans (hbc x3)

/-- The table of neighbour indices: the four index arrays stacked along a new last axis. -/
def idxTable (i0 i1 i2 i3 : IVec S4x4096 32) : IVec S4x4096x4 32 :=
  concatenate S4x4096x4 2
    [⟨S4x4096x1, broadcastInDim S4x4096x1 ![0, 1] bcast_S4x4096_S4x4096x1_0_1 i0⟩,
      ⟨S4x4096x1, broadcastInDim S4x4096x1 ![0, 1] bcast_S4x4096_S4x4096x1_0_1 i1⟩,
      ⟨S4x4096x1, broadcastInDim S4x4096x1 ![0, 1] bcast_S4x4096_S4x4096x1_0_1 i2⟩,
      ⟨S4x4096x1, broadcastInDim S4x4096x1 ![0, 1] bcast_S4x4096_S4x4096x1_0_1 i3⟩]
    concatenates_S4x4096x1_S4x4096x1_S4x4096x1_S4x4096x1_S4x4096x4_d2

theorem idxTable_apply (i0 i1 i2 i3 : IVec S4x4096 32) (b : Fin 4) (p : Fin 4096) (k : Fin 4) :
    idxTable i0 i1 i2 i3 (ix3 b p k) = (![i0, i1, i2, i3] k) (ix2 b p) :=
  cat4_apply i0 i1 i2 i3 b p k

theorem idxTable_apply0 (i0 i1 i2 i3 : IVec S4x4096 32) (b : Fin 4) (p : Fin 4096) :
    idxTable i0 i1 i2 i3 (ix3 b p (0 : Fin 4)) = i0 (ix2 b p) := idxTable_apply i0 i1 i2 i3 b p 0
theorem idxTable_apply1 (i0 i1 i2 i3 : IVec S4x4096 32) (b : Fin 4) (p : Fin 4096) :
    idxTable i0 i1 i2 i3 (ix3 b p (1 : Fin 4)) = i1 (ix2 b p) := idxTable_apply i0 i1 i2 i3 b p 1
theorem idxTable_apply2 (i0 i1 i2 i3 : IVec S4x4096 32) (b : Fin 4) (p : Fin 4096) :
    idxTable i0 i1 i2 i3 (ix3 b p (2 : Fin 4)) = i2 (ix2 b p) := idxTable_apply i0 i1 i2 i3 b p 2
theorem idxTable_apply3 (i0 i1 i2 i3 : IVec S4x4096 32) (b : Fin 4) (p : Fin 4096) :
    idxTable i0 i1 i2 i3 (ix3 b p (3 : Fin 4)) = i3 (ix2 b p) := idxTable_apply i0 i1 i2 i3 b p 3

/-- The table of weights: the four weight arrays stacked along a new last axis. -/
def wtTable (w0 w1 w2 w3 : FVec F S4x4096 .f32) : FVec F S4x4096x4 .f32 :=
  concatenate S4x4096x4 2
    [⟨S4x4096x1, broadcastInDim S4x4096x1 ![0, 1] bcast_S4x4096_S4x4096x1_0_1 w0⟩,
      ⟨S4x4096x1, broadcastInDim S4x4096x1 ![0, 1] bcast_S4x4096_S4x4096x1_0_1 w1⟩,
      ⟨S4x4096x1, broadcastInDim S4x4096x1 ![0, 1] bcast_S4x4096_S4x4096x1_0_1 w2⟩,
      ⟨S4x4096x1, broadcastInDim S4x4096x1 ![0, 1] bcast_S4x4096_S4x4096x1_0_1 w3⟩]
    concatenates_S4x4096x1_S4x4096x1_S4x4096x1_S4x4096x1_S4x4096x4_d2

theorem wtTable_apply (w0 w1 w2 w3 : FVec F S4x4096 .f32) (b : Fin 4) (p : Fin 4096) (k : Fin 4) :
    wtTable w0 w1 w2 w3 (ix3 b p k) = (![w0, w1, w2, w3] k) (ix2 b p) :=
  cat4_apply w0 w1 w2 w3 b p k

theorem wtTable_apply0 (w0 w1 w2 w3 : FVec F S4x4096 .f32) (b : Fin 4) (p : Fin 4096) :
    wtTable w0 w1 w2 w3 (ix3 b p (0 : Fin 4)) = w0 (ix2 b p) := wtTable_apply w0 w1 w2 w3 b p 0
theorem wtTable_apply1 (w0 w1 w2 w3 : FVec F S4x4096 .f32) (b : Fin 4) (p : Fin 4096) :
    wtTable w0 w1 w2 w3 (ix3 b p (1 : Fin 4)) = w1 (ix2 b p) := wtTable_apply w0 w1 w2 w3 b p 1
theorem wtTable_apply2 (w0 w1 w2 w3 : FVec F S4x4096 .f32) (b : Fin 4) (p : Fin 4096) :
    wtTable w0 w1 w2 w3 (ix3 b p (2 : Fin 4)) = w2 (ix2 b p) := wtTable_apply w0 w1 w2 w3 b p 2
theorem wtTable_apply3 (w0 w1 w2 w3 : FVec F S4x4096 .f32) (b : Fin 4) (p : Fin 4096) :
    wtTable w0 w1 w2 w3 (ix3 b p (3 : Fin 4)) = w3 (ix2 b p) := wtTable_apply w0 w1 w2 w3 b p 3

/-! ## The image gathered at the neighbour indices -/

/-- The image with its two pixel axes flattened and moved before the channel axis: `[4, 4096, 3]`. -/
def refT (a3 : FVec F S4x3x64x64 .f32) : FVec F S4x4096x3 .f32 :=
  transpose S4x4096x3 [0, 2, 1] (shapeCast S4x3x4096 a3 shapeCasts_S4x3x64x64_S4x3x4096)
    transposes_S4x3x4096_S4x4096x3_0_2_1

/-- Entry `(b, s, c)` is channel `c` of image `b` at the pixel of flat index `s`. -/
theorem refT_apply (a3 : FVec F S4x3x64x64 .f32) (b : Fin 4) (s : Fin 4096) (c : Fin 3) :
    refT a3 (ix3 b s c) = a3 (ix4 b c ⟨s.val / 64, by omega⟩ ⟨s.val % 64, by omega⟩) := by
  unfold refT
  refine (transpose_ix3_021_apply (m := 4) (a := 3) (b := 4096) _ transposes_S4x3x4096_S4x4096x3_0_2_1 b s c).trans ?_
  refine shapeCast_apply a3 shapeCasts_S4x3x64x64_S4x3x4096 _ _ ?_
  rw [Shape.rowMajor_val_four, Shape.rowMajor_val_three]
  show ((b.val * 3 + c.val) * 64 + s.val / 64) * 64 + s.val % 64 = (b.val * 3 + c.val) * 4096 + s.val
  omega

/-- The index table repeated over the three channels and flattened to `[4, 16384, 3]`: row `4 p + k` of
    batch `b` holds `T[b, p, k]` in every channel. -/
def idxFlat (T : IVec S4x4096x4 32) : IVec S4x16384x3 32 :=
  shapeCast S4x16384x3
    (broadcastInDim S4x4096x4x3 ![0, 1, 2, 3] bcast_S4x4096x4x1_S4x4096x4x3_0_1_2_3
      (broadcastInDim S4x4096x4x1 ![0, 1, 2] bcast_S4x4096x4_S4x4096x4x1_0_1_2 T))
    shapeCasts_S4x4096x4x3_S4x16384x3

theorem idxFlat_apply (T : IVec S4x4096x4 32) (b : Fin 4) (p : Fin 4096) (k : Fin 4) (c : Fin 3) :
    idxFlat T (ix3 b (⟨p.val * 4 + k.val, by omega⟩ : Fin 16384) c) = T (ix3 b p k) := by
  unfold idxFlat
  refine (shapeCast_apply _ shapeCasts_S4x4096x4x3_S4x16384x3 _ (ix4 b p k c) ?_).trans ?_
  · rw [Shape.rowMajor_val_four, Shape.rowMajor_val_three]
    show ((b.val * 4096 + p.val) * 4 + k.val) * 3 + c.val = (b.val * 16384 + (p.val * 4 + k.val)) * 3 + c.val
    omega
  refine (broadcastInDim_apply _ bcast_S4x4096x4x1_S4x4096x4x3_0_1_2_3 _ _ (ix4 b p k (0 : Fin 1)) fun e =>
    match e with | ⟨0, _⟩ => rfl | ⟨1, _⟩ => rfl | ⟨2, _⟩ => rfl | ⟨3, _⟩ => rfl).trans ?_
  exact broadcastInDim_apply _ bcast_S4x4096x4_S4x4096x4x1_0_1_2 _ _ (ix3 b p k) fun e =>
    match e with | ⟨0, _⟩ => rfl | ⟨1, _⟩ => rfl | ⟨2, _⟩ => rfl

/-- Every entry of the flattened table is an entry of the table. -/
theorem idxFlat_mem (T : IVec S4x4096x4 32) (i : S4x16384x3.Idx) : ∃ j, idxFlat T i = T j := ⟨_, rfl⟩

/-- The start indices of the gather: a negative index wrapped by `4096`, then a unit last axis added. -/
def wrapIdx (idx : IVec S4x16384x3 32) : IVec S4x16384x3x1 32 :=
  shapeCast S4x16384x3x1
    (select (cmpi .slt idx (broadcastInDim S4x16384x3 ![] bcast_S_S4x16384x3 (constantI S_ 32 0#32)))
      (addi idx (broadcastInDim S4x16384x3 ![] bcast_S_S4x16384x3 (constantI S_ 32 4096#32))) idx)
    shapeCasts_S4x16384x3_S4x16384x3x1

/-- The guard of the gather: "every component of the start index lies in `[0, 4095]`", an `and` over the
    unit last axis. -/
def inRange (v : IVec S4x16384x3x1 32) : IVec S4x16384x3 1 :=
  Host.reduce IntOp.andi
    (andi (cmpi .sge v (broadcastInDim S4x16384x3x1 ![] bcast_S_S4x16384x3x1 (constantI S_ 32 0#32)))
      (cmpi .sle v (broadcastInDim S4x16384x3x1 ![0, 1, 2, 3] bcast_S1x1x1x1_S4x16384x3x1_0_1_2_3
        (broadcastInDim S1x1x1x1 ![3] bcast_S1_S1x1x1x1_3 (constantI S1 32 4095#32)))))
    (constantI S_ 1 1#1) reducesTo_S4x16384x3x1_S4x16384x3_d3 h_S_

/-- `x[b, idx[b, m, c], c]` with the index wrapped and guarded: the guarded gather along the middle axis. -/
def takeAlong (x : FVec F S4x4096x3 .f32) (idx : IVec S4x16384x3 32) : FVec F S4x16384x3 .f32 :=
  select (inRange (wrapIdx idx))
    (Host.gather gather_S4x4096x3_S4x16384x3x1_S4x16384x3_n_1_02_02_1_3_111 x (wrapIdx idx))
    (broadcastInDim S4x16384x3 ![] bcast_S_S4x16384x3 (constant S_ .f32 0x7FC00000#32))

/-- An index word of `[0, 4096)` is not wrapped. -/
theorem wrapIdx_apply (idx : IVec S4x16384x3 32) (hidx : ∀ i, 0 ≤ (idx i).toInt ∧ (idx i).toInt < 4096)
    (i : S4x16384x3x1.Idx) : wrapIdx idx i = idx (Shape.reshapeEquiv shapeCasts_S4x16384x3_S4x16384x3x1 i) :=
  IdxRange.select_wrap_eq _ (hidx _).1

theorem wrapIdx_apply_ix (idx : IVec S4x16384x3 32) (hidx : ∀ i, 0 ≤ (idx i).toInt ∧ (idx i).toInt < 4096)
    (b : Fin 4) (m : Fin 16384) (c : Fin 3) : wrapIdx idx (ix4 b m c (0 : Fin 1)) = idx (ix3 b m c) := by
  rw [wrapIdx_apply idx hidx]
  refine congrArg idx (Shape.reshapeEquiv_eq_of_rowMajor shapeCasts_S4x16384x3_S4x16384x3x1 ?_)
  rw [Shape.rowMajor_val_four, Shape.rowMajor_val_three]
  show (b.val * 16384 + m.val) * 3 + c.val = ((b.val * 16384 + m.val) * 3 + c.val) * 1 + 0
  omega

/-- A left fold by `and` from `1` over words that are all `1` is `1`. -/
theorem foldl_andi_one {ι : Type} (x : ι → BitVec 1) (hx : ∀ i, x i = 1#1) (l : List ι) :
    l.foldl (fun r i => IntOp.andi r (x i)) 1#1 = 1#1 := by
  induction l with
  | nil => rfl
  | cons a l ih =>
    rw [List.foldl_cons, hx a]
    exact ih

/-- For start indices in `[0, 4095]` the guard holds everywhere. -/
theorem inRange_apply (v : IVec S4x16384x3x1 32) (hv : ∀ i, 0 ≤ (v i).toInt ∧ (v i).toInt < 4096)
    (j : S4x16384x3.Idx) : inRange v j = 1#1 := by
  unfold inRange
  rw [Host.reduce_eq_foldl]
  refine foldl_andi_one _ (fun i => ?_) _
  show IntOp.andi (IntOp.cmpi .sge (v i) 0#32) (IntOp.cmpi .sle (v i) 4095#32) = 1#1
  rw [IdxRange.cmpi_sge_zero _ (hv i).1, IdxRange.cmpi_sle_4095 _ (hv i).2]
  rfl

/-- **The guarded gather at in-range indices**: `x[b, idx[b, m, c], c]`. -/
theorem takeAlong_apply (x : FVec F S4x4096x3 .f32) (idx : IVec S4x16384x3 32)
    (hidx : ∀ i, 0 ≤ (idx i).toInt ∧ (idx i).toInt < 4096) (b : Fin 4) (m : Fin 16384) (c : Fin 3) :
    takeAlong x idx (ix3 b m c)
      = x (ix3 b ⟨(idx (ix3 b m c)).toNat, IdxRange.toNat_lt_of_toInt_lt _ (hidx _).1 (hidx _).2⟩ c) := by
  have hw : ∀ i, 0 ≤ (wrapIdx idx i).toInt ∧ (wrapIdx idx i).toInt < 4096 := fun i => by
    rw [wrapIdx_apply idx hidx]; exact hidx _
  unfold takeAlong
  rw [select_apply, inRange_apply _ hw, select_one]
  have e : gather_S4x4096x3_S4x16384x3x1_S4x16384x3_n_1_02_02_1_3_111
      = GatherBatch.dims 4 4096 3 16384 gather_S4x4096x3_S4x16384x3x1_S4x16384x3_n_1_02_02_1_3_111_wf := rfl
  rw [e]
  refine (GatherBatch.gather_apply (by decide) _ x (wrapIdx idx) b m c).trans ?_
  refine congrArg x ?_
  have h1 := wrapIdx_apply_ix idx hidx b m c
  have h2 := IdxRange.toNat_eq_toInt_toNat _ (hidx (ix3 b m c)).1
  have h3 := IdxRange.toNat_lt_of_toInt_lt _ (hidx (ix3 b m c)).1 (hidx (ix3 b m c)).2
  funext a
  refine Fin.ext ?_
  match a with
  | ⟨0, _⟩ => rfl
  | ⟨1, _⟩ =>
    show min (wrapIdx idx (ix4 b m c (0 : Fin 1))).toInt.toNat (4096 - 1) = (idx (ix3 b m c)).toNat
    rw [h1]
    omega
  | ⟨2, _⟩ => rfl

/-- The table of gathered image values, `[4, 4096, 4, 3]`. -/
def refTable (a3 : FVec F S4x3x64x64 .f32) (T : IVec S4x4096x4 32) : FVec F S4x4096x4x3 .f32 :=
  shapeCast S4x4096x4x3 (takeAlong (refT a3) (idxFlat T)) shapeCasts_S4x16384x3_S4x4096x4x3

/-- **Entry `(b, p, k, c)` of the gathered table** is channel `c` of image `b` at the pixel whose flat
    index is the index word `T[b, p, k]`, when every index word lies in `[0, 4096)`. -/
theorem refTable_apply (a3 : FVec F S4x3x64x64 .f32) (T : IVec S4x4096x4 32)
    (hT : ∀ j, 0 ≤ (T j).toInt ∧ (T j).toInt < 4096) (b : Fin 4) (p : Fin 4096) (k : Fin 4) (c : Fin 3) :
    refTable a3 T (ix4 b p k c)
      = a3 (ix4 b c
          ⟨(T (ix3 b p k)).toNat / 64, by
            have := IdxRange.toNat_lt_of_toInt_lt _ (hT (ix3 b p k)).1 (hT (ix3 b p k)).2; omega⟩
          ⟨(T (ix3 b p k)).toNat % 64, by omega⟩) := by
  have hidx : ∀ i, 0 ≤ (idxFlat T i).toInt ∧ (idxFlat T i).toInt < 4096 := fun i => hT _
  unfold refTable
  refine (shapeCast_apply _ shapeCasts_S4x16384x3_S4x4096x4x3 _
    (ix3 b (⟨p.val * 4 + k.val, by omega⟩ : Fin 16384) c) ?_).trans ?_
  · rw [Shape.rowMajor_val_four, Shape.rowMajor_val_three]
    show (b.val * 16384 + (p.val * 4 + k.val)) * 3 + c.val = ((b.val * 4096 + p.val) * 4 + k.val) * 3 + c.val
    omega
  rw [takeAlong_apply _ _ hidx, refT_apply]
  have h := idxFlat_apply T b p k c
  congr 1
  funext a
  refine Fin.ext ?_
  match a with
  | ⟨0, _⟩ => rfl
  | ⟨1, _⟩ => rfl
  | ⟨2, _⟩ => show (idxFlat T _).toNat / 64 = (T (ix3 b p k)).toNat / 64; rw [h]
  | ⟨3, _⟩ => show (idxFlat T _).toNat % 64 = (T (ix3 b p k)).toNat % 64; rw [h]

end Cert.KernelIdeal.KTables

end
-- ==== Proof.KHostIdx.lean ====
/-
  The table of index words the region finds: the host operations before the region compute the four neighbours' index
  words from the flow argument exactly as the reference program does (the same operations in the same order), and
  join them as the four columns of a [4, 4096, 4] table.
-/
import proofs.«164663_j64072322121837_2_alg».proof.Proof.FrameI
import proofs.«164663_j64072322121837_2_alg».proof.Proof.KTables
import proofs.«164663_j64072322121837_2_alg».proof.Proof.RefReadP

set_option maxRecDepth 16384

noncomputable section

namespace Cert.KernelIdeal.KHost

open Idealize.ShloMosaic Idealize.ShloMosaic.TcCoe Idealize.SL.Sem Idealize.ShloMosaic.StableHlo Cert.KernelIdeal Cert.KernelIdeal.Gen

variable (m : (ℓ : Loc nD τ sig) → Buf (Elt Ideal) ℓ) (c : Dev nD)

set_option maxHeartbeats 8000000 in
/-- The region finds, in the index window's array, the four index-word arrays as columns. -/
theorem V_main_v90 :
    (Cert.KernelIdeal.Hand.V (F := Ideal) m c main_v90 : S4x4096x4.Idx → BitVec 32) = KTables.idxTable (Cert.ReferenceIdeal.Read.val_main_v28 (F := Ideal) (m ((c.tc : Thread nD τ).loc main_arg1))) (Cert.ReferenceIdeal.Read.val_main_v39 (F := Ideal) (m ((c.tc : Thread nD τ).loc main_arg1))) (Cert.ReferenceIdeal.Read.val_main_v50 (F := Ideal) (m ((c.tc : Thread nD τ).loc main_arg1))) (Cert.ReferenceIdeal.Read.val_main_v61 (F := Ideal) (m ((c.tc : Thread nD τ).loc main_arg1))) := by
  dsimp only [Cert.KernelIdeal.Hand.V, Cert.KernelIdeal.Hand.V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  after_results_simp <;> rfl

end Cert.KernelIdeal.KHost

end
-- ==== Proof.KHostWt.lean ====
/-
  The table of bilinear weights the region finds: the host operations before the region compute the four neighbours'
  weights from the flow argument exactly as the reference program does, and join them as the four columns of a
  [4, 4096, 4] table.
-/
import proofs.«164663_j64072322121837_2_alg».proof.Proof.FrameI
import proofs.«164663_j64072322121837_2_alg».proof.Proof.KTables
import proofs.«164663_j64072322121837_2_alg».proof.Proof.RefReadP

set_option maxRecDepth 16384

noncomputable section

namespace Cert.KernelIdeal.KHost

open Idealize.ShloMosaic Idealize.ShloMosaic.TcCoe Idealize.SL.Sem Idealize.ShloMosaic.StableHlo Cert.KernelIdeal Cert.KernelIdeal.Gen

variable (m : (ℓ : Loc nD τ sig) → Buf (Elt Ideal) ℓ) (c : Dev nD)

set_option maxHeartbeats 8000000 in
/-- The region finds, in the weight window's array, the four weight arrays as columns. -/
theorem V_main_v95 :
    (Cert.KernelIdeal.Hand.V (F := Ideal) m c main_v95 : S4x4096x4.Idx → EReal) = KTables.wtTable (F := Ideal) (Cert.ReferenceIdeal.Read.val_main_v69 (F := Ideal) (m ((c.tc : Thread nD τ).loc main_arg1))) (Cert.ReferenceIdeal.Read.val_main_v75 (F := Ideal) (m ((c.tc : Thread nD τ).loc main_arg1))) (Cert.ReferenceIdeal.Read.val_main_v81 (F := Ideal) (m ((c.tc : Thread nD τ).loc main_arg1))) (Cert.ReferenceIdeal.Read.val_main_v85 (F := Ideal) (m ((c.tc : Thread nD τ).loc main_arg1))) := by
  dsimp only [Cert.KernelIdeal.Hand.V, Cert.KernelIdeal.Hand.V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  after_results_simp <;> rfl

end Cert.KernelIdeal.KHost

end
-- ==== Proof.LibAfters.lean ====
/-
  Host operations run in consecutive lists.

  `StableHlo.after ops V` is what the buffers hold once the operations `ops` have run in order from contents `V`.
  Running a concatenation is running the parts one after the other; running the concatenation of a list of lists is the
  left fold of the lists' runs (`afters`), and that fold splits at any point of the outer list. With these a long
  straight-line host program is read back one stretch at a time: each stretch's outputs from its inputs, a buffer the
  stretch does not write passing through.
-/
import Idealize.ShloMosaic.Lib.StableHlo.Run

namespace Cert.Afters

open Idealize.ShloMosaic Idealize.ShloMosaic.StableHlo

variable {τ : Topo} {sig : RefSig} {Val : EltTy → Type}

/-- Lists of operations run one after the other, first list first. -/
def afters (ls : List (List (HloOp τ sig Val))) (V : Valuation τ sig Val) : Valuation τ sig Val :=
  ls.foldl (fun U l => after l U) V

/-- Running a concatenation is running its two parts in order. -/
theorem after_app (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Running the concatenation of a list of lists is running the lists in order. -/
theorem after_flatten (ls : List (List (HloOp τ sig Val))) (V : Valuation τ sig Val) :
    after ls.flatten V = afters ls V := by
  induction ls generalizing V with
  | nil => rfl
  | cons l ls ih => simp only [List.flatten_cons, afters, List.foldl_cons, after_app]; exact ih _

/-- The run of lists splits at any point of the outer list. -/
theorem afters_app (ls₁ ls₂ : List (List (HloOp τ sig Val))) (V : Valuation τ sig Val) :
    afters (ls₁ ++ ls₂) V = afters ls₂ (afters ls₁ V) := List.foldl_append ..

end Cert.Afters
-- ==== Proof.KHostRef.lean ====
/-
  The table of reference values the region finds: the image argument, viewed as [4, 4096, 3] with the channel last,
  gathered along its pixel axis at the table of index words.

  The host operations before the region are read in two steps. Up to the gather, the image view and the flattened
  index table are the arguments' terms; the gather's own operations and the final reshape are then read over those
  two buffers alone, whatever the other buffers hold.
-/
import proofs.«164663_j64072322121837_2_alg».proof.Proof.FrameI
import proofs.«164663_j64072322121837_2_alg».proof.Proof.KTables
import proofs.«164663_j64072322121837_2_alg».proof.Proof.RefReadP
import proofs.«164663_j64072322121837_2_alg».proof.Proof.LibAfters

set_option maxRecDepth 16384

noncomputable section

namespace Cert.KernelIdeal.KHost

open Idealize.ShloMosaic Idealize.ShloMosaic.TcCoe Idealize.SL.Sem Idealize.ShloMosaic.StableHlo Cert.KernelIdeal Cert.KernelIdeal.Gen

variable (m : (ℓ : Loc nD τ sig) → Buf (Elt Ideal) ℓ) (c : Dev nD)

/-- The buffers' contents just before the gather's operations: after the first seventeen stretches. -/
def W0 : Valuation τ sig (Elt Ideal) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]) (fun b => m (c, b))

/-- The same read at a reference. -/
abbrev W (b : Ref sig .tc) : Buf (Elt Ideal) ((c : Thread nD τ).loc b) := W0 m c (Proc.devRef .tc b)

/-- The contents the region finds are the last two stretches run from there. -/
theorem V0_split : Cert.KernelIdeal.Hand.V0 (F := Ideal) m c = StableHlo.after hostOps0_18 (StableHlo.after hostOps0_17 (W0 m c)) := by
  unfold W0
  show StableHlo.after (List.flatten ([hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16] ++ [hostOps0_17, hostOps0_18])) _ = _
  rw [Cert.Afters.after_flatten, Cert.Afters.afters_app, ← Cert.Afters.after_flatten]
  rfl

set_option maxHeartbeats 8000000 in
/-- Before the gather, the image view is the image reshaped and transposed. -/
theorem W_main_v97 :
    (W m c main_v97 : S4x4096x3.Idx → EReal) = KTables.refT (F := Ideal) (m ((c.tc : Thread nD τ).loc main_arg3)) := by
  dsimp only [W, W0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp <;> rfl

set_option maxHeartbeats 8000000 in
/-- Before the gather, the flattened index table is the four index-word arrays as columns, spread over the channels. -/
theorem W_main_v100 :
    (W m c main_v100 : S4x16384x3.Idx → BitVec 32) = KTables.idxFlat (KTables.idxTable (Cert.ReferenceIdeal.Read.val_main_v28 (F := Ideal) (m ((c.tc : Thread nD τ).loc main_arg1))) (Cert.ReferenceIdeal.Read.val_main_v39 (F := Ideal) (m ((c.tc : Thread nD τ).loc main_arg1))) (Cert.ReferenceIdeal.Read.val_main_v50 (F := Ideal) (m ((c.tc : Thread nD τ).loc main_arg1))) (Cert.ReferenceIdeal.Read.val_main_v61 (F := Ideal) (m ((c.tc : Thread nD τ).loc main_arg1)))) := by
  dsimp only [W, W0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp <;> rfl

set_option maxRecDepth 200000 in
set_option maxHeartbeats 8000000 in
/-- The region finds, in the reference-value window's array, the image gathered at the index words. -/
theorem V_main_v102 :
    (Cert.KernelIdeal.Hand.V (F := Ideal) m c main_v102 : S4x4096x4x3.Idx → EReal)
      = KTables.refTable (F := Ideal) (m ((c.tc : Thread nD τ).loc main_arg3)) (KTables.idxTable (Cert.ReferenceIdeal.Read.val_main_v28 (F := Ideal) (m ((c.tc : Thread nD τ).loc main_arg1))) (Cert.ReferenceIdeal.Read.val_main_v39 (F := Ideal) (m ((c.tc : Thread nD τ).loc main_arg1))) (Cert.ReferenceIdeal.Read.val_main_v50 (F := Ideal) (m ((c.tc : Thread nD τ).loc main_arg1))) (Cert.ReferenceIdeal.Read.val_main_v61 (F := Ideal) (m ((c.tc : Thread nD τ).loc main_arg1)))) := by
  have e97 := W_main_v97 m c
  have e100 := W_main_v100 m c
  show Cert.KernelIdeal.Hand.V0 (F := Ideal) m c (Proc.devRef .tc main_v102) = _
  rw [V0_split]
  dsimp only [W] at e97 e100
  generalize W0 m c = U at e97 e100 ⊢
  simp only [hostOps0_17, hostOps0_18]
  after_results_simp
  rw [e97, e100]
  unfold KTables.refTable KTables.takeAlong KTables.wrapIdx KTables.inRange
  generalize KTables.refT (F := Ideal) (m ((c.tc : Thread nD τ).loc main_arg3)) = X
  generalize KTables.idxFlat (KTables.idxTable (Cert.ReferenceIdeal.Read.val_main_v28 (F := Ideal) (m ((c.tc : Thread nD τ).loc main_arg1))) (Cert.ReferenceIdeal.Read.val_main_v39 (F := Ideal) (m ((c.tc : Thread nD τ).loc main_arg1))) (Cert.ReferenceIdeal.Read.val_main_v50 (F := Ideal) (m ((c.tc : Thread nD τ).loc main_arg1))) (Cert.ReferenceIdeal.Read.val_main_v61 (F := Ideal) (m ((c.tc : Thread nD τ).loc main_arg1)))) = Y
  rfl

end Cert.KernelIdeal.KHost

end
-- ==== Proof.LibLastWins.lean ====
import Mathlib.Data.EReal.Inv
import Mathlib.Algebra.BigOperators.Fin
import Mathlib.Algebra.BigOperators.Group.Finset.Basic

/-!
# The last writer of a cell wins

A table of `N` cells, all `0` at first, receives four writes in the order `0, 1, 2, 3`: write `i`
stores the value `u i` in cell `n i`, overwriting whatever the cell held.  Afterwards cell `s` holds
`lastWins n u s`: the value of the LAST write that named `s`, or `0` when none did.

Contracting the table against a vector `r` gives a sum with at most four non-zero terms, one for
each write that survived: write `i` survives (`kept n i`) exactly when no later write `j > i` names
the same cell.  That is `sum_lastWins_mul`:

  `∑ s, lastWins n u s * r s = ∑ i, if kept n i then u i * r (n i) else 0`.

The values are extended reals.  Only the commutative-monoid structure of `+` and `0 * x = 0` are used
(multiplication does not distribute over addition there), so nothing is assumed finite.
-/

open scoped BigOperators

noncomputable section

namespace LastWins

/-- The content of cell `s` after the four overwriting writes `n i ↦ u i`, made in the order
`0, 1, 2, 3` into a table of zeros: the last write naming `s` decides. -/
def lastWins (n : Fin 4 → ℕ) (u : Fin 4 → EReal) (s : ℕ) : EReal :=
  if n 3 = s then u 3 else if n 2 = s then u 2 else if n 1 = s then u 1 else if n 0 = s then u 0 else 0

/-- Write `i` survives: no later write names the same cell. -/
def kept (n : Fin 4 → ℕ) (i : Fin 4) : Prop := ∀ j : Fin 4, i < j → n i ≠ n j

instance (n : Fin 4 → ℕ) (i : Fin 4) : Decidable (kept n i) := by
  unfold kept; infer_instance

/-- The last write always survives. -/
theorem kept_three (n : Fin 4 → ℕ) : kept n 3 := by
  intro j hj
  exact absurd hj (by omega)

theorem kept_two_iff (n : Fin 4 → ℕ) : kept n 2 ↔ n 2 ≠ n 3 := by
  simp [kept, Fin.forall_fin_succ]

theorem kept_one_iff (n : Fin 4 → ℕ) : kept n 1 ↔ n 1 ≠ n 2 ∧ n 1 ≠ n 3 := by
  simp [kept, Fin.forall_fin_succ]

theorem kept_zero_iff (n : Fin 4 → ℕ) : kept n 0 ↔ n 0 ≠ n 1 ∧ n 0 ≠ n 2 ∧ n 0 ≠ n 3 := by
  simp [kept, Fin.forall_fin_succ]

/-- A chain of four tests, the first that holds deciding, is the sum of four guarded terms:
term `i` is guarded by "test `i` holds and no test before it in the chain does". -/
theorem ite_chain_eq_sum (p3 p2 p1 p0 : Prop) [Decidable p3] [Decidable p2] [Decidable p1]
    [Decidable p0] (a3 a2 a1 a0 : EReal) :
    (if p3 then a3 else if p2 then a2 else if p1 then a1 else if p0 then a0 else 0) =
      (if p0 ∧ ¬ p1 ∧ ¬ p2 ∧ ¬ p3 then a0 else 0) + (if p1 ∧ ¬ p2 ∧ ¬ p3 then a1 else 0) +
        (if p2 ∧ ¬ p3 then a2 else 0) + (if p3 then a3 else 0) := by
  by_cases h3 : p3 <;> by_cases h2 : p2 <;> by_cases h1 : p1 <;> by_cases h0 : p0 <;>
    simp [h3, h2, h1, h0]

/-- A sum over `Fin N` whose term vanishes off the single index `a`. -/
theorem sum_fin_ite_and (N a : ℕ) (ha : a < N) (Q : ℕ → Prop) [DecidablePred Q] (g : ℕ → EReal) :
    ∑ s : Fin N, (if a = s.val ∧ Q s.val then g s.val else 0) = if Q a then g a else 0 := by
  rw [Finset.sum_eq_single (⟨a, ha⟩ : Fin N)]
  · simp
  · intro b _ hb
    rw [if_neg]
    rintro ⟨h, _⟩
    exact hb (Fin.ext h.symm)
  · intro h
    exact absurd (Finset.mem_univ _) h

/-- The same without a side condition. -/
theorem sum_fin_ite (N a : ℕ) (ha : a < N) (g : ℕ → EReal) :
    ∑ s : Fin N, (if a = s.val then g s.val else 0) = g a := by
  have := sum_fin_ite_and N a ha (fun _ => True) g
  simpa using this

/-- **The last writer wins, contracted.**  The table of the four overwriting writes, contracted
against `r`, is the sum over the surviving writes. -/
theorem sum_lastWins_mul (N : ℕ) (n : Fin 4 → ℕ) (hn : ∀ i, n i < N) (u : Fin 4 → EReal)
    (r : ℕ → EReal) :
    ∑ s : Fin N, lastWins n u s.val * r s.val =
      ∑ i : Fin 4, (if kept n i then u i * r (n i) else 0) := by
  have hpt : ∀ s : Fin N, lastWins n u s.val * r s.val =
      (if n 0 = s.val ∧ (¬ n 1 = s.val ∧ ¬ n 2 = s.val ∧ ¬ n 3 = s.val) then u 0 * r s.val else 0) +
      (if n 1 = s.val ∧ (¬ n 2 = s.val ∧ ¬ n 3 = s.val) then u 1 * r s.val else 0) +
      (if n 2 = s.val ∧ (¬ n 3 = s.val) then u 2 * r s.val else 0) +
      (if n 3 = s.val then u 3 * r s.val else 0) := by
    intro s
    rw [← ite_chain_eq_sum]
    simp only [lastWins, ite_mul, zero_mul]
  simp only [hpt, Finset.sum_add_distrib]
  rw [sum_fin_ite_and N (n 0) (hn 0) (fun s => ¬ n 1 = s ∧ ¬ n 2 = s ∧ ¬ n 3 = s) (fun s => u 0 * r s),
    sum_fin_ite_and N (n 1) (hn 1) (fun s => ¬ n 2 = s ∧ ¬ n 3 = s) (fun s => u 1 * r s),
    sum_fin_ite_and N (n 2) (hn 2) (fun s => ¬ n 3 = s) (fun s => u 2 * r s),
    sum_fin_ite N (n 3) (hn 3) (fun s => u 3 * r s), Fin.sum_univ_four]
  have h0 : (¬ n 1 = n 0 ∧ ¬ n 2 = n 0 ∧ ¬ n 3 = n 0) ↔ kept n 0 := by
    rw [kept_zero_iff]
    exact ⟨fun ⟨a, b, c⟩ => ⟨Ne.symm a, Ne.symm b, Ne.symm c⟩,
      fun ⟨a, b, c⟩ => ⟨Ne.symm a, Ne.symm b, Ne.symm c⟩⟩
  have h1 : (¬ n 2 = n 1 ∧ ¬ n 3 = n 1) ↔ kept n 1 := by
    rw [kept_one_iff]
    exact ⟨fun ⟨a, b⟩ => ⟨Ne.symm a, Ne.symm b⟩, fun ⟨a, b⟩ => ⟨Ne.symm a, Ne.symm b⟩⟩
  have h2 : (¬ n 3 = n 2) ↔ kept n 2 := by
    rw [kept_two_iff]
    exact ⟨fun a => Ne.symm a, fun a => Ne.symm a⟩
  rw [if_congr h0 rfl rfl, if_congr h1 rfl rfl, if_congr h2 rfl rfl, if_pos (kept_three n)]

/-- The same with the factors the other way round. -/
theorem sum_mul_lastWins (N : ℕ) (n : Fin 4 → ℕ) (hn : ∀ i, n i < N) (u : Fin 4 → EReal)
    (r : ℕ → EReal) :
    ∑ s : Fin N, r s.val * lastWins n u s.val =
      ∑ i : Fin 4, (if kept n i then r (n i) * u i else 0) := by
  have e1 : ∑ s : Fin N, r s.val * lastWins n u s.val = ∑ s : Fin N, lastWins n u s.val * r s.val :=
    Finset.sum_congr rfl (fun s _ => mul_comm _ _)
  rw [e1, sum_lastWins_mul N n hn u r]
  refine Finset.sum_congr rfl (fun i _ => ?_)
  by_cases h : kept n i
  · rw [if_pos h, if_pos h, mul_comm]
  · rw [if_neg h, if_neg h]

/-- `sum_lastWins_mul` with the right side written out in the order a left-to-right accumulation
from `0` produces. -/
theorem sum_lastWins_mul_unrolled (N : ℕ) (n : Fin 4 → ℕ) (hn : ∀ i, n i < N) (u : Fin 4 → EReal)
    (r : ℕ → EReal) :
    ∑ s : Fin N, lastWins n u s.val * r s.val =
      (((0 + (if kept n 0 then u 0 * r (n 0) else 0)) + (if kept n 1 then u 1 * r (n 1) else 0)) +
        (if kept n 2 then u 2 * r (n 2) else 0)) + (if kept n 3 then u 3 * r (n 3) else 0) := by
  rw [sum_lastWins_mul N n hn u r, Fin.sum_univ_four, zero_add]

/-- `sum_mul_lastWins` written out the same way. -/
theorem sum_mul_lastWins_unrolled (N : ℕ) (n : Fin 4 → ℕ) (hn : ∀ i, n i < N) (u : Fin 4 → EReal)
    (r : ℕ → EReal) :
    ∑ s : Fin N, r s.val * lastWins n u s.val =
      (((0 + (if kept n 0 then r (n 0) * u 0 else 0)) + (if kept n 1 then r (n 1) * u 1 else 0)) +
        (if kept n 2 then r (n 2) * u 2 else 0)) + (if kept n 3 then r (n 3) * u 3 else 0) := by
  rw [sum_mul_lastWins N n hn u r, Fin.sum_univ_four, zero_add]

/-- The unrolled form with the survival tests spelled as the conjunctions of inequalities. -/
theorem sum_lastWins_mul_explicit (N : ℕ) (n : Fin 4 → ℕ) (hn : ∀ i, n i < N) (u : Fin 4 → EReal)
    (r : ℕ → EReal) :
    ∑ s : Fin N, lastWins n u s.val * r s.val =
      (((0 + (if n 0 ≠ n 1 ∧ n 0 ≠ n 2 ∧ n 0 ≠ n 3 then u 0 * r (n 0) else 0)) +
          (if n 1 ≠ n 2 ∧ n 1 ≠ n 3 then u 1 * r (n 1) else 0)) +
        (if n 2 ≠ n 3 then u 2 * r (n 2) else 0)) + u 3 * r (n 3) := by
  rw [sum_lastWins_mul_unrolled N n hn u r, if_congr (kept_zero_iff n) rfl rfl,
    if_congr (kept_one_iff n) rfl rfl, if_congr (kept_two_iff n) rfl rfl, if_pos (kept_three n)]

/-- The same with the factors the other way round. -/
theorem sum_mul_lastWins_explicit (N : ℕ) (n : Fin 4 → ℕ) (hn : ∀ i, n i < N) (u : Fin 4 → EReal)
    (r : ℕ → EReal) :
    ∑ s : Fin N, r s.val * lastWins n u s.val =
      (((0 + (if n 0 ≠ n 1 ∧ n 0 ≠ n 2 ∧ n 0 ≠ n 3 then r (n 0) * u 0 else 0)) +
          (if n 1 ≠ n 2 ∧ n 1 ≠ n 3 then r (n 1) * u 1 else 0)) +
        (if n 2 ≠ n 3 then r (n 2) * u 2 else 0)) + r (n 3) * u 3 := by
  rw [sum_mul_lastWins_unrolled N n hn u r, if_congr (kept_zero_iff n) rfl rfl,
    if_congr (kept_one_iff n) rfl rfl, if_congr (kept_two_iff n) rfl rfl, if_pos (kept_three n)]

end LastWins

end
-- ==== Proof.KLaw.lean ====
/-
  The law that joins the two programs, in the kernel's vocabulary.

  The kernel accumulates, over the four neighbours, (indicator · weight) · reference value, the indicator of
  neighbour k being "no later neighbour carries the same index word". The reference writes the four weights into a
  row of 4096 zeros, a later neighbour overwriting an earlier one that names the same cell, and contracts the row
  against the reference values. With the index words in range these are the same extended real: the cells that
  survive in the row are exactly the kept neighbours'. Also: picking a lane by comparing every lane index with an
  in-range word is reading that lane.
-/
import proofs.«164663_j64072322121837_2_alg».proof.Proof.KPay
import proofs.«164663_j64072322121837_2_alg».proof.Proof.LibLastWins

noncomputable section

namespace Cert.KernelIdeal.KLaw

open Cert.KernelIdeal.KPay LastWins

/-- Two in-range words differ exactly when the numbers they encode differ. -/
theorem word_ne_iff (a b : BitVec 32) : a ≠ b ↔ a.toNat ≠ b.toNat :=
  not_congr BitVec.toNat_inj.symm

/-- (1 or 0) · u · r is r · u or 0. -/
theorem ind_mul (P : Prop) [Decidable P] (u r : EReal) : ((if P then (1 : EReal) else 0) * u) * r = if P then r * u else 0 := by
  by_cases h : P
  · rw [if_pos h, if_pos h, one_mul, mul_comm]
  · rw [if_neg h, if_neg h, zero_mul, zero_mul]

/-- The kernel's accumulation is the contraction of the row the four overwriting writes leave. -/
theorem acc4_eq_sum (w : Fin 4 → BitVec 32) (hw : ∀ k, (w k).toNat < 4096) (u : Fin 4 → EReal) (r : ℕ → EReal) :
    acc4 w u (fun k => r (w k).toNat) = ∑ s : Fin 4096, r s.val * lastWins (fun k => (w k).toNat) u s.val := by
  rw [sum_mul_lastWins_explicit 4096 (fun k => (w k).toNat) hw u r]
  unfold acc4 ind
  simp only [word_ne_iff, ind_mul]
  rw [one_mul, mul_comm (u 3)]

/-- Picking a lane by an in-range word reads that lane. -/
theorem pick_eq (x : Fin 4096 → EReal) (w : BitVec 32) (hw : w.toNat < 4096) : pick x w = x ⟨w.toNat, hw⟩ := by
  unfold pick
  rw [Finset.sum_eq_single (⟨w.toNat, hw⟩ : Fin 4096)]
  · rw [if_pos]; exact BitVec.eq_of_toNat_eq (by simp)
  · intro s _ hs
    rw [if_neg]
    intro h
    apply hs
    apply Fin.ext
    have := congrArg BitVec.toNat h
    simp only [BitVec.toNat_ofNat] at this
    have hs' : s.val < 4096 := s.isLt
    show s.val = w.toNat
    omega
  · intro h; exact absurd (Finset.mem_univ _) h

end Cert.KernelIdeal.KLaw

end
-- ==== Proof.LibWrapWord.lean ====
/-
  Words that index an axis of extent at most 4096, and what the host's "negative index wraps around" and
  "index in bounds" tests do to them.

  A word whose signed reading is non-negative passes through `select (v <s 0) y v` unchanged, whatever `y` is
  (`select_slt_zero`); a small natural number stored as a 32-bit word reads back signed as itself (`toInt_ofNat`);
  a word of `[0, 4096)` clamped into `[0, 4095]` is its unsigned reading (`clamp_eq`); its two bounds tests both
  hold (`inb_mask`).
-/
import proofs.«164663_j64072322121837_2_alg».proof.Proof.LibIdxRange

namespace WrapWord

open Idealize.ShloMosaic

/-- A non-negative word is not wrapped: the select on "is it negative" returns it. -/
theorem select_slt_zero (v y : BitVec 32) (h0 : 0 ≤ v.toInt) :
    Scalar.select (IntOp.cmpi .slt v 0#32) y v = v := by
  rw [IdxRange.cmpi_slt_zero v h0]; rfl

/-- A natural number below `4096`, stored as a 32-bit word, reads back signed as itself. -/
theorem toInt_ofNat (k : ℕ) (hk : k < 4096) : (BitVec.ofNat 32 k).toInt = (k : ℤ) := by
  rw [← BitVec.ofInt_natCast]
  exact IdxRange.toInt_ofInt_of_mem _ (Int.natCast_nonneg k) (by omega)

/-- The signed reading of an in-range word is its unsigned reading. -/
theorem toInt_eq_toNat (v : BitVec 32) (h0 : 0 ≤ v.toInt) : v.toInt = (v.toNat : ℤ) :=
  (IdxRange.toNat_cast_eq_toInt v h0).symm

/-- Clamping an in-range word into `[0, 4095]` leaves its unsigned reading. -/
theorem clamp_eq (v : BitVec 32) (h0 : 0 ≤ v.toInt) (h1 : v.toInt < 4096) :
    min v.toInt.toNat (4096 - 1) = v.toNat := by
  have e := IdxRange.toNat_eq_toInt_toNat v h0
  have l := IdxRange.toNat_lt_of_toInt_lt v h0 h1
  omega

/-- Both bounds tests of an in-range word hold. -/
theorem inb_mask (v : BitVec 32) (h0 : 0 ≤ v.toInt) (h1 : v.toInt < 4096) :
    IntOp.andi (IntOp.cmpi .sge v 0#32) (IntOp.cmpi .sle v 4095#32) = 1#1 := by
  rw [IdxRange.cmpi_sge_zero v h0, IdxRange.cmpi_sle_4095 v h1]; rfl

end WrapWord
-- ==== Proof.LibConcat3.lean ====
/-
  Three one-column arrays `[B, P, 1]` joined along the last axis into a `[B, P, 3]` array, read at a coordinate:
  the element at `(b, p, k)` is column `k`'s element at `(b, p, 0)`.
-/
import Idealize.ShloMosaic.Lib.Pipeline.Value
import Idealize.ShloMosaic.Lib.ValueIdx

namespace Concat3

open Idealize.ShloMosaic Idealize.ShloMosaic.ValueIdx

variable {α : Type} {B P : Nat}

/-- Column `0`. -/
theorem concat3_apply_0 (c0 c1 c2 : (⟨3, ![B, P, 1]⟩ : Shape).Idx → α)
    (hc : Shape.Concatenates [(⟨3, ![B, P, 1]⟩ : Shape), ⟨3, ![B, P, 1]⟩, ⟨3, ![B, P, 1]⟩] ⟨3, ![B, P, 3]⟩ 2)
    (b : Fin B) (p : Fin P) :
    concatenate ⟨3, ![B, P, 3]⟩ 2 [⟨⟨3, ![B, P, 1]⟩, c0⟩, ⟨⟨3, ![B, P, 1]⟩, c1⟩, ⟨⟨3, ![B, P, 1]⟩, c2⟩] hc
      (ix3 b p 0) = c0 (ix3 b p 0) := by
  refine concatenate_apply_piece (t := ⟨3, ![B, P, 3]⟩) 2
    [⟨⟨3, ![B, P, 1]⟩, c0⟩, ⟨⟨3, ![B, P, 1]⟩, c1⟩, ⟨⟨3, ![B, P, 1]⟩, c2⟩] hc (ix3 b p 0) 0
    (by show (0 : Nat) < 3; decide) ⟨3, ![B, P, 1]⟩ c0 rfl rfl 0 rfl (ix3 b p 0) ?_ rfl
  intro a ha
  match a with
  | ⟨0, _⟩ => rfl
  | ⟨1, _⟩ => rfl
  | ⟨2, _⟩ => exact absurd rfl ha

/-- Column `1`. -/
theorem concat3_apply_1 (c0 c1 c2 : (⟨3, ![B, P, 1]⟩ : Shape).Idx → α)
    (hc : Shape.Concatenates [(⟨3, ![B, P, 1]⟩ : Shape), ⟨3, ![B, P, 1]⟩, ⟨3, ![B, P, 1]⟩] ⟨3, ![B, P, 3]⟩ 2)
    (b : Fin B) (p : Fin P) :
    concatenate ⟨3, ![B, P, 3]⟩ 2 [⟨⟨3, ![B, P, 1]⟩, c0⟩, ⟨⟨3, ![B, P, 1]⟩, c1⟩, ⟨⟨3, ![B, P, 1]⟩, c2⟩] hc
      (ix3 b p 1) = c1 (ix3 b p 0) := by
  refine concatenate_apply_piece (t := ⟨3, ![B, P, 3]⟩) 2
    [⟨⟨3, ![B, P, 1]⟩, c0⟩, ⟨⟨3, ![B, P, 1]⟩, c1⟩, ⟨⟨3, ![B, P, 1]⟩, c2⟩] hc (ix3 b p 1) 1
    (by show (1 : Nat) < 3; decide) ⟨3, ![B, P, 1]⟩ c1 rfl rfl 1 rfl (ix3 b p 0) ?_ rfl
  intro a ha
  match a with
  | ⟨0, _⟩ => rfl
  | ⟨1, _⟩ => rfl
  | ⟨2, _⟩ => exact absurd rfl ha

/-- Column `2`. -/
theorem concat3_apply_2 (c0 c1 c2 : (⟨3, ![B, P, 1]⟩ : Shape).Idx → α)
    (hc : Shape.Concatenates [(⟨3, ![B, P, 1]⟩ : Shape), ⟨3, ![B, P, 1]⟩, ⟨3, ![B, P, 1]⟩] ⟨3, ![B, P, 3]⟩ 2)
    (b : Fin B) (p : Fin P) :
    concatenate ⟨3, ![B, P, 3]⟩ 2 [⟨⟨3, ![B, P, 1]⟩, c0⟩, ⟨⟨3, ![B, P, 1]⟩, c1⟩, ⟨⟨3, ![B, P, 1]⟩, c2⟩] hc
      (ix3 b p 2) = c2 (ix3 b p 0) := by
  refine concatenate_apply_piece (t := ⟨3, ![B, P, 3]⟩) 2
    [⟨⟨3, ![B, P, 1]⟩, c0⟩, ⟨⟨3, ![B, P, 1]⟩, c1⟩, ⟨⟨3, ![B, P, 1]⟩, c2⟩] hc (ix3 b p 2) 2
    (by show (2 : Nat) < 3; decide) ⟨3, ![B, P, 1]⟩ c2 rfl rfl 2 rfl (ix3 b p 0) ?_ rfl
  intro a ha
  match a with
  | ⟨0, _⟩ => rfl
  | ⟨1, _⟩ => rfl
  | ⟨2, _⟩ => exact absurd rfl ha

end Concat3
-- ==== Proof.RefCols.lean ====
/-
  The index tables of the reference's eight overwriting scatters, read at a coordinate.

  Each table is three one-column arrays joined along the last axis. The first column is the batch coordinate and the
  last column the position coordinate of the update position itself (an `iota` passed through the "negative index
  wraps" select, which does nothing to a non-negative word); the middle column is the neighbour's index word, passed
  through the same select, which does nothing to it when the word lies in `[0, 4096)`. So update position `(b, p)`
  carries the triple `(b, idx[b, p], p)`.
-/
import proofs.«164663_j64072322121837_2_alg».proof.Proof.RefReadP
import proofs.«164663_j64072322121837_2_alg».proof.Proof.LibWrapWord
import proofs.«164663_j64072322121837_2_alg».proof.Proof.LibConcat3

noncomputable section

namespace Cert.ReferenceIdeal.RefValue

open Cert.ReferenceIdeal Cert.ReferenceIdeal.Gen Idealize.ShloMosaic Idealize.ShloMosaic.ValueIdx

/-- The batch `iota`, as a column: the word of the row number. -/
theorem iotaB_apply (i : S4x1.Idx) : Read.val_main_v88 (F := Ideal) i = BitVec.ofNat 32 (i 0).val := by
  rw [Read.val_main_v88_apply, Read.val_main_v87_apply]

/-- The position `iota`, as a row: the word of the column number. -/
theorem iotaP_apply (i : S1x4096.Idx) : Read.val_main_v90 (F := Ideal) i = BitVec.ofNat 32 (i 1).val := by
  rw [Read.val_main_v90_apply, Read.val_main_v89_apply]

/-! ### The table of the scatter that writes `v117` (`v116`) -/

/-- The wrapped batch `iota` is the batch `iota`. -/
theorem wrapB_v117 (i : S4x1.Idx) : Read.val_main_v100 (F := Ideal) i = BitVec.ofNat 32 (i 0).val := by
  rw [Read.val_main_v100_apply, Read.val_main_v97_apply, Read.val_main_v96_apply, Read.val_main_c_38_apply, iotaB_apply]
  have h : (i 0).val < 4 := (i 0).isLt
  exact WrapWord.select_slt_zero _ _ (by rw [WrapWord.toInt_ofNat _ (by omega)]; exact Int.natCast_nonneg _)

/-- The wrapped position `iota` is the position `iota`. -/
theorem wrapP_v117 (i : S1x4096.Idx) : Read.val_main_v110 (F := Ideal) i = BitVec.ofNat 32 (i 1).val := by
  rw [Read.val_main_v110_apply, Read.val_main_v107_apply, Read.val_main_v106_apply, Read.val_main_c_42_apply, iotaP_apply]
  have h : (i 1).val < 4096 := (i 1).isLt
  exact WrapWord.select_slt_zero _ _ (by rw [WrapWord.toInt_ofNat _ h]; exact Int.natCast_nonneg _)

/-- The wrapped index word is the index word, when that is not negative. -/
theorem wrapI_v117 (x1 : FVec Ideal S4x2x64x64 .f32) (i : S4x4096.Idx)
    (h0 : 0 ≤ (Read.val_main_v28 (F := Ideal) x1 i).toInt) : Read.val_main_v105 (F := Ideal) x1 i = Read.val_main_v28 (F := Ideal) x1 i := by
  rw [Read.val_main_v105_apply, Read.val_main_v102_apply, Read.val_main_v101_apply, Read.val_main_c_40_apply]
  exact WrapWord.select_slt_zero _ _ h0

/-- First component of the triple at `(b, p)`: `b`. -/
theorem tbl0_v117 (x1 : FVec Ideal S4x2x64x64 .f32) (b : Fin 4) (p : Fin 4096) :
    (Read.val_main_v116 (F := Ideal) x1 (ix3 b p 0)).toInt = (b.val : ℤ) := by
  unfold Read.val_main_v116
  refine (congrArg BitVec.toInt (Concat3.concat3_apply_0 _ _ _ _ b p)).trans ?_
  rw [Read.val_main_v113_apply, Read.val_main_v111_apply, wrapB_v117]
  exact WrapWord.toInt_ofNat b.val (by have := b.isLt; omega)

/-- Last component of the triple at `(b, p)`: `p`. -/
theorem tbl2_v117 (x1 : FVec Ideal S4x2x64x64 .f32) (b : Fin 4) (p : Fin 4096) :
    (Read.val_main_v116 (F := Ideal) x1 (ix3 b p 2)).toInt = (p.val : ℤ) := by
  unfold Read.val_main_v116
  refine (congrArg BitVec.toInt (Concat3.concat3_apply_2 _ _ _ _ b p)).trans ?_
  rw [Read.val_main_v115_apply, Read.val_main_v112_apply, wrapP_v117]
  exact WrapWord.toInt_ofNat p.val p.isLt

/-- Middle component of the triple at `(b, p)`: the index word at `(b, p)`, when that is not negative. -/
theorem tbl1_v117 (x1 : FVec Ideal S4x2x64x64 .f32) (b : Fin 4) (p : Fin 4096)
    (h0 : 0 ≤ (Read.val_main_v28 (F := Ideal) x1 (ix2 b p)).toInt) :
    Read.val_main_v116 (F := Ideal) x1 (ix3 b p 1) = Read.val_main_v28 (F := Ideal) x1 (ix2 b p) := by
  unfold Read.val_main_v116
  refine (Concat3.concat3_apply_1 _ _ _ _ b p).trans ?_
  have e : Read.idx_main_v114 (ix3 b p (0 : Fin 1)) = ix2 b p := by
    funext a
    match a with
    | ⟨0, _⟩ => rfl
    | ⟨1, _⟩ => rfl
  rw [Read.val_main_v114_apply, e]
  exact wrapI_v117 x1 (ix2 b p) h0

/-! ### The table of the scatter that writes `v139` (`v138`) -/

/-- The wrapped batch `iota` is the batch `iota`. -/
theorem wrapB_v139 (i : S4x1.Idx) : Read.val_main_v122 (F := Ideal) i = BitVec.ofNat 32 (i 0).val := by
  rw [Read.val_main_v122_apply, Read.val_main_v119_apply, Read.val_main_v118_apply, Read.val_main_c_44_apply, iotaB_apply]
  have h : (i 0).val < 4 := (i 0).isLt
  exact WrapWord.select_slt_zero _ _ (by rw [WrapWord.toInt_ofNat _ (by omega)]; exact Int.natCast_nonneg _)

/-- The wrapped position `iota` is the position `iota`. -/
theorem wrapP_v139 (i : S1x4096.Idx) : Read.val_main_v132 (F := Ideal) i = BitVec.ofNat 32 (i 1).val := by
  rw [Read.val_main_v132_apply, Read.val_main_v129_apply, Read.val_main_v128_apply, Read.val_main_c_48_apply, iotaP_apply]
  have h : (i 1).val < 4096 := (i 1).isLt
  exact WrapWord.select_slt_zero _ _ (by rw [WrapWord.toInt_ofNat _ h]; exact Int.natCast_nonneg _)

/-- The wrapped index word is the index word, when that is not negative. -/
theorem wrapI_v139 (x1 : FVec Ideal S4x2x64x64 .f32) (i : S4x4096.Idx)
    (h0 : 0 ≤ (Read.val_main_v28 (F := Ideal) x1 i).toInt) : Read.val_main_v127 (F := Ideal) x1 i = Read.val_main_v28 (F := Ideal) x1 i := by
  rw [Read.val_main_v127_apply, Read.val_main_v124_apply, Read.val_main_v123_apply, Read.val_main_c_46_apply]
  exact WrapWord.select_slt_zero _ _ h0

/-- First component of the triple at `(b, p)`: `b`. -/
theorem tbl0_v139 (x1 : FVec Ideal S4x2x64x64 .f32) (b : Fin 4) (p : Fin 4096) :
    (Read.val_main_v138 (F := Ideal) x1 (ix3 b p 0)).toInt = (b.val : ℤ) := by
  unfold Read.val_main_v138
  refine (congrArg BitVec.toInt (Concat3.concat3_apply_0 _ _ _ _ b p)).trans ?_
  rw [Read.val_main_v135_apply, Read.val_main_v133_apply, wrapB_v139]
  exact WrapWord.toInt_ofNat b.val (by have := b.isLt; omega)

/-- Last component of the triple at `(b, p)`: `p`. -/
theorem tbl2_v139 (x1 : FVec Ideal S4x2x64x64 .f32) (b : Fin 4) (p : Fin 4096) :
    (Read.val_main_v138 (F := Ideal) x1 (ix3 b p 2)).toInt = (p.val : ℤ) := by
  unfold Read.val_main_v138
  refine (congrArg BitVec.toInt (Concat3.concat3_apply_2 _ _ _ _ b p)).trans ?_
  rw [Read.val_main_v137_apply, Read.val_main_v134_apply, wrapP_v139]
  exact WrapWord.toInt_ofNat p.val p.isLt

/-- Middle component of the triple at `(b, p)`: the index word at `(b, p)`, when that is not negative. -/
theorem tbl1_v139 (x1 : FVec Ideal S4x2x64x64 .f32) (b : Fin 4) (p : Fin 4096)
    (h0 : 0 ≤ (Read.val_main_v28 (F := Ideal) x1 (ix2 b p)).toInt) :
    Read.val_main_v138 (F := Ideal) x1 (ix3 b p 1) = Read.val_main_v28 (F := Ideal) x1 (ix2 b p) := by
  unfold Read.val_main_v138
  refine (Concat3.concat3_apply_1 _ _ _ _ b p).trans ?_
  have e : Read.idx_main_v136 (ix3 b p (0 : Fin 1)) = ix2 b p := by
    funext a
    match a with
    | ⟨0, _⟩ => rfl
    | ⟨1, _⟩ => rfl
  rw [Read.val_main_v136_apply, e]
  exact wrapI_v139 x1 (ix2 b p) h0

/-! ### The table of the scatter that writes `v164` (`v163`) -/

/-- The wrapped batch `iota` is the batch `iota`. -/
theorem wrapB_v164 (i : S4x1.Idx) : Read.val_main_v147 (F := Ideal) i = BitVec.ofNat 32 (i 0).val := by
  rw [Read.val_main_v147_apply, Read.val_main_v144_apply, Read.val_main_v143_apply, Read.val_main_c_50_apply, iotaB_apply]
  have h : (i 0).val < 4 := (i 0).isLt
  exact WrapWord.select_slt_zero _ _ (by rw [WrapWord.toInt_ofNat _ (by omega)]; exact Int.natCast_nonneg _)

/-- The wrapped position `iota` is the position `iota`. -/
theorem wrapP_v164 (i : S1x4096.Idx) : Read.val_main_v157 (F := Ideal) i = BitVec.ofNat 32 (i 1).val := by
  rw [Read.val_main_v157_apply, Read.val_main_v154_apply, Read.val_main_v153_apply, Read.val_main_c_54_apply, iotaP_apply]
  have h : (i 1).val < 4096 := (i 1).isLt
  exact WrapWord.select_slt_zero _ _ (by rw [WrapWord.toInt_ofNat _ h]; exact Int.natCast_nonneg _)

/-- The wrapped index word is the index word, when that is not negative. -/
theorem wrapI_v164 (x1 : FVec Ideal S4x2x64x64 .f32) (i : S4x4096.Idx)
    (h0 : 0 ≤ (Read.val_main_v39 (F := Ideal) x1 i).toInt) : Read.val_main_v152 (F := Ideal) x1 i = Read.val_main_v39 (F := Ideal) x1 i := by
  rw [Read.val_main_v152_apply, Read.val_main_v149_apply, Read.val_main_v148_apply, Read.val_main_c_52_apply]
  exact WrapWord.select_slt_zero _ _ h0

/-- First component of the triple at `(b, p)`: `b`. -/
theorem tbl0_v164 (x1 : FVec Ideal S4x2x64x64 .f32) (b : Fin 4) (p : Fin 4096) :
    (Read.val_main_v163 (F := Ideal) x1 (ix3 b p 0)).toInt = (b.val : ℤ) := by
  unfold Read.val_main_v163
  refine (congrArg BitVec.toInt (Concat3.concat3_apply_0 _ _ _ _ b p)).trans ?_
  rw [Read.val_main_v160_apply, Read.val_main_v158_apply, wrapB_v164]
  exact WrapWord.toInt_ofNat b.val (by have := b.isLt; omega)

/-- Last component of the triple at `(b, p)`: `p`. -/
theorem tbl2_v164 (x1 : FVec Ideal S4x2x64x64 .f32) (b : Fin 4) (p : Fin 4096) :
    (Read.val_main_v163 (F := Ideal) x1 (ix3 b p 2)).toInt = (p.val : ℤ) := by
  unfold Read.val_main_v163
  refine (congrArg BitVec.toInt (Concat3.concat3_apply_2 _ _ _ _ b p)).trans ?_
  rw [Read.val_main_v162_apply, Read.val_main_v159_apply, wrapP_v164]
  exact WrapWord.toInt_ofNat p.val p.isLt

/-- Middle component of the triple at `(b, p)`: the index word at `(b, p)`, when that is not negative. -/
theorem tbl1_v164 (x1 : FVec Ideal S4x2x64x64 .f32) (b : Fin 4) (p : Fin 4096)
    (h0 : 0 ≤ (Read.val_main_v39 (F := Ideal) x1 (ix2 b p)).toInt) :
    Read.val_main_v163 (F := Ideal) x1 (ix3 b p 1) = Read.val_main_v39 (F := Ideal) x1 (ix2 b p) := by
  unfold Read.val_main_v163
  refine (Concat3.concat3_apply_1 _ _ _ _ b p).trans ?_
  have e : Read.idx_main_v161 (ix3 b p (0 : Fin 1)) = ix2 b p := by
    funext a
    match a with
    | ⟨0, _⟩ => rfl
    | ⟨1, _⟩ => rfl
  rw [Read.val_main_v161_apply, e]
  exact wrapI_v164 x1 (ix2 b p) h0

/-! ### The table of the scatter that writes `v186` (`v185`) -/

/-- The wrapped batch `iota` is the batch `iota`. -/
theorem wrapB_v186 (i : S4x1.Idx) : Read.val_main_v169 (F := Ideal) i = BitVec.ofNat 32 (i 0).val := by
  rw [Read.val_main_v169_apply, Read.val_main_v166_apply, Read.val_main_v165_apply, Read.val_main_c_56_apply, iotaB_apply]
  have h : (i 0).val < 4 := (i 0).isLt
  exact WrapWord.select_slt_zero _ _ (by rw [WrapWord.toInt_ofNat _ (by omega)]; exact Int.natCast_nonneg _)

/-- The wrapped position `iota` is the position `iota`. -/
theorem wrapP_v186 (i : S1x4096.Idx) : Read.val_main_v179 (F := Ideal) i = BitVec.ofNat 32 (i 1).val := by
  rw [Read.val_main_v179_apply, Read.val_main_v176_apply, Read.val_main_v175_apply, Read.val_main_c_60_apply, iotaP_apply]
  have h : (i 1).val < 4096 := (i 1).isLt
  exact WrapWord.select_slt_zero _ _ (by rw [WrapWord.toInt_ofNat _ h]; exact Int.natCast_nonneg _)

/-- The wrapped index word is the index word, when that is not negative. -/
theorem wrapI_v186 (x1 : FVec Ideal S4x2x64x64 .f32) (i : S4x4096.Idx)
    (h0 : 0 ≤ (Read.val_main_v39 (F := Ideal) x1 i).toInt) : Read.val_main_v174 (F := Ideal) x1 i = Read.val_main_v39 (F := Ideal) x1 i := by
  rw [Read.val_main_v174_apply, Read.val_main_v171_apply, Read.val_main_v170_apply, Read.val_main_c_58_apply]
  exact WrapWord.select_slt_zero _ _ h0

/-- First component of the triple at `(b, p)`: `b`. -/
theorem tbl0_v186 (x1 : FVec Ideal S4x2x64x64 .f32) (b : Fin 4) (p : Fin 4096) :
    (Read.val_main_v185 (F := Ideal) x1 (ix3 b p 0)).toInt = (b.val : ℤ) := by
  unfold Read.val_main_v185
  refine (congrArg BitVec.toInt (Concat3.concat3_apply_0 _ _ _ _ b p)).trans ?_
  rw [Read.val_main_v182_apply, Read.val_main_v180_apply, wrapB_v186]
  exact WrapWord.toInt_ofNat b.val (by have := b.isLt; omega)

/-- Last component of the triple at `(b, p)`: `p`. -/
theorem tbl2_v186 (x1 : FVec Ideal S4x2x64x64 .f32) (b : Fin 4) (p : Fin 4096) :
    (Read.val_main_v185 (F := Ideal) x1 (ix3 b p 2)).toInt = (p.val : ℤ) := by
  unfold Read.val_main_v185
  refine (congrArg BitVec.toInt (Concat3.concat3_apply_2 _ _ _ _ b p)).trans ?_
  rw [Read.val_main_v184_apply, Read.val_main_v181_apply, wrapP_v186]
  exact WrapWord.toInt_ofNat p.val p.isLt

/-- Middle component of the triple at `(b, p)`: the index word at `(b, p)`, when that is not negative. -/
theorem tbl1_v186 (x1 : FVec Ideal S4x2x64x64 .f32) (b : Fin 4) (p : Fin 4096)
    (h0 : 0 ≤ (Read.val_main_v39 (F := Ideal) x1 (ix2 b p)).toInt) :
    Read.val_main_v185 (F := Ideal) x1 (ix3 b p 1) = Read.val_main_v39 (F := Ideal) x1 (ix2 b p) := by
  unfold Read.val_main_v185
  refine (Concat3.concat3_apply_1 _ _ _ _ b p).trans ?_
  have e : Read.idx_main_v183 (ix3 b p (0 : Fin 1)) = ix2 b p := by
    funext a
    match a with
    | ⟨0, _⟩ => rfl
    | ⟨1, _⟩ => rfl
  rw [Read.val_main_v183_apply, e]
  exact wrapI_v186 x1 (ix2 b p) h0

/-! ### The table of the scatter that writes `v211` (`v210`) -/

/-- The wrapped batch `iota` is the batch `iota`. -/
theorem wrapB_v211 (i : S4x1.Idx) : Read.val_main_v194 (F := Ideal) i = BitVec.ofNat 32 (i 0).val := by
  rw [Read.val_main_v194_apply, Read.val_main_v191_apply, Read.val_main_v190_apply, Read.val_main_c_62_apply, iotaB_apply]
  have h : (i 0).val < 4 := (i 0).isLt
  exact WrapWord.select_slt_zero _ _ (by rw [WrapWord.toInt_ofNat _ (by omega)]; exact Int.natCast_nonneg _)

/-- The wrapped position `iota` is the position `iota`. -/
theorem wrapP_v211 (i : S1x4096.Idx) : Read.val_main_v204 (F := Ideal) i = BitVec.ofNat 32 (i 1).val := by
  rw [Read.val_main_v204_apply, Read.val_main_v201_apply, Read.val_main_v200_apply, Read.val_main_c_66_apply, iotaP_apply]
  have h : (i 1).val < 4096 := (i 1).isLt
  exact WrapWord.select_slt_zero _ _ (by rw [WrapWord.toInt_ofNat _ h]; exact Int.natCast_nonneg _)

/-- The wrapped index word is the index word, when that is not negative. -/
theorem wrapI_v211 (x1 : FVec Ideal S4x2x64x64 .f32) (i : S4x4096.Idx)
    (h0 : 0 ≤ (Read.val_main_v50 (F := Ideal) x1 i).toInt) : Read.val_main_v199 (F := Ideal) x1 i = Read.val_main_v50 (F := Ideal) x1 i := by
  rw [Read.val_main_v199_apply, Read.val_main_v196_apply, Read.val_main_v195_apply, Read.val_main_c_64_apply]
  exact WrapWord.select_slt_zero _ _ h0

/-- First component of the triple at `(b, p)`: `b`. -/
theorem tbl0_v211 (x1 : FVec Ideal S4x2x64x64 .f32) (b : Fin 4) (p : Fin 4096) :
    (Read.val_main_v210 (F := Ideal) x1 (ix3 b p 0)).toInt = (b.val : ℤ) := by
  unfold Read.val_main_v210
  refine (congrArg BitVec.toInt (Concat3.concat3_apply_0 _ _ _ _ b p)).trans ?_
  rw [Read.val_main_v207_apply, Read.val_main_v205_apply, wrapB_v211]
  exact WrapWord.toInt_ofNat b.val (by have := b.isLt; omega)

/-- Last component of the triple at `(b, p)`: `p`. -/
theorem tbl2_v211 (x1 : FVec Ideal S4x2x64x64 .f32) (b : Fin 4) (p : Fin 4096) :
    (Read.val_main_v210 (F := Ideal) x1 (ix3 b p 2)).toInt = (p.val : ℤ) := by
  unfold Read.val_main_v210
  refine (congrArg BitVec.toInt (Concat3.concat3_apply_2 _ _ _ _ b p)).trans ?_
  rw [Read.val_main_v209_apply, Read.val_main_v206_apply, wrapP_v211]
  exact WrapWord.toInt_ofNat p.val p.isLt

/-- Middle component of the triple at `(b, p)`: the index word at `(b, p)`, when that is not negative. -/
theorem tbl1_v211 (x1 : FVec Ideal S4x2x64x64 .f32) (b : Fin 4) (p : Fin 4096)
    (h0 : 0 ≤ (Read.val_main_v50 (F := Ideal) x1 (ix2 b p)).toInt) :
    Read.val_main_v210 (F := Ideal) x1 (ix3 b p 1) = Read.val_main_v50 (F := Ideal) x1 (ix2 b p) := by
  unfold Read.val_main_v210
  refine (Concat3.concat3_apply_1 _ _ _ _ b p).trans ?_
  have e : Read.idx_main_v208 (ix3 b p (0 : Fin 1)) = ix2 b p := by
    funext a
    match a with
    | ⟨0, _⟩ => rfl
    | ⟨1, _⟩ => rfl
  rw [Read.val_main_v208_apply, e]
  exact wrapI_v211 x1 (ix2 b p) h0

/-! ### The table of the scatter that writes `v233` (`v232`) -/

/-- The wrapped batch `iota` is the batch `iota`. -/
theorem wrapB_v233 (i : S4x1.Idx) : Read.val_main_v216 (F := Ideal) i = BitVec.ofNat 32 (i 0).val := by
  rw [Read.val_main_v216_apply, Read.val_main_v213_apply, Read.val_main_v212_apply, Read.val_main_c_68_apply, iotaB_apply]
  have h : (i 0).val < 4 := (i 0).isLt
  exact WrapWord.select_slt_zero _ _ (by rw [WrapWord.toInt_ofNat _ (by omega)]; exact Int.natCast_nonneg _)

/-- The wrapped position `iota` is the position `iota`. -/
theorem wrapP_v233 (i : S1x4096.Idx) : Read.val_main_v226 (F := Ideal) i = BitVec.ofNat 32 (i 1).val := by
  rw [Read.val_main_v226_apply, Read.val_main_v223_apply, Read.val_main_v222_apply, Read.val_main_c_72_apply, iotaP_apply]
  have h : (i 1).val < 4096 := (i 1).isLt
  exact WrapWord.select_slt_zero _ _ (by rw [WrapWord.toInt_ofNat _ h]; exact Int.natCast_nonneg _)

/-- The wrapped index word is the index word, when that is not negative. -/
theorem wrapI_v233 (x1 : FVec Ideal S4x2x64x64 .f32) (i : S4x4096.Idx)
    (h0 : 0 ≤ (Read.val_main_v50 (F := Ideal) x1 i).toInt) : Read.val_main_v221 (F := Ideal) x1 i = Read.val_main_v50 (F := Ideal) x1 i := by
  rw [Read.val_main_v221_apply, Read.val_main_v218_apply, Read.val_main_v217_apply, Read.val_main_c_70_apply]
  exact WrapWord.select_slt_zero _ _ h0

/-- First component of the triple at `(b, p)`: `b`. -/
theorem tbl0_v233 (x1 : FVec Ideal S4x2x64x64 .f32) (b : Fin 4) (p : Fin 4096) :
    (Read.val_main_v232 (F := Ideal) x1 (ix3 b p 0)).toInt = (b.val : ℤ) := by
  unfold Read.val_main_v232
  refine (congrArg BitVec.toInt (Concat3.concat3_apply_0 _ _ _ _ b p)).trans ?_
  rw [Read.val_main_v229_apply, Read.val_main_v227_apply, wrapB_v233]
  exact WrapWord.toInt_ofNat b.val (by have := b.isLt; omega)

/-- Last component of the triple at `(b, p)`: `p`. -/
theorem tbl2_v233 (x1 : FVec Ideal S4x2x64x64 .f32) (b : Fin 4) (p : Fin 4096) :
    (Read.val_main_v232 (F := Ideal) x1 (ix3 b p 2)).toInt = (p.val : ℤ) := by
  unfold Read.val_main_v232
  refine (congrArg BitVec.toInt (Concat3.concat3_apply_2 _ _ _ _ b p)).trans ?_
  rw [Read.val_main_v231_apply, Read.val_main_v228_apply, wrapP_v233]
  exact WrapWord.toInt_ofNat p.val p.isLt

/-- Middle component of the triple at `(b, p)`: the index word at `(b, p)`, when that is not negative. -/
theorem tbl1_v233 (x1 : FVec Ideal S4x2x64x64 .f32) (b : Fin 4) (p : Fin 4096)
    (h0 : 0 ≤ (Read.val_main_v50 (F := Ideal) x1 (ix2 b p)).toInt) :
    Read.val_main_v232 (F := Ideal) x1 (ix3 b p 1) = Read.val_main_v50 (F := Ideal) x1 (ix2 b p) := by
  unfold Read.val_main_v232
  refine (Concat3.concat3_apply_1 _ _ _ _ b p).trans ?_
  have e : Read.idx_main_v230 (ix3 b p (0 : Fin 1)) = ix2 b p := by
    funext a
    match a with
    | ⟨0, _⟩ => rfl
    | ⟨1, _⟩ => rfl
  rw [Read.val_main_v230_apply, e]
  exact wrapI_v233 x1 (ix2 b p) h0

/-! ### The table of the scatter that writes `v258` (`v257`) -/

/-- The wrapped batch `iota` is the batch `iota`. -/
theorem wrapB_v258 (i : S4x1.Idx) : Read.val_main_v241 (F := Ideal) i = BitVec.ofNat 32 (i 0).val := by
  rw [Read.val_main_v241_apply, Read.val_main_v238_apply, Read.val_main_v237_apply, Read.val_main_c_74_apply, iotaB_apply]
  have h : (i 0).val < 4 := (i 0).isLt
  exact WrapWord.select_slt_zero _ _ (by rw [WrapWord.toInt_ofNat _ (by omega)]; exact Int.natCast_nonneg _)

/-- The wrapped position `iota` is the position `iota`. -/
theorem wrapP_v258 (i : S1x4096.Idx) : Read.val_main_v251 (F := Ideal) i = BitVec.ofNat 32 (i 1).val := by
  rw [Read.val_main_v251_apply, Read.val_main_v248_apply, Read.val_main_v247_apply, Read.val_main_c_78_apply, iotaP_apply]
  have h : (i 1).val < 4096 := (i 1).isLt
  exact WrapWord.select_slt_zero _ _ (by rw [WrapWord.toInt_ofNat _ h]; exact Int.natCast_nonneg _)

/-- The wrapped index word is the index word, when that is not negative. -/
theorem wrapI_v258 (x1 : FVec Ideal S4x2x64x64 .f32) (i : S4x4096.Idx)
    (h0 : 0 ≤ (Read.val_main_v61 (F := Ideal) x1 i).toInt) : Read.val_main_v246 (F := Ideal) x1 i = Read.val_main_v61 (F := Ideal) x1 i := by
  rw [Read.val_main_v246_apply, Read.val_main_v243_apply, Read.val_main_v242_apply, Read.val_main_c_76_apply]
  exact WrapWord.select_slt_zero _ _ h0

/-- First component of the triple at `(b, p)`: `b`. -/
theorem tbl0_v258 (x1 : FVec Ideal S4x2x64x64 .f32) (b : Fin 4) (p : Fin 4096) :
    (Read.val_main_v257 (F := Ideal) x1 (ix3 b p 0)).toInt = (b.val : ℤ) := by
  unfold Read.val_main_v257
  refine (congrArg BitVec.toInt (Concat3.concat3_apply_0 _ _ _ _ b p)).trans ?_
  rw [Read.val_main_v254_apply, Read.val_main_v252_apply, wrapB_v258]
  exact WrapWord.toInt_ofNat b.val (by have := b.isLt; omega)

/-- Last component of the triple at `(b, p)`: `p`. -/
theorem tbl2_v258 (x1 : FVec Ideal S4x2x64x64 .f32) (b : Fin 4) (p : Fin 4096) :
    (Read.val_main_v257 (F := Ideal) x1 (ix3 b p 2)).toInt = (p.val : ℤ) := by
  unfold Read.val_main_v257
  refine (congrArg BitVec.toInt (Concat3.concat3_apply_2 _ _ _ _ b p)).trans ?_
  rw [Read.val_main_v256_apply, Read.val_main_v253_apply, wrapP_v258]
  exact WrapWord.toInt_ofNat p.val p.isLt

/-- Middle component of the triple at `(b, p)`: the index word at `(b, p)`, when that is not negative. -/
theorem tbl1_v258 (x1 : FVec Ideal S4x2x64x64 .f32) (b : Fin 4) (p : Fin 4096)
    (h0 : 0 ≤ (Read.val_main_v61 (F := Ideal) x1 (ix2 b p)).toInt) :
    Read.val_main_v257 (F := Ideal) x1 (ix3 b p 1) = Read.val_main_v61 (F := Ideal) x1 (ix2 b p) := by
  unfold Read.val_main_v257
  refine (Concat3.concat3_apply_1 _ _ _ _ b p).trans ?_
  have e : Read.idx_main_v255 (ix3 b p (0 : Fin 1)) = ix2 b p := by
    funext a
    match a with
    | ⟨0, _⟩ => rfl
    | ⟨1, _⟩ => rfl
  rw [Read.val_main_v255_apply, e]
  exact wrapI_v258 x1 (ix2 b p) h0

/-! ### The table of the scatter that writes `v280` (`v279`) -/

/-- The wrapped batch `iota` is the batch `iota`. -/
theorem wrapB_v280 (i : S4x1.Idx) : Read.val_main_v263 (F := Ideal) i = BitVec.ofNat 32 (i 0).val := by
  rw [Read.val_main_v263_apply, Read.val_main_v260_apply, Read.val_main_v259_apply, Read.val_main_c_80_apply, iotaB_apply]
  have h : (i 0).val < 4 := (i 0).isLt
  exact WrapWord.select_slt_zero _ _ (by rw [WrapWord.toInt_ofNat _ (by omega)]; exact Int.natCast_nonneg _)

/-- The wrapped position `iota` is the position `iota`. -/
theorem wrapP_v280 (i : S1x4096.Idx) : Read.val_main_v273 (F := Ideal) i = BitVec.ofNat 32 (i 1).val := by
  rw [Read.val_main_v273_apply, Read.val_main_v270_apply, Read.val_main_v269_apply, Read.val_main_c_84_apply, iotaP_apply]
  have h : (i 1).val < 4096 := (i 1).isLt
  exact WrapWord.select_slt_zero _ _ (by rw [WrapWord.toInt_ofNat _ h]; exact Int.natCast_nonneg _)

/-- The wrapped index word is the index word, when that is not negative. -/
theorem wrapI_v280 (x1 : FVec Ideal S4x2x64x64 .f32) (i : S4x4096.Idx)
    (h0 : 0 ≤ (Read.val_main_v61 (F := Ideal) x1 i).toInt) : Read.val_main_v268 (F := Ideal) x1 i = Read.val_main_v61 (F := Ideal) x1 i := by
  rw [Read.val_main_v268_apply, Read.val_main_v265_apply, Read.val_main_v264_apply, Read.val_main_c_82_apply]
  exact WrapWord.select_slt_zero _ _ h0

/-- First component of the triple at `(b, p)`: `b`. -/
theorem tbl0_v280 (x1 : FVec Ideal S4x2x64x64 .f32) (b : Fin 4) (p : Fin 4096) :
    (Read.val_main_v279 (F := Ideal) x1 (ix3 b p 0)).toInt = (b.val : ℤ) := by
  unfold Read.val_main_v279
  refine (congrArg BitVec.toInt (Concat3.concat3_apply_0 _ _ _ _ b p)).trans ?_
  rw [Read.val_main_v276_apply, Read.val_main_v274_apply, wrapB_v280]
  exact WrapWord.toInt_ofNat b.val (by have := b.isLt; omega)

/-- Last component of the triple at `(b, p)`: `p`. -/
theorem tbl2_v280 (x1 : FVec Ideal S4x2x64x64 .f32) (b : Fin 4) (p : Fin 4096) :
    (Read.val_main_v279 (F := Ideal) x1 (ix3 b p 2)).toInt = (p.val : ℤ) := by
  unfold Read.val_main_v279
  refine (congrArg BitVec.toInt (Concat3.concat3_apply_2 _ _ _ _ b p)).trans ?_
  rw [Read.val_main_v278_apply, Read.val_main_v275_apply, wrapP_v280]
  exact WrapWord.toInt_ofNat p.val p.isLt

/-- Middle component of the triple at `(b, p)`: the index word at `(b, p)`, when that is not negative. -/
theorem tbl1_v280 (x1 : FVec Ideal S4x2x64x64 .f32) (b : Fin 4) (p : Fin 4096)
    (h0 : 0 ≤ (Read.val_main_v61 (F := Ideal) x1 (ix2 b p)).toInt) :
    Read.val_main_v279 (F := Ideal) x1 (ix3 b p 1) = Read.val_main_v61 (F := Ideal) x1 (ix2 b p) := by
  unfold Read.val_main_v279
  refine (Concat3.concat3_apply_1 _ _ _ _ b p).trans ?_
  have e : Read.idx_main_v277 (ix3 b p (0 : Fin 1)) = ix2 b p := by
    funext a
    match a with
    | ⟨0, _⟩ => rfl
    | ⟨1, _⟩ => rfl
  rw [Read.val_main_v277_apply, e]
  exact wrapI_v280 x1 (ix2 b p) h0

end Cert.ReferenceIdeal.RefValue

end
-- ==== Proof.LibTakeMid.lean ====
/-
  Reading the middle axis of a rank-3 array at an index array (`take_along_axis` along axis 1 with one index per
  `(b, p)`).

  The operand is `[B, S, P]`, the start indices `[B, 1, P, 1]`, the result `[B, 1, P]`: axes 0 and 2 are batching
  axes of operand and indices, axis 1 of the operand is collapsed and is the one the index names, the index vector is the
  indices' last axis. `gather_mid_apply`: the result at `(b, 0, p)` is the operand at `(b, i, p)` with `i` the index
  word at `(b, 0, p, 0)`, read signed and clamped into `[0, S - 1]`.

  `reduce_andi_of_forall`: a reduction by `and` from `1` of an array of bits that are all `1` is `1` everywhere
  (the "every index component is in bounds" mask of such a read, when every component is).
-/
import Idealize.ShloMosaic.Lib.ValueIdx
import Idealize.ShloMosaic.PureOps.Reduce

namespace TakeMid

open Idealize.ShloMosaic Idealize.ShloMosaic.ValueIdx

section Gather
variable {α : Type}

/-- The dimension numbers. -/
abbrev midDims (B S P : Nat)
    (wf : GatherDims.WF ⟨3, ![B, S, P]⟩ ⟨4, ![B, 1, P, 1]⟩ ⟨3, ![B, 1, P]⟩ [] [1] [0, 2] [1] [0, 2] 3 ![1, 1, 1]) :
    GatherDims ⟨3, ![B, S, P]⟩ ⟨4, ![B, 1, P, 1]⟩ ⟨3, ![B, 1, P]⟩ where
  offsetDims := []
  collapsedSliceDims := [1]
  operandBatchingDims := [0, 2]
  startIndicesBatchingDims := [0, 2]
  startIndexMap := [1]
  indexVectorDim := 3
  sliceSizes := ![1, 1, 1]
  wf := wf

/-- Every operand axis is collapsed or batching: none is kept for an offset. -/
theorem sKept_eq {B S P : Nat}
    (wf : GatherDims.WF ⟨3, ![B, S, P]⟩ ⟨4, ![B, 1, P, 1]⟩ ⟨3, ![B, 1, P]⟩ [] [1] [0, 2] [1] [0, 2] 3 ![1, 1, 1]) :
    (midDims B S P wf).sKept = [] := by
  rfl

/-- The read at `(b, 0, p)`: the operand at `(b, i, p)`, `i` the index word at `(b, 0, p, 0)` read signed and
    clamped into `[0, S - 1]`. -/
theorem gather_mid_apply {B S P w : Nat} (hS : 0 < S)
    (wf : GatherDims.WF ⟨3, ![B, S, P]⟩ ⟨4, ![B, 1, P, 1]⟩ ⟨3, ![B, 1, P]⟩ [] [1] [0, 2] [1] [0, 2] 3 ![1, 1, 1])
    (x : (⟨3, ![B, S, P]⟩ : Shape).Idx → α) (idx : IVec ⟨4, ![B, 1, P, 1]⟩ w) (b : Fin B) (p : Fin P) :
    Host.gather (midDims B S P wf) x idx (ix3 b 0 p)
      = x (ix3 b ⟨min (idx (ix4 b 0 p 0)).toInt.toNat (S - 1), by omega⟩ p) := by
  unfold Host.gather
  congr 1
  funext a
  refine Fin.ext ?_
  show (midDims B S P wf).start (ix3 b 0 p) idx a + (midDims B S P wf).batchCoord (ix3 b 0 p) a
    + (midDims B S P wf).offCoord (ix3 b 0 p) a = _
  have hsK := sKept_eq (B := B) (S := S) (P := P) wf
  have hoff : ∀ a : Fin 3, (midDims B S P wf).offCoord (ix3 b 0 p) a = 0 := fun a =>
    GatherDims.offCoord_eq_zero _ _ _ (by rw [hsK]; exact List.not_mem_nil)
  rw [hoff a, Nat.add_zero]
  match a with
  | ⟨0, _⟩ =>
    have hst : (midDims B S P wf).start (ix3 b 0 p) idx (0 : Fin 3) = 0 := by
      unfold GatherDims.start
      rw [dif_neg (show (0 : Fin 3) ∉ ([1] : List (Fin 3)) by decide)]
    have hbc : (midDims B S P wf).batchCoord (ix3 b 0 p) (0 : Fin 3) = b.val := by
      unfold GatherDims.batchCoord
      rw [dif_pos (show (0 : Fin 3) ∈ ([0, 2] : List (Fin 3)) by decide)]
      rfl
    show (midDims B S P wf).start (ix3 b 0 p) idx (0 : Fin 3) + (midDims B S P wf).batchCoord (ix3 b 0 p) (0 : Fin 3) = b.val
    rw [hst, hbc, Nat.zero_add]
  | ⟨1, _⟩ =>
    have hbc : (midDims B S P wf).batchCoord (ix3 b 0 p) (1 : Fin 3) = 0 :=
      GatherDims.batchCoord_eq_zero _ _ _ (show (1 : Fin 3) ∉ ([0, 2] : List (Fin 3)) by decide)
    have hmem : (1 : Fin 3) ∈ (midDims B S P wf).startIndexMap := show (1 : Fin 3) ∈ ([1] : List (Fin 3)) by decide
    have hsi : (midDims B S P wf).siIdx (ix3 b 0 p) ⟨List.idxOf (1 : Fin 3) (midDims B S P wf).startIndexMap,
        List.idxOf_lt_length_iff.2 hmem⟩ = ix4 b 0 p 0 := by
      funext c; refine Fin.ext ?_
      match c with
      | ⟨0, _⟩ => rfl
      | ⟨1, _⟩ => rfl
      | ⟨2, _⟩ => rfl
      | ⟨3, _⟩ => rfl
    have hst : (midDims B S P wf).start (ix3 b 0 p) idx (1 : Fin 3)
        = min (idx (ix4 b 0 p 0)).toInt.toNat (S - 1) := by
      unfold GatherDims.start
      rw [dif_pos hmem, hsi]
      rfl
    show (midDims B S P wf).start (ix3 b 0 p) idx (1 : Fin 3) + (midDims B S P wf).batchCoord (ix3 b 0 p) (1 : Fin 3) = _
    rw [hst, hbc, Nat.add_zero]
  | ⟨2, _⟩ =>
    have hst : (midDims B S P wf).start (ix3 b 0 p) idx (2 : Fin 3) = 0 := by
      unfold GatherDims.start
      rw [dif_neg (show (2 : Fin 3) ∉ ([1] : List (Fin 3)) by decide)]
    have hbc : (midDims B S P wf).batchCoord (ix3 b 0 p) (2 : Fin 3) = p.val := by
      unfold GatherDims.batchCoord
      rw [dif_pos (show (2 : Fin 3) ∈ ([0, 2] : List (Fin 3)) by decide)]
      rfl
    show (midDims B S P wf).start (ix3 b 0 p) idx (2 : Fin 3) + (midDims B S P wf).batchCoord (ix3 b 0 p) (2 : Fin 3) = p.val
    rw [hst, hbc, Nat.zero_add]

end Gather

section Mask
variable {s t u : Shape} {axes : List (Fin s.rank)}

/-- A left fold by `and` from `1` over bits that are all `1` is `1`. -/
theorem foldl_andi_of_forall {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact foldl_andi_of_forall f hf l

/-- A reduction by `and` from `1` of bits that are all `1` is `1` at every result index. -/
theorem reduce_andi_of_forall (x : s.Idx → BitVec 1) (init : u.Idx → BitVec 1) (h : s.ReducesTo axes t)
    (hu : 0 < u.numel) (hinit : init (Shape.Idx.first hu) = 1#1) (hx : ∀ i, x i = 1#1) (j : t.Idx) :
    Host.reduce IntOp.andi x init h hu j = 1#1 := by
  rw [Host.reduce_eq_foldl, hinit]
  exact foldl_andi_of_forall x hx _

end Mask

end TakeMid
-- ==== Proof.RefTake.lean ====
/-
  The reference's four reads of the correlation volume along its middle axis (`take_along_axis`), at an index.

  Each read takes the transposed volume `corr_view[b, s, p] = corr[b, p, s]` at `s = idx[b, p]`. Its lowered form
  wraps a negative index, tests that the wrapped index lies in `[0, 4095]`, gathers with the index clamped, and selects
  the gathered value where the test holds and a NaN elsewhere. For an index word of `[0, 4096)` the wrap does nothing,
  the test holds, the clamp does nothing: the read is `corr[b, p, idx[b, p]]`.
-/
import proofs.«164663_j64072322121837_2_alg».proof.Proof.RefReadP
import proofs.«164663_j64072322121837_2_alg».proof.Proof.LibWrapWord
import proofs.«164663_j64072322121837_2_alg».proof.Proof.LibTakeMid

noncomputable section

namespace Cert.ReferenceIdeal.RefValue

open Cert.ReferenceIdeal Cert.ReferenceIdeal.Gen Idealize.ShloMosaic Idealize.ShloMosaic.ValueIdx

/-! ### The read that feeds the scatter writing `v117`: `v95`, index words `v28` -/

/-- The wrapped index, as the gather's start index: the index word. -/
theorem takeStart_v95 (x1 : FVec Ideal S4x2x64x64 .f32)
    (hr : ∀ j : S4x4096.Idx, 0 ≤ (Read.val_main_v28 (F := Ideal) x1 j).toInt ∧ (Read.val_main_v28 (F := Ideal) x1 j).toInt < 4096)
    (i : S4x1x4096x1.Idx) :
    Read.val_main_call8_v5 (F := Ideal) x1 i = Read.val_main_v28 (F := Ideal) x1 (Read.idx_main_v93 (Read.idx_main_call8_v5 i)) := by
  rw [Read.val_main_call8_v5_apply, Read.val_main_call8_v4_apply, Read.val_main_call8_v1_apply, Read.val_main_call8_v0_apply, Read.val_main_call8_c_apply,
    Read.val_main_v93_apply]
  exact WrapWord.select_slt_zero _ _ (hr _).1

/-- The bounds mask is `1` everywhere. -/
theorem takeMask_v95 (x1 : FVec Ideal S4x2x64x64 .f32)
    (hr : ∀ j : S4x4096.Idx, 0 ≤ (Read.val_main_v28 (F := Ideal) x1 j).toInt ∧ (Read.val_main_v28 (F := Ideal) x1 j).toInt < 4096)
    (j : S4x1x4096.Idx) : Read.val_main_call8_v12 (F := Ideal) x1 j = 1#1 := by
  unfold Read.val_main_call8_v12
  refine TakeMid.reduce_andi_of_forall _ _ _ _ rfl (fun i => ?_) j
  rw [Read.val_main_call8_v11_apply, Read.val_main_call8_v7_apply, Read.val_main_call8_v10_apply, Read.val_main_call8_v6_apply, Read.val_main_call8_c_2_apply,
    Read.val_main_call8_v9_apply, Read.val_main_call8_v8_apply, Read.val_main_call8_c_1_apply, takeStart_v95 x1 hr i]
  exact WrapWord.inb_mask _ (hr _).1 (hr _).2

/-- **The read at `(b, p)`**: the volume at `(b, p, idx[b, p])`. -/
theorem take_v95 (x0 : FVec Ideal S4x4096x4096 .f32) (x1 : FVec Ideal S4x2x64x64 .f32)
    (hr : ∀ j : S4x4096.Idx, 0 ≤ (Read.val_main_v28 (F := Ideal) x1 j).toInt ∧ (Read.val_main_v28 (F := Ideal) x1 j).toInt < 4096)
    (b : Fin 4) (p : Fin 4096) :
    Read.val_main_v95 (F := Ideal) x0 x1 (ix2 b p)
      = x0 (ix3 b p ⟨(Read.val_main_v28 (F := Ideal) x1 (ix2 b p)).toNat,
          IdxRange.toNat_lt_of_toInt_lt _ (hr (ix2 b p)).1 (hr (ix2 b p)).2⟩) := by
  have hb : b.val < 4 := b.isLt
  have hp : p.val < 4096 := p.isLt
  have e1 : Read.idx_main_v95 (ix2 b p) = ix3 b (0 : Fin 1) p := by
    funext a
    match a with
    | ⟨0, _⟩ => exact Fin.ext (show (b.val * 4096 + p.val) / 4096 = b.val by omega)
    | ⟨1, _⟩ => rfl
    | ⟨2, _⟩ => exact Fin.ext (show (b.val * 4096 + p.val) % 4096 = p.val by omega)
  have e2 : Read.idx_main_v93 (Read.idx_main_call8_v5 (ix4 b (0 : Fin 1) p (0 : Fin 1))) = ix2 b p := by
    funext a
    match a with
    | ⟨0, _⟩ => exact Fin.ext (show (((b.val * 1 + 0) * 4096 + p.val) * 1 + 0) / 4096 = b.val by omega)
    | ⟨1, _⟩ => exact Fin.ext (show (((b.val * 1 + 0) * 4096 + p.val) * 1 + 0) % 4096 = p.val by omega)
  rw [Read.val_main_v95_apply, e1, Read.val_main_v94_apply, takeMask_v95 x1 hr, select_one]
  unfold Read.val_main_call8_v13
  refine (TakeMid.gather_mid_apply (by decide) _ _ _ b p).trans ?_
  rw [Read.val_main_v86_apply]
  congr 1
  funext a
  match a with
  | ⟨0, _⟩ => rfl
  | ⟨1, _⟩ => rfl
  | ⟨2, _⟩ =>
    refine Fin.ext ?_
    show min (Read.val_main_call8_v5 (F := Ideal) x1 (ix4 b (0 : Fin 1) p (0 : Fin 1))).toInt.toNat (4096 - 1) = _
    rw [takeStart_v95 x1 hr, e2]
    exact WrapWord.clamp_eq _ (hr _).1 (hr _).2

/-! ### The read that feeds the scatter writing `v164`: `v142`, index words `v39` -/

/-- The wrapped index, as the gather's start index: the index word. -/
theorem takeStart_v142 (x1 : FVec Ideal S4x2x64x64 .f32)
    (hr : ∀ j : S4x4096.Idx, 0 ≤ (Read.val_main_v39 (F := Ideal) x1 j).toInt ∧ (Read.val_main_v39 (F := Ideal) x1 j).toInt < 4096)
    (i : S4x1x4096x1.Idx) :
    Read.val_main_call9_v5 (F := Ideal) x1 i = Read.val_main_v39 (F := Ideal) x1 (Read.idx_main_v140 (Read.idx_main_call9_v5 i)) := by
  rw [Read.val_main_call9_v5_apply, Read.val_main_call9_v4_apply, Read.val_main_call9_v1_apply, Read.val_main_call9_v0_apply, Read.val_main_call9_c_apply,
    Read.val_main_v140_apply]
  exact WrapWord.select_slt_zero _ _ (hr _).1

/-- The bounds mask is `1` everywhere. -/
theorem takeMask_v142 (x1 : FVec Ideal S4x2x64x64 .f32)
    (hr : ∀ j : S4x4096.Idx, 0 ≤ (Read.val_main_v39 (F := Ideal) x1 j).toInt ∧ (Read.val_main_v39 (F := Ideal) x1 j).toInt < 4096)
    (j : S4x1x4096.Idx) : Read.val_main_call9_v12 (F := Ideal) x1 j = 1#1 := by
  unfold Read.val_main_call9_v12
  refine TakeMid.reduce_andi_of_forall _ _ _ _ rfl (fun i => ?_) j
  rw [Read.val_main_call9_v11_apply, Read.val_main_call9_v7_apply, Read.val_main_call9_v10_apply, Read.val_main_call9_v6_apply, Read.val_main_call9_c_2_apply,
    Read.val_main_call9_v9_apply, Read.val_main_call9_v8_apply, Read.val_main_call9_c_1_apply, takeStart_v142 x1 hr i]
  exact WrapWord.inb_mask _ (hr _).1 (hr _).2

/-- **The read at `(b, p)`**: the volume at `(b, p, idx[b, p])`. -/
theorem take_v142 (x0 : FVec Ideal S4x4096x4096 .f32) (x1 : FVec Ideal S4x2x64x64 .f32)
    (hr : ∀ j : S4x4096.Idx, 0 ≤ (Read.val_main_v39 (F := Ideal) x1 j).toInt ∧ (Read.val_main_v39 (F := Ideal) x1 j).toInt < 4096)
    (b : Fin 4) (p : Fin 4096) :
    Read.val_main_v142 (F := Ideal) x0 x1 (ix2 b p)
      = x0 (ix3 b p ⟨(Read.val_main_v39 (F := Ideal) x1 (ix2 b p)).toNat,
          IdxRange.toNat_lt_of_toInt_lt _ (hr (ix2 b p)).1 (hr (ix2 b p)).2⟩) := by
  have hb : b.val < 4 := b.isLt
  have hp : p.val < 4096 := p.isLt
  have e1 : Read.idx_main_v142 (ix2 b p) = ix3 b (0 : Fin 1) p := by
    funext a
    match a with
    | ⟨0, _⟩ => exact Fin.ext (show (b.val * 4096 + p.val) / 4096 = b.val by omega)
    | ⟨1, _⟩ => rfl
    | ⟨2, _⟩ => exact Fin.ext (show (b.val * 4096 + p.val) % 4096 = p.val by omega)
  have e2 : Read.idx_main_v140 (Read.idx_main_call9_v5 (ix4 b (0 : Fin 1) p (0 : Fin 1))) = ix2 b p := by
    funext a
    match a with
    | ⟨0, _⟩ => exact Fin.ext (show (((b.val * 1 + 0) * 4096 + p.val) * 1 + 0) / 4096 = b.val by omega)
    | ⟨1, _⟩ => exact Fin.ext (show (((b.val * 1 + 0) * 4096 + p.val) * 1 + 0) % 4096 = p.val by omega)
  rw [Read.val_main_v142_apply, e1, Read.val_main_v141_apply, takeMask_v142 x1 hr, select_one]
  unfold Read.val_main_call9_v13
  refine (TakeMid.gather_mid_apply (by decide) _ _ _ b p).trans ?_
  rw [Read.val_main_v86_apply]
  congr 1
  funext a
  match a with
  | ⟨0, _⟩ => rfl
  | ⟨1, _⟩ => rfl
  | ⟨2, _⟩ =>
    refine Fin.ext ?_
    show min (Read.val_main_call9_v5 (F := Ideal) x1 (ix4 b (0 : Fin 1) p (0 : Fin 1))).toInt.toNat (4096 - 1) = _
    rw [takeStart_v142 x1 hr, e2]
    exact WrapWord.clamp_eq _ (hr _).1 (hr _).2

/-! ### The read that feeds the scatter writing `v211`: `v189`, index words `v50` -/

/-- The wrapped index, as the gather's start index: the index word. -/
theorem takeStart_v189 (x1 : FVec Ideal S4x2x64x64 .f32)
    (hr : ∀ j : S4x4096.Idx, 0 ≤ (Read.val_main_v50 (F := Ideal) x1 j).toInt ∧ (Read.val_main_v50 (F := Ideal) x1 j).toInt < 4096)
    (i : S4x1x4096x1.Idx) :
    Read.val_main_call10_v5 (F := Ideal) x1 i = Read.val_main_v50 (F := Ideal) x1 (Read.idx_main_v187 (Read.idx_main_call10_v5 i)) := by
  rw [Read.val_main_call10_v5_apply, Read.val_main_call10_v4_apply, Read.val_main_call10_v1_apply, Read.val_main_call10_v0_apply, Read.val_main_call10_c_apply,
    Read.val_main_v187_apply]
  exact WrapWord.select_slt_zero _ _ (hr _).1

/-- The bounds mask is `1` everywhere. -/
theorem takeMask_v189 (x1 : FVec Ideal S4x2x64x64 .f32)
    (hr : ∀ j : S4x4096.Idx, 0 ≤ (Read.val_main_v50 (F := Ideal) x1 j).toInt ∧ (Read.val_main_v50 (F := Ideal) x1 j).toInt < 4096)
    (j : S4x1x4096.Idx) : Read.val_main_call10_v12 (F := Ideal) x1 j = 1#1 := by
  unfold Read.val_main_call10_v12
  refine TakeMid.reduce_andi_of_forall _ _ _ _ rfl (fun i => ?_) j
  rw [Read.val_main_call10_v11_apply, Read.val_main_call10_v7_apply, Read.val_main_call10_v10_apply, Read.val_main_call10_v6_apply, Read.val_main_call10_c_2_apply,
    Read.val_main_call10_v9_apply, Read.val_main_call10_v8_apply, Read.val_main_call10_c_1_apply, takeStart_v189 x1 hr i]
  exact WrapWord.inb_mask _ (hr _).1 (hr _).2

/-- **The read at `(b, p)`**: the volume at `(b, p, idx[b, p])`. -/
theorem take_v189 (x0 : FVec Ideal S4x4096x4096 .f32) (x1 : FVec Ideal S4x2x64x64 .f32)
    (hr : ∀ j : S4x4096.Idx, 0 ≤ (Read.val_main_v50 (F := Ideal) x1 j).toInt ∧ (Read.val_main_v50 (F := Ideal) x1 j).toInt < 4096)
    (b : Fin 4) (p : Fin 4096) :
    Read.val_main_v189 (F := Ideal) x0 x1 (ix2 b p)
      = x0 (ix3 b p ⟨(Read.val_main_v50 (F := Ideal) x1 (ix2 b p)).toNat,
          IdxRange.toNat_lt_of_toInt_lt _ (hr (ix2 b p)).1 (hr (ix2 b p)).2⟩) := by
  have hb : b.val < 4 := b.isLt
  have hp : p.val < 4096 := p.isLt
  have e1 : Read.idx_main_v189 (ix2 b p) = ix3 b (0 : Fin 1) p := by
    funext a
    match a with
    | ⟨0, _⟩ => exact Fin.ext (show (b.val * 4096 + p.val) / 4096 = b.val by omega)
    | ⟨1, _⟩ => rfl
    | ⟨2, _⟩ => exact Fin.ext (show (b.val * 4096 + p.val) % 4096 = p.val by omega)
  have e2 : Read.idx_main_v187 (Read.idx_main_call10_v5 (ix4 b (0 : Fin 1) p (0 : Fin 1))) = ix2 b p := by
    funext a
    match a with
    | ⟨0, _⟩ => exact Fin.ext (show (((b.val * 1 + 0) * 4096 + p.val) * 1 + 0) / 4096 = b.val by omega)
    | ⟨1, _⟩ => exact Fin.ext (show (((b.val * 1 + 0) * 4096 + p.val) * 1 + 0) % 4096 = p.val by omega)
  rw [Read.val_main_v189_apply, e1, Read.val_main_v188_apply, takeMask_v189 x1 hr, select_one]
  unfold Read.val_main_call10_v13
  refine (TakeMid.gather_mid_apply (by decide) _ _ _ b p).trans ?_
  rw [Read.val_main_v86_apply]
  congr 1
  funext a
  match a with
  | ⟨0, _⟩ => rfl
  | ⟨1, _⟩ => rfl
  | ⟨2, _⟩ =>
    refine Fin.ext ?_
    show min (Read.val_main_call10_v5 (F := Ideal) x1 (ix4 b (0 : Fin 1) p (0 : Fin 1))).toInt.toNat (4096 - 1) = _
    rw [takeStart_v189 x1 hr, e2]
    exact WrapWord.clamp_eq _ (hr _).1 (hr _).2

/-! ### The read that feeds the scatter writing `v258`: `v236`, index words `v61` -/

/-- The wrapped index, as the gather's start index: the index word. -/
theorem takeStart_v236 (x1 : FVec Ideal S4x2x64x64 .f32)
    (hr : ∀ j : S4x4096.Idx, 0 ≤ (Read.val_main_v61 (F := Ideal) x1 j).toInt ∧ (Read.val_main_v61 (F := Ideal) x1 j).toInt < 4096)
    (i : S4x1x4096x1.Idx) :
    Read.val_main_call11_v5 (F := Ideal) x1 i = Read.val_main_v61 (F := Ideal) x1 (Read.idx_main_v234 (Read.idx_main_call11_v5 i)) := by
  rw [Read.val_main_call11_v5_apply, Read.val_main_call11_v4_apply, Read.val_main_call11_v1_apply, Read.val_main_call11_v0_apply, Read.val_main_call11_c_apply,
    Read.val_main_v234_apply]
  exact WrapWord.select_slt_zero _ _ (hr _).1

/-- The bounds mask is `1` everywhere. -/
theorem takeMask_v236 (x1 : FVec Ideal S4x2x64x64 .f32)
    (hr : ∀ j : S4x4096.Idx, 0 ≤ (Read.val_main_v61 (F := Ideal) x1 j).toInt ∧ (Read.val_main_v61 (F := Ideal) x1 j).toInt < 4096)
    (j : S4x1x4096.Idx) : Read.val_main_call11_v12 (F := Ideal) x1 j = 1#1 := by
  unfold Read.val_main_call11_v12
  refine TakeMid.reduce_andi_of_forall _ _ _ _ rfl (fun i => ?_) j
  rw [Read.val_main_call11_v11_apply, Read.val_main_call11_v7_apply, Read.val_main_call11_v10_apply, Read.val_main_call11_v6_apply, Read.val_main_call11_c_2_apply,
    Read.val_main_call11_v9_apply, Read.val_main_call11_v8_apply, Read.val_main_call11_c_1_apply, takeStart_v236 x1 hr i]
  exact WrapWord.inb_mask _ (hr _).1 (hr _).2

/-- **The read at `(b, p)`**: the volume at `(b, p, idx[b, p])`. -/
theorem take_v236 (x0 : FVec Ideal S4x4096x4096 .f32) (x1 : FVec Ideal S4x2x64x64 .f32)
    (hr : ∀ j : S4x4096.Idx, 0 ≤ (Read.val_main_v61 (F := Ideal) x1 j).toInt ∧ (Read.val_main_v61 (F := Ideal) x1 j).toInt < 4096)
    (b : Fin 4) (p : Fin 4096) :
    Read.val_main_v236 (F := Ideal) x0 x1 (ix2 b p)
      = x0 (ix3 b p ⟨(Read.val_main_v61 (F := Ideal) x1 (ix2 b p)).toNat,
          IdxRange.toNat_lt_of_toInt_lt _ (hr (ix2 b p)).1 (hr (ix2 b p)).2⟩) := by
  have hb : b.val < 4 := b.isLt
  have hp : p.val < 4096 := p.isLt
  have e1 : Read.idx_main_v236 (ix2 b p) = ix3 b (0 : Fin 1) p := by
    funext a
    match a with
    | ⟨0, _⟩ => exact Fin.ext (show (b.val * 4096 + p.val) / 4096 = b.val by omega)
    | ⟨1, _⟩ => rfl
    | ⟨2, _⟩ => exact Fin.ext (show (b.val * 4096 + p.val) % 4096 = p.val by omega)
  have e2 : Read.idx_main_v234 (Read.idx_main_call11_v5 (ix4 b (0 : Fin 1) p (0 : Fin 1))) = ix2 b p := by
    funext a
    match a with
    | ⟨0, _⟩ => exact Fin.ext (show (((b.val * 1 + 0) * 4096 + p.val) * 1 + 0) / 4096 = b.val by omega)
    | ⟨1, _⟩ => exact Fin.ext (show (((b.val * 1 + 0) * 4096 + p.val) * 1 + 0) % 4096 = p.val by omega)
  rw [Read.val_main_v236_apply, e1, Read.val_main_v235_apply, takeMask_v236 x1 hr, select_one]
  unfold Read.val_main_call11_v13
  refine (TakeMid.gather_mid_apply (by decide) _ _ _ b p).trans ?_
  rw [Read.val_main_v86_apply]
  congr 1
  funext a
  match a with
  | ⟨0, _⟩ => rfl
  | ⟨1, _⟩ => rfl
  | ⟨2, _⟩ =>
    refine Fin.ext ?_
    show min (Read.val_main_call11_v5 (F := Ideal) x1 (ix4 b (0 : Fin 1) p (0 : Fin 1))).toInt.toNat (4096 - 1) = _
    rw [takeStart_v236 x1 hr, e2]
    exact WrapWord.clamp_eq _ (hr _).1 (hr _).2

end Cert.ReferenceIdeal.RefValue

end
-- ==== Proof.LibScatterSet.lean ====
/-
  A scatter whose body returns the update ("set": `fun _ b => b`), read at ONE element of its result.

  The scatter is the left fold, over the update indices in row-major order, of "if this update lands on element `i`,
  overwrite element `i` by it". Read at a fixed element `i` this is a fold over the same indices of a plain value:
  "if the update lands on `i` take it, else keep what is there", started at the operand's element `i`
  (`scatter_set_apply`). Such an overwriting fold only looks at the indices that hit, in their order: it may be run
  over any sublist that keeps every hit (`foldl_set_filter`), and so over any strictly increasing family of indices
  that contains every hit (`foldl_set_reindex`). Together (`scatter_set_apply_reindex`): if the update indices that can land on
  `i` are `g 0, g 1, …, g (M-1)`, increasing in row-major order, then the result's element `i` is the fold over
  `k = 0, …, M-1` of "if `g k` lands on `i` take its update" — the update of the LAST such `k`, or the operand's element
  if there is none. Last, the row-major position of a rank-3 index in coordinates, and that it increases with the
  middle coordinate.
-/
import Idealize.ShloMosaic.PureOps
import Idealize.ShloMosaic.Lib.ValueIdx
import Mathlib.Data.List.Sort

namespace ScatterSet

open Idealize.ShloMosaic Idealize.ShloMosaic.ValueIdx

/-! ## Overwriting folds -/

section Fold

variable {ι α : Type}

/-- An overwriting fold may skip every index outside a set `P` that contains all the hits: an index that does not
    hit leaves the running value as it is. -/
theorem foldl_set_filter (hit P : ι → Prop) [DecidablePred hit] [DecidablePred P] (val : ι → α)
    (hP : ∀ n, hit n → P n) (z : α) (l : List ι) :
    l.foldl (fun r n => if hit n then val n else r) z
      = (l.filter fun n => decide (P n)).foldl (fun r n => if hit n then val n else r) z := by
  induction l generalizing z with
  | nil => rfl
  | cons n l ih =>
    by_cases hn : P n
    · rw [List.filter_cons_of_pos (by simpa using hn), List.foldl_cons, List.foldl_cons, ih]
    · rw [List.filter_cons_of_neg (by simpa using hn), List.foldl_cons, if_neg (fun h => hn (hP n h)), ih]

/-- The positions below `N` that a strictly increasing family `g 0 < g 1 < … < g (M-1)` takes, in increasing order, are
    `g 0, g 1, …, g (M-1)`: two strictly increasing lists with the same members are the same list. -/
theorem finRange_filter_range {N M : Nat} (g : Fin M → Fin N) (hg : StrictMono g) :
    ((List.finRange N).filter fun n => decide (∃ k, g k = n)) = (List.finRange M).map g := by
  refine List.Pairwise.eq_of_mem_iff (r := (· < ·)) ((List.sortedLT_finRange N).pairwise.filter _) ?_ ?_
  · exact List.pairwise_map.2 ((List.sortedLT_finRange M).pairwise.imp fun h => hg h)
  · intro n
    simp only [List.mem_filter, List.mem_finRange, true_and, decide_eq_true_eq, List.mem_map]

/-- An overwriting fold over all positions below `N` is the fold over a strictly increasing family of positions that
    contains every hit. -/
theorem foldl_set_reindex {N M : Nat} (g : Fin M → Fin N) (hg : StrictMono g) (hit : Fin N → Prop)
    [DecidablePred hit] (val : Fin N → α) (hrange : ∀ n, hit n → ∃ k, g k = n) (z : α) :
    (List.finRange N).foldl (fun r n => if hit n then val n else r) z
      = (List.finRange M).foldl (fun r k => if hit (g k) then val (g k) else r) z := by
  rw [foldl_set_filter hit (fun n => ∃ k, g k = n) val hrange, finRange_filter_range g hg, List.foldl_map]

end Fold

/-! ## The scatter read at an element -/

section Scatter

variable {α : Type} {w : Nat} {s si u : Shape}

/-- The element `i` of a "set" scatter: the fold, over the update positions in row-major order, of "if the update at
    this position lands on `i`, take it; else keep the running value", started at the operand's element `i`. -/
theorem scatter_set_apply (d : ScatterDims s si u) (x : s.Idx → α) (idx : IVec si w) (upd : u.Idx → α) (i : s.Idx) :
    Host.scatter d (fun _ b => b) x idx upd i
      = (List.finRange u.numel).foldl
          (fun r n => if d.resultIdx? (u.rowMajor.symm n) idx = some i then upd (u.rowMajor.symm n) else r) (x i) := by
  unfold Host.scatter
  generalize List.finRange u.numel = l
  induction l generalizing x with
  | nil => rfl
  | cons n l ih =>
    rw [List.foldl_cons, List.foldl_cons, ih]
    congr 1
    cases h : d.resultIdx? (u.rowMajor.symm n) idx with
    | none => simp
    | some i0 =>
      by_cases e : i = i0
      · subst e; simp
      · simp [e, Ne.symm e]

/-- The element `i` of a "set" scatter whose updates landing on `i` all lie in a family `g 0, …, g (M-1)` of update
    indices, increasing in row-major order: the fold over `k` of "if `g k` lands on `i`, take its update", started at
    the operand's element — the update of the last `k` that lands on `i`. -/
theorem scatter_set_apply_reindex (d : ScatterDims s si u) (x : s.Idx → α) (idx : IVec si w) (upd : u.Idx → α)
    (i : s.Idx) {M : Nat} (g : Fin M → u.Idx) (hg : StrictMono fun k => u.rowMajor (g k))
    (hrange : ∀ j, d.resultIdx? j idx = some i → ∃ k, g k = j) :
    Host.scatter d (fun _ b => b) x idx upd i
      = (List.finRange M).foldl (fun r k => if d.resultIdx? (g k) idx = some i then upd (g k) else r) (x i) := by
  rw [scatter_set_apply,
    foldl_set_reindex (fun k => u.rowMajor (g k)) hg (fun n => d.resultIdx? (u.rowMajor.symm n) idx = some i)
      (fun n => upd (u.rowMajor.symm n))
      (fun n hn => by
        obtain ⟨k, hk⟩ := hrange _ hn
        exact ⟨k, by rw [hk, Equiv.apply_symm_apply]⟩)]
  simp only [Equiv.symm_apply_apply]

end Scatter

/-! ## Row-major order on a rank-3 shape -/

/-- The row-major position of `(a, b, c)` among `n0 × n1 × n2` indices: `a` weighs `n1 · n2`, `b` weighs `n2`. -/
theorem rowMajor_ix3_val {n0 n1 n2 : Nat} (a : Fin n0) (b : Fin n1) (c : Fin n2) :
    ((⟨3, ![n0, n1, n2]⟩ : Shape).rowMajor (ix3 a b c)).val = a.val * (n1 * n2) + b.val * n2 + c.val := by
  show a.val * (n1 * (n2 * 1)) + (b.val * (n2 * 1) + (c.val * 1 + 0)) = _
  ring

/-- With the first and last coordinates fixed, the row-major position increases with the middle coordinate. -/
theorem rowMajor_ix3_strictMono_mid {n0 n1 n2 : Nat} (a : Fin n0) (c : Fin n2) :
    StrictMono fun b : Fin n1 => (⟨3, ![n0, n1, n2]⟩ : Shape).rowMajor (ix3 a b c) := by
  intro b b' h
  rw [Fin.lt_def, rowMajor_ix3_val, rowMajor_ix3_val]
  have h2 : b.val * n2 < b'.val * n2 := Nat.mul_lt_mul_of_pos_right h (Nat.zero_lt_of_lt c.isLt)
  omega

end ScatterSet
-- ==== Proof.LibScatterCell.lean ====
/-
  A "set" scatter that writes one cell per update position.

  The operand is a rank-3 array `[B, S, P]`, the updates a rank-2 array `[B, P]`, and the scatter indices a
  `[B, P, 3]` table: update position `(b, p)` carries the index triple `idx[b, p, 0 .. 2]`, read as three signed
  integers, and overwrites the operand's cell at that triple (no window: all three operand axes are inserted window
  axes, the index vector is the table's last axis).

  `start_ix2`: the start of update `(b, p)` on operand axis `a` is the table's word at `(b, p, a)`, read signed.
  `resultIdx?_ix2`: when the three words name an index `(i0, i1, i2)` of the operand, update `(b, p)` lands there.
  `scatter_cell_apply`: when the first and last words of every triple are the update position's own coordinates
  `b` and `p` and the middle word is `m b p`, the only update that can land on cell `(b, s, p)` is `(b, p)`, so the
  scatter's result at `(b, s, p)` is the update at `(b, p)` if `m b p = s` and the operand's cell otherwise.
-/
import proofs.«164663_j64072322121837_2_alg».proof.Proof.LibScatterSet
import Idealize.ShloMosaic.Lib.ValueIdx

namespace ScatterCell

open Idealize.ShloMosaic Idealize.ShloMosaic.ValueIdx

/-- The dimension numbers: no update window axes, the three operand axes inserted, index component `a` going to
    operand axis `a`, the index vector along the table's last axis. -/
abbrev cellDims (B S P : Nat)
    (wf : ScatterDims.WF ⟨3, ![B, S, P]⟩ ⟨3, ![B, P, 3]⟩ ⟨2, ![B, P]⟩ [] [0, 1, 2] [0, 1, 2] 2) :
    ScatterDims ⟨3, ![B, S, P]⟩ ⟨3, ![B, P, 3]⟩ ⟨2, ![B, P]⟩ where
  updateWindowDims := []
  insertedWindowDims := [0, 1, 2]
  scatterDimsToOperandDims := [0, 1, 2]
  indexVectorDim := 2
  wf := wf

section
variable {α : Type} {B S P w : Nat}
  (wf : ScatterDims.WF ⟨3, ![B, S, P]⟩ ⟨3, ![B, P, 3]⟩ ⟨2, ![B, P]⟩ [] [0, 1, 2] [0, 1, 2] 2)

/-- Every operand axis is an inserted window axis: none is kept for a window. -/
theorem sKept_eq : (cellDims B S P wf).sKept = [] := by
  show ((List.finRange 3).filter fun a => decide (a ∉ ([0, 1, 2] : List (Fin 3)))) = []
  decide

/-- No operand axis is a window axis: the window coordinate is `0` everywhere. -/
theorem window_eq_zero (j : (⟨2, ![B, P]⟩ : Shape).Idx) (a : Fin 3) : (cellDims B S P wf).window j a = 0 := by
  unfold ScatterDims.window
  rw [dif_neg]
  rw [sKept_eq]
  exact List.not_mem_nil

theorem mem_sdto (a : Fin 3) : a ∈ (cellDims B S P wf).scatterDimsToOperandDims := by
  show a ∈ ([0, 1, 2] : List (Fin 3))
  revert a
  decide

/-- The start of update `(b, p)` on operand axis `a`: the table's word at `(b, p, a)`, read signed. -/
theorem start_ix2 (idx : IVec ⟨3, ![B, P, 3]⟩ w) (b : Fin B) (p : Fin P) (a : Fin 3) :
    (cellDims B S P wf).start (ix2 b p) idx a = (idx (ix3 b p a)).toInt := by
  unfold ScatterDims.start
  rw [dif_pos (mem_sdto wf a)]
  congr 2
  funext c
  refine Fin.ext ?_
  match a, c with
  | ⟨0, _⟩, ⟨0, _⟩ => rfl
  | ⟨0, _⟩, ⟨1, _⟩ => rfl
  | ⟨0, _⟩, ⟨2, _⟩ => rfl
  | ⟨1, _⟩, ⟨0, _⟩ => rfl
  | ⟨1, _⟩, ⟨1, _⟩ => rfl
  | ⟨1, _⟩, ⟨2, _⟩ => rfl
  | ⟨2, _⟩, ⟨0, _⟩ => rfl
  | ⟨2, _⟩, ⟨1, _⟩ => rfl
  | ⟨2, _⟩, ⟨2, _⟩ => rfl

/-- When the three words of update `(b, p)` name the operand index `(i0, i1, i2)`, the update lands there. -/
theorem resultIdx?_ix2 (idx : IVec ⟨3, ![B, P, 3]⟩ w) (b : Fin B) (p : Fin P) (i0 : Fin B) (i1 : Fin S) (i2 : Fin P)
    (h0 : (idx (ix3 b p 0)).toInt = i0.val) (h1 : (idx (ix3 b p 1)).toInt = i1.val)
    (h2 : (idx (ix3 b p 2)).toInt = i2.val) :
    (cellDims B S P wf).resultIdx? (ix2 b p) idx = some (ix3 i0 i1 i2) := by
  have hsum : ∀ a : Fin 3, (cellDims B S P wf).start (ix2 b p) idx a + (cellDims B S P wf).window (ix2 b p) a
      = ((ix3 i0 i1 i2 : (⟨3, ![B, S, P]⟩ : Shape).Idx) a).val := by
    intro a
    rw [start_ix2, window_eq_zero]
    match a with
    | ⟨0, _⟩ => simpa using h0
    | ⟨1, _⟩ => simpa using h1
    | ⟨2, _⟩ => simpa using h2
  unfold ScatterDims.resultIdx?
  rw [dif_pos (fun a => by
    rw [hsum a]
    exact ⟨Int.natCast_nonneg _, Int.ofNat_lt.2 ((ix3 i0 i1 i2 : (⟨3, ![B, S, P]⟩ : Shape).Idx) a).isLt⟩)]
  congr 1
  funext a
  refine Fin.ext ?_
  show ((cellDims B S P wf).start (ix2 b p) idx a + (cellDims B S P wf).window (ix2 b p) a).toNat = _
  rw [hsum a]
  exact Int.toNat_natCast _

/-- **One cell per update.** The first and last words of every triple are the update position's own coordinates
    and the middle word is `m b p`: the scatter's result at `(b, s, p)` is the update at `(b, p)` when
    `m b p = s`, the operand's cell otherwise. -/
theorem scatter_cell_apply (x : (⟨3, ![B, S, P]⟩ : Shape).Idx → α) (idx : IVec ⟨3, ![B, P, 3]⟩ w)
    (upd : (⟨2, ![B, P]⟩ : Shape).Idx → α) (m : Fin B → Fin P → Fin S)
    (h0 : ∀ b p, (idx (ix3 b p 0)).toInt = b.val) (h1 : ∀ b p, (idx (ix3 b p 1)).toInt = (m b p).val)
    (h2 : ∀ b p, (idx (ix3 b p 2)).toInt = p.val) (b : Fin B) (s : Fin S) (p : Fin P) :
    Host.scatter (cellDims B S P wf) (fun _ u => u) x idx upd (ix3 b s p)
      = if m b p = s then upd (ix2 b p) else x (ix3 b s p) := by
  have hland : ∀ (b' : Fin B) (p' : Fin P),
      (cellDims B S P wf).resultIdx? (ix2 b' p') idx = some (ix3 b' (m b' p') p') := fun b' p' =>
    resultIdx?_ix2 wf idx b' p' b' (m b' p') p' (h0 b' p') (h1 b' p') (h2 b' p')
  rw [ScatterSet.scatter_set_apply_reindex (cellDims B S P wf) x idx upd (ix3 b s p) (M := 1) (fun _ => ix2 b p)
    (fun k k' hk => absurd hk (by rw [Subsingleton.elim k k']; exact lt_irrefl _))
    (fun j hj => by
      obtain ⟨jb, jp, rfl⟩ : ∃ (jb : Fin B) (jp : Fin P), j = ix2 jb jp := ⟨j 0, j 1, eq_ix2 j⟩
      rw [hland] at hj
      have e := Option.some.inj hj
      have e0 : jb = b := congrFun e 0
      have e2 : jp = p := congrFun e 2
      exact ⟨0, by rw [e0, e2]⟩)]
  show (if (cellDims B S P wf).resultIdx? (ix2 b p) idx = some (ix3 b s p) then upd (ix2 b p) else x (ix3 b s p)) = _
  rw [hland]
  by_cases hm : m b p = s
  · rw [if_pos hm, if_pos (by rw [hm])]
  · rw [if_neg hm, if_neg]
    intro e
    exact hm (congrFun (Option.some.inj e) 1)

end

end ScatterCell
-- ==== Proof.RefTables.lean ====
/-
  The reference's two scattered tables, read at a cell.

  Each of the eight overwriting scatters writes, for every update position `(b, p)`, the cell `(b, idx[b, p], p)`
  (the index triple of RefCols): its result at `(b, s, p)` is the update at `(b, p)` when `idx[b, p] = s` and what
  the operand held otherwise (`cell_…`). Four scatters in a row into a table of zeros leave at `(b, s, p)` the update
  of the LAST neighbour whose index at `(b, p)` is `s`, or `0`: `tableA_apply` (updates: the correlation volume read
  at the neighbour's index) and `tableB_apply` (updates: the neighbour's bilinear weight).
-/
import proofs.«164663_j64072322121837_2_alg».proof.Proof.RefCols
import proofs.«164663_j64072322121837_2_alg».proof.Proof.RefTake
import proofs.«164663_j64072322121837_2_alg».proof.Proof.LibScatterCell
import proofs.«164663_j64072322121837_2_alg».proof.Proof.LibLastWins

noncomputable section

namespace Cert.ReferenceIdeal.RefValue

open Cert.ReferenceIdeal Cert.ReferenceIdeal.Gen Idealize.ShloMosaic Idealize.ShloMosaic.ValueIdx

/-! ## One scatter, read at a cell -/

theorem cell_v117 (x0 : FVec Ideal S4x4096x4096 .f32) (x1 : FVec Ideal S4x2x64x64 .f32)
    (hr : ∀ j : S4x4096.Idx, 0 ≤ (Read.val_main_v28 (F := Ideal) x1 j).toInt ∧ (Read.val_main_v28 (F := Ideal) x1 j).toInt < 4096)
    (b : Fin 4) (s p : Fin 4096) :
    Read.val_main_v117 (F := Ideal) x0 x1 (ix3 b s p)
      = if (Read.val_main_v28 (F := Ideal) x1 (ix2 b p)).toNat = s.val then Read.val_main_v95 (F := Ideal) x0 x1 (ix2 b p)
        else Read.val_main_v91 (F := Ideal) (ix3 b s p) := by
  unfold Read.val_main_v117
  refine (ScatterCell.scatter_cell_apply _ _ _ _
    (fun b p => ⟨(Read.val_main_v28 (F := Ideal) x1 (ix2 b p)).toNat,
      IdxRange.toNat_lt_of_toInt_lt _ (hr (ix2 b p)).1 (hr (ix2 b p)).2⟩)
    (fun b p => tbl0_v117 x1 b p)
    (fun b p => by rw [tbl1_v117 x1 b p (hr _).1]; exact WrapWord.toInt_eq_toNat _ (hr _).1)
    (fun b p => tbl2_v117 x1 b p) b s p).trans ?_
  exact if_congr Fin.ext_iff rfl rfl

theorem cell_v139 (x1 : FVec Ideal S4x2x64x64 .f32)
    (hr : ∀ j : S4x4096.Idx, 0 ≤ (Read.val_main_v28 (F := Ideal) x1 j).toInt ∧ (Read.val_main_v28 (F := Ideal) x1 j).toInt < 4096)
    (b : Fin 4) (s p : Fin 4096) :
    Read.val_main_v139 (F := Ideal) x1 (ix3 b s p)
      = if (Read.val_main_v28 (F := Ideal) x1 (ix2 b p)).toNat = s.val then Read.val_main_v69 (F := Ideal) x1 (ix2 b p)
        else Read.val_main_v92 (F := Ideal) (ix3 b s p) := by
  unfold Read.val_main_v139
  refine (ScatterCell.scatter_cell_apply _ _ _ _
    (fun b p => ⟨(Read.val_main_v28 (F := Ideal) x1 (ix2 b p)).toNat,
      IdxRange.toNat_lt_of_toInt_lt _ (hr (ix2 b p)).1 (hr (ix2 b p)).2⟩)
    (fun b p => tbl0_v139 x1 b p)
    (fun b p => by rw [tbl1_v139 x1 b p (hr _).1]; exact WrapWord.toInt_eq_toNat _ (hr _).1)
    (fun b p => tbl2_v139 x1 b p) b s p).trans ?_
  exact if_congr Fin.ext_iff rfl rfl

theorem cell_v164 (x0 : FVec Ideal S4x4096x4096 .f32) (x1 : FVec Ideal S4x2x64x64 .f32)
    (hr : ∀ j : S4x4096.Idx, 0 ≤ (Read.val_main_v39 (F := Ideal) x1 j).toInt ∧ (Read.val_main_v39 (F := Ideal) x1 j).toInt < 4096)
    (b : Fin 4) (s p : Fin 4096) :
    Read.val_main_v164 (F := Ideal) x0 x1 (ix3 b s p)
      = if (Read.val_main_v39 (F := Ideal) x1 (ix2 b p)).toNat = s.val then Read.val_main_v142 (F := Ideal) x0 x1 (ix2 b p)
        else Read.val_main_v117 (F := Ideal) x0 x1 (ix3 b s p) := by
  unfold Read.val_main_v164
  refine (ScatterCell.scatter_cell_apply _ _ _ _
    (fun b p => ⟨(Read.val_main_v39 (F := Ideal) x1 (ix2 b p)).toNat,
      IdxRange.toNat_lt_of_toInt_lt _ (hr (ix2 b p)).1 (hr (ix2 b p)).2⟩)
    (fun b p => tbl0_v164 x1 b p)
    (fun b p => by rw [tbl1_v164 x1 b p (hr _).1]; exact WrapWord.toInt_eq_toNat _ (hr _).1)
    (fun b p => tbl2_v164 x1 b p) b s p).trans ?_
  exact if_congr Fin.ext_iff rfl rfl

theorem cell_v186 (x1 : FVec Ideal S4x2x64x64 .f32)
    (hr : ∀ j : S4x4096.Idx, 0 ≤ (Read.val_main_v39 (F := Ideal) x1 j).toInt ∧ (Read.val_main_v39 (F := Ideal) x1 j).toInt < 4096)
    (b : Fin 4) (s p : Fin 4096) :
    Read.val_main_v186 (F := Ideal) x1 (ix3 b s p)
      = if (Read.val_main_v39 (F := Ideal) x1 (ix2 b p)).toNat = s.val then Read.val_main_v75 (F := Ideal) x1 (ix2 b p)
        else Read.val_main_v139 (F := Ideal) x1 (ix3 b s p) := by
  unfold Read.val_main_v186
  refine (ScatterCell.scatter_cell_apply _ _ _ _
    (fun b p => ⟨(Read.val_main_v39 (F := Ideal) x1 (ix2 b p)).toNat,
      IdxRange.toNat_lt_of_toInt_lt _ (hr (ix2 b p)).1 (hr (ix2 b p)).2⟩)
    (fun b p => tbl0_v186 x1 b p)
    (fun b p => by rw [tbl1_v186 x1 b p (hr _).1]; exact WrapWord.toInt_eq_toNat _ (hr _).1)
    (fun b p => tbl2_v186 x1 b p) b s p).trans ?_
  exact if_congr Fin.ext_iff rfl rfl

theorem cell_v211 (x0 : FVec Ideal S4x4096x4096 .f32) (x1 : FVec Ideal S4x2x64x64 .f32)
    (hr : ∀ j : S4x4096.Idx, 0 ≤ (Read.val_main_v50 (F := Ideal) x1 j).toInt ∧ (Read.val_main_v50 (F := Ideal) x1 j).toInt < 4096)
    (b : Fin 4) (s p : Fin 4096) :
    Read.val_main_v211 (F := Ideal) x0 x1 (ix3 b s p)
      = if (Read.val_main_v50 (F := Ideal) x1 (ix2 b p)).toNat = s.val then Read.val_main_v189 (F := Ideal) x0 x1 (ix2 b p)
        else Read.val_main_v164 (F := Ideal) x0 x1 (ix3 b s p) := by
  unfold Read.val_main_v211
  refine (ScatterCell.scatter_cell_apply _ _ _ _
    (fun b p => ⟨(Read.val_main_v50 (F := Ideal) x1 (ix2 b p)).toNat,
      IdxRange.toNat_lt_of_toInt_lt _ (hr (ix2 b p)).1 (hr (ix2 b p)).2⟩)
    (fun b p => tbl0_v211 x1 b p)
    (fun b p => by rw [tbl1_v211 x1 b p (hr _).1]; exact WrapWord.toInt_eq_toNat _ (hr _).1)
    (fun b p => tbl2_v211 x1 b p) b s p).trans ?_
  exact if_congr Fin.ext_iff rfl rfl

theorem cell_v233 (x1 : FVec Ideal S4x2x64x64 .f32)
    (hr : ∀ j : S4x4096.Idx, 0 ≤ (Read.val_main_v50 (F := Ideal) x1 j).toInt ∧ (Read.val_main_v50 (F := Ideal) x1 j).toInt < 4096)
    (b : Fin 4) (s p : Fin 4096) :
    Read.val_main_v233 (F := Ideal) x1 (ix3 b s p)
      = if (Read.val_main_v50 (F := Ideal) x1 (ix2 b p)).toNat = s.val then Read.val_main_v81 (F := Ideal) x1 (ix2 b p)
        else Read.val_main_v186 (F := Ideal) x1 (ix3 b s p) := by
  unfold Read.val_main_v233
  refine (ScatterCell.scatter_cell_apply _ _ _ _
    (fun b p => ⟨(Read.val_main_v50 (F := Ideal) x1 (ix2 b p)).toNat,
      IdxRange.toNat_lt_of_toInt_lt _ (hr (ix2 b p)).1 (hr (ix2 b p)).2⟩)
    (fun b p => tbl0_v233 x1 b p)
    (fun b p => by rw [tbl1_v233 x1 b p (hr _).1]; exact WrapWord.toInt_eq_toNat _ (hr _).1)
    (fun b p => tbl2_v233 x1 b p) b s p).trans ?_
  exact if_congr Fin.ext_iff rfl rfl

theorem cell_v258 (x0 : FVec Ideal S4x4096x4096 .f32) (x1 : FVec Ideal S4x2x64x64 .f32)
    (hr : ∀ j : S4x4096.Idx, 0 ≤ (Read.val_main_v61 (F := Ideal) x1 j).toInt ∧ (Read.val_main_v61 (F := Ideal) x1 j).toInt < 4096)
    (b : Fin 4) (s p : Fin 4096) :
    Read.val_main_v258 (F := Ideal) x0 x1 (ix3 b s p)
      = if (Read.val_main_v61 (F := Ideal) x1 (ix2 b p)).toNat = s.val then Read.val_main_v236 (F := Ideal) x0 x1 (ix2 b p)
        else Read.val_main_v211 (F := Ideal) x0 x1 (ix3 b s p) := by
  unfold Read.val_main_v258
  refine (ScatterCell.scatter_cell_apply _ _ _ _
    (fun b p => ⟨(Read.val_main_v61 (F := Ideal) x1 (ix2 b p)).toNat,
      IdxRange.toNat_lt_of_toInt_lt _ (hr (ix2 b p)).1 (hr (ix2 b p)).2⟩)
    (fun b p => tbl0_v258 x1 b p)
    (fun b p => by rw [tbl1_v258 x1 b p (hr _).1]; exact WrapWord.toInt_eq_toNat _ (hr _).1)
    (fun b p => tbl2_v258 x1 b p) b s p).trans ?_
  exact if_congr Fin.ext_iff rfl rfl

theorem cell_v280 (x1 : FVec Ideal S4x2x64x64 .f32)
    (hr : ∀ j : S4x4096.Idx, 0 ≤ (Read.val_main_v61 (F := Ideal) x1 j).toInt ∧ (Read.val_main_v61 (F := Ideal) x1 j).toInt < 4096)
    (b : Fin 4) (s p : Fin 4096) :
    Read.val_main_v280 (F := Ideal) x1 (ix3 b s p)
      = if (Read.val_main_v61 (F := Ideal) x1 (ix2 b p)).toNat = s.val then Read.val_main_v85 (F := Ideal) x1 (ix2 b p)
        else Read.val_main_v233 (F := Ideal) x1 (ix3 b s p) := by
  unfold Read.val_main_v280
  refine (ScatterCell.scatter_cell_apply _ _ _ _
    (fun b p => ⟨(Read.val_main_v61 (F := Ideal) x1 (ix2 b p)).toNat,
      IdxRange.toNat_lt_of_toInt_lt _ (hr (ix2 b p)).1 (hr (ix2 b p)).2⟩)
    (fun b p => tbl0_v280 x1 b p)
    (fun b p => by rw [tbl1_v280 x1 b p (hr _).1]; exact WrapWord.toInt_eq_toNat _ (hr _).1)
    (fun b p => tbl2_v280 x1 b p) b s p).trans ?_
  exact if_congr Fin.ext_iff rfl rfl

/-! ## Four scatters in a row -/

/-- The four neighbours' index words at `(b, p)`, read unsigned. -/
def nIdx (x1 : FVec Ideal S4x2x64x64 .f32) (b : Fin 4) (p : Fin 4096) : Fin 4 → ℕ :=
  ![(Read.val_main_v28 (F := Ideal) x1 (ix2 b p)).toNat,
    (Read.val_main_v39 (F := Ideal) x1 (ix2 b p)).toNat,
    (Read.val_main_v50 (F := Ideal) x1 (ix2 b p)).toNat,
    (Read.val_main_v61 (F := Ideal) x1 (ix2 b p)).toNat]

/-- Each is below `4096` when the words are in range. -/
theorem nIdx_lt (x1 : FVec Ideal S4x2x64x64 .f32)
    (hr28 : ∀ j : S4x4096.Idx, 0 ≤ (Read.val_main_v28 (F := Ideal) x1 j).toInt ∧ (Read.val_main_v28 (F := Ideal) x1 j).toInt < 4096)
    (hr39 : ∀ j : S4x4096.Idx, 0 ≤ (Read.val_main_v39 (F := Ideal) x1 j).toInt ∧ (Read.val_main_v39 (F := Ideal) x1 j).toInt < 4096)
    (hr50 : ∀ j : S4x4096.Idx, 0 ≤ (Read.val_main_v50 (F := Ideal) x1 j).toInt ∧ (Read.val_main_v50 (F := Ideal) x1 j).toInt < 4096)
    (hr61 : ∀ j : S4x4096.Idx, 0 ≤ (Read.val_main_v61 (F := Ideal) x1 j).toInt ∧ (Read.val_main_v61 (F := Ideal) x1 j).toInt < 4096)
    (b : Fin 4) (p : Fin 4096) (k : Fin 4) : nIdx x1 b p k < 4096 := by
  match k with
  | ⟨0, _⟩ => exact IdxRange.toNat_lt_of_toInt_lt _ (hr28 (ix2 b p)).1 (hr28 (ix2 b p)).2
  | ⟨1, _⟩ => exact IdxRange.toNat_lt_of_toInt_lt _ (hr39 (ix2 b p)).1 (hr39 (ix2 b p)).2
  | ⟨2, _⟩ => exact IdxRange.toNat_lt_of_toInt_lt _ (hr50 (ix2 b p)).1 (hr50 (ix2 b p)).2
  | ⟨3, _⟩ => exact IdxRange.toNat_lt_of_toInt_lt _ (hr61 (ix2 b p)).1 (hr61 (ix2 b p)).2

/-- The four neighbours' bilinear weights at `(b, p)`. -/
def wVal (x1 : FVec Ideal S4x2x64x64 .f32) (b : Fin 4) (p : Fin 4096) : Fin 4 → EReal :=
  ![Read.val_main_v69 (F := Ideal) x1 (ix2 b p),
    Read.val_main_v75 (F := Ideal) x1 (ix2 b p),
    Read.val_main_v81 (F := Ideal) x1 (ix2 b p),
    Read.val_main_v85 (F := Ideal) x1 (ix2 b p)]

/-- The entries of `nIdx` and `wVal`, one by one. -/
theorem nIdx_0 (x1 : FVec Ideal S4x2x64x64 .f32) (b : Fin 4) (p : Fin 4096) :
    nIdx x1 b p 0 = (Read.val_main_v28 (F := Ideal) x1 (ix2 b p)).toNat := rfl
theorem nIdx_1 (x1 : FVec Ideal S4x2x64x64 .f32) (b : Fin 4) (p : Fin 4096) :
    nIdx x1 b p 1 = (Read.val_main_v39 (F := Ideal) x1 (ix2 b p)).toNat := rfl
theorem nIdx_2 (x1 : FVec Ideal S4x2x64x64 .f32) (b : Fin 4) (p : Fin 4096) :
    nIdx x1 b p 2 = (Read.val_main_v50 (F := Ideal) x1 (ix2 b p)).toNat := rfl
theorem nIdx_3 (x1 : FVec Ideal S4x2x64x64 .f32) (b : Fin 4) (p : Fin 4096) :
    nIdx x1 b p 3 = (Read.val_main_v61 (F := Ideal) x1 (ix2 b p)).toNat := rfl
theorem wVal_0 (x1 : FVec Ideal S4x2x64x64 .f32) (b : Fin 4) (p : Fin 4096) :
    wVal x1 b p 0 = Read.val_main_v69 (F := Ideal) x1 (ix2 b p) := rfl
theorem wVal_1 (x1 : FVec Ideal S4x2x64x64 .f32) (b : Fin 4) (p : Fin 4096) :
    wVal x1 b p 1 = Read.val_main_v75 (F := Ideal) x1 (ix2 b p) := rfl
theorem wVal_2 (x1 : FVec Ideal S4x2x64x64 .f32) (b : Fin 4) (p : Fin 4096) :
    wVal x1 b p 2 = Read.val_main_v81 (F := Ideal) x1 (ix2 b p) := rfl
theorem wVal_3 (x1 : FVec Ideal S4x2x64x64 .f32) (b : Fin 4) (p : Fin 4096) :
    wVal x1 b p 3 = Read.val_main_v85 (F := Ideal) x1 (ix2 b p) := rfl

/-- The tables start from the constant `+0.0`, which denotes `0`. -/
theorem zerosA_apply (i : S4x4096x4096.Idx) : Read.val_main_v91 (F := Ideal) i = 0 := by
  rw [Read.val_main_v91_apply, Read.val_main_cst_36_apply]
  exact IdxRange.ofBits_zero

theorem zerosB_apply (i : S4x4096x4096.Idx) : Read.val_main_v92 (F := Ideal) i = 0 := by
  rw [Read.val_main_v92_apply, Read.val_main_cst_37_apply]
  exact IdxRange.ofBits_zero

/-- **Table B** (the weights) at `(b, s, p)`: the weight of the last neighbour whose index at `(b, p)` is `s`, else `0`. -/
theorem tableB_apply (x1 : FVec Ideal S4x2x64x64 .f32)
    (hr28 : ∀ j : S4x4096.Idx, 0 ≤ (Read.val_main_v28 (F := Ideal) x1 j).toInt ∧ (Read.val_main_v28 (F := Ideal) x1 j).toInt < 4096)
    (hr39 : ∀ j : S4x4096.Idx, 0 ≤ (Read.val_main_v39 (F := Ideal) x1 j).toInt ∧ (Read.val_main_v39 (F := Ideal) x1 j).toInt < 4096)
    (hr50 : ∀ j : S4x4096.Idx, 0 ≤ (Read.val_main_v50 (F := Ideal) x1 j).toInt ∧ (Read.val_main_v50 (F := Ideal) x1 j).toInt < 4096)
    (hr61 : ∀ j : S4x4096.Idx, 0 ≤ (Read.val_main_v61 (F := Ideal) x1 j).toInt ∧ (Read.val_main_v61 (F := Ideal) x1 j).toInt < 4096)
    (b : Fin 4) (s p : Fin 4096) :
    Read.val_main_v280 (F := Ideal) x1 (ix3 b s p) = LastWins.lastWins (nIdx x1 b p) (wVal x1 b p) s.val := by
  rw [cell_v280 x1 hr61 b s p, cell_v233 x1 hr50 b s p, cell_v186 x1 hr39 b s p, cell_v139 x1 hr28 b s p, zerosB_apply]
  rfl

/-- **Table A** (the correlation values) at `(b, s, p)`: the volume at `(b, p, idx_k[b, p])` for the last neighbour
    `k` whose index at `(b, p)` is `s`, else `0`. -/
theorem tableA_apply (x0 : FVec Ideal S4x4096x4096 .f32) (x1 : FVec Ideal S4x2x64x64 .f32)
    (hr28 : ∀ j : S4x4096.Idx, 0 ≤ (Read.val_main_v28 (F := Ideal) x1 j).toInt ∧ (Read.val_main_v28 (F := Ideal) x1 j).toInt < 4096)
    (hr39 : ∀ j : S4x4096.Idx, 0 ≤ (Read.val_main_v39 (F := Ideal) x1 j).toInt ∧ (Read.val_main_v39 (F := Ideal) x1 j).toInt < 4096)
    (hr50 : ∀ j : S4x4096.Idx, 0 ≤ (Read.val_main_v50 (F := Ideal) x1 j).toInt ∧ (Read.val_main_v50 (F := Ideal) x1 j).toInt < 4096)
    (hr61 : ∀ j : S4x4096.Idx, 0 ≤ (Read.val_main_v61 (F := Ideal) x1 j).toInt ∧ (Read.val_main_v61 (F := Ideal) x1 j).toInt < 4096)
    (b : Fin 4) (s p : Fin 4096) :
    Read.val_main_v258 (F := Ideal) x0 x1 (ix3 b s p)
      = LastWins.lastWins (nIdx x1 b p)
          (fun k => x0 (ix3 b p ⟨nIdx x1 b p k, nIdx_lt x1 hr28 hr39 hr50 hr61 b p k⟩)) s.val := by
  rw [cell_v258 x0 x1 hr61 b s p, cell_v211 x0 x1 hr50 b s p, cell_v164 x0 x1 hr39 b s p, cell_v117 x0 x1 hr28 b s p,
    zerosA_apply, take_v236 x0 x1 hr61 b p, take_v189 x0 x1 hr50 b p, take_v142 x0 x1 hr39 b p,
    take_v95 x0 x1 hr28 b p]
  rfl

end Cert.ReferenceIdeal.RefValue

end
-- ==== Proof.RefOut.lean ====
/-
  The reference's two results, read at an index.

  Result 0 is `reshape(dot_general(ref, transpose(table B)))` and result 1 is `reshape(dot_general(ref, transpose(table A)))`
  with `ref = reshape(scale_ref)` of shape `[4, 3, 4096]`; both contractions run over the last axis of both operands and
  are batched over the first. At `(b, c, h, w)`, with `p = 64 h + w`, each is the sum over `s` of
  `scale_ref[b, c, s / 64, s % 64]` times the table's cell `(b, s, p)` — and that cell is the value written by the last
  neighbour whose index at `(b, p)` is `s` (RefTables).
-/
import proofs.«164663_j64072322121837_2_alg».proof.Proof.RefTables

noncomputable section

open scoped BigOperators

namespace Cert.ReferenceIdeal.RefValue

open Cert.ReferenceIdeal Cert.ReferenceIdeal.Gen Idealize.ShloMosaic Idealize.ShloMosaic.ValueIdx

/-- The flattened reference scale at `(b, c, s)`: `scale_ref[b, c, s / 64, s % 64]`. -/
theorem ref_apply (x3 : FVec Ideal S4x3x64x64 .f32) (b : Fin 4) (c : Fin 3) (s : Fin 4096) :
    Read.val_main_v283 (F := Ideal) x3 (ix3 b c s)
      = x3 (ix4 b c ⟨s.val / 64, by have := s.isLt; omega⟩ ⟨s.val % 64, by omega⟩) := by
  have hb : b.val < 4 := b.isLt
  have hc : c.val < 3 := c.isLt
  have hs : s.val < 4096 := s.isLt
  rw [Read.val_main_v283_apply]
  congr 1
  funext a
  match a with
  | ⟨0, _⟩ => exact Fin.ext (show ((b.val * 3 + c.val) * 4096 + s.val) / 12288 = b.val by omega)
  | ⟨1, _⟩ => exact Fin.ext (show ((b.val * 3 + c.val) * 4096 + s.val) / 4096 % 3 = c.val by omega)
  | ⟨2, _⟩ => exact Fin.ext (show ((b.val * 3 + c.val) * 4096 + s.val) / 64 % 64 = s.val / 64 by omega)
  | ⟨3, _⟩ => exact Fin.ext (show ((b.val * 3 + c.val) * 4096 + s.val) % 64 = s.val % 64 by omega)

/-- The result index `(b, c, h, w)` flattened: `(b, c, 64 h + w)`. -/
theorem flat_idx (b : Fin 4) (c : Fin 3) (h w : Fin 64) (p : Fin 4096) (hp : p.val = h.val * 64 + w.val) :
    Read.idx_main_v285 (ix4 b c h w) = ix3 b c p := by
  have hb : b.val < 4 := b.isLt
  have hc : c.val < 3 := c.isLt
  have hh : h.val < 64 := h.isLt
  have hw : w.val < 64 := w.isLt
  funext a
  match a with
  | ⟨0, _⟩ => exact Fin.ext (show (((b.val * 3 + c.val) * 64 + h.val) * 64 + w.val) / 12288 = b.val by omega)
  | ⟨1, _⟩ => exact Fin.ext (show (((b.val * 3 + c.val) * 64 + h.val) * 64 + w.val) / 4096 % 3 = c.val by omega)
  | ⟨2, _⟩ => exact Fin.ext (show (((b.val * 3 + c.val) * 64 + h.val) * 64 + w.val) % 4096 = p.val by omega)

/-- **Result 0** at `(b, c, h, w)`, `p = 64 h + w`. -/
theorem out0_apply (x1 : FVec Ideal S4x2x64x64 .f32) (x3 : FVec Ideal S4x3x64x64 .f32)
    (hr28 : ∀ j : S4x4096.Idx, 0 ≤ (Read.val_main_v28 (F := Ideal) x1 j).toInt ∧ (Read.val_main_v28 (F := Ideal) x1 j).toInt < 4096)
    (hr39 : ∀ j : S4x4096.Idx, 0 ≤ (Read.val_main_v39 (F := Ideal) x1 j).toInt ∧ (Read.val_main_v39 (F := Ideal) x1 j).toInt < 4096)
    (hr50 : ∀ j : S4x4096.Idx, 0 ≤ (Read.val_main_v50 (F := Ideal) x1 j).toInt ∧ (Read.val_main_v50 (F := Ideal) x1 j).toInt < 4096)
    (hr61 : ∀ j : S4x4096.Idx, 0 ≤ (Read.val_main_v61 (F := Ideal) x1 j).toInt ∧ (Read.val_main_v61 (F := Ideal) x1 j).toInt < 4096)
    (b : Fin 4) (c : Fin 3) (h w : Fin 64) (p : Fin 4096) (hp : p.val = h.val * 64 + w.val) :
    Read.val_main_v285 (F := Ideal) x1 x3 (ix4 b c h w)
      = ∑ s : Fin 4096, x3 (ix4 b c ⟨s.val / 64, by have := s.isLt; omega⟩ ⟨s.val % 64, by omega⟩)
          * LastWins.lastWins (nIdx x1 b p) (wVal x1 b p) s.val := by
  rw [Read.val_main_v285_apply, flat_idx b c h w p hp, Read.val_main_v284_apply]
  refine Finset.sum_congr rfl fun s _ => ?_
  have el : Read.lidx_main_v284 (ix3 b c p) s = ix3 b c s := by
    funext a
    match a with
    | ⟨0, _⟩ => rfl
    | ⟨1, _⟩ => rfl
    | ⟨2, _⟩ => rfl
  have er : Read.idx_main_v282 (Read.ridx_main_v284 (ix3 b c p) s) = ix3 b s p := by
    funext a
    match a with
    | ⟨0, _⟩ => rfl
    | ⟨1, _⟩ => rfl
    | ⟨2, _⟩ => rfl
  rw [el, ref_apply, Read.val_main_v282_apply, er, tableB_apply x1 hr28 hr39 hr50 hr61 b s p]

/-- **Result 1** at `(b, c, h, w)`, `p = 64 h + w`. -/
theorem out1_apply (x0 : FVec Ideal S4x4096x4096 .f32) (x1 : FVec Ideal S4x2x64x64 .f32)
    (x3 : FVec Ideal S4x3x64x64 .f32)
    (hr28 : ∀ j : S4x4096.Idx, 0 ≤ (Read.val_main_v28 (F := Ideal) x1 j).toInt ∧ (Read.val_main_v28 (F := Ideal) x1 j).toInt < 4096)
    (hr39 : ∀ j : S4x4096.Idx, 0 ≤ (Read.val_main_v39 (F := Ideal) x1 j).toInt ∧ (Read.val_main_v39 (F := Ideal) x1 j).toInt < 4096)
    (hr50 : ∀ j : S4x4096.Idx, 0 ≤ (Read.val_main_v50 (F := Ideal) x1 j).toInt ∧ (Read.val_main_v50 (F := Ideal) x1 j).toInt < 4096)
    (hr61 : ∀ j : S4x4096.Idx, 0 ≤ (Read.val_main_v61 (F := Ideal) x1 j).toInt ∧ (Read.val_main_v61 (F := Ideal) x1 j).toInt < 4096)
    (b : Fin 4) (c : Fin 3) (h w : Fin 64) (p : Fin 4096) (hp : p.val = h.val * 64 + w.val) :
    Read.val_main_v287 (F := Ideal) x0 x1 x3 (ix4 b c h w)
      = ∑ s : Fin 4096, x3 (ix4 b c ⟨s.val / 64, by have := s.isLt; omega⟩ ⟨s.val % 64, by omega⟩)
          * LastWins.lastWins (nIdx x1 b p)
              (fun k => x0 (ix3 b p ⟨nIdx x1 b p k, nIdx_lt x1 hr28 hr39 hr50 hr61 b p k⟩)) s.val := by
  have e7 : Read.idx_main_v287 (ix4 b c h w) = ix3 b c p := flat_idx b c h w p hp
  rw [Read.val_main_v287_apply, e7, Read.val_main_v286_apply]
  refine Finset.sum_congr rfl fun s _ => ?_
  have el : Read.lidx_main_v286 (ix3 b c p) s = ix3 b c s := by
    funext a
    match a with
    | ⟨0, _⟩ => rfl
    | ⟨1, _⟩ => rfl
    | ⟨2, _⟩ => rfl
  have er : Read.idx_main_v281 (Read.ridx_main_v286 (ix3 b c p) s) = ix3 b s p := by
    funext a
    match a with
    | ⟨0, _⟩ => rfl
    | ⟨1, _⟩ => rfl
    | ⟨2, _⟩ => rfl
  rw [el, ref_apply, Read.val_main_v281_apply, er, tableA_apply x0 x1 hr28 hr39 hr50 hr61 b s p]

end Cert.ReferenceIdeal.RefValue

end
-- ==== Proof.RefRange.lean ====
/-
  The four neighbours' index words lie in `[0, 4096)`.

  Each word is the conversion to a signed 32-bit integer of `row * 64 + col`, where `row` and `col` are coordinates
  clamped to `[0, 63]` (`min 63 (max 0 ·)`, the constants `63` and `0` converted from integer words, `64` a
  binary32 constant). Whatever the coordinates were, the clamp puts `row * 64 + col` in `[0, 4095]`, where the
  conversion neither saturates nor leaves the interval.
-/
import proofs.«164663_j64072322121837_2_alg».proof.Proof.RefReadP
import proofs.«164663_j64072322121837_2_alg».proof.Proof.LibIdxRange

noncomputable section

namespace Cert.ReferenceIdeal.RefValue

open Cert.ReferenceIdeal Cert.ReferenceIdeal.Gen Idealize.ShloMosaic Idealize.ShloMosaic.ValueIdx

theorem range_v28 (x1 : FVec Ideal S4x2x64x64 .f32) (j : S4x4096.Idx) :
    0 ≤ (Read.val_main_v28 (F := Ideal) x1 j).toInt ∧ (Read.val_main_v28 (F := Ideal) x1 j).toInt < 4096 := by
  rw [Read.val_main_v28_apply, Read.val_main_v27_apply, Read.val_main_v26_apply, Read.val_main_v25_apply, Read.val_main_v24_apply,
    Read.val_main_cst_10_apply,
    Read.val_main_v20_apply, Read.val_main_call0_v4_apply, Read.val_main_call0_v3_apply, Read.val_main_c_6_apply, Read.val_main_call0_v2_apply, Read.val_main_call0_v1_apply, Read.val_main_call0_v0_apply, Read.val_main_c_apply,
    Read.val_main_v23_apply, Read.val_main_call1_v4_apply, Read.val_main_call1_v3_apply, Read.val_main_c_9_apply, Read.val_main_call1_v2_apply, Read.val_main_call1_v1_apply, Read.val_main_call1_v0_apply, Read.val_main_c_8_apply]
  exact IdxRange.idx_word_range_spelled _ _

theorem range_v39 (x1 : FVec Ideal S4x2x64x64 .f32) (j : S4x4096.Idx) :
    0 ≤ (Read.val_main_v39 (F := Ideal) x1 j).toInt ∧ (Read.val_main_v39 (F := Ideal) x1 j).toInt < 4096 := by
  rw [Read.val_main_v39_apply, Read.val_main_v38_apply, Read.val_main_v37_apply, Read.val_main_v36_apply, Read.val_main_v35_apply,
    Read.val_main_cst_17_apply,
    Read.val_main_v31_apply, Read.val_main_call2_v4_apply, Read.val_main_call2_v3_apply, Read.val_main_c_13_apply, Read.val_main_call2_v2_apply, Read.val_main_call2_v1_apply, Read.val_main_call2_v0_apply, Read.val_main_c_12_apply,
    Read.val_main_v34_apply, Read.val_main_call3_v4_apply, Read.val_main_call3_v3_apply, Read.val_main_c_16_apply, Read.val_main_call3_v2_apply, Read.val_main_call3_v1_apply, Read.val_main_call3_v0_apply, Read.val_main_c_15_apply]
  exact IdxRange.idx_word_range_spelled _ _

theorem range_v50 (x1 : FVec Ideal S4x2x64x64 .f32) (j : S4x4096.Idx) :
    0 ≤ (Read.val_main_v50 (F := Ideal) x1 j).toInt ∧ (Read.val_main_v50 (F := Ideal) x1 j).toInt < 4096 := by
  rw [Read.val_main_v50_apply, Read.val_main_v49_apply, Read.val_main_v48_apply, Read.val_main_v47_apply, Read.val_main_v46_apply,
    Read.val_main_cst_24_apply,
    Read.val_main_v42_apply, Read.val_main_call4_v4_apply, Read.val_main_call4_v3_apply, Read.val_main_c_20_apply, Read.val_main_call4_v2_apply, Read.val_main_call4_v1_apply, Read.val_main_call4_v0_apply, Read.val_main_c_19_apply,
    Read.val_main_v45_apply, Read.val_main_call5_v4_apply, Read.val_main_call5_v3_apply, Read.val_main_c_23_apply, Read.val_main_call5_v2_apply, Read.val_main_call5_v1_apply, Read.val_main_call5_v0_apply, Read.val_main_c_22_apply]
  exact IdxRange.idx_word_range_spelled _ _

theorem range_v61 (x1 : FVec Ideal S4x2x64x64 .f32) (j : S4x4096.Idx) :
    0 ≤ (Read.val_main_v61 (F := Ideal) x1 j).toInt ∧ (Read.val_main_v61 (F := Ideal) x1 j).toInt < 4096 := by
  rw [Read.val_main_v61_apply, Read.val_main_v60_apply, Read.val_main_v59_apply, Read.val_main_v58_apply, Read.val_main_v57_apply,
    Read.val_main_cst_31_apply,
    Read.val_main_v53_apply, Read.val_main_call6_v4_apply, Read.val_main_call6_v3_apply, Read.val_main_c_27_apply, Read.val_main_call6_v2_apply, Read.val_main_call6_v1_apply, Read.val_main_call6_v0_apply, Read.val_main_c_26_apply,
    Read.val_main_v56_apply, Read.val_main_call7_v4_apply, Read.val_main_call7_v3_apply, Read.val_main_c_30_apply, Read.val_main_call7_v2_apply, Read.val_main_call7_v1_apply, Read.val_main_call7_v0_apply, Read.val_main_c_29_apply]
  exact IdxRange.idx_word_range_spelled _ _

end Cert.ReferenceIdeal.RefValue

end
-- ==== Proof.Bridge.lean ====
/-
  The two programs compute one function of the arguments.

  With the four neighbours' index words and bilinear weights as the shared stages of the flow argument, the kernel's
  first result at pixel (b, c, h, w) is its four-term accumulation of (indicator · weight) · image value at the
  neighbour's index, and the reference's is the contraction of the image row against the row of weights that four
  overwriting writes leave. The index words are in range (they are a clamped row times 64 plus a clamped column), so the
  law of the accumulation applies. The second result is the same with the correlation entry the index word picks in
  place of the weight.
-/
import proofs.«164663_j64072322121837_2_alg».proof.Proof.KValue
import proofs.«164663_j64072322121837_2_alg».proof.Proof.KTables
import proofs.«164663_j64072322121837_2_alg».proof.Proof.KLaw
import proofs.«164663_j64072322121837_2_alg».proof.Proof.RefOut
import proofs.«164663_j64072322121837_2_alg».proof.Proof.RefRange

noncomputable section

namespace Cert.Bridge

open Idealize.ShloMosaic Idealize.ShloMosaic.ValueIdx
open Cert.KernelIdeal (KTables.idxTable KTables.wtTable KTables.refTable)
open Cert.ReferenceIdeal (Read.val_main_v28 Read.val_main_v39 Read.val_main_v50 Read.val_main_v61 Read.val_main_v69 Read.val_main_v75 Read.val_main_v81 Read.val_main_v85)
open Cert.ReferenceIdeal.RefValue (nIdx wVal nIdx_lt range_v28 range_v39 range_v50 range_v61)

variable (a0 : FVec Ideal Cert.ReferenceIdeal.S4x4096x4096 .f32) (a1 : FVec Ideal Cert.ReferenceIdeal.S4x2x64x64 .f32)
  (a3 : FVec Ideal Cert.ReferenceIdeal.S4x3x64x64 .f32)

/-- The table of index words: the four shared stages as columns. -/
abbrev idxT : IVec Cert.KernelIdeal.S4x4096x4 32 :=
  Cert.KernelIdeal.KTables.idxTable (Cert.ReferenceIdeal.Read.val_main_v28 (F := Ideal) a1) (Cert.ReferenceIdeal.Read.val_main_v39 (F := Ideal) a1)
    (Cert.ReferenceIdeal.Read.val_main_v50 (F := Ideal) a1) (Cert.ReferenceIdeal.Read.val_main_v61 (F := Ideal) a1)

/-- The table of weights: the four shared stages as columns. -/
abbrev wtT : FVec Ideal Cert.KernelIdeal.S4x4096x4 .f32 :=
  Cert.KernelIdeal.KTables.wtTable (F := Ideal) (Cert.ReferenceIdeal.Read.val_main_v69 (F := Ideal) a1) (Cert.ReferenceIdeal.Read.val_main_v75 (F := Ideal) a1)
    (Cert.ReferenceIdeal.Read.val_main_v81 (F := Ideal) a1) (Cert.ReferenceIdeal.Read.val_main_v85 (F := Ideal) a1)

/-- Every index word is in range. -/
theorem idxT_range (j : Cert.KernelIdeal.S4x4096x4.Idx) : 0 ≤ (idxT a1 j).toInt ∧ (idxT a1 j).toInt < 4096 := by
  obtain ⟨b, p, k, rfl⟩ : ∃ (b : Fin 4) (p : Fin 4096) (k : Fin 4), j = ix3 b p k := ⟨j 0, j 1, j 2, eq_ix3 j⟩
  unfold idxT
  rw [Cert.KernelIdeal.KTables.idxTable_apply]
  fin_cases k
  · exact range_v28 a1 _
  · exact range_v39 a1 _
  · exact range_v50 a1 _
  · exact range_v61 a1 _

/-- The index words of pixel (b, p), as numbers, are the reference's. -/
theorem words_toNat (b : Fin 4) (p : Fin 4096) : (fun k => (idxT a1 (ix3 b p k)).toNat) = nIdx a1 b p := by
  funext k
  unfold idxT
  rw [Cert.KernelIdeal.KTables.idxTable_apply]
  fin_cases k <;> rfl

/-- The weights of pixel (b, p) are the reference's. -/
theorem weights_eq (b : Fin 4) (p : Fin 4096) : (fun k => wtT a1 (ix3 b p k)) = wVal a1 b p := by
  funext k
  unfold wtT
  rw [Cert.KernelIdeal.KTables.wtTable_apply]
  fin_cases k <;> rfl

/-- The image's channel c of batch b at a flat pixel index, 0 past the end. -/
def imgAt (b : Fin 4) (c : Fin 3) (s : ℕ) : EReal :=
  if hs : s < 4096 then a3 (ix4 b c ⟨s / 64, by omega⟩ ⟨s % 64, by omega⟩) else 0

theorem imgAt_fin (b : Fin 4) (c : Fin 3) (s : Fin 4096) :
    a3 (ix4 b c ⟨s.val / 64, by have := s.isLt; omega⟩ ⟨s.val % 64, by omega⟩) = imgAt a3 b c s.val := by
  unfold imgAt; rw [dif_pos s.isLt]

/-- The image values the kernel gathered for pixel (b, p), channel c: the image at the neighbours' indices. -/
theorem refs_eq (b : Fin 4) (p : Fin 4096) (c : Fin 3) :
    (fun k => Cert.KernelIdeal.KTables.refTable (F := Ideal) a3 (idxT a1) (ix4 b p k c))
      = fun k => imgAt a3 b c (idxT a1 (ix3 b p k)).toNat := by
  funext k
  rw [Cert.KernelIdeal.KTables.refTable_apply a3 (idxT a1) (idxT_range a1) b p k c]
  unfold imgAt
  rw [dif_pos (IdxRange.toNat_lt_of_toInt_lt _ (idxT_range a1 _).1 (idxT_range a1 _).2)]

/-- The first result at one pixel: the kernel's accumulation is the reference's contraction. -/
theorem res0_at (b : Fin 4) (c : Fin 3) (h w : Fin 64) (p : Fin 4096) (hp : p.val = h.val * 64 + w.val) :
    Cert.KernelIdeal.KValue.G4 (idxT a1) (Cert.KernelIdeal.KTables.refTable (F := Ideal) a3 (idxT a1)) (wtT a1) (ix3 b p c)
      = Cert.ReferenceIdeal.Read.val_main_v285 (F := Ideal) a1 a3 (ix4 b c h w) := by
  rw [Cert.KernelIdeal.KValue.G4_apply, refs_eq,
    Cert.ReferenceIdeal.RefValue.out0_apply a1 a3 (range_v28 a1) (range_v39 a1) (range_v50 a1) (range_v61 a1) b c h w p hp,
    Cert.KernelIdeal.KLaw.acc4_eq_sum (fun k => idxT a1 (ix3 b p k))
      (fun k => IdxRange.toNat_lt_of_toInt_lt _ (idxT_range a1 _).1 (idxT_range a1 _).2) (fun k => wtT a1 (ix3 b p k)) (imgAt a3 b c),
    words_toNat, weights_eq]
  exact Finset.sum_congr rfl fun s _ => by rw [imgAt_fin a3 b c s]

/-- The first result: one function of the arguments on both sides. -/
theorem res0_eq :
    Cert.KernelIdeal.KValue.tailT (Cert.KernelIdeal.KValue.G4 (idxT a1) (Cert.KernelIdeal.KTables.refTable (F := Ideal) a3 (idxT a1)) (wtT a1))
      = Cert.ReferenceIdeal.Read.val_main_v285 (F := Ideal) a1 a3 := by
  funext j
  obtain ⟨b, c, h, w, rfl⟩ : ∃ (b : Fin 4) (c : Fin 3) (h w : Fin 64), j = ix4 b c h w := ⟨j 0, j 1, j 2, j 3, eq_ix4 j⟩
  rw [Cert.KernelIdeal.KValue.tailT_apply]
  exact res0_at a1 a3 b c h w _ rfl

/-- The correlation entries the kernel picked for pixel (b, p): the entries at the neighbours' indices. -/
theorem picks_eq (b : Fin 4) (p : Fin 4096) :
    (fun k => Cert.KernelIdeal.KPay.pick (fun s => a0 (ix3 b p s)) (idxT a1 (ix3 b p k)))
      = fun k => a0 (ix3 b p ⟨nIdx a1 b p k, nIdx_lt a1 (range_v28 a1) (range_v39 a1) (range_v50 a1) (range_v61 a1) b p k⟩) := by
  funext k
  rw [Cert.KernelIdeal.KLaw.pick_eq _ _ (IdxRange.toNat_lt_of_toInt_lt _ (idxT_range a1 _).1 (idxT_range a1 _).2)]
  refine congrArg a0 (congrArg (ix3 b p) (Fin.ext ?_))
  exact congrFun (words_toNat a1 b p) k

/-- The second result at one pixel. -/
theorem res1_at (b : Fin 4) (c : Fin 3) (h w : Fin 64) (p : Fin 4096) (hp : p.val = h.val * 64 + w.val) :
    Cert.KernelIdeal.KValue.G5 a0 (idxT a1) (Cert.KernelIdeal.KTables.refTable (F := Ideal) a3 (idxT a1)) (ix3 b p c)
      = Cert.ReferenceIdeal.Read.val_main_v287 (F := Ideal) a0 a1 a3 (ix4 b c h w) := by
  rw [Cert.KernelIdeal.KValue.G5_apply, refs_eq, picks_eq,
    Cert.ReferenceIdeal.RefValue.out1_apply a0 a1 a3 (range_v28 a1) (range_v39 a1) (range_v50 a1) (range_v61 a1) b c h w p hp,
    Cert.KernelIdeal.KLaw.acc4_eq_sum (fun k => idxT a1 (ix3 b p k))
      (fun k => IdxRange.toNat_lt_of_toInt_lt _ (idxT_range a1 _).1 (idxT_range a1 _).2) _ (imgAt a3 b c),
    words_toNat]
  exact Finset.sum_congr rfl fun s _ => by rw [imgAt_fin a3 b c s]

/-- The second result: one function of the arguments on both sides. -/
theorem res1_eq :
    Cert.KernelIdeal.KValue.tailT (Cert.KernelIdeal.KValue.G5 a0 (idxT a1) (Cert.KernelIdeal.KTables.refTable (F := Ideal) a3 (idxT a1)))
      = Cert.ReferenceIdeal.Read.val_main_v287 (F := Ideal) a0 a1 a3 := by
  funext j
  obtain ⟨b, c, h, w, rfl⟩ : ∃ (b : Fin 4) (c : Fin 3) (h w : Fin 64), j = ix4 b c h w := ⟨j 0, j 1, j 2, j 3, eq_ix4 j⟩
  rw [Cert.KernelIdeal.KValue.tailT_apply]
  exact res1_at a0 a1 a3 b c h w _ rfl

end Cert.Bridge

end
-- ==== Proof.KRun.lean ====
/-
  The idealized kernel program's run, its two results stated over the shared stages of the arguments: the table of index
  words and the table of weights the region finds are the stages' columns, the table of image values is the image
  gathered at the index words, and the correlation argument is found as launched.
-/
import proofs.«164663_j64072322121837_2_alg».proof.Proof.KValue
import proofs.«164663_j64072322121837_2_alg».proof.Proof.KHostIdx
import proofs.«164663_j64072322121837_2_alg».proof.Proof.KHostWt
import proofs.«164663_j64072322121837_2_alg».proof.Proof.KHostRef
import proofs.«164663_j64072322121837_2_alg».proof.Proof.Bridge

noncomputable section

namespace Cert.KernelIdeal.KRun

open Idealize.ShloMosaic Idealize.ShloMosaic.TcCoe Idealize.SL.Sem Cert.KernelIdeal Cert.KernelIdeal.Gen

/-- Every weakly fair execution of the idealized kernel program terminates with its two results at the whole-array
    functions of the arguments' launch contents, the arguments unchanged. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v105)
          = KValue.tailT (KValue.G4 (Cert.Bridge.idxT (m ((c.tc : Thread nD τ).loc main_arg1)))
              (KTables.refTable (F := Ideal) (m ((c.tc : Thread nD τ).loc main_arg3)) (Cert.Bridge.idxT (m ((c.tc : Thread nD τ).loc main_arg1))))
              (Cert.Bridge.wtT (m ((c.tc : Thread nD τ).loc main_arg1))))
      ∧ r.2.mem ((c.tc : Thread nD τ).loc main_v107)
          = KValue.tailT (KValue.G5 (m ((c.tc : Thread nD τ).loc main_arg0)) (Cert.Bridge.idxT (m ((c.tc : Thread nD τ).loc main_arg1)))
              (KTables.refTable (F := Ideal) (m ((c.tc : Thread nD τ).loc main_arg3)) (Cert.Bridge.idxT (m ((c.tc : Thread nD τ).loc main_arg1)))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ?_) (KValue.run m ρ)
  obtain ⟨h0, h1, hargs⟩ := h c
  refine ⟨?_, ?_, hargs⟩
  · rw [h0, KHost.V_main_v90 m c, KHost.V_main_v95 m c, KHost.V_main_v102 m c]
  · rw [h1, KHost.V_main_v90 m c, KHost.V_main_v102 m c, Hand.V_main_arg0 m c]

end Cert.KernelIdeal.KRun

end
-- ==== Proof.lean ====
/-
  The certificate of the kernel's entry point against its reference: three frames, the (empty) idealization ledger,
  and the equality of the two idealized programs' results over the extended reals.

  The programs. For each pixel p of a 64 × 64 image and batch b, a flow argument gives a real position; its four
  bilinear neighbours have flat indices n_0 … n_3 in 0 … 4095 (a row clamped to 0 … 63 times 64, plus a column clamped
  likewise, converted to an integer word) and bilinear weights u_0 … u_3. The reference builds, from zeros, a row of
  4096 entries by writing u_k into cell n_k for k = 0, 1, 2, 3 in turn, a later write overwriting an earlier one into the
  same cell, and contracts that row against the image's channel c; for its second result it writes the correlation
  entry corr[b, p, n_k] in place of u_k. The kernel never builds the row: it accumulates, for k = 0 … 3,
  (1 if no later neighbour has the same index, else 0) · u_k · image[b, c, n_k], with the correlation entry picked out
  of row p by comparing every lane index with n_k and summing. Both are the sum over the cells that survive of
  image value times last weight written: one function of the arguments, index by index, with no appeal to
  distributivity, so nothing about finiteness of the inputs is used.

  Shape of the proof. Each kernel program's frame is its run through the pipeline: the host operations before the
  region, the region at its 64 grid points (each point loads four input blocks and stores the two result blocks
  whole), the four host operations after it. The idealized kernel's results are read off that run block by block and
  assembled into whole arrays; the tables the region finds are the host operations' terms, which are the reference's
  own stages of the flow argument (the same operations in the same order) joined column by column, and the image
  gathered at the index words. The reference's results are its run's terms read one operation at a time: the
  overwriting scatters at one cell, the gathers at one entry, the contraction as a sum.
-/
import proofs.«164663_j64072322121837_2_alg».proof.Defs
import proofs.«164663_j64072322121837_2_alg».proof.Proof.Gen.Kernel
import proofs.«164663_j64072322121837_2_alg».proof.Proof.Gen.KernelIdeal
import proofs.«164663_j64072322121837_2_alg».proof.Proof.Gen.ReferenceIdeal
import proofs.«164663_j64072322121837_2_alg».proof.Proof.Gen.Pre_finite_inputs
import proofs.«164663_j64072322121837_2_alg».proof.Proof.FrameB
import proofs.«164663_j64072322121837_2_alg».proof.Proof.FrameI
import proofs.«164663_j64072322121837_2_alg».proof.Proof.KRun
import proofs.«164663_j64072322121837_2_alg».proof.Proof.Bridge
import proofs.«164663_j64072322121837_2_alg».proof.Proof.RefRunP
import proofs.«164663_j64072322121837_2_alg».proof.Proof.RefReadEq
import Idealize.ShloMosaic.Adequacy
import Idealize.ShloMosaic.Init

noncomputable section

namespace Cert.Proof

open Idealize.ShloMosaic Idealize.ShloMosaic.TcCoe Idealize.SL.Sem

/-- The word-level kernel program runs to the end without a fault and leaves its arguments as launched. -/
theorem frame_k : Cert.frame_Kernel := fun m ρ _ => Cert.Kernel.Hand.frame (F := Bits) m ρ

/-- So does its idealization. -/
theorem frame_ki : Cert.frame_KernelIdeal := fun m ρ _ => Cert.KernelIdeal.Hand.frame (F := Ideal) m ρ

/-- The reference is a straight line of host operations: its run, with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- From memories agreeing on the arguments both idealized programs end with the same two result arrays. -/
theorem algebraic : Cert.algebraic_KernelIdeal_ReferenceIdeal := by
  intro m ρ m' ρ' _ hagree
  refine ⟨_, _, Cert.KernelIdeal.KRun.run m ρ, ?_⟩
  refine (θ_run Cert.ReferenceIdeal.defs _ _).mono (fun r h c => ?_) (Cert.ReferenceIdeal.Value.run (F := Ideal) m' ρ')
  obtain ⟨h0, h1, hargs⟩ := h c
  refine ⟨?_, ?_, hargs⟩
  · rw [h0, Cert.ReferenceIdeal.Read.val_main_v285_eq, (hagree c).2.1, (hagree c).2.2.2]
    exact (Cert.Bridge.res0_eq _ _).symm
  · rw [h1, Cert.ReferenceIdeal.Read.val_main_v287_eq, (hagree c).1, (hagree c).2.1, (hagree c).2.2.2]
    exact (Cert.Bridge.res1_eq _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
